-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v231)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v231) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x782 : Shape := ⟨2, ![10000, 782]⟩
abbrev S2x160000 : Shape := ⟨2, ![2, 160000]⟩
abbrev S3x782x16 : Shape := ⟨3, ![3, 782, 16]⟩
abbrev S16 : Shape := ⟨1, ![16]⟩
abbrev S3x16x32 : Shape := ⟨3, ![3, 16, 32]⟩
abbrev S32 : Shape := ⟨1, ![32]⟩
abbrev S3x32x64 : Shape := ⟨3, ![3, 32, 64]⟩
abbrev S64 : Shape := ⟨1, ![64]⟩
abbrev S3x64x128 : Shape := ⟨3, ![3, 64, 128]⟩
abbrev S128 : Shape := ⟨1, ![128]⟩
abbrev S3x128x19 : Shape := ⟨3, ![3, 128, 19]⟩
abbrev S19 : Shape := ⟨1, ![19]⟩
abbrev S_ : Shape := ⟨0, ![]⟩

class Facts : Prop where
  bcast_S_S10000x782 : S_.BroadcastsInDim S10000x782 (![] : Fin 0 → Fin S10000x782.rank)
  reducesTo_S10000x782_S_d0_1 : S10000x782.ReducesTo [0, 1] S_
  h_S_ : 0 < S_.numel
  bcast_S_S3x782x16 : S_.BroadcastsInDim S3x782x16 (![] : Fin 0 → Fin S3x782x16.rank)
  reducesTo_S3x782x16_S_d0_1_2 : S3x782x16.ReducesTo [0, 1, 2] S_
  bcast_S_S16 : S_.BroadcastsInDim S16 (![] : Fin 0 → Fin S16.rank)
  reducesTo_S16_S_d0 : S16.ReducesTo [0] S_
  bcast_S_S3x16x32 : S_.BroadcastsInDim S3x16x32 (![] : Fin 0 → Fin S3x16x32.rank)
  reducesTo_S3x16x32_S_d0_1_2 : S3x16x32.ReducesTo [0, 1, 2] S_
  bcast_S_S32 : S_.BroadcastsInDim S32 (![] : Fin 0 → Fin S32.rank)
  reducesTo_S32_S_d0 : S32.ReducesTo [0] S_
  bcast_S_S3x32x64 : S_.BroadcastsInDim S3x32x64 (![] : Fin 0 → Fin S3x32x64.rank)
  reducesTo_S3x32x64_S_d0_1_2 : S3x32x64.ReducesTo [0, 1, 2] S_
  bcast_S_S64 : S_.BroadcastsInDim S64 (![] : Fin 0 → Fin S64.rank)
  reducesTo_S64_S_d0 : S64.ReducesTo [0] S_
  bcast_S_S3x64x128 : S_.BroadcastsInDim S3x64x128 (![] : Fin 0 → Fin S3x64x128.rank)
  reducesTo_S3x64x128_S_d0_1_2 : S3x64x128.ReducesTo [0, 1, 2] S_
  bcast_S_S128 : S_.BroadcastsInDim S128 (![] : Fin 0 → Fin S128.rank)
  reducesTo_S128_S_d0 : S128.ReducesTo [0] S_
  bcast_S_S3x128x19 : S_.BroadcastsInDim S3x128x19 (![] : Fin 0 → Fin S3x128x19.rank)
  reducesTo_S3x128x19_S_d0_1_2 : S3x128x19.ReducesTo [0, 1, 2] S_
  bcast_S_S19 : S_.BroadcastsInDim S19 (![] : Fin 0 → Fin S19.rank)
  reducesTo_S19_S_d0 : S19.ReducesTo [0] S_

variable [Facts]

def fn_part3 {F : FTy → Type} [FloatOps F] (main_v48 : IVec S_ 1) (main_v49 : FVec F S19 .f32) (main_v50 : FVec F S19 .f32) : IVec S_ 1 :=
  let main_v51 : IVec S19 1 := cmpf .olt main_v49 main_v50
  let main_c_19 : IVec S_ 1 := constantI S_ 1 1#1
  let main_v52 : IVec S_ 1 := (fun x v => Host.reduce IntOp.andi x v reducesTo_S19_S_d0 h_S_) main_v51 main_c_19
  let main_v53 : IVec S_ 1 := andi main_v48 main_v52
  main_v53

def fn_part2 {F : FTy → Type} [FloatOps F] (main_arg8 : FVec F S3x64x128 .f32) (main_arg9 : FVec F S128 .f32) (main_arg10 : FVec F S3x128x19 .f32) (main_arg11 : FVec F S19 .f32) (main_v33 : IVec S_ 1) : IVec S_ 1 :=
  let main_v34 : FVec F S3x64x128 .f32 := Host.absf main_arg8
  let main_cst_12 : FVec F S_ .f32 := constant S_ .f32 0x7F800000#32
  let main_v35 : FVec F S3x64x128 .f32 := broadcastInDim S3x64x128 ![] bcast_S_S3x64x128 main_cst_12
  let main_v36 : IVec S3x64x128 1 := cmpf .olt main_v34 main_v35
  let main_c_13 : IVec S_ 1 := constantI S_ 1 1#1
  let main_v37 : IVec S_ 1 := (fun x v => Host.reduce IntOp.andi x v reducesTo_S3x64x128_S_d0_1_2 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x128x19 .f32 := Host.absf main_arg10
  let main_cst_16 : FVec F S_ .f32 := constant S_ .f32 0x7F800000#32
  let main_v45 : FVec F S3x128x19 .f32 := broadcastInDim S3x128x19 ![] bcast_S_S3x128x19 main_cst_16
  let main_v46 : IVec S3x128x19 1 := cmpf .olt main_v44 main_v45
  let main_c_17 : IVec S_ 1 := constantI S_ 1 1#1
  let main_v47 : IVec S_ 1 := (fun x v => Host.reduce IntOp.andi x v reducesTo_S3x128x19_S_d0_1_2 h_S_) main_v46 main_c_17
  let main_v48 : IVec S_ 1 := andi main_v43 main_v47
  let main_v49 : FVec F S19 .f32 := Host.absf main_arg11
  let main_cst_18 : FVec F S_ .f32 := constant S_ .f32 0x7F800000#32
  let main_v50 : FVec F S19 .f32 := broadcastInDim S19 ![] bcast_S_S19 main_cst_18
  fn_part3 (F := F) main_v48 main_v49 main_v50

def fn_part1 {F : FTy → Type} [FloatOps F] (main_arg5 : FVec F S32 .f32) (main_arg6 : FVec F S3x32x64 .f32) (main_arg7 : FVec F S64 .f32) (main_arg8 : FVec F S3x64x128 .f32) (main_arg9 : FVec F S128 .f32) (main_arg10 : FVec F S3x128x19 .f32) (main_arg11 : FVec F S19 .f32) (main_v13 : IVec S_ 1) (main_v16 : IVec S3x16x32 1) : IVec S_ 1 :=
  let main_c_5 : IVec S_ 1 := constantI S_ 1 1#1
  let main_v17 : IVec S_ 1 := (fun x v => Host.reduce IntOp.andi x v reducesTo_S3x16x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S3x32x64 .f32 := Host.absf main_arg6
  let main_cst_8 : FVec F S_ .f32 := constant S_ .f32 0x7F800000#32
  let main_v25 : FVec F S3x32x64 .f32 := broadcastInDim S3x32x64 ![] bcast_S_S3x32x64 main_cst_8
  let main_v26 : IVec S3x32x64 1 := cmpf .olt main_v24 main_v25
  let main_c_9 : IVec S_ 1 := constantI S_ 1 1#1
  let main_v27 : IVec S_ 1 := (fun x v => Host.reduce IntOp.andi x v reducesTo_S3x32x64_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S10000x782 .f32) (main_arg1 : IVec S2x160000 32) (main_arg2 : FVec F S3x782x16 .f32) (main_arg3 : FVec F S16 .f32) (main_arg4 : FVec F S3x16x32 .f32) (main_arg5 : FVec F S32 .f32) (main_arg6 : FVec F S3x32x64 .f32) (main_arg7 : FVec F S64 .f32) (main_arg8 : FVec F S3x64x128 .f32) (main_arg9 : FVec F S128 .f32) (main_arg10 : FVec F S3x128x19 .f32) (main_arg11 : FVec F S19 .f32) : IVec S_ 1 :=
  let main_v0 : FVec F S10000x782 .f32 := Host.absf main_arg0
  let main_cst : FVec F S_ .f32 := constant S_ .f32 0x7F800000#32
  let main_v1 : FVec F S10000x782 .f32 := broadcastInDim S10000x782 ![] bcast_S_S10000x782 main_cst
  let main_v2 : IVec S10000x782 1 := cmpf .olt main_v0 main_v1
  let main_c : IVec S_ 1 := constantI S_ 1 1#1
  let main_v3 : IVec S_ 1 := (fun x v => Host.reduce IntOp.andi x v reducesTo_S10000x782_S_d0_1 h_S_) main_v2 main_c
  let main_v4 : FVec F S3x782x16 .f32 := Host.absf main_arg2
  let main_cst_0 : FVec F S_ .f32 := constant S_ .f32 0x7F800000#32
  let main_v5 : FVec F S3x782x16 .f32 := broadcastInDim S3x782x16 ![] bcast_S_S3x782x16 main_cst_0
  let main_v6 : IVec S3x782x16 1 := cmpf .olt main_v4 main_v5
  let main_c_1 : IVec S_ 1 := constantI S_ 1 1#1
  let main_v7 : IVec S_ 1 := (fun x v => Host.reduce IntOp.andi x v reducesTo_S3x782x16_S_d0_1_2 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S3x16x32 .f32 := Host.absf main_arg4
  let main_cst_4 : FVec F S_ .f32 := constant S_ .f32 0x7F800000#32
  let main_v15 : FVec F S3x16x32 .f32 := broadcastInDim S3x16x32 ![] bcast_S_S3x16x32 main_cst_4
  let main_v16 : IVec S3x16x32 1 := cmpf .olt main_v14 main_v15
  fn_part1 (F := F) main_arg5 main_arg6 main_arg7 main_arg8 main_arg9 main_arg10 main_arg11 main_v13 main_v16
-- ==== Kernel.lean ====
abbrev S10000x782 : Shape := ⟨2, ![10000, 782]⟩
abbrev S2x160000 : Shape := ⟨2, ![2, 160000]⟩
abbrev S3x782x16 : Shape := ⟨3, ![3, 782, 16]⟩
abbrev S16 : Shape := ⟨1, ![16]⟩
abbrev S3x16x32 : Shape := ⟨3, ![3, 16, 32]⟩
abbrev S32 : Shape := ⟨1, ![32]⟩
abbrev S3x32x64 : Shape := ⟨3, ![3, 32, 64]⟩
abbrev S64 : Shape := ⟨1, ![64]⟩
abbrev S3x64x128 : Shape := ⟨3, ![3, 64, 128]⟩
abbrev S128 : Shape := ⟨1, ![128]⟩
abbrev S3x128x19 : Shape := ⟨3, ![3, 128, 19]⟩
abbrev S19 : Shape := ⟨1, ![19]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x16 : Shape := ⟨2, ![10000, 16]⟩
abbrev S1000x782 : Shape := ⟨2, ![1000, 782]⟩
abbrev S1000x16 : Shape := ⟨2, ![1000, 16]⟩
abbrev S1x782x16 : Shape := ⟨3, ![1, 782, 16]⟩
abbrev S782x16 : Shape := ⟨2, ![782, 16]⟩
abbrev S160000x16 : Shape := ⟨2, ![160000, 16]⟩
abbrev S1x16 : Shape := ⟨2, ![1, 16]⟩
abbrev S1x32 : Shape := ⟨2, ![1, 32]⟩
abbrev S10000x32 : Shape := ⟨2, ![10000, 32]⟩
abbrev S1000x32 : Shape := ⟨2, ![1000, 32]⟩
abbrev S1x16x32 : Shape := ⟨3, ![1, 16, 32]⟩
abbrev S16x32 : Shape := ⟨2, ![16, 32]⟩
abbrev S160000x32 : Shape := ⟨2, ![160000, 32]⟩
abbrev S1x64 : Shape := ⟨2, ![1, 64]⟩
abbrev S10000x64 : Shape := ⟨2, ![10000, 64]⟩
abbrev S1000x64 : Shape := ⟨2, ![1000, 64]⟩
abbrev S1x32x64 : Shape := ⟨3, ![1, 32, 64]⟩
abbrev S32x64 : Shape := ⟨2, ![32, 64]⟩
abbrev S160000x64 : Shape := ⟨2, ![160000, 64]⟩
abbrev S1x128 : Shape := ⟨2, ![1, 128]⟩
abbrev S10000x128 : Shape := ⟨2, ![10000, 128]⟩
abbrev S1000x128 : Shape := ⟨2, ![1000, 128]⟩
abbrev S1x64x128 : Shape := ⟨3, ![1, 64, 128]⟩
abbrev S64x128 : Shape := ⟨2, ![64, 128]⟩
abbrev S10000x19 : Shape := ⟨2, ![10000, 19]⟩
abbrev S1000x19 : Shape := ⟨2, ![1000, 19]⟩
abbrev S1x128x19 : Shape := ⟨3, ![1, 128, 19]⟩
abbrev S128x19 : Shape := ⟨2, ![128, 19]⟩
abbrev S160000x19 : Shape := ⟨2, ![160000, 19]⟩
abbrev S1x19 : Shape := ⟨2, ![1, 19]⟩
abbrev S10000x1 : Shape := ⟨2, ![10000, 1]⟩

abbrev nBuf : Space → Nat
  | .hbm => 304
  | .vmem => 48
  | .smem => 0
  | _ => 0

abbrev hbmTy0_0 (i : Nat) : BufTy := match i % 128 with
  | 0 => ⟨S10000x782, .f32⟩
  | 1 => ⟨S2x160000, .i32⟩
  | 2 => ⟨S3x782x16, .f32⟩
  | 3 => ⟨S16, .f32⟩
  | 4 => ⟨S3x16x32, .f32⟩
  | 5 => ⟨S32, .f32⟩
  | 6 => ⟨S3x32x64, .f32⟩
  | 7 => ⟨S64, .f32⟩
  | 8 => ⟨S3x64x128, .f32⟩
  | 9 => ⟨S128, .f32⟩
  | 10 => ⟨S3x128x19, .f32⟩
  | 11 => ⟨S19, .f32⟩
  | 12 => ⟨S1x160000, .i32⟩
  | 13 => ⟨S160000, .i32⟩
  | 14 => ⟨S1x160000, .i32⟩
  | 15 => ⟨S160000, .i32⟩
  | 16 => ⟨S_, .f32⟩
  | 17 => ⟨S160000, .f32⟩
  | 18 => ⟨S_, .f32⟩
  | 19 => ⟨S10000, .f32⟩
  | 20 => ⟨S160000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S10000, .f32⟩
  | 28 => ⟨S10000, .f32⟩
  | 29 => ⟨S_, .f32⟩
  | 30 => ⟨S_, .f32⟩
  | 31 => ⟨S10000, .f32⟩
  | 32 => ⟨S10000, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000, .f32⟩
  | 42 => ⟨S160000, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000, .f32⟩
  | 52 => ⟨S160000, .f32⟩
  | 53 => ⟨S10000x16, .f32⟩
  | 54 => ⟨S10000x16, .f32⟩
  | 55 => ⟨S10000x16, .f32⟩
  | 56 => ⟨S160000x1, .f32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x16, .f32⟩
  | 66 => ⟨S160000x16, .f32⟩
  | 67 => ⟨S160000x16, .f32⟩
  | 68 => ⟨S_, .f32⟩
  | 69 => ⟨S10000x16, .f32⟩
  | 70 => ⟨S160000x1, .i32⟩
  | 71 => ⟨S10000x16, .f32⟩
  | 72 => ⟨S160000x1, .f32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x16, .f32⟩
  | 82 => ⟨S160000x16, .f32⟩
  | 83 => ⟨S160000x16, .f32⟩
  | 84 => ⟨S_, .f32⟩
  | 85 => ⟨S10000x16, .f32⟩
  | 86 => ⟨S160000x1, .i32⟩
  | 87 => ⟨S10000x16, .f32⟩
  | 88 => ⟨S160000x1, .f32⟩
  | 89 => ⟨S_, .i32⟩
  | 90 => ⟨S160000, .i32⟩
  | 91 => ⟨S160000, .i1⟩
  | 92 => ⟨S_, .i32⟩
  | 93 => ⟨S160000, .i32⟩
  | 94 => ⟨S160000, .i32⟩
  | 95 => ⟨S160000, .i32⟩
  | 96 => ⟨S160000x1, .i32⟩
  | 97 => ⟨S160000x16, .f32⟩
  | 98 => ⟨S160000x16, .f32⟩
  | 99 => ⟨S160000x16, .f32⟩
  | 100 => ⟨S_, .f32⟩
  | 101 => ⟨S10000x16, .f32⟩
  | 102 => ⟨S160000x1, .i32⟩
  | 103 => ⟨S10000x16, .f32⟩
  | 104 => ⟨S10000x16, .f32⟩
  | 105 => ⟨S_, .f32⟩
  | 106 => ⟨S10000x16, .f32⟩
  | 107 => ⟨S10000x16, .f32⟩
  | 108 => ⟨S10000x16, .f32⟩
  | 109 => ⟨S10000x16, .f32⟩
  | 110 => ⟨S1x16, .f32⟩
  | 111 => ⟨S10000x16, .f32⟩
  | 112 => ⟨S10000x16, .f32⟩
  | 113 => ⟨S_, .f32⟩
  | 114 => ⟨S10000x16, .f32⟩
  | 115 => ⟨S10000x16, .f32⟩
  | 116 => ⟨S160000x1, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x16, .f32⟩
  | 126 => ⟨S160000x16, .f32⟩
  | 127 => ⟨S160000x16, .f32⟩
  | _ => ⟨S10000x782, .f32⟩

abbrev hbmTy0_1 (i : Nat) : BufTy := match i % 128 with
  | 0 => ⟨S_, .f32⟩
  | 1 => ⟨S10000x16, .f32⟩
  | 2 => ⟨S160000x1, .i32⟩
  | 3 => ⟨S10000x16, .f32⟩
  | 4 => ⟨S160000x1, .f32⟩
  | 5 => ⟨S_, .i32⟩
  | 6 => ⟨S160000, .i32⟩
  | 7 => ⟨S160000, .i1⟩
  | 8 => ⟨S_, .i32⟩
  | 9 => ⟨S160000, .i32⟩
  | 10 => ⟨S160000, .i32⟩
  | 11 => ⟨S160000, .i32⟩
  | 12 => ⟨S160000x1, .i32⟩
  | 13 => ⟨S160000x16, .f32⟩
  | 14 => ⟨S160000x16, .f32⟩
  | 15 => ⟨S160000x16, .f32⟩
  | 16 => ⟨S_, .f32⟩
  | 17 => ⟨S10000x16, .f32⟩
  | 18 => ⟨S160000x1, .i32⟩
  | 19 => ⟨S10000x16, .f32⟩
  | 20 => ⟨S_, .f32⟩
  | 21 => ⟨S10000x16, .f32⟩
  | 22 => ⟨S10000x16, .f32⟩
  | 23 => ⟨S10000x16, .f32⟩
  | 24 => ⟨S1x32, .f32⟩
  | 25 => ⟨S10000x32, .f32⟩
  | 26 => ⟨S160000x1, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000x32, .f32⟩
  | 36 => ⟨S160000x32, .f32⟩
  | 37 => ⟨S160000x32, .f32⟩
  | 38 => ⟨S_, .f32⟩
  | 39 => ⟨S10000x32, .f32⟩
  | 40 => ⟨S160000x1, .i32⟩
  | 41 => ⟨S10000x32, .f32⟩
  | 42 => ⟨S160000x1, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000x32, .f32⟩
  | 52 => ⟨S160000x32, .f32⟩
  | 53 => ⟨S160000x32, .f32⟩
  | 54 => ⟨S_, .f32⟩
  | 55 => ⟨S10000x32, .f32⟩
  | 56 => ⟨S160000x1, .i32⟩
  | 57 => ⟨S10000x32, .f32⟩
  | 58 => ⟨S_, .f32⟩
  | 59 => ⟨S10000x32, .f32⟩
  | 60 => ⟨S10000x32, .f32⟩
  | 61 => ⟨S10000x32, .f32⟩
  | 62 => ⟨S1x64, .f32⟩
  | 63 => ⟨S10000x64, .f32⟩
  | 64 => ⟨S160000x1, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x64, .f32⟩
  | 74 => ⟨S160000x64, .f32⟩
  | 75 => ⟨S160000x64, .f32⟩
  | 76 => ⟨S_, .f32⟩
  | 77 => ⟨S10000x64, .f32⟩
  | 78 => ⟨S160000x1, .i32⟩
  | 79 => ⟨S10000x64, .f32⟩
  | 80 => ⟨S160000x1, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x64, .f32⟩
  | 90 => ⟨S160000x64, .f32⟩
  | 91 => ⟨S160000x64, .f32⟩
  | 92 => ⟨S_, .f32⟩
  | 93 => ⟨S10000x64, .f32⟩
  | 94 => ⟨S160000x1, .i32⟩
  | 95 => ⟨S10000x64, .f32⟩
  | 96 => ⟨S_, .f32⟩
  | 97 => ⟨S10000x64, .f32⟩
  | 98 => ⟨S10000x64, .f32⟩
  | 99 => ⟨S10000x64, .f32⟩
  | 100 => ⟨S1x128, .f32⟩
  | 101 => ⟨S10000x128, .f32⟩
  | 102 => ⟨S10000x19, .f32⟩
  | 103 => ⟨S10000x19, .f32⟩
  | 104 => ⟨S10000x19, .f32⟩
  | 105 => ⟨S160000x1, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000x19, .f32⟩
  | 115 => ⟨S160000x19, .f32⟩
  | 116 => ⟨S160000x19, .f32⟩
  | 117 => ⟨S_, .f32⟩
  | 118 => ⟨S10000x19, .f32⟩
  | 119 => ⟨S160000x1, .i32⟩
  | 120 => ⟨S10000x19, .f32⟩
  | 121 => ⟨S160000x1, .f32⟩
  | 122 => ⟨S_, .i32⟩
  | 123 => ⟨S160000, .i32⟩
  | 124 => ⟨S160000, .i1⟩
  | 125 => ⟨S_, .i32⟩
  | 126 => ⟨S160000, .i32⟩
  | 127 => ⟨S160000, .i32⟩
  | _ => ⟨S10000x782, .f32⟩

abbrev hbmTy0_2 (i : Nat) : BufTy := match i % 128 with
  | 0 => ⟨S160000, .i32⟩
  | 1 => ⟨S160000x1, .i32⟩
  | 2 => ⟨S160000x19, .f32⟩
  | 3 => ⟨S160000x19, .f32⟩
  | 4 => ⟨S160000x19, .f32⟩
  | 5 => ⟨S_, .f32⟩
  | 6 => ⟨S10000x19, .f32⟩
  | 7 => ⟨S160000x1, .i32⟩
  | 8 => ⟨S10000x19, .f32⟩
  | 9 => ⟨S160000x1, .f32⟩
  | 10 => ⟨S_, .i32⟩
  | 11 => ⟨S160000, .i32⟩
  | 12 => ⟨S160000, .i1⟩
  | 13 => ⟨S_, .i32⟩
  | 14 => ⟨S160000, .i32⟩
  | 15 => ⟨S160000, .i32⟩
  | 16 => ⟨S160000, .i32⟩
  | 17 => ⟨S160000x1, .i32⟩
  | 18 => ⟨S160000x19, .f32⟩
  | 19 => ⟨S160000x19, .f32⟩
  | 20 => ⟨S160000x19, .f32⟩
  | 21 => ⟨S_, .f32⟩
  | 22 => ⟨S10000x19, .f32⟩
  | 23 => ⟨S160000x1, .i32⟩
  | 24 => ⟨S10000x19, .f32⟩
  | 25 => ⟨S10000x19, .f32⟩
  | 26 => ⟨S_, .f32⟩
  | 27 => ⟨S10000x19, .f32⟩
  | 28 => ⟨S10000x19, .f32⟩
  | 29 => ⟨S10000x19, .f32⟩
  | 30 => ⟨S10000x19, .f32⟩
  | 31 => ⟨S1x19, .f32⟩
  | 32 => ⟨S10000x19, .f32⟩
  | 33 => ⟨S10000x19, .f32⟩
  | 34 => ⟨S_, .f32⟩
  | 35 => ⟨S10000, .f32⟩
  | 36 => ⟨S_, .f32⟩
  | 37 => ⟨S10000, .f32⟩
  | 38 => ⟨S10000, .f32⟩
  | 39 => ⟨S10000x1, .f32⟩
  | 40 => ⟨S10000x19, .f32⟩
  | 41 => ⟨S10000x19, .f32⟩
  | 42 => ⟨S10000x19, .f32⟩
  | 43 => ⟨S_, .f32⟩
  | 44 => ⟨S10000, .f32⟩
  | 45 => ⟨S10000x1, .f32⟩
  | 46 => ⟨S10000x19, .f32⟩
  | 47 => ⟨S10000x19, .f32⟩
  | _ => ⟨S10000x782, .f32⟩

abbrev hbmTy (i : Nat) : BufTy := match i / 128 with
  | 0 => hbmTy0_0 i
  | 1 => hbmTy0_1 i
  | 2 => hbmTy0_2 i
  | _ => ⟨S10000x782, .f32⟩

abbrev bufTy : (tb : Table) → Fin (tcTables nBuf tb) → BufTy
  | .hbm, ⟨i, _⟩ => hbmTy i
  | .local _ .vmem, ⟨0, _⟩ => ⟨S1000x782, .f32⟩
  | .local _ .vmem, ⟨1, _⟩ => ⟨S1000x782, .f32⟩
  | .local _ .vmem, ⟨2, _⟩ => ⟨S3x782x16, .f32⟩
  | .local _ .vmem, ⟨3, _⟩ => ⟨S1000x16, .f32⟩
  | .local _ .vmem, ⟨4, _⟩ => ⟨S1000x16, .f32⟩
  | .local _ .vmem, ⟨5, _⟩ => ⟨S1000x16, .f32⟩
  | .local _ .vmem, ⟨6, _⟩ => ⟨S1000x16, .f32⟩
  | .local _ .vmem, ⟨7, _⟩ => ⟨S1000x16, .f32⟩
  | .local _ .vmem, ⟨8, _⟩ => ⟨S1000x16, .f32⟩
  | .local _ .vmem, ⟨9, _⟩ => ⟨S1000x16, .f32⟩
  | .local _ .vmem, ⟨10, _⟩ => ⟨S1000x16, .f32⟩
  | .local _ .vmem, ⟨11, _⟩ => ⟨S1000x16, .f32⟩
  | .local _ .vmem, ⟨12, _⟩ => ⟨S1000x16, .f32⟩
  | .local _ .vmem, ⟨13, _⟩ => ⟨S1000x16, .f32⟩
  | .local _ .vmem, ⟨14, _⟩ => ⟨S1000x16, .f32⟩
  | .local _ .vmem, ⟨15, _⟩ => ⟨S3x16x32, .f32⟩
  | .local _ .vmem, ⟨16, _⟩ => ⟨S1x32, .f32⟩
  | .local _ .vmem, ⟨17, _⟩ => ⟨S1000x32, .f32⟩
  | .local _ .vmem, ⟨18, _⟩ => ⟨S1000x32, .f32⟩
  | .local _ .vmem, ⟨19, _⟩ => ⟨S1000x32, .f32⟩
  | .local _ .vmem, ⟨20, _⟩ => ⟨S1000x32, .f32⟩
  | .local _ .vmem, ⟨21, _⟩ => ⟨S1000x32, .f32⟩
  | .local _ .vmem, ⟨22, _⟩ => ⟨S1000x32, .f32⟩
  | .local _ .vmem, ⟨23, _⟩ => ⟨S1000x32, .f32⟩
  | .local _ .vmem, ⟨24, _⟩ => ⟨S1000x32, .f32⟩
  | .local _ .vmem, ⟨25, _⟩ => ⟨S3x32x64, .f32⟩
  | .local _ .vmem, ⟨26, _⟩ => ⟨S1x64, .f32⟩
  | .local _ .vmem, ⟨27, _⟩ => ⟨S1000x64, .f32⟩
  | .local _ .vmem, ⟨28, _⟩ => ⟨S1000x64, .f32⟩
  | .local _ .vmem, ⟨29, _⟩ => ⟨S1000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x64, .f32⟩
  | .local _ .vmem, ⟨34, _⟩ => ⟨S1000x64, .f32⟩
  | .local _ .vmem, ⟨35, _⟩ => ⟨S3x64x128, .f32⟩
  | .local _ .vmem, ⟨36, _⟩ => ⟨S1x128, .f32⟩
  | .local _ .vmem, ⟨37, _⟩ => ⟨S1000x128, .f32⟩
  | .local _ .vmem, ⟨38, _⟩ => ⟨S1000x128, .f32⟩
  | .local _ .vmem, ⟨39, _⟩ => ⟨S1000x128, .f32⟩
  | .local _ .vmem, ⟨40, _⟩ => ⟨S1000x128, .f32⟩
  | .local _ .vmem, ⟨41, _⟩ => ⟨S3x128x19, .f32⟩
  | .local _ .vmem, ⟨42, _⟩ => ⟨S1000x19, .f32⟩
  | .local _ .vmem, ⟨43, _⟩ => ⟨S1000x19, .f32⟩
  | .local _ .vmem, ⟨44, _⟩ => ⟨S1000x19, .f32⟩
  | .local _ .vmem, ⟨45, _⟩ => ⟨S1000x19, .f32⟩
  | .local _ .vmem, ⟨46, _⟩ => ⟨S1000x19, .f32⟩
  | .local _ .vmem, ⟨47, _⟩ => ⟨S1000x19, .f32⟩
  | _, _ => ⟨S10000x782, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_v30_2 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_20 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c_21 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_24 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_25 : Ref sig .tc := ⟨.hbm, 155, rfl⟩
abbrev main_v112 : Ref sig .tc := ⟨.hbm, 156, rfl⟩
abbrev main_v113 : Ref sig .tc := ⟨.hbm, 157, rfl⟩
abbrev main_c_26 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_27 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_28 : Ref sig .tc := ⟨.hbm, 171, rfl⟩
abbrev main_v125 : Ref sig .tc := ⟨.hbm, 172, rfl⟩
abbrev main_v126 : Ref sig .tc := ⟨.hbm, 173, rfl⟩
abbrev main_c_29 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_30 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_31 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_32 : Ref sig .tc := ⟨.hbm, 193, rfl⟩
abbrev main_v143 : Ref sig .tc := ⟨.hbm, 194, rfl⟩
abbrev main_v144 : Ref sig .tc := ⟨.hbm, 195, rfl⟩
abbrev main_c_33 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_34 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_35 : Ref sig .tc := ⟨.hbm, 209, rfl⟩
abbrev main_v156 : Ref sig .tc := ⟨.hbm, 210, rfl⟩
abbrev main_v157 : Ref sig .tc := ⟨.hbm, 211, rfl⟩
abbrev main_c_36 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_37 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_38 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173_0 : Ref sig .tc := ⟨.hbm, 230, rfl⟩
abbrev main_v173_1 : Ref sig .tc := ⟨.hbm, 231, rfl⟩
abbrev main_v173_2 : Ref sig .tc := ⟨.hbm, 232, rfl⟩
abbrev main_v174 : Ref sig .tc := ⟨.hbm, 233, rfl⟩
abbrev main_c_39 : Ref sig .tc := ⟨.hbm, 234, rfl⟩
abbrev main_v175 : Ref sig .tc := ⟨.hbm, 235, rfl⟩
abbrev main_v176 : Ref sig .tc := ⟨.hbm, 236, rfl⟩
abbrev main_c_40 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_cst_41 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_c_42 : Ref sig .tc := ⟨.hbm, 250, rfl⟩
abbrev main_v188 : Ref sig .tc := ⟨.hbm, 251, rfl⟩
abbrev main_v189 : Ref sig .tc := ⟨.hbm, 252, rfl⟩
abbrev main_c_43 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_cst_44 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_c_45 : Ref sig .tc := ⟨.hbm, 266, rfl⟩
abbrev main_v201 : Ref sig .tc := ⟨.hbm, 267, rfl⟩
abbrev main_v202 : Ref sig .tc := ⟨.hbm, 268, rfl⟩
abbrev main_c_46 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_cst_47 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_48 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_49 : Ref sig .tc := ⟨.hbm, 290, rfl⟩
abbrev main_v221 : Ref sig .tc := ⟨.hbm, 291, rfl⟩
abbrev main_cst_50 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_cst_51 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x782 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x782x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x128x19 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x19 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1000x19 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x19 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  inb_S1000x782_S1000x782_0_0 : ∀ a, (![0, 0] : Fin 2 → Nat) a + S1000x782.size a ≤ S1000x782.size a
  h_S1000x782 : 0 < S1000x782.numel
  bitsLt_bf16_f32 : FTy.bits .bf16 < FTy.bits .f32
  inb_S3x782x16_S1x782x16_0_0_0 : ∀ a, (![0, 0, 0] : Fin 3 → Nat) a + S1x782x16.size a ≤ S3x782x16.size a
  h_S1x782x16 : 0 < S1x782x16.numel
  shapeCasts_S1x782x16_S782x16 : S1x782x16.ShapeCasts S782x16
  inb_S3x782x16_S1x782x16_1_0_0 : ∀ a, (![1, 0, 0] : Fin 3 → Nat) a + S1x782x16.size a ≤ S3x782x16.size a
  inb_S3x782x16_S1x782x16_2_0_0 : ∀ a, (![2, 0, 0] : Fin 3 → Nat) a + S1x782x16.size a ≤ S3x782x16.size a
  inb_S1000x16_S1000x16_0_0 : ∀ a, (![0, 0] : Fin 2 → Nat) a + S1000x16.size a ≤ S1000x16.size a
  h_S1000x16 : 0 < S1000x16.numel
  bcast_S160000x1_S160000x16_0_1 : S160000x1.BroadcastsInDim S160000x16 (![0, 1] : Fin 2 → Fin S160000x16.rank)
  bcast_S_S10000x16 : S_.BroadcastsInDim S10000x16 (![] : Fin 0 → Fin S10000x16.rank)
  shapeCasts_S16_S1x16 : S16.ShapeCasts S1x16
  bcast_S1x16_S10000x16_0_1 : S1x16.BroadcastsInDim S10000x16 (![0, 1] : Fin 2 → Fin S10000x16.rank)
  shapeCasts_S32_S1x32 : S32.ShapeCasts S1x32
  shapeCasts_S1000x16_S1000x16 : S1000x16.ShapeCasts S1000x16
  inb_S3x16x32_S1x16x32_0_0_0 : ∀ a, (![0, 0, 0] : Fin 3 → Nat) a + S1x16x32.size a ≤ S3x16x32.size a
  h_S1x16x32 : 0 < S1x16x32.numel
  shapeCasts_S1x16x32_S16x32 : S1x16x32.ShapeCasts S16x32
  inb_S3x16x32_S1x16x32_1_0_0 : ∀ a, (![1, 0, 0] : Fin 3 → Nat) a + S1x16x32.size a ≤ S3x16x32.size a
  inb_S3x16x32_S1x16x32_2_0_0 : ∀ a, (![2, 0, 0] : Fin 3 → Nat) a + S1x16x32.size a ≤ S3x16x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x32_S1000x32_0_0 : ∀ a, (![0, 0] : Fin 2 → Nat) a + S1000x32.size a ≤ S1000x32.size a
  h_S1000x32 : 0 < S1000x32.numel
  bcast_S160000x1_S160000x32_0_1 : S160000x1.BroadcastsInDim S160000x32 (![0, 1] : Fin 2 → Fin S160000x32.rank)
  bcast_S_S10000x32 : S_.BroadcastsInDim S10000x32 (![] : Fin 0 → Fin S10000x32.rank)
  shapeCasts_S64_S1x64 : S64.ShapeCasts S1x64
  shapeCasts_S1000x32_S1000x32 : S1000x32.ShapeCasts S1000x32
  inb_S3x32x64_S1x32x64_0_0_0 : ∀ a, (![0, 0, 0] : Fin 3 → Nat) a + S1x32x64.size a ≤ S3x32x64.size a
  h_S1x32x64 : 0 < S1x32x64.numel
  shapeCasts_S1x32x64_S32x64 : S1x32x64.ShapeCasts S32x64
  inb_S3x32x64_S1x32x64_1_0_0 : ∀ a, (![1, 0, 0] : Fin 3 → Nat) a + S1x32x64.size a ≤ S3x32x64.size a
  inb_S3x32x64_S1x32x64_2_0_0 : ∀ a, (![2, 0, 0] : Fin 3 → Nat) a + S1x32x64.size a ≤ S3x32x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S160000x1_S160000x64_0_1 : S160000x1.BroadcastsInDim S160000x64 (![0, 1] : Fin 2 → Fin S160000x64.rank)
  bcast_S_S10000x64 : S_.BroadcastsInDim S10000x64 (![] : Fin 0 → Fin S10000x64.rank)
  shapeCasts_S128_S1x128 : S128.ShapeCasts S1x128
  shapeCasts_S1000x64_S1000x64 : S1000x64.ShapeCasts S1000x64
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  inb_S3x64x128_S1x64x128_1_0_0 : ∀ a, (![1, 0, 0] : Fin 3 → Nat) a + S1x64x128.size a ≤ S3x64x128.size a
  inb_S3x64x128_S1x64x128_2_0_0 : ∀ a, (![2, 0, 0] : Fin 3 → Nat) a + S1x64x128.size a ≤ S3x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S3x128x19_S1x128x19_0_0_0 : ∀ a, (![0, 0, 0] : Fin 3 → Nat) a + S1x128x19.size a ≤ S3x128x19.size a
  h_S1x128x19 : 0 < S1x128x19.numel
  shapeCasts_S1x128x19_S128x19 : S1x128x19.ShapeCasts S128x19
  inb_S3x128x19_S1x128x19_1_0_0 : ∀ a, (![1, 0, 0] : Fin 3 → Nat) a + S1x128x19.size a ≤ S3x128x19.size a
  inb_S3x128x19_S1x128x19_2_0_0 : ∀ a, (![2, 0, 0] : Fin 3 → Nat) a + S1x128x19.size a ≤ S3x128x19.size a
  inb_S1000x19_S1000x19_0_0 : ∀ a, (![0, 0] : Fin 2 → Nat) a + S1000x19.size a ≤ S1000x19.size a
  h_S1000x19 : 0 < S1000x19.numel
  bcast_S160000x1_S160000x19_0_1 : S160000x1.BroadcastsInDim S160000x19 (![0, 1] : Fin 2 → Fin S160000x19.rank)
  bcast_S_S10000x19 : S_.BroadcastsInDim S10000x19 (![] : Fin 0 → Fin S10000x19.rank)
  shapeCasts_S19_S1x19 : S19.ShapeCasts S1x19
  bcast_S1x19_S10000x19_0_1 : S1x19.BroadcastsInDim S10000x19 (![0, 1] : Fin 2 → Fin S10000x19.rank)
  reducesTo_S10000x19_S10000_d1 : S10000x19.ReducesTo [1] S10000
  h_S_ : 0 < S_.numel
  bcast_S10000_S10000x1_0 : S10000.BroadcastsInDim S10000x1 (![0] : Fin 1 → Fin S10000x1.rank)
  bcast_S10000x1_S10000x19_0_1 : S10000x1.BroadcastsInDim S10000x19 (![0, 1] : Fin 2 → Fin S10000x19.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S1000x782_S782x16_S1000x16_1_0_0_1_n_n_wf : DotDims.WF S1000x782 S782x16 S1000x16 [1] [0] [0] [1] [] []
  gather_S10000x16_S160000x1_S160000x16_1_0_n_n_0_1_116_wf : GatherDims.WF S10000x16 S160000x1 S160000x16 [1] [0] [] [0] [] 1 ![1, 16]
  scatter_S10000x16_S160000x1_S160000x16_1_0_0_1_wf : ScatterDims.WF S10000x16 S160000x1 S160000x16 [1] [0] [0] 1
  dot_S1000x16_S16x32_S1000x32_1_0_0_1_n_n_wf : DotDims.WF S1000x16 S16x32 S1000x32 [1] [0] [0] [1] [] []
  gather_S10000x32_S160000x1_S160000x32_1_0_n_n_0_1_132_wf : GatherDims.WF S10000x32 S160000x1 S160000x32 [1] [0] [] [0] [] 1 ![1, 32]
  scatter_S10000x32_S160000x1_S160000x32_1_0_0_1_wf : ScatterDims.WF S10000x32 S160000x1 S160000x32 [1] [0] [0] 1
  dot_S1000x32_S32x64_S1000x64_1_0_0_1_n_n_wf : DotDims.WF S1000x32 S32x64 S1000x64 [1] [0] [0] [1] [] []
  gather_S10000x64_S160000x1_S160000x64_1_0_n_n_0_1_164_wf : GatherDims.WF S10000x64 S160000x1 S160000x64 [1] [0] [] [0] [] 1 ![1, 64]
  scatter_S10000x64_S160000x1_S160000x64_1_0_0_1_wf : ScatterDims.WF S10000x64 S160000x1 S160000x64 [1] [0] [0] 1
  dot_S1000x64_S64x128_S1000x128_1_0_0_1_n_n_wf : DotDims.WF S1000x64 S64x128 S1000x128 [1] [0] [0] [1] [] []
  dot_S1000x128_S128x19_S1000x19_1_0_0_1_n_n_wf : DotDims.WF S1000x128 S128x19 S1000x19 [1] [0] [0] [1] [] []
  gather_S10000x19_S160000x1_S160000x19_1_0_n_n_0_1_119_wf : GatherDims.WF S10000x19 S160000x1 S160000x19 [1] [0] [] [0] [] 1 ![1, 19]
  scatter_S10000x19_S160000x1_S160000x19_1_0_0_1_wf : ScatterDims.WF S10000x19 S160000x1 S160000x19 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x782.size a ≤ S10000x782.size a
  hwx0_0 : ∀ i : grid0.Coords, EltTy.bits .f32 = 32 ∨ (Rect.block (s := S10000x782) S1000x782.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x782x16.size a ≤ S3x782x16.size a
  hwx0_1 : ∀ i : grid0.Coords, EltTy.bits .f32 = 32 ∨ (Rect.block (s := S3x782x16) S3x782x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S10000x16.size a
  hwx0_2 : ∀ i : grid0.Coords, EltTy.bits .f32 = 32 ∨ (Rect.block (s := S10000x16) S1000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x16.size a ≤ S10000x16.size a
  hwx0_3 : ∀ i : grid0.Coords, EltTy.bits .f32 = 32 ∨ (Rect.block (s := S10000x16) S1000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x16.size a ≤ S10000x16.size a
  hwx0_4 : ∀ i : grid0.Coords, EltTy.bits .f32 = 32 ∨ (Rect.block (s := S10000x16) S1000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x16.size a ≤ S10000x16.size a
  hwx1_0 : ∀ i : grid1.Coords, EltTy.bits .f32 = 32 ∨ (Rect.block (s := S10000x16) S1000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x16.size a ≤ S10000x16.size a
  hwx1_1 : ∀ i : grid1.Coords, EltTy.bits .f32 = 32 ∨ (Rect.block (s := S10000x16) S1000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x16.size a ≤ S10000x16.size a
  hwx1_2 : ∀ i : grid1.Coords, EltTy.bits .f32 = 32 ∨ (Rect.block (s := S10000x16) S1000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x16x32.size a ≤ S3x16x32.size a
  hwx1_3 : ∀ i : grid1.Coords, EltTy.bits .f32 = 32 ∨ (Rect.block (s := S3x16x32) S3x16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x32.size a ≤ S10000x32.size a
  hwx1_5 : ∀ i : grid1.Coords, EltTy.bits .f32 = 32 ∨ (Rect.block (s := S10000x32) S1000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x32.size a ≤ S10000x32.size a
  hwx2_0 : ∀ i : grid2.Coords, EltTy.bits .f32 = 32 ∨ (Rect.block (s := S10000x32) S1000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x32.size a ≤ S10000x32.size a
  hwx2_1 : ∀ i : grid2.Coords, EltTy.bits .f32 = 32 ∨ (Rect.block (s := S10000x32) S1000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x32.size a ≤ S10000x32.size a
  hwx2_2 : ∀ i : grid2.Coords, EltTy.bits .f32 = 32 ∨ (Rect.block (s := S10000x32) S1000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x32x64.size a ≤ S3x32x64.size a
  hwx2_3 : ∀ i : grid2.Coords, EltTy.bits .f32 = 32 ∨ (Rect.block (s := S3x32x64) S3x32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S10000x64.size a
  hwx2_5 : ∀ i : grid2.Coords, EltTy.bits .f32 = 32 ∨ (Rect.block (s := S10000x64) S1000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S10000x64.size a
  hwx3_0 : ∀ i : grid3.Coords, EltTy.bits .f32 = 32 ∨ (Rect.block (s := S10000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S10000x64.size a
  hwx3_1 : ∀ i : grid3.Coords, EltTy.bits .f32 = 32 ∨ (Rect.block (s := S10000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S10000x64.size a
  hwx3_2 : ∀ i : grid3.Coords, EltTy.bits .f32 = 32 ∨ (Rect.block (s := S10000x64) S1000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x64x128.size a ≤ S3x64x128.size a
  hwx3_3 : ∀ i : grid3.Coords, EltTy.bits .f32 = 32 ∨ (Rect.block (s := S3x64x128) S3x64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S10000x128.size a
  hwx3_5 : ∀ i : grid3.Coords, EltTy.bits .f32 = 32 ∨ (Rect.block (s := S10000x128) S1000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3x128x19.size a ≤ S3x128x19.size a
  hwx4_1 : ∀ i : grid4.Coords, EltTy.bits .f32 = 32 ∨ (Rect.block (s := S3x128x19) S3x128x19.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x19.size a ≤ S10000x19.size a
  hwx4_2 : ∀ i : grid4.Coords, EltTy.bits .f32 = 32 ∨ (Rect.block (s := S10000x19) S1000x19.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x19.size a ≤ S10000x19.size a
  hwx4_3 : ∀ i : grid4.Coords, EltTy.bits .f32 = 32 ∨ (Rect.block (s := S10000x19) S1000x19.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x19.size a ≤ S10000x19.size a
  hwx4_4 : ∀ i : grid4.Coords, EltTy.bits .f32 = 32 ∨ (Rect.block (s := S10000x19) S1000x19.size (cc4_transform_4 i) (hinb4_4 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1000x782_S782x16_S1000x16_1_0_0_1_n_n : DotDims S1000x782 S782x16 S1000x16 where
  lhsContracting := [1]
  rhsContracting := [0]
  lhsNonContracting := [0]
  rhsNonContracting := [1]
  lhsBatch := []
  rhsBatch := []
  wf := dot_S1000x782_S782x16_S1000x16_1_0_0_1_n_n_wf
def gather_S10000x16_S160000x1_S160000x16_1_0_n_n_0_1_116 : GatherDims S10000x16 S160000x1 S160000x16 where
  offsetDims := [1]
  collapsedSliceDims := [0]
  operandBatchingDims := []
  startIndicesBatchingDims := []
  startIndexMap := [0]
  indexVectorDim := 1
  sliceSizes := ![1, 16]
  wf := gather_S10000x16_S160000x1_S160000x16_1_0_n_n_0_1_116_wf
def scatter_S10000x16_S160000x1_S160000x16_1_0_0_1 : ScatterDims S10000x16 S160000x1 S160000x16 where
  updateWindowDims := [1]
  insertedWindowDims := [0]
  scatterDimsToOperandDims := [0]
  indexVectorDim := 1
  wf := scatter_S10000x16_S160000x1_S160000x16_1_0_0_1_wf
def dot_S1000x16_S16x32_S1000x32_1_0_0_1_n_n : DotDims S1000x16 S16x32 S1000x32 where
  lhsContracting := [1]
  rhsContracting := [0]
  lhsNonContracting := [0]
  rhsNonContracting := [1]
  lhsBatch := []
  rhsBatch := []
  wf := dot_S1000x16_S16x32_S1000x32_1_0_0_1_n_n_wf
def gather_S10000x32_S160000x1_S160000x32_1_0_n_n_0_1_132 : GatherDims S10000x32 S160000x1 S160000x32 where
  offsetDims := [1]
  collapsedSliceDims := [0]
  operandBatchingDims := []
  startIndicesBatchingDims := []
  startIndexMap := [0]
  indexVectorDim := 1
  sliceSizes := ![1, 32]
  wf := gather_S10000x32_S160000x1_S160000x32_1_0_n_n_0_1_132_wf
def scatter_S10000x32_S160000x1_S160000x32_1_0_0_1 : ScatterDims S10000x32 S160000x1 S160000x32 where
  updateWindowDims := [1]
  insertedWindowDims := [0]
  scatterDimsToOperandDims := [0]
  indexVectorDim := 1
  wf := scatter_S10000x32_S160000x1_S160000x32_1_0_0_1_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def gather_S10000x64_S160000x1_S160000x64_1_0_n_n_0_1_164 : GatherDims S10000x64 S160000x1 S160000x64 where
  offsetDims := [1]
  collapsedSliceDims := [0]
  operandBatchingDims := []
  startIndicesBatchingDims := []
  startIndexMap := [0]
  indexVectorDim := 1
  sliceSizes := ![1, 64]
  wf := gather_S10000x64_S160000x1_S160000x64_1_0_n_n_0_1_164_wf
def scatter_S10000x64_S160000x1_S160000x64_1_0_0_1 : ScatterDims S10000x64 S160000x1 S160000x64 where
  updateWindowDims := [1]
  insertedWindowDims := [0]
  scatterDimsToOperandDims := [0]
  indexVectorDim := 1
  wf := scatter_S10000x64_S160000x1_S160000x64_1_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x19_S1000x19_1_0_0_1_n_n : DotDims S1000x128 S128x19 S1000x19 where
  lhsContracting := [1]
  rhsContracting := [0]
  lhsNonContracting := [0]
  rhsNonContracting := [1]
  lhsBatch := []
  rhsBatch := []
  wf := dot_S1000x128_S128x19_S1000x19_1_0_0_1_n_n_wf
def gather_S10000x19_S160000x1_S160000x19_1_0_n_n_0_1_119 : GatherDims S10000x19 S160000x1 S160000x19 where
  offsetDims := [1]
  collapsedSliceDims := [0]
  operandBatchingDims := []
  startIndicesBatchingDims := []
  startIndexMap := [0]
  indexVectorDim := 1
  sliceSizes := ![1, 19]
  wf := gather_S10000x19_S160000x1_S160000x19_1_0_n_n_0_1_119_wf
def scatter_S10000x19_S160000x1_S160000x19_1_0_0_1 : ScatterDims S10000x19 S160000x1 S160000x19 where
  updateWindowDims := [1]
  insertedWindowDims := [0]
  scatterDimsToOperandDims := [0]
  indexVectorDim := 1
  wf := scatter_S10000x19_S160000x1_S160000x19_1_0_0_1_wf

abbrev win0_0 : Pipeline.Window sig grid0 :=
  Pipeline.Window.ofSpec (Memref.whole main_arg0) S1000x782.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x782x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30_0) S1000x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30_1) S1000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_2) S1000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v79) S1000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v92) S1000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v108) S1000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v109) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v110) S1000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v110) S1000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v123) S1000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v139) S1000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S3x32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v140) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v141) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v141) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v154) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v170) S1000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S3x64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v171) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v172) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v172) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S3x128x19.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v173_0) S1000x19.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v173_1) S1000x19.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v173_2) S1000x19.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S10000x782 : Shape := ⟨2, ![10000, 782]⟩
abbrev S2x160000 : Shape := ⟨2, ![2, 160000]⟩
abbrev S3x782x16 : Shape := ⟨3, ![3, 782, 16]⟩
abbrev S16 : Shape := ⟨1, ![16]⟩
abbrev S3x16x32 : Shape := ⟨3, ![3, 16, 32]⟩
abbrev S32 : Shape := ⟨1, ![32]⟩
abbrev S3x32x64 : Shape := ⟨3, ![3, 32, 64]⟩
abbrev S64 : Shape := ⟨1, ![64]⟩
abbrev S3x64x128 : Shape := ⟨3, ![3, 64, 128]⟩
abbrev S128 : Shape := ⟨1, ![128]⟩
abbrev S3x128x19 : Shape := ⟨3, ![3, 128, 19]⟩
abbrev S19 : Shape := ⟨1, ![19]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S1x782x16 : Shape := ⟨3, ![1, 782, 16]⟩
abbrev S782x16 : Shape := ⟨2, ![782, 16]⟩
abbrev S10000x16 : Shape := ⟨2, ![10000, 16]⟩
abbrev S160000x782 : Shape := ⟨2, ![160000, 782]⟩
abbrev S1x16 : Shape := ⟨2, ![1, 16]⟩
abbrev S1x16x32 : Shape := ⟨3, ![1, 16, 32]⟩
abbrev S16x32 : Shape := ⟨2, ![16, 32]⟩
abbrev S10000x32 : Shape := ⟨2, ![10000, 32]⟩
abbrev S160000x16 : Shape := ⟨2, ![160000, 16]⟩
abbrev S1x32 : Shape := ⟨2, ![1, 32]⟩
abbrev S1x32x64 : Shape := ⟨3, ![1, 32, 64]⟩
abbrev S32x64 : Shape := ⟨2, ![32, 64]⟩
abbrev S10000x64 : Shape := ⟨2, ![10000, 64]⟩
abbrev S160000x32 : Shape := ⟨2, ![160000, 32]⟩
abbrev S1x64 : Shape := ⟨2, ![1, 64]⟩
abbrev S1x64x128 : Shape := ⟨3, ![1, 64, 128]⟩
abbrev S64x128 : Shape := ⟨2, ![64, 128]⟩
abbrev S10000x128 : Shape := ⟨2, ![10000, 128]⟩
abbrev S160000x64 : Shape := ⟨2, ![160000, 64]⟩
abbrev S1x128 : Shape := ⟨2, ![1, 128]⟩
abbrev S1x128x19 : Shape := ⟨3, ![1, 128, 19]⟩
abbrev S128x19 : Shape := ⟨2, ![128, 19]⟩
abbrev S10000x19 : Shape := ⟨2, ![10000, 19]⟩
abbrev S160000x128 : Shape := ⟨2, ![160000, 128]⟩
abbrev S1x19 : Shape := ⟨2, ![1, 19]⟩
abbrev S10000x1 : Shape := ⟨2, ![10000, 1]⟩

abbrev nBuf : Space → Nat
  | .hbm => 333
  | .vmem => 0
  | .smem => 0
  | _ => 0

abbrev hbmTy0_0 (i : Nat) : BufTy := match i % 128 with
  | 0 => ⟨S10000x782, .f32⟩
  | 1 => ⟨S2x160000, .i32⟩
  | 2 => ⟨S3x782x16, .f32⟩
  | 3 => ⟨S16, .f32⟩
  | 4 => ⟨S3x16x32, .f32⟩
  | 5 => ⟨S32, .f32⟩
  | 6 => ⟨S3x32x64, .f32⟩
  | 7 => ⟨S64, .f32⟩
  | 8 => ⟨S3x64x128, .f32⟩
  | 9 => ⟨S128, .f32⟩
  | 10 => ⟨S3x128x19, .f32⟩
  | 11 => ⟨S19, .f32⟩
  | 12 => ⟨S1x160000, .i32⟩
  | 13 => ⟨S160000, .i32⟩
  | 14 => ⟨S1x160000, .i32⟩
  | 15 => ⟨S160000, .i32⟩
  | 16 => ⟨S1x160000, .i32⟩
  | 17 => ⟨S160000, .i32⟩
  | 18 => ⟨S1x160000, .i32⟩
  | 19 => ⟨S160000, .i32⟩
  | 20 => ⟨S_, .f32⟩
  | 21 => ⟨S160000, .f32⟩
  | 22 => ⟨S_, .f32⟩
  | 23 => ⟨S10000, .f32⟩
  | 24 => ⟨S160000x1, .i32⟩
  | 25 => ⟨S10000, .f32⟩
  | 26 => ⟨S_, .f32⟩
  | 27 => ⟨S10000, .f32⟩
  | 28 => ⟨S10000, .i1⟩
  | 29 => ⟨S10000, .f32⟩
  | 30 => ⟨S_, .f32⟩
  | 31 => ⟨S10000, .f32⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000, .f32⟩
  | 46 => ⟨S160000, .f32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000, .f32⟩
  | 56 => ⟨S160000, .f32⟩
  | 57 => ⟨S1x782x16, .f32⟩
  | 58 => ⟨S782x16, .f32⟩
  | 59 => ⟨S10000x16, .f32⟩
  | 60 => ⟨S160000x1, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x782, .f32⟩
  | 70 => ⟨S160000x782, .f32⟩
  | 71 => ⟨S160000x782, .f32⟩
  | 72 => ⟨S_, .f32⟩
  | 73 => ⟨S10000x782, .f32⟩
  | 74 => ⟨S160000x1, .i32⟩
  | 75 => ⟨S10000x782, .f32⟩
  | 76 => ⟨S1x782x16, .f32⟩
  | 77 => ⟨S782x16, .f32⟩
  | 78 => ⟨S10000x16, .f32⟩
  | 79 => ⟨S10000x16, .f32⟩
  | 80 => ⟨S160000x1, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x782, .f32⟩
  | 90 => ⟨S160000x782, .f32⟩
  | 91 => ⟨S160000x782, .f32⟩
  | 92 => ⟨S_, .f32⟩
  | 93 => ⟨S10000x782, .f32⟩
  | 94 => ⟨S160000x1, .i32⟩
  | 95 => ⟨S10000x782, .f32⟩
  | 96 => ⟨S_, .f32⟩
  | 97 => ⟨S10000x782, .f32⟩
  | 98 => ⟨S10000x782, .f32⟩
  | 99 => ⟨S10000x782, .f32⟩
  | 100 => ⟨S1x782x16, .f32⟩
  | 101 => ⟨S782x16, .f32⟩
  | 102 => ⟨S10000x16, .f32⟩
  | 103 => ⟨S10000x16, .f32⟩
  | 104 => ⟨S1x16, .f32⟩
  | 105 => ⟨S10000x16, .f32⟩
  | 106 => ⟨S10000x16, .f32⟩
  | 107 => ⟨S_, .f32⟩
  | 108 => ⟨S10000x16, .f32⟩
  | 109 => ⟨S10000x16, .f32⟩
  | 110 => ⟨S1x16x32, .f32⟩
  | 111 => ⟨S16x32, .f32⟩
  | 112 => ⟨S10000x32, .f32⟩
  | 113 => ⟨S160000x1, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x16, .f32⟩
  | 123 => ⟨S160000x16, .f32⟩
  | 124 => ⟨S160000x16, .f32⟩
  | 125 => ⟨S_, .f32⟩
  | 126 => ⟨S10000x16, .f32⟩
  | 127 => ⟨S160000x1, .i32⟩
  | _ => ⟨S10000x782, .f32⟩

abbrev hbmTy0_1 (i : Nat) : BufTy := match i % 128 with
  | 0 => ⟨S10000x16, .f32⟩
  | 1 => ⟨S1x16x32, .f32⟩
  | 2 => ⟨S16x32, .f32⟩
  | 3 => ⟨S10000x32, .f32⟩
  | 4 => ⟨S10000x32, .f32⟩
  | 5 => ⟨S160000x1, .f32⟩
  | 6 => ⟨S_, .i32⟩
  | 7 => ⟨S160000, .i32⟩
  | 8 => ⟨S160000, .i1⟩
  | 9 => ⟨S_, .i32⟩
  | 10 => ⟨S160000, .i32⟩
  | 11 => ⟨S160000, .i32⟩
  | 12 => ⟨S160000, .i32⟩
  | 13 => ⟨S160000x1, .i32⟩
  | 14 => ⟨S160000x16, .f32⟩
  | 15 => ⟨S160000x16, .f32⟩
  | 16 => ⟨S160000x16, .f32⟩
  | 17 => ⟨S_, .f32⟩
  | 18 => ⟨S10000x16, .f32⟩
  | 19 => ⟨S160000x1, .i32⟩
  | 20 => ⟨S10000x16, .f32⟩
  | 21 => ⟨S_, .f32⟩
  | 22 => ⟨S10000x16, .f32⟩
  | 23 => ⟨S10000x16, .f32⟩
  | 24 => ⟨S10000x16, .f32⟩
  | 25 => ⟨S1x16x32, .f32⟩
  | 26 => ⟨S16x32, .f32⟩
  | 27 => ⟨S10000x32, .f32⟩
  | 28 => ⟨S10000x32, .f32⟩
  | 29 => ⟨S1x32, .f32⟩
  | 30 => ⟨S10000x32, .f32⟩
  | 31 => ⟨S10000x32, .f32⟩
  | 32 => ⟨S_, .f32⟩
  | 33 => ⟨S10000x32, .f32⟩
  | 34 => ⟨S10000x32, .f32⟩
  | 35 => ⟨S1x32x64, .f32⟩
  | 36 => ⟨S32x64, .f32⟩
  | 37 => ⟨S10000x64, .f32⟩
  | 38 => ⟨S160000x1, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x32, .f32⟩
  | 48 => ⟨S160000x32, .f32⟩
  | 49 => ⟨S160000x32, .f32⟩
  | 50 => ⟨S_, .f32⟩
  | 51 => ⟨S10000x32, .f32⟩
  | 52 => ⟨S160000x1, .i32⟩
  | 53 => ⟨S10000x32, .f32⟩
  | 54 => ⟨S1x32x64, .f32⟩
  | 55 => ⟨S32x64, .f32⟩
  | 56 => ⟨S10000x64, .f32⟩
  | 57 => ⟨S10000x64, .f32⟩
  | 58 => ⟨S160000x1, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000x32, .f32⟩
  | 68 => ⟨S160000x32, .f32⟩
  | 69 => ⟨S160000x32, .f32⟩
  | 70 => ⟨S_, .f32⟩
  | 71 => ⟨S10000x32, .f32⟩
  | 72 => ⟨S160000x1, .i32⟩
  | 73 => ⟨S10000x32, .f32⟩
  | 74 => ⟨S_, .f32⟩
  | 75 => ⟨S10000x32, .f32⟩
  | 76 => ⟨S10000x32, .f32⟩
  | 77 => ⟨S10000x32, .f32⟩
  | 78 => ⟨S1x32x64, .f32⟩
  | 79 => ⟨S32x64, .f32⟩
  | 80 => ⟨S10000x64, .f32⟩
  | 81 => ⟨S10000x64, .f32⟩
  | 82 => ⟨S1x64, .f32⟩
  | 83 => ⟨S10000x64, .f32⟩
  | 84 => ⟨S10000x64, .f32⟩
  | 85 => ⟨S_, .f32⟩
  | 86 => ⟨S10000x64, .f32⟩
  | 87 => ⟨S10000x64, .f32⟩
  | 88 => ⟨S1x64x128, .f32⟩
  | 89 => ⟨S64x128, .f32⟩
  | 90 => ⟨S10000x128, .f32⟩
  | 91 => ⟨S160000x1, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x64, .f32⟩
  | 101 => ⟨S160000x64, .f32⟩
  | 102 => ⟨S160000x64, .f32⟩
  | 103 => ⟨S_, .f32⟩
  | 104 => ⟨S10000x64, .f32⟩
  | 105 => ⟨S160000x1, .i32⟩
  | 106 => ⟨S10000x64, .f32⟩
  | 107 => ⟨S1x64x128, .f32⟩
  | 108 => ⟨S64x128, .f32⟩
  | 109 => ⟨S10000x128, .f32⟩
  | 110 => ⟨S10000x128, .f32⟩
  | 111 => ⟨S160000x1, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x64, .f32⟩
  | 121 => ⟨S160000x64, .f32⟩
  | 122 => ⟨S160000x64, .f32⟩
  | 123 => ⟨S_, .f32⟩
  | 124 => ⟨S10000x64, .f32⟩
  | 125 => ⟨S160000x1, .i32⟩
  | 126 => ⟨S10000x64, .f32⟩
  | 127 => ⟨S_, .f32⟩
  | _ => ⟨S10000x782, .f32⟩

abbrev hbmTy0_2 (i : Nat) : BufTy := match i % 128 with
  | 0 => ⟨S10000x64, .f32⟩
  | 1 => ⟨S10000x64, .f32⟩
  | 2 => ⟨S10000x64, .f32⟩
  | 3 => ⟨S1x64x128, .f32⟩
  | 4 => ⟨S64x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | 10 => ⟨S_, .f32⟩
  | 11 => ⟨S10000x128, .f32⟩
  | 12 => ⟨S10000x128, .f32⟩
  | 13 => ⟨S1x128x19, .f32⟩
  | 14 => ⟨S128x19, .f32⟩
  | 15 => ⟨S10000x19, .f32⟩
  | 16 => ⟨S160000x1, .f32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x128, .f32⟩
  | 26 => ⟨S160000x128, .f32⟩
  | 27 => ⟨S160000x128, .f32⟩
  | 28 => ⟨S_, .f32⟩
  | 29 => ⟨S10000x128, .f32⟩
  | 30 => ⟨S160000x1, .i32⟩
  | 31 => ⟨S10000x128, .f32⟩
  | 32 => ⟨S1x128x19, .f32⟩
  | 33 => ⟨S128x19, .f32⟩
  | 34 => ⟨S10000x19, .f32⟩
  | 35 => ⟨S10000x19, .f32⟩
  | 36 => ⟨S160000x1, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x128, .f32⟩
  | 46 => ⟨S160000x128, .f32⟩
  | 47 => ⟨S160000x128, .f32⟩
  | 48 => ⟨S_, .f32⟩
  | 49 => ⟨S10000x128, .f32⟩
  | 50 => ⟨S160000x1, .i32⟩
  | 51 => ⟨S10000x128, .f32⟩
  | 52 => ⟨S_, .f32⟩
  | 53 => ⟨S10000x128, .f32⟩
  | 54 => ⟨S10000x128, .f32⟩
  | 55 => ⟨S10000x128, .f32⟩
  | 56 => ⟨S1x128x19, .f32⟩
  | 57 => ⟨S128x19, .f32⟩
  | 58 => ⟨S10000x19, .f32⟩
  | 59 => ⟨S10000x19, .f32⟩
  | 60 => ⟨S1x19, .f32⟩
  | 61 => ⟨S10000x19, .f32⟩
  | 62 => ⟨S10000x19, .f32⟩
  | 63 => ⟨S_, .f32⟩
  | 64 => ⟨S10000, .f32⟩
  | 65 => ⟨S_, .f32⟩
  | 66 => ⟨S10000, .f32⟩
  | 67 => ⟨S10000, .f32⟩
  | 68 => ⟨S10000x1, .f32⟩
  | 69 => ⟨S10000x19, .f32⟩
  | 70 => ⟨S10000x19, .f32⟩
  | 71 => ⟨S10000x19, .f32⟩
  | 72 => ⟨S_, .f32⟩
  | 73 => ⟨S10000, .f32⟩
  | 74 => ⟨S10000x1, .f32⟩
  | 75 => ⟨S10000x19, .f32⟩
  | 76 => ⟨S10000x19, .f32⟩
  | _ => ⟨S10000x782, .f32⟩

abbrev hbmTy (i : Nat) : BufTy := match i / 128 with
  | 0 => hbmTy0_0 i
  | 1 => hbmTy0_1 i
  | 2 => hbmTy0_2 i
  | _ => ⟨S10000x782, .f32⟩

abbrev bufTy : (tb : Table) → Fin (tcTables nBuf tb) → BufTy
  | .hbm, ⟨i, _⟩ => hbmTy i
  | _, _ => ⟨S10000x782, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call1_cst : Ref sig .tc := ⟨.hbm, 107, rfl⟩
abbrev main_call1_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_17 : Ref sig .tc := ⟨.hbm, 134, rfl⟩
abbrev main_v99 : Ref sig .tc := ⟨.hbm, 135, rfl⟩
abbrev main_v100 : Ref sig .tc := ⟨.hbm, 136, rfl⟩
abbrev main_c_18 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_19 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_20 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call2_cst : Ref sig .tc := ⟨.hbm, 160, rfl⟩
abbrev main_call2_v0 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_c_21 : Ref sig .tc := ⟨.hbm, 167, rfl⟩
abbrev main_v126 : Ref sig .tc := ⟨.hbm, 168, rfl⟩
abbrev main_v127 : Ref sig .tc := ⟨.hbm, 169, rfl⟩
abbrev main_c_22 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_23 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_24 : Ref sig .tc := ⟨.hbm, 187, rfl⟩
abbrev main_v143 : Ref sig .tc := ⟨.hbm, 188, rfl⟩
abbrev main_v144 : Ref sig .tc := ⟨.hbm, 189, rfl⟩
abbrev main_c_25 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_26 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_27 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_call3_cst : Ref sig .tc := ⟨.hbm, 213, rfl⟩
abbrev main_call3_v0 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_c_28 : Ref sig .tc := ⟨.hbm, 220, rfl⟩
abbrev main_v170 : Ref sig .tc := ⟨.hbm, 221, rfl⟩
abbrev main_v171 : Ref sig .tc := ⟨.hbm, 222, rfl⟩
abbrev main_c_29 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_30 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_c_31 : Ref sig .tc := ⟨.hbm, 240, rfl⟩
abbrev main_v187 : Ref sig .tc := ⟨.hbm, 241, rfl⟩
abbrev main_v188 : Ref sig .tc := ⟨.hbm, 242, rfl⟩
abbrev main_c_32 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_cst_33 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_cst_34 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_call4_cst : Ref sig .tc := ⟨.hbm, 266, rfl⟩
abbrev main_call4_v0 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_c_35 : Ref sig .tc := ⟨.hbm, 273, rfl⟩
abbrev main_v214 : Ref sig .tc := ⟨.hbm, 274, rfl⟩
abbrev main_v215 : Ref sig .tc := ⟨.hbm, 275, rfl⟩
abbrev main_c_36 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_37 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_c_38 : Ref sig .tc := ⟨.hbm, 293, rfl⟩
abbrev main_v231 : Ref sig .tc := ⟨.hbm, 294, rfl⟩
abbrev main_v232 : Ref sig .tc := ⟨.hbm, 295, rfl⟩
abbrev main_c_39 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_cst_40 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_cst_41 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_cst_42 : Ref sig .tc := ⟨.hbm, 319, rfl⟩
abbrev main_v253 : Ref sig .tc := ⟨.hbm, 320, rfl⟩
abbrev main_cst_43 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_cst_44 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  slices_S3x782x16_S1x782x16_0_0_0 : S3x782x16.Slices ![0, 0, 0] S1x782x16
  shapeCasts_S1x782x16_S782x16 : S1x782x16.ShapeCasts S782x16
  bcast_S160000x1_S160000x782_0_1 : S160000x1.BroadcastsInDim S160000x782 (![0, 1] : Fin 2 → Fin S160000x782.rank)
  bcast_S_S10000x782 : S_.BroadcastsInDim S10000x782 (![] : Fin 0 → Fin S10000x782.rank)
  slices_S3x782x16_S1x782x16_1_0_0 : S3x782x16.Slices ![1, 0, 0] S1x782x16
  slices_S3x782x16_S1x782x16_2_0_0 : S3x782x16.Slices ![2, 0, 0] S1x782x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S3x16x32_S1x16x32_0_0_0 : S3x16x32.Slices ![0, 0, 0] S1x16x32
  shapeCasts_S1x16x32_S16x32 : S1x16x32.ShapeCasts S16x32
  bcast_S160000x1_S160000x16_0_1 : S160000x1.BroadcastsInDim S160000x16 (![0, 1] : Fin 2 → Fin S160000x16.rank)
  slices_S3x16x32_S1x16x32_1_0_0 : S3x16x32.Slices ![1, 0, 0] S1x16x32
  slices_S3x16x32_S1x16x32_2_0_0 : S3x16x32.Slices ![2, 0, 0] S1x16x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  slices_S3x32x64_S1x32x64_0_0_0 : S3x32x64.Slices ![0, 0, 0] S1x32x64
  shapeCasts_S1x32x64_S32x64 : S1x32x64.ShapeCasts S32x64
  bcast_S160000x1_S160000x32_0_1 : S160000x1.BroadcastsInDim S160000x32 (![0, 1] : Fin 2 → Fin S160000x32.rank)
  slices_S3x32x64_S1x32x64_1_0_0 : S3x32x64.Slices ![1, 0, 0] S1x32x64
  slices_S3x32x64_S1x32x64_2_0_0 : S3x32x64.Slices ![2, 0, 0] S1x32x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  slices_S3x64x128_S1x64x128_0_0_0 : S3x64x128.Slices ![0, 0, 0] S1x64x128
  shapeCasts_S1x64x128_S64x128 : S1x64x128.ShapeCasts S64x128
  bcast_S160000x1_S160000x64_0_1 : S160000x1.BroadcastsInDim S160000x64 (![0, 1] : Fin 2 → Fin S160000x64.rank)
  slices_S3x64x128_S1x64x128_1_0_0 : S3x64x128.Slices ![1, 0, 0] S1x64x128
  slices_S3x64x128_S1x64x128_2_0_0 : S3x64x128.Slices ![2, 0, 0] S1x64x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S3x128x19_S1x128x19_0_0_0 : S3x128x19.Slices ![0, 0, 0] S1x128x19
  shapeCasts_S1x128x19_S128x19 : S1x128x19.ShapeCasts S128x19
  bcast_S160000x1_S160000x128_0_1 : S160000x1.BroadcastsInDim S160000x128 (![0, 1] : Fin 2 → Fin S160000x128.rank)
  slices_S3x128x19_S1x128x19_1_0_0 : S3x128x19.Slices ![1, 0, 0] S1x128x19
  slices_S3x128x19_S1x128x19_2_0_0 : S3x128x19.Slices ![2, 0, 0] S1x128x19
  bcast_S19_S1x19_1 : S19.BroadcastsInDim S1x19 (![1] : Fin 1 → Fin S1x19.rank)
  bcast_S1x19_S10000x19_0_1 : S1x19.BroadcastsInDim S10000x19 (![0, 1] : Fin 2 → Fin S10000x19.rank)
  reducesTo_S10000x19_S10000_d1 : S10000x19.ReducesTo [1] S10000
  h_S_ : 0 < S_.numel
  bcast_S10000_S10000x1_0 : S10000.BroadcastsInDim S10000x1 (![0] : Fin 1 → Fin S10000x1.rank)
  bcast_S10000x1_S10000x19_0_1 : S10000x1.BroadcastsInDim S10000x19 (![0, 1] : Fin 2 → Fin S10000x19.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S10000x782_S782x16_S10000x16_1_0_0_1_n_n_wf : DotDims.WF S10000x782 S782x16 S10000x16 [1] [0] [0] [1] [] []
  gather_S10000x782_S160000x1_S160000x782_1_0_n_n_0_1_1782_wf : GatherDims.WF S10000x782 S160000x1 S160000x782 [1] [0] [] [0] [] 1 ![1, 782]
  scatter_S10000x782_S160000x1_S160000x782_1_0_0_1_wf : ScatterDims.WF S10000x782 S160000x1 S160000x782 [1] [0] [0] 1
  dot_S10000x16_S16x32_S10000x32_1_0_0_1_n_n_wf : DotDims.WF S10000x16 S16x32 S10000x32 [1] [0] [0] [1] [] []
  gather_S10000x16_S160000x1_S160000x16_1_0_n_n_0_1_116_wf : GatherDims.WF S10000x16 S160000x1 S160000x16 [1] [0] [] [0] [] 1 ![1, 16]
  scatter_S10000x16_S160000x1_S160000x16_1_0_0_1_wf : ScatterDims.WF S10000x16 S160000x1 S160000x16 [1] [0] [0] 1
  dot_S10000x32_S32x64_S10000x64_1_0_0_1_n_n_wf : DotDims.WF S10000x32 S32x64 S10000x64 [1] [0] [0] [1] [] []
  gather_S10000x32_S160000x1_S160000x32_1_0_n_n_0_1_132_wf : GatherDims.WF S10000x32 S160000x1 S160000x32 [1] [0] [] [0] [] 1 ![1, 32]
  scatter_S10000x32_S160000x1_S160000x32_1_0_0_1_wf : ScatterDims.WF S10000x32 S160000x1 S160000x32 [1] [0] [0] 1
  dot_S10000x64_S64x128_S10000x128_1_0_0_1_n_n_wf : DotDims.WF S10000x64 S64x128 S10000x128 [1] [0] [0] [1] [] []
  gather_S10000x64_S160000x1_S160000x64_1_0_n_n_0_1_164_wf : GatherDims.WF S10000x64 S160000x1 S160000x64 [1] [0] [] [0] [] 1 ![1, 64]
  scatter_S10000x64_S160000x1_S160000x64_1_0_0_1_wf : ScatterDims.WF S10000x64 S160000x1 S160000x64 [1] [0] [0] 1
  dot_S10000x128_S128x19_S10000x19_1_0_0_1_n_n_wf : DotDims.WF S10000x128 S128x19 S10000x19 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x782_S782x16_S10000x16_1_0_0_1_n_n : DotDims S10000x782 S782x16 S10000x16 where
  lhsContracting := [1]
  rhsContracting := [0]
  lhsNonContracting := [0]
  rhsNonContracting := [1]
  lhsBatch := []
  rhsBatch := []
  wf := dot_S10000x782_S782x16_S10000x16_1_0_0_1_n_n_wf
def gather_S10000x782_S160000x1_S160000x782_1_0_n_n_0_1_1782 : GatherDims S10000x782 S160000x1 S160000x782 where
  offsetDims := [1]
  collapsedSliceDims := [0]
  operandBatchingDims := []
  startIndicesBatchingDims := []
  startIndexMap := [0]
  indexVectorDim := 1
  sliceSizes := ![1, 782]
  wf := gather_S10000x782_S160000x1_S160000x782_1_0_n_n_0_1_1782_wf
def scatter_S10000x782_S160000x1_S160000x782_1_0_0_1 : ScatterDims S10000x782 S160000x1 S160000x782 where
  updateWindowDims := [1]
  insertedWindowDims := [0]
  scatterDimsToOperandDims := [0]
  indexVectorDim := 1
  wf := scatter_S10000x782_S160000x1_S160000x782_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S10000x16_S160000x1_S160000x16_1_0_n_n_0_1_116 : GatherDims S10000x16 S160000x1 S160000x16 where
  offsetDims := [1]
  collapsedSliceDims := [0]
  operandBatchingDims := []
  startIndicesBatchingDims := []
  startIndexMap := [0]
  indexVectorDim := 1
  sliceSizes := ![1, 16]
  wf := gather_S10000x16_S160000x1_S160000x16_1_0_n_n_0_1_116_wf
def scatter_S10000x16_S160000x1_S160000x16_1_0_0_1 : ScatterDims S10000x16 S160000x1 S160000x16 where
  updateWindowDims := [1]
  insertedWindowDims := [0]
  scatterDimsToOperandDims := [0]
  indexVectorDim := 1
  wf := scatter_S10000x16_S160000x1_S160000x16_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S10000x32_S160000x1_S160000x32_1_0_n_n_0_1_132 : GatherDims S10000x32 S160000x1 S160000x32 where
  offsetDims := [1]
  collapsedSliceDims := [0]
  operandBatchingDims := []
  startIndicesBatchingDims := []
  startIndexMap := [0]
  indexVectorDim := 1
  sliceSizes := ![1, 32]
  wf := gather_S10000x32_S160000x1_S160000x32_1_0_n_n_0_1_132_wf
def scatter_S10000x32_S160000x1_S160000x32_1_0_0_1 : ScatterDims S10000x32 S160000x1 S160000x32 where
  updateWindowDims := [1]
  insertedWindowDims := [0]
  scatterDimsToOperandDims := [0]
  indexVectorDim := 1
  wf := scatter_S10000x32_S160000x1_S160000x32_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S10000x64_S160000x1_S160000x64_1_0_n_n_0_1_164 : GatherDims S10000x64 S160000x1 S160000x64 where
  offsetDims := [1]
  collapsedSliceDims := [0]
  operandBatchingDims := []
  startIndicesBatchingDims := []
  startIndexMap := [0]
  indexVectorDim := 1
  sliceSizes := ![1, 64]
  wf := gather_S10000x64_S160000x1_S160000x64_1_0_n_n_0_1_164_wf
def scatter_S10000x64_S160000x1_S160000x64_1_0_0_1 : ScatterDims S10000x64 S160000x1 S160000x64 where
  updateWindowDims := [1]
  insertedWindowDims := [0]
  scatterDimsToOperandDims := [0]
  indexVectorDim := 1
  wf := scatter_S10000x64_S160000x1_S160000x64_1_0_0_1_wf
def dot_S10000x128_S128x19_S10000x19_1_0_0_1_n_n : DotDims S10000x128 S128x19 S10000x19 where
  lhsContracting := [1]
  rhsContracting := [0]
  lhsNonContracting := [0]
  rhsNonContracting := [1]
  lhsBatch := []
  rhsBatch := []
  wf := dot_S10000x128_S128x19_S10000x19_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf

class Facts : Prop extends Facts₀ where

variable [Facts]
-- ==== Proof.KernelRun.lean ====
/-
  The kernel program's run with its RESULT named. The program is twelve segments: stretches of host operations and
  five pipelined regions. Every weakly fair execution terminates without a fault, and every unscoped buffer ends at the
  contents the last boundary of the segment fold gives it (`run_all`); in particular each argument array ends as
  launched and the result array ends at the host operations after the fifth region applied to what that region's
  write-backs left (`run`).
-/
import proofs.«120706_j28956669510215_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of the kernel program terminates, nothing faulting, and EVERY unscoped buffer of the
    TensorCore ends at the contents the last boundary of the segment fold gives it: the launch theorem over the twelve
    segments, its final read kept whole. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result array and the twelve argument arrays, read off `run_all`: the result ends at the last boundary's contents
    of its buffer, each argument as launched. -/
theorem run : θ_run defs (onTc (τ := τ) (main (F := F))) ⟨m, fun _ => 0, ρ⟩ (fun r => ∀ c : Dev nD,
      r.2.mem ((c.tc : Thread nD τ).loc main_v231) = W12 m ρ c (Proc.devRef .tc main_v231)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v231 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)
    (run_all m ρ)

end Cert.KernelIdeal.RunValue

end
-- ==== Proof.EdgeOps.lean ====
/-
  What both programs compute from the edge list before any layer runs. An edge list is an integer array [2, 160000]: row 0
  the source node of each edge, row 1 its target. From it: the two endpoint arrays; an endpoint array as a column of
  gather start indices (a negative entry is wrapped once by the node count 10000; the gather then clamps into range); the
  out-degree of every node (a scatter-add of ones at the sources: a start index outside [0, 10000) is dropped); its
  inverse square root where the degree is positive and 0 elsewhere; and the edge weight
  -dinv[source] * dinv[target]. They are written here once, as the host operations spell them, so that the kernel
  program's buffers and the reference's stages can both be identified with them.
-/
import proofs.«120706_j28956669510215_2_alg».proof.Proof.Gen.KernelIdeal
import Idealize.ShloMosaic.PureOps.Ideal.Laws

noncomputable section

namespace Cert.KernelIdeal.Edge

open Cert.KernelIdeal Cert.KernelIdeal.Facts₀ Cert.KernelIdeal.Facts Idealize.ShloMosaic

/-- The source node of each edge. -/
def src (ei : IVec S2x160000 32) : IVec S160000 32 :=
  shapeCast S160000 (extractStridedSlice S1x160000 ![0, 0] ei slices_S2x160000_S1x160000_0_0) shapeCasts_S1x160000_S160000

/-- The target node of each edge. -/
def dst (ei : IVec S2x160000 32) : IVec S160000 32 :=
  shapeCast S160000 (extractStridedSlice S1x160000 ![1, 0] ei slices_S2x160000_S1x160000_1_0) shapeCasts_S1x160000_S160000

/-- An endpoint array as a column [160000, 1] (the form a scatter takes its indices in). -/
def col (s : IVec S160000 32) : IVec S160000x1 32 :=
  broadcastInDim S160000x1 ![0] bcast_S160000_S160000x1_0 s

/-- An endpoint array as gather start indices: a negative entry wrapped once by the node count, then the column. -/
def startIdx (s : IVec S160000 32) : IVec S160000x1 32 :=
  col (select (cmpi .slt s (broadcastInDim S160000 ![] bcast_S_S160000 (constantI S_ 32 0#32)))
    (addi s (broadcastInDim S160000 ![] bcast_S_S160000 (constantI S_ 32 10000#32))) s)

/-- The out-degree of every node: ones added at the sources onto zeros. -/
def deg (ei : IVec S2x160000 32) : FVec Ideal S10000 .f32 :=
  Host.scatterAdd (F := Ideal) scatter_S10000_S160000x1_S160000_n_0_0_1
    (broadcastInDim S10000 ![] bcast_S_S10000 (constant (F := Ideal) S_ .f32 0x00000000#32))
    (col (src ei))
    (broadcastInDim S160000 ![] bcast_S_S160000 (constant (F := Ideal) S_ .f32 0x3F800000#32))

/-- 1 / sqrt(degree) where the degree is positive, 0 elsewhere. -/
def dinv (ei : IVec S2x160000 32) : FVec Ideal S10000 .f32 :=
  select (cmpf .ogt (deg ei) (broadcastInDim S10000 ![] bcast_S_S10000 (constant (F := Ideal) S_ .f32 0x00000000#32)))
    (Host.divf (F := Ideal) (broadcastInDim S10000 ![] bcast_S_S10000 (constant (F := Ideal) S_ .f32 0x3F800000#32))
      (Host.sqrt (F := Ideal) (deg ei)))
    (broadcastInDim S10000 ![] bcast_S_S10000 (constant (F := Ideal) S_ .f32 0x00000000#32))

/-- The weight of each edge: -dinv[source] * dinv[target]. -/
def weight (ei : IVec S2x160000 32) : FVec Ideal S160000 .f32 :=
  mulf (Host.negf (F := Ideal) (Host.gather gather_S10000_S160000x1_S160000_n_0_n_n_0_1_1 (dinv ei) (startIdx (src ei))))
    (Host.gather gather_S10000_S160000x1_S160000_n_0_n_n_0_1_1 (dinv ei) (startIdx (dst ei)))

end Cert.KernelIdeal.Edge

end
-- ==== Proof.KernelEdge.lean ====
import proofs.«120706_j28956669510215_2_alg».proof.Proof.Gen.KernelIdeal.Frame
import proofs.«120706_j28956669510215_2_alg».proof.Proof.EdgeOps
import Idealize.ShloMosaic.PureOps.Ideal.Laws
import Idealize.ShloMosaic.Lib.StableHlo.Run

set_option maxRecDepth 16384

noncomputable section

/-! # What the edge buffers and the arguments hold along the program

Before the first layer the program computes, on the host, the two endpoint arrays of the edge list, the
node degrees, their inverse square roots and the edge weights. No later host operation writes any of
these buffers and no region stages them, so each layer finds them as they were computed. The same holds
for the arguments: nothing writes an argument, a region that reads one through an input window leaves
its array as it found it, and every other region does not touch it. -/

namespace Cert.KernelIdeal.Chain

open Cert.KernelIdeal Cert.KernelIdeal.Gen
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg) (c : Dev nD)

/-- A buffer that no operation of a host stretch writes holds after the stretch what it held before. -/
local macro "stretch_skips " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- The edge list as launched. -/
abbrev EI : IVec S2x160000 32 := m ((c : Thread nD τ).loc main_arg1)

/-! ## The first host stretch: endpoints, degrees and the pieces of the inverse square root -/

theorem W1_src : W1 (F := Ideal) m ρ c (Proc.devRef .tc main_v1) = Edge.src (EI m c) := by
  show StableHlo.after hostOps0 (W0 m ρ c) (Proc.devRef .tc main_v1) = _
  after_results_simp
  rfl
theorem W1_dst : W1 (F := Ideal) m ρ c (Proc.devRef .tc main_v3) = Edge.dst (EI m c) := by
  show StableHlo.after hostOps0 (W0 m ρ c) (Proc.devRef .tc main_v3) = _
  after_results_simp
  rfl
/-- Where the degree is positive, -/
theorem W1_pos : W1 (F := Ideal) m ρ c (Proc.devRef .tc main_v9)
    = cmpf .ogt (Edge.deg (EI m c)) (broadcastInDim S10000 ![] bcast_S_S10000 (constant (F := Ideal) S_ .f32 0x00000000#32)) := by
  show StableHlo.after hostOps0 (W0 m ρ c) (Proc.devRef .tc main_v9) = _
  after_results_simp
  rfl
/-- one over the square root of the degree, -/
theorem W1_rsqrt : W1 (F := Ideal) m ρ c (Proc.devRef .tc main_v12)
    = Host.divf (F := Ideal) (broadcastInDim S10000 ![] bcast_S_S10000 (constant (F := Ideal) S_ .f32 0x3F800000#32))
        (Host.sqrt (F := Ideal) (Edge.deg (EI m c))) := by
  show StableHlo.after hostOps0 (W0 m ρ c) (Proc.devRef .tc main_v12) = _
  after_results_simp
  rfl
/-- and the zero that stands in where the degree is not positive. -/
theorem W1_zero : W1 (F := Ideal) m ρ c (Proc.devRef .tc main_cst_3) = constant (F := Ideal) S_ .f32 0x00000000#32 := by
  show StableHlo.after hostOps0 (W0 m ρ c) (Proc.devRef .tc main_cst_3) = _
  after_results_simp

/-! ## The second stretch selects between them -/

/-- The selection, from whatever the three buffers hold. -/
theorem select_of (V1 : Valuation τ sig (Elt Ideal)) :
    StableHlo.after hostOps0_1 V1 (Proc.devRef .tc main_v13)
      = (select (V1 (Proc.devRef .tc main_v9)) (V1 (Proc.devRef .tc main_v12))
          (broadcastInDim S10000 ![] bcast_S_S10000 (V1 (Proc.devRef .tc main_cst_3))) : FVec Ideal S10000 .f32) := by
  after_results_simp
  rfl
theorem W2_dinv : W2 (F := Ideal) m ρ c (Proc.devRef .tc main_v13) = Edge.dinv (EI m c) := by
  show StableHlo.after hostOps0_1 (W1 m ρ c) (Proc.devRef .tc main_v13) = _
  rw [select_of, W1_pos, W1_rsqrt, W1_zero]
  rfl
theorem W2_src : W2 (F := Ideal) m ρ c (Proc.devRef .tc main_v1) = Edge.src (EI m c) :=
  (by stretch_skips hostOps0_1 : W2 (F := Ideal) m ρ c (Proc.devRef .tc main_v1) = W1 m ρ c (Proc.devRef .tc main_v1)).trans (W1_src m ρ c)
theorem W2_dst : W2 (F := Ideal) m ρ c (Proc.devRef .tc main_v3) = Edge.dst (EI m c) :=
  (by stretch_skips hostOps0_1 : W2 (F := Ideal) m ρ c (Proc.devRef .tc main_v3) = W1 m ρ c (Proc.devRef .tc main_v3)).trans (W1_dst m ρ c)

/-! ## The third stretch gathers them at the endpoints and multiplies -/

theorem W3_src : W3 (F := Ideal) m ρ c (Proc.devRef .tc main_v1) = Edge.src (EI m c) :=
  (by stretch_skips hostOps0_2 : W3 (F := Ideal) m ρ c (Proc.devRef .tc main_v1) = W2 m ρ c (Proc.devRef .tc main_v1)).trans (W2_src m ρ c)
theorem W3_dst : W3 (F := Ideal) m ρ c (Proc.devRef .tc main_v3) = Edge.dst (EI m c) :=
  (by stretch_skips hostOps0_2 : W3 (F := Ideal) m ρ c (Proc.devRef .tc main_v3) = W2 m ρ c (Proc.devRef .tc main_v3)).trans (W2_dst m ρ c)
theorem W3_weight : W3 (F := Ideal) m ρ c (Proc.devRef .tc main_v29) = Edge.weight (EI m c) := by
  show StableHlo.after hostOps0_2 (W2 m ρ c) (Proc.devRef .tc main_v29) = _
  generalize hV : W2 (F := Ideal) m ρ c = V2
  after_results_simp
  subst hV
  rw [W2_dinv, W2_src, W2_dst]
  rfl

/-! ## The endpoints and the weights reach every layer unchanged

No region stages `main_v1`, `main_v3` or `main_v29` and no later host operation writes them. -/

theorem W4_src : W4 (F := Ideal) m ρ c (Proc.devRef .tc main_v1) = Edge.src (EI m c) :=
  (W4_of_ne m ρ c main_v1 (by decide)).trans (W3_src m ρ c)
theorem W5_src : W5 (F := Ideal) m ρ c (Proc.devRef .tc main_v1) = Edge.src (EI m c) :=
  (by stretch_skips hostOps1 : W5 (F := Ideal) m ρ c (Proc.devRef .tc main_v1) = W4 m ρ c (Proc.devRef .tc main_v1)).trans (W4_src m ρ c)
theorem W6_src : W6 (F := Ideal) m ρ c (Proc.devRef .tc main_v1) = Edge.src (EI m c) :=
  (W6_of_ne m ρ c main_v1 (by decide)).trans (W5_src m ρ c)
theorem W7_src : W7 (F := Ideal) m ρ c (Proc.devRef .tc main_v1) = Edge.src (EI m c) :=
  (by stretch_skips hostOps2 : W7 (F := Ideal) m ρ c (Proc.devRef .tc main_v1) = W6 m ρ c (Proc.devRef .tc main_v1)).trans (W6_src m ρ c)
theorem W8_src : W8 (F := Ideal) m ρ c (Proc.devRef .tc main_v1) = Edge.src (EI m c) :=
  (W8_of_ne m ρ c main_v1 (by decide)).trans (W7_src m ρ c)
theorem W9_src : W9 (F := Ideal) m ρ c (Proc.devRef .tc main_v1) = Edge.src (EI m c) :=
  (by stretch_skips hostOps3 : W9 (F := Ideal) m ρ c (Proc.devRef .tc main_v1) = W8 m ρ c (Proc.devRef .tc main_v1)).trans (W8_src m ρ c)
theorem W10_src : W10 (F := Ideal) m ρ c (Proc.devRef .tc main_v1) = Edge.src (EI m c) :=
  (W10_of_ne m ρ c main_v1 (by decide)).trans (W9_src m ρ c)
theorem W11_src : W11 (F := Ideal) m ρ c (Proc.devRef .tc main_v1) = Edge.src (EI m c) :=
  (W11_of_ne m ρ c main_v1 (by decide)).trans (W10_src m ρ c)

theorem W4_dst : W4 (F := Ideal) m ρ c (Proc.devRef .tc main_v3) = Edge.dst (EI m c) :=
  (W4_of_ne m ρ c main_v3 (by decide)).trans (W3_dst m ρ c)
theorem W5_dst : W5 (F := Ideal) m ρ c (Proc.devRef .tc main_v3) = Edge.dst (EI m c) :=
  (by stretch_skips hostOps1 : W5 (F := Ideal) m ρ c (Proc.devRef .tc main_v3) = W4 m ρ c (Proc.devRef .tc main_v3)).trans (W4_dst m ρ c)
theorem W6_dst : W6 (F := Ideal) m ρ c (Proc.devRef .tc main_v3) = Edge.dst (EI m c) :=
  (W6_of_ne m ρ c main_v3 (by decide)).trans (W5_dst m ρ c)
theorem W7_dst : W7 (F := Ideal) m ρ c (Proc.devRef .tc main_v3) = Edge.dst (EI m c) :=
  (by stretch_skips hostOps2 : W7 (F := Ideal) m ρ c (Proc.devRef .tc main_v3) = W6 m ρ c (Proc.devRef .tc main_v3)).trans (W6_dst m ρ c)
theorem W8_dst : W8 (F := Ideal) m ρ c (Proc.devRef .tc main_v3) = Edge.dst (EI m c) :=
  (W8_of_ne m ρ c main_v3 (by decide)).trans (W7_dst m ρ c)
theorem W9_dst : W9 (F := Ideal) m ρ c (Proc.devRef .tc main_v3) = Edge.dst (EI m c) :=
  (by stretch_skips hostOps3 : W9 (F := Ideal) m ρ c (Proc.devRef .tc main_v3) = W8 m ρ c (Proc.devRef .tc main_v3)).trans (W8_dst m ρ c)
theorem W10_dst : W10 (F := Ideal) m ρ c (Proc.devRef .tc main_v3) = Edge.dst (EI m c) :=
  (W10_of_ne m ρ c main_v3 (by decide)).trans (W9_dst m ρ c)
theorem W11_dst : W11 (F := Ideal) m ρ c (Proc.devRef .tc main_v3) = Edge.dst (EI m c) :=
  (W11_of_ne m ρ c main_v3 (by decide)).trans (W10_dst m ρ c)

theorem W4_weight : W4 (F := Ideal) m ρ c (Proc.devRef .tc main_v29) = Edge.weight (EI m c) :=
  (W4_of_ne m ρ c main_v29 (by decide)).trans (W3_weight m ρ c)
theorem W5_weight : W5 (F := Ideal) m ρ c (Proc.devRef .tc main_v29) = Edge.weight (EI m c) :=
  (by stretch_skips hostOps1 : W5 (F := Ideal) m ρ c (Proc.devRef .tc main_v29) = W4 m ρ c (Proc.devRef .tc main_v29)).trans (W4_weight m ρ c)
theorem W6_weight : W6 (F := Ideal) m ρ c (Proc.devRef .tc main_v29) = Edge.weight (EI m c) :=
  (W6_of_ne m ρ c main_v29 (by decide)).trans (W5_weight m ρ c)
theorem W7_weight : W7 (F := Ideal) m ρ c (Proc.devRef .tc main_v29) = Edge.weight (EI m c) :=
  (by stretch_skips hostOps2 : W7 (F := Ideal) m ρ c (Proc.devRef .tc main_v29) = W6 m ρ c (Proc.devRef .tc main_v29)).trans (W6_weight m ρ c)
theorem W8_weight : W8 (F := Ideal) m ρ c (Proc.devRef .tc main_v29) = Edge.weight (EI m c) :=
  (W8_of_ne m ρ c main_v29 (by decide)).trans (W7_weight m ρ c)
theorem W9_weight : W9 (F := Ideal) m ρ c (Proc.devRef .tc main_v29) = Edge.weight (EI m c) :=
  (by stretch_skips hostOps3 : W9 (F := Ideal) m ρ c (Proc.devRef .tc main_v29) = W8 m ρ c (Proc.devRef .tc main_v29)).trans (W8_weight m ρ c)
theorem W10_weight : W10 (F := Ideal) m ρ c (Proc.devRef .tc main_v29) = Edge.weight (EI m c) :=
  (W10_of_ne m ρ c main_v29 (by decide)).trans (W9_weight m ρ c)
theorem W11_weight : W11 (F := Ideal) m ρ c (Proc.devRef .tc main_v29) = Edge.weight (EI m c) :=
  (W11_of_ne m ρ c main_v29 (by decide)).trans (W10_weight m ρ c)

/-! ## Each argument where it is read

An argument is written by nothing: the host stretches before its reader do not name it as a result and
the regions before its reader do not stage it. -/

theorem W3_arg0 : W3 (F := Ideal) m ρ c (Proc.devRef .tc main_arg0) = m ((c : Thread nD τ).loc main_arg0) :=
  (by stretch_skips hostOps0_2 : W3 (F := Ideal) m ρ c (Proc.devRef .tc main_arg0) = W2 m ρ c (Proc.devRef .tc main_arg0)).trans <|
  (by stretch_skips hostOps0_1 : W2 (F := Ideal) m ρ c (Proc.devRef .tc main_arg0) = W1 m ρ c (Proc.devRef .tc main_arg0)).trans <|
  (by stretch_skips hostOps0 : W1 (F := Ideal) m ρ c (Proc.devRef .tc main_arg0) = W0 m ρ c (Proc.devRef .tc main_arg0)).trans <|
  rfl

theorem W3_arg2 : W3 (F := Ideal) m ρ c (Proc.devRef .tc main_arg2) = m ((c : Thread nD τ).loc main_arg2) :=
  (by stretch_skips hostOps0_2 : W3 (F := Ideal) m ρ c (Proc.devRef .tc main_arg2) = W2 m ρ c (Proc.devRef .tc main_arg2)).trans <|
  (by stretch_skips hostOps0_1 : W2 (F := Ideal) m ρ c (Proc.devRef .tc main_arg2) = W1 m ρ c (Proc.devRef .tc main_arg2)).trans <|
  (by stretch_skips hostOps0 : W1 (F := Ideal) m ρ c (Proc.devRef .tc main_arg2) = W0 m ρ c (Proc.devRef .tc main_arg2)).trans <|
  rfl

theorem W4_arg3 : W4 (F := Ideal) m ρ c (Proc.devRef .tc main_arg3) = m ((c : Thread nD τ).loc main_arg3) :=
  (W4_of_ne m ρ c main_arg3 (by decide)).trans <|
  (by stretch_skips hostOps0_2 : W3 (F := Ideal) m ρ c (Proc.devRef .tc main_arg3) = W2 m ρ c (Proc.devRef .tc main_arg3)).trans <|
  (by stretch_skips hostOps0_1 : W2 (F := Ideal) m ρ c (Proc.devRef .tc main_arg3) = W1 m ρ c (Proc.devRef .tc main_arg3)).trans <|
  (by stretch_skips hostOps0 : W1 (F := Ideal) m ρ c (Proc.devRef .tc main_arg3) = W0 m ρ c (Proc.devRef .tc main_arg3)).trans <|
  rfl

theorem W4_arg5 : W4 (F := Ideal) m ρ c (Proc.devRef .tc main_arg5) = m ((c : Thread nD τ).loc main_arg5) :=
  (W4_of_ne m ρ c main_arg5 (by decide)).trans <|
  (by stretch_skips hostOps0_2 : W3 (F := Ideal) m ρ c (Proc.devRef .tc main_arg5) = W2 m ρ c (Proc.devRef .tc main_arg5)).trans <|
  (by stretch_skips hostOps0_1 : W2 (F := Ideal) m ρ c (Proc.devRef .tc main_arg5) = W1 m ρ c (Proc.devRef .tc main_arg5)).trans <|
  (by stretch_skips hostOps0 : W1 (F := Ideal) m ρ c (Proc.devRef .tc main_arg5) = W0 m ρ c (Proc.devRef .tc main_arg5)).trans <|
  rfl

theorem W5_arg4 : W5 (F := Ideal) m ρ c (Proc.devRef .tc main_arg4) = m ((c : Thread nD τ).loc main_arg4) :=
  (by stretch_skips hostOps1 : W5 (F := Ideal) m ρ c (Proc.devRef .tc main_arg4) = W4 m ρ c (Proc.devRef .tc main_arg4)).trans <|
  (W4_of_ne m ρ c main_arg4 (by decide)).trans <|
  (by stretch_skips hostOps0_2 : W3 (F := Ideal) m ρ c (Proc.devRef .tc main_arg4) = W2 m ρ c (Proc.devRef .tc main_arg4)).trans <|
  (by stretch_skips hostOps0_1 : W2 (F := Ideal) m ρ c (Proc.devRef .tc main_arg4) = W1 m ρ c (Proc.devRef .tc main_arg4)).trans <|
  (by stretch_skips hostOps0 : W1 (F := Ideal) m ρ c (Proc.devRef .tc main_arg4) = W0 m ρ c (Proc.devRef .tc main_arg4)).trans <|
  rfl

theorem W6_arg7 : W6 (F := Ideal) m ρ c (Proc.devRef .tc main_arg7) = m ((c : Thread nD τ).loc main_arg7) :=
  (W6_of_ne m ρ c main_arg7 (by decide)).trans <|
  (by stretch_skips hostOps1 : W5 (F := Ideal) m ρ c (Proc.devRef .tc main_arg7) = W4 m ρ c (Proc.devRef .tc main_arg7)).trans <|
  (W4_of_ne m ρ c main_arg7 (by decide)).trans <|
  (by stretch_skips hostOps0_2 : W3 (F := Ideal) m ρ c (Proc.devRef .tc main_arg7) = W2 m ρ c (Proc.devRef .tc main_arg7)).trans <|
  (by stretch_skips hostOps0_1 : W2 (F := Ideal) m ρ c (Proc.devRef .tc main_arg7) = W1 m ρ c (Proc.devRef .tc main_arg7)).trans <|
  (by stretch_skips hostOps0 : W1 (F := Ideal) m ρ c (Proc.devRef .tc main_arg7) = W0 m ρ c (Proc.devRef .tc main_arg7)).trans <|
  rfl

theorem W7_arg6 : W7 (F := Ideal) m ρ c (Proc.devRef .tc main_arg6) = m ((c : Thread nD τ).loc main_arg6) :=
  (by stretch_skips hostOps2 : W7 (F := Ideal) m ρ c (Proc.devRef .tc main_arg6) = W6 m ρ c (Proc.devRef .tc main_arg6)).trans <|
  (W6_of_ne m ρ c main_arg6 (by decide)).trans <|
  (by stretch_skips hostOps1 : W5 (F := Ideal) m ρ c (Proc.devRef .tc main_arg6) = W4 m ρ c (Proc.devRef .tc main_arg6)).trans <|
  (W4_of_ne m ρ c main_arg6 (by decide)).trans <|
  (by stretch_skips hostOps0_2 : W3 (F := Ideal) m ρ c (Proc.devRef .tc main_arg6) = W2 m ρ c (Proc.devRef .tc main_arg6)).trans <|
  (by stretch_skips hostOps0_1 : W2 (F := Ideal) m ρ c (Proc.devRef .tc main_arg6) = W1 m ρ c (Proc.devRef .tc main_arg6)).trans <|
  (by stretch_skips hostOps0 : W1 (F := Ideal) m ρ c (Proc.devRef .tc main_arg6) = W0 m ρ c (Proc.devRef .tc main_arg6)).trans <|
  rfl

theorem W8_arg9 : W8 (F := Ideal) m ρ c (Proc.devRef .tc main_arg9) = m ((c : Thread nD τ).loc main_arg9) :=
  (W8_of_ne m ρ c main_arg9 (by decide)).trans <|
  (by stretch_skips hostOps2 : W7 (F := Ideal) m ρ c (Proc.devRef .tc main_arg9) = W6 m ρ c (Proc.devRef .tc main_arg9)).trans <|
  (W6_of_ne m ρ c main_arg9 (by decide)).trans <|
  (by stretch_skips hostOps1 : W5 (F := Ideal) m ρ c (Proc.devRef .tc main_arg9) = W4 m ρ c (Proc.devRef .tc main_arg9)).trans <|
  (W4_of_ne m ρ c main_arg9 (by decide)).trans <|
  (by stretch_skips hostOps0_2 : W3 (F := Ideal) m ρ c (Proc.devRef .tc main_arg9) = W2 m ρ c (Proc.devRef .tc main_arg9)).trans <|
  (by stretch_skips hostOps0_1 : W2 (F := Ideal) m ρ c (Proc.devRef .tc main_arg9) = W1 m ρ c (Proc.devRef .tc main_arg9)).trans <|
  (by stretch_skips hostOps0 : W1 (F := Ideal) m ρ c (Proc.devRef .tc main_arg9) = W0 m ρ c (Proc.devRef .tc main_arg9)).trans <|
  rfl

theorem W9_arg8 : W9 (F := Ideal) m ρ c (Proc.devRef .tc main_arg8) = m ((c : Thread nD τ).loc main_arg8) :=
  (by stretch_skips hostOps3 : W9 (F := Ideal) m ρ c (Proc.devRef .tc main_arg8) = W8 m ρ c (Proc.devRef .tc main_arg8)).trans <|
  (W8_of_ne m ρ c main_arg8 (by decide)).trans <|
  (by stretch_skips hostOps2 : W7 (F := Ideal) m ρ c (Proc.devRef .tc main_arg8) = W6 m ρ c (Proc.devRef .tc main_arg8)).trans <|
  (W6_of_ne m ρ c main_arg8 (by decide)).trans <|
  (by stretch_skips hostOps1 : W5 (F := Ideal) m ρ c (Proc.devRef .tc main_arg8) = W4 m ρ c (Proc.devRef .tc main_arg8)).trans <|
  (W4_of_ne m ρ c main_arg8 (by decide)).trans <|
  (by stretch_skips hostOps0_2 : W3 (F := Ideal) m ρ c (Proc.devRef .tc main_arg8) = W2 m ρ c (Proc.devRef .tc main_arg8)).trans <|
  (by stretch_skips hostOps0_1 : W2 (F := Ideal) m ρ c (Proc.devRef .tc main_arg8) = W1 m ρ c (Proc.devRef .tc main_arg8)).trans <|
  (by stretch_skips hostOps0 : W1 (F := Ideal) m ρ c (Proc.devRef .tc main_arg8) = W0 m ρ c (Proc.devRef .tc main_arg8)).trans <|
  rfl

theorem W10_arg10 : W10 (F := Ideal) m ρ c (Proc.devRef .tc main_arg10) = m ((c : Thread nD τ).loc main_arg10) :=
  (W10_of_ne m ρ c main_arg10 (by decide)).trans <|
  (by stretch_skips hostOps3 : W9 (F := Ideal) m ρ c (Proc.devRef .tc main_arg10) = W8 m ρ c (Proc.devRef .tc main_arg10)).trans <|
  (W8_of_ne m ρ c main_arg10 (by decide)).trans <|
  (by stretch_skips hostOps2 : W7 (F := Ideal) m ρ c (Proc.devRef .tc main_arg10) = W6 m ρ c (Proc.devRef .tc main_arg10)).trans <|
  (W6_of_ne m ρ c main_arg10 (by decide)).trans <|
  (by stretch_skips hostOps1 : W5 (F := Ideal) m ρ c (Proc.devRef .tc main_arg10) = W4 m ρ c (Proc.devRef .tc main_arg10)).trans <|
  (W4_of_ne m ρ c main_arg10 (by decide)).trans <|
  (by stretch_skips hostOps0_2 : W3 (F := Ideal) m ρ c (Proc.devRef .tc main_arg10) = W2 m ρ c (Proc.devRef .tc main_arg10)).trans <|
  (by stretch_skips hostOps0_1 : W2 (F := Ideal) m ρ c (Proc.devRef .tc main_arg10) = W1 m ρ c (Proc.devRef .tc main_arg10)).trans <|
  (by stretch_skips hostOps0 : W1 (F := Ideal) m ρ c (Proc.devRef .tc main_arg10) = W0 m ρ c (Proc.devRef .tc main_arg10)).trans <|
  rfl

theorem W11_arg11 : W11 (F := Ideal) m ρ c (Proc.devRef .tc main_arg11) = m ((c : Thread nD τ).loc main_arg11) :=
  (W11_of_ne m ρ c main_arg11 (by decide)).trans <|
  (W10_of_ne m ρ c main_arg11 (by decide)).trans <|
  (by stretch_skips hostOps3 : W9 (F := Ideal) m ρ c (Proc.devRef .tc main_arg11) = W8 m ρ c (Proc.devRef .tc main_arg11)).trans <|
  (W8_of_ne m ρ c main_arg11 (by decide)).trans <|
  (by stretch_skips hostOps2 : W7 (F := Ideal) m ρ c (Proc.devRef .tc main_arg11) = W6 m ρ c (Proc.devRef .tc main_arg11)).trans <|
  (W6_of_ne m ρ c main_arg11 (by decide)).trans <|
  (by stretch_skips hostOps1 : W5 (F := Ideal) m ρ c (Proc.devRef .tc main_arg11) = W4 m ρ c (Proc.devRef .tc main_arg11)).trans <|
  (W4_of_ne m ρ c main_arg11 (by decide)).trans <|
  (by stretch_skips hostOps0_2 : W3 (F := Ideal) m ρ c (Proc.devRef .tc main_arg11) = W2 m ρ c (Proc.devRef .tc main_arg11)).trans <|
  (by stretch_skips hostOps0_1 : W2 (F := Ideal) m ρ c (Proc.devRef .tc main_arg11) = W1 m ρ c (Proc.devRef .tc main_arg11)).trans <|
  (by stretch_skips hostOps0 : W1 (F := Ideal) m ρ c (Proc.devRef .tc main_arg11) = W0 m ρ c (Proc.devRef .tc main_arg11)).trans <|
  rfl

end Cert.KernelIdeal.Chain

end
-- ==== Proof.LibChebAlgebra.lean ====
/-
  UNTRUSTED. General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibRowGatherScatter.lean ====
/-
  UNTRUSTED. The host's row gather and row scatter-add, read at one index, for arrays of any sizes: a gather of whole
  rows `x[idx]` of a matrix `x : [N, C]` at a column of start indices `idx : [E, 1]`, and the scatter that adds the rows of
  `upd : [E, C]` into the rows of `x : [N, C]` those start indices name. A gather clamps its start index into the operand;
  a scatter does not: an update whose start index falls outside is dropped.
-/
import Idealize.ShloMosaic.Lib.ValueIdx
import Idealize.ShloMosaic.PureOps.Ideal

noncomputable section

open scoped BigOperators

namespace RowGatherScatter

open Idealize.ShloMosaic Idealize.ShloMosaic.ValueIdx

variable {N C E w : Nat}

/-! ## Row scatter-add -/

/-- The row a start index names for a scatter: entry `e` of the column of start indices read as a signed integer and
    NOT clamped; `none` when it falls outside `[0, N)` (such an update is dropped). -/
def rowOf (idx : IVec ⟨2, ![E, 1]⟩ w) (e : Fin E) : Option (Fin N) :=
  if h : 0 ≤ (idx (ix2 e 0)).toInt ∧ (idx (ix2 e 0)).toInt < N then some ⟨(idx (ix2 e 0)).toInt.toNat, by omega⟩ else none

/-- The dimension numbers of a scatter of whole rows: operand `[N, C]`, start indices `[E, 1]`, updates `[E, C]`; the
    updates' axis 1 is the window, operand axis 0 is the inserted one and the one the start index addresses. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterLiteral
variable (wf : ScatterDims.WF ⟨2, ![N, C]⟩ ⟨2, ![E, 1]⟩ ⟨2, ![E, C]⟩ [1] [0] [0] 1)

/-- On the row axis the window of update `(e, c)` starts at start index `e`, read signed. -/
theorem start0 (e : Fin E) (c : Fin C) (idx : IVec ⟨2, ![E, 1]⟩ w) :
    (rowScatterDims N C E wf).start (ix2 e c) idx 0 = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at 0. -/
theorem start1 (e : Fin E) (c : Fin C) (idx : IVec ⟨2, ![E, 1]⟩ w) :
    (rowScatterDims N C E wf).start (ix2 e c) idx 1 = 0 := by
  unfold ScatterDims.start
  rw [dif_neg (show (1 : Fin 2) ∉ (rowScatterDims N C E wf).scatterDimsToOperandDims from
    (by decide : (1 : Fin 2) ∉ ([0] : List (Fin 2))))]

/-- The row axis is inserted: no window coordinate there. -/
theorem window0 (e : Fin E) (c : Fin C) : (rowScatterDims N C E wf).window (ix2 e c) 0 = 0 := by
  unfold ScatterDims.window
  rw [dif_neg (show (0 : Fin 2) ∉ (rowScatterDims N C E wf).sKept from
    (by decide : (0 : Fin 2) ∉ (List.finRange 2).filter (fun a => a ∉ ([0] : List (Fin 2)))))]

/-- On the column axis the window coordinate of update `(e, c)` is `c`. -/
theorem window1 (e : Fin E) (c : Fin C) : (rowScatterDims N C E wf).window (ix2 e c) 1 = c.val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- WHERE AN UPDATE LANDS: update `(e, c)` lands at `(n, c)` when start index `e` names row `n`, and nowhere when it
    names no row. -/
theorem resultIdx?_row (e : Fin E) (c : Fin C) (idx : IVec ⟨2, ![E, 1]⟩ w) :
    (rowScatterDims N C E wf).resultIdx? (ix2 e c) idx = (rowOf (N := N) idx e).map (fun n => ix2 n c) := by
  have hs0 := start0 wf e c idx
  have hs1 := start1 wf e c idx
  have hw0 := window0 wf e c
  have hw1 := window1 wf e c
  unfold ScatterDims.resultIdx?
  by_cases h : 0 ≤ (idx (ix2 e 0)).toInt ∧ (idx (ix2 e 0)).toInt < (N : ℤ)
  · have hr : rowOf (N := N) idx e = some ⟨(idx (ix2 e 0)).toInt.toNat, by omega⟩ := by
      unfold rowOf; exact dif_pos h
    rw [hr]
    split_ifs with hall
    · show some _ = some _
      refine congrArg some ?_
      funext a
      refine Fin.ext ?_
      match a with
      | ⟨0, _⟩ =>
        show ((rowScatterDims N C E wf).start (ix2 e c) idx 0 + ((rowScatterDims N C E wf).window (ix2 e c) 0 : ℤ)).toNat
          = (idx (ix2 e 0)).toInt.toNat
        rw [hs0, hw0]; simp
      | ⟨1, _⟩ =>
        show ((rowScatterDims N C E wf).start (ix2 e c) idx 1 + ((rowScatterDims N C E wf).window (ix2 e c) 1 : ℤ)).toNat
          = c.val
        rw [hs1, hw1]; simp
    · refine absurd (fun a => ?_) hall
      match a with
      | ⟨0, _⟩ =>
        show 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ)
        rw [hs0, hw0]; simpa using h
      | ⟨1, _⟩ =>
        show 0 ≤ (rowScatterDims N C E wf).start (ix2 e c) idx 1 + ((rowScatterDims N C E wf).window (ix2 e c) 1 : ℤ)
          ∧ (rowScatterDims N C E wf).start (ix2 e c) idx 1 + ((rowScatterDims N C E wf).window (ix2 e c) 1 : ℤ) < (C : ℤ)
        rw [hs1, hw1]
        have := c.isLt
        omega
  · have hr : rowOf (N := N) idx e = none := by
      unfold rowOf; exact dif_neg h
    rw [hr]
    split_ifs with hall
    · exfalso
      apply h
      have h0 : 0 ≤ (rowScatterDims N C E wf).start (ix2 e c) idx 0 + ((rowScatterDims N C E wf).window (ix2 e c) 0 : ℤ)
          ∧ (rowScatterDims N C E wf).start (ix2 e c) idx 0 + ((rowScatterDims N C E wf).window (ix2 e c) 0 : ℤ) < (N : ℤ) := hall 0
      rw [hs0, hw0] at h0
      simpa using h0
    · rfl

/-- THE ROW SCATTER-ADD READ AT `(n, c)`, for the literal dimension numbers, with the index given by its coordinates:
    the operand's entry plus the updates `upd (e, c)` over the start indices `e` that name row `n`. -/
theorem scatterAdd_rowDims_ix2 {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N C E wf) x idx upd (ix2 n c)
      = x (ix2 n c) + ∑ e : Fin E, if rowOf idx e = some n then upd (ix2 e c) else 0 := by
  unfold Host.scatterAdd
  rw [Ideal.hostScatterAdd_def]
  unfold Ideal.hostScatterAdd
  refine congrArg (x (ix2 n c) + ·) ?_
  rw [Finset.sum_filter, sum_idx2]
  refine Finset.sum_congr rfl (fun e _ => ?_)
  have key : ∀ c' : Fin C, (rowScatterDims N C E wf).resultIdx? (ix2 e c') idx = (rowOf (N := N) idx e).map (fun m => ix2 m c') :=
    fun c' => resultIdx?_row wf e c' idx
  by_cases hr : rowOf idx e = some n
  · rw [if_pos hr, Finset.sum_eq_single c]
    · rw [if_pos]
      rw [key, hr]
      rfl
    · intro c' _ hc
      rw [if_neg]
      rw [key, hr]
      intro hEq
      apply hc
      have h1 : ix2 n c' = ix2 n c := Option.some.inj hEq
      exact congrFun h1 1
    · intro hn
      exact absurd (Finset.mem_univ _) hn
  · rw [if_neg hr]
    refine Finset.sum_eq_zero (fun c' _ => ?_)
    rw [if_neg]
    rw [key]
    intro hEq
    apply hr
    cases hro : rowOf (N := N) idx e with
    | none => rw [hro] at hEq; exact absurd hEq (by simp)
    | some m =>
      rw [hro] at hEq
      have h1 : ix2 m c' = ix2 n c := Option.some.inj hEq
      exact congrArg some (congrFun h1 0)

/-- The same at an index `i`. -/
theorem scatterAdd_rowDims {φ : FTy} (x : FVec Ideal ⟨2, ![N, C]⟩ φ) (idx : IVec ⟨2, ![E, 1]⟩ w)
    (upd : FVec Ideal ⟨2, ![E, C]⟩ φ) (i : (⟨2, ![N, C]⟩ : Shape).Idx) :
    Host.scatterAdd (F := Ideal) (rowScatterDims N C E wf) x idx upd i
      = x i + ∑ e : Fin E, if rowOf idx e = (some (i 0) : Option (Fin N)) then upd (ix2 e (i 1)) else 0 := by
  obtain ⟨n, c, rfl⟩ : ∃ (n : Fin N) (c : Fin C), i = ix2 n c := ⟨i 0, i 1, eq_ix2 i⟩
  exact scatterAdd_rowDims_ix2 wf x idx upd n c

end ScatterLiteral

/-- THE ROW SCATTER-ADD READ AT `(n, c)`, for ANY dimension numbers with the row scatter's fields (a record given by its
    fields: the four hypotheses then hold by `rfl`). The start index is read signed and not clamped (`rowOf`). -/
theorem scatterAdd_rows {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (i : (⟨2, ![N, C]⟩ : Shape).Idx) :
    Host.scatterAdd (F := Ideal) d x idx upd i
      = x i + ∑ e : Fin E, if rowOf idx e = (some (i 0) : Option (Fin N)) then upd (ix2 e (i 1)) else 0 := by
  obtain ⟨uw, iw, sd, iv, wf⟩ := d
  simp only at h1 h2 h3 h4
  subst h1 h2 h3 h4
  exact scatterAdd_rowDims wf x idx upd i

/-- The same with the index given by its coordinates. -/
theorem scatterAdd_rows_ix2 {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if rowOf idx e = some n then upd (ix2 e c) else 0 :=
  scatterAdd_rows d h1 h2 h3 h4 x idx upd (ix2 n c)

/-! ## Row gather -/

/-- The dimension numbers of a gather of whole rows: operand `[N, C]`, start indices `[E, 1]`, result `[E, C]`; the
    result's axis 1 is the offset axis, operand axis 0 is collapsed and is the one the start index addresses; a slice is
    one whole row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section GatherLiteral
variable (wf : GatherDims.WF ⟨2, ![N, C]⟩ ⟨2, ![E, 1]⟩ ⟨2, ![E, C]⟩ [1] [0] [] [0] [] 1 ![1, C])

/-- THE ROW GATHER READ AT `(e, c)`, for the literal dimension numbers: the operand at row `idx[e, 0]`, read signed and
    clamped into `[0, N − 1]`, column `c`. -/
theorem gather_rowDims {α : Type} (hN : 0 < N) (x : (⟨2, ![N, C]⟩ : Shape).Idx → α) (idx : IVec ⟨2, ![E, 1]⟩ w)
    (j : (⟨2, ![E, C]⟩ : Shape).Idx) :
    Host.gather (rowGatherDims N C E wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowGatherDims N C E wf).start j idx 0 + (rowGatherDims N C E wf).batchCoord j 0
      + (rowGatherDims N C E wf).offCoord j 0 = min (idx (ix2 (j 0) 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx j ⟨List.idxOf (0 : Fin 2) (rowGatherDims N C E wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGatherDims N C E wf).start j idx 1 + (rowGatherDims N C E wf).batchCoord j 1
      + (rowGatherDims N C E wf).offCoord j 1 = (j 1).val
    rw [GatherDims.batchCoord_eq_zero _ _ _ List.not_mem_nil]
    have hst : (rowGatherDims N C E wf).start j idx 1 = 0 := by
      unfold GatherDims.start
      rw [dif_neg (show (1 : Fin 2) ∉ (rowGatherDims N C E wf).startIndexMap from
        (by decide : (1 : Fin 2) ∉ ([0] : List (Fin 2))))]
    have hoff : (rowGatherDims N C E wf).offCoord j 1 = (j 1).val := by
      unfold GatherDims.offCoord
      rw [dif_pos (show (1 : Fin 2) ∈ (rowGatherDims N C E wf).sKept from
        (by decide : (1 : Fin 2) ∈ (List.finRange 2).filter (fun a => a ∉ ([0] ++ [] : List (Fin 2)))))]
      rfl
    rw [hst, hoff]
    simp only [Nat.zero_add, Nat.add_zero]

end GatherLiteral

/-- THE ROW GATHER READ AT `(e, c)`, for ANY dimension numbers with the row gather's fields (a record given by its fields: the seven
    hypotheses then hold by `rfl`). The start index is read signed and clamped into `[0, N − 1]`. -/
theorem gather_rows {α : Type} (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (hN : 0 < N) (x : (⟨2, ![N, C]⟩ : Shape).Idx → α) (idx : IVec ⟨2, ![E, 1]⟩ w)
    (j : (⟨2, ![E, C]⟩ : Shape).Idx) :
    Host.gather d x idx j = x (ix2 ⟨min (idx (ix2 (j 0) 0)).toInt.toNat (N - 1), by omega⟩ (j 1)) := by
  obtain ⟨od, cs, ob, sb, sm, iv, ss, wf⟩ := d
  simp only at h1 h2 h3 h4 h5 h6 h7
  subst h1 h2 h3 h4 h5 h6 h7
  exact gather_rowDims wf hN x idx j

end RowGatherScatter

end
-- ==== Proof.SpmmForm.lean ====
/-
  The host's spelling of a node-axis propagation, read as a sum over edges. The host computes, for a feature array Y of
  shape [N, C]: gather the row of Y named by each edge's source (start index read signed, clamped into range), scale it by
  the edge's weight, and scatter-add it at the row named by the edge's target (start index read signed, NOT clamped: an
  edge whose target is out of range is dropped), onto zeros. Entry (n, c) of the result is therefore the sum, over the
  edges landing on n, of weight × Y (source row, c): `ChebAlgebra.prop`.
-/
import proofs.«120706_j28956669510215_2_alg».proof.Proof.LibChebAlgebra
import proofs.«120706_j28956669510215_2_alg».proof.Proof.LibRowGatherScatter
import Idealize.ShloMosaic.Lib.ValueIdx
import Idealize.ShloMosaic.PureOps.Ideal.Laws

noncomputable section

namespace Cert.SpmmForm

open Idealize.ShloMosaic Idealize.ShloMosaic.ValueIdx ChebAlgebra RowGatherScatter

variable {N C E : Nat}

/-- The row a gather reads for an edge: the start index read signed and clamped into [0, N - 1]. -/
def gatherRow (hN : 0 < N) (si : IVec ⟨2, ![E, 1]⟩ 32) (e : Fin E) : Fin N :=
  ⟨min (si (ix2 e 0)).toInt.toNat (N - 1), by omega⟩

/-- Scatter-add onto zeros of the weighted gathered rows is the propagation in sum form. -/
theorem spmm_eq_prop (hN : 0 < N)
    (ds : ScatterDims ⟨2, ![N, C]⟩ ⟨2, ![E, 1]⟩ ⟨2, ![E, C]⟩)
    (s1 : ds.updateWindowDims = [1]) (s2 : ds.insertedWindowDims = [0]) (s3 : ds.scatterDimsToOperandDims = [0])
    (s4 : ds.indexVectorDim = 1)
    (dg : GatherDims ⟨2, ![N, C]⟩ ⟨2, ![E, 1]⟩ ⟨2, ![E, C]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, C])
    (z : FVec Ideal ⟨2, ![N, C]⟩ .f32) (hz : ∀ i, z i = 0)
    (di si : IVec ⟨2, ![E, 1]⟩ 32) (nuB : FVec Ideal ⟨2, ![E, C]⟩ .f32) (nu : Fin E → EReal)
    (hnu : ∀ (e : Fin E) (c : Fin C), nuB (ix2 e c) = nu e) (Y : FVec Ideal ⟨2, ![N, C]⟩ .f32) :
    Host.scatterAdd (F := Ideal) ds z di (mulf nuB (Host.gather dg Y si))
      = prop (rowOf di) (gatherRow hN si) nu Y := by
  funext i
  rw [scatterAdd_rows ds s1 s2 s3 s4, hz, zero_add]
  unfold prop
  refine Finset.sum_congr rfl fun e _ => ?_
  have h : ∀ f : Fin C, mulf nuB (Host.gather dg Y si) (ix2 e f) = nu e * Y (ix2 (gatherRow hN si e) f) := by
    intro f
    rw [mulf_apply, hnu e f, gather_rows dg g1 g2 g3 g4 g5 g6 g7 hN]
    rfl
  exact if_congr Iff.rfl (h _) rfl

end Cert.SpmmForm

end
-- ==== Proof.KernelSpmm.lean ====
/-
  The kernel program's host propagations, in sum form. The host spells one propagation of a feature array Y as
  scatter-add (onto zeros, at the edges' targets) of weight × gather (of Y's rows, at the edges' sources); its entry
  (n, f) is the sum over the edges landing on node n of weight × Y (source row, f). The edge data enter as three arrays: the
  weights, the sources and the targets; `rowK`, `gatK`, `nuK` read them per edge.
-/
import proofs.«120706_j28956669510215_2_alg».proof.KernelIdeal
import proofs.«120706_j28956669510215_2_alg».proof.Proof.Gen.KernelIdeal
import proofs.«120706_j28956669510215_2_alg».proof.Proof.SpmmForm
import Idealize.ShloMosaic.Lib.Pipeline.Value

noncomputable section

namespace Cert.KernelIdeal.Spmm

open Cert.KernelIdeal Cert.KernelIdeal.Facts₀ Cert.KernelIdeal.Facts
open Idealize.ShloMosaic Idealize.ShloMosaic.ValueIdx ChebAlgebra RowGatherScatter

/-- The node an edge's contribution lands on: its target read signed, dropped when out of range. -/
def rowK (d : IVec S160000 32) : Fin 160000 → Option (Fin 10000) :=
  rowOf (N := 10000) (broadcastInDim S160000x1 ![0] bcast_S160000_S160000x1_0 d)

/-- The node an edge gathers from: its source, a negative one wrapped once by the node count, then clamped into range. -/
def gatK (s : IVec S160000 32) : Fin 160000 → Fin 10000 :=
  SpmmForm.gatherRow (N := 10000) (by decide)
    (broadcastInDim S160000x1 ![0] bcast_S160000_S160000x1_0
      (select (cmpi .slt s (broadcastInDim S160000 ![] bcast_S_S160000 (constantI S_ 32 0#32)))
        (addi s (broadcastInDim S160000 ![] bcast_S_S160000 (constantI S_ 32 10000#32))) s))

/-- An edge's weight. -/
def nuK (nu : FVec Ideal S160000 .f32) : Fin 160000 → EReal := fun e => nu (ix1 e)

/-- A weight array broadcast along the 16 features reads the edge's weight. -/
theorem bcast_nu_16 (nu : FVec Ideal S160000 .f32) (e : Fin 160000) (f : Fin 16) :
    broadcastInDim S160000x16 ![0, 1] bcast_S160000x1_S160000x16_0_1
      (broadcastInDim S160000x1 ![0] bcast_S160000_S160000x1_0 nu) (ix2 e f) = nuK nu e := by
  rw [broadcastInDim_apply _ bcast_S160000x1_S160000x16_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 16] the scatter adds onto. -/
theorem zero_16 (i : S10000x16.Idx) :
    broadcastInDim S10000x16 ![] bcast_S_S10000x16 (constant (F := Ideal) S_ .f32 0x00000000#32) i = 0 := by
  rw [broadcastInDim_apply _ bcast_S_S10000x16 _ i ix0 (fun a => a.elim0)]
  exact Ideal.ofBits_zero_f32

/-- The host's propagation at width 16 is the sum over edges. -/
theorem spmm16_eq (nu : FVec Ideal S160000 .f32) (s d : IVec S160000 32) (Y : FVec Ideal S10000x16 .f32) :
    Host.scatterAdd (F := Ideal) scatter_S10000x16_S160000x1_S160000x16_1_0_0_1
      (broadcastInDim S10000x16 ![] bcast_S_S10000x16 (constant (F := Ideal) S_ .f32 0x00000000#32))
      (broadcastInDim S160000x1 ![0] bcast_S160000_S160000x1_0 d)
      (mulf (broadcastInDim S160000x16 ![0, 1] bcast_S160000x1_S160000x16_0_1
          (broadcastInDim S160000x1 ![0] bcast_S160000_S160000x1_0 nu))
        (Host.gather gather_S10000x16_S160000x1_S160000x16_1_0_n_n_0_1_116 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 16) (E := 160000) (by decide) _ rfl rfl rfl rfl _ rfl rfl rfl rfl rfl rfl rfl _
    (zero_16) _ _ _ _ (bcast_nu_16 nu) Y

/-- A weight array broadcast along the 32 features reads the edge's weight. -/
theorem bcast_nu_32 (nu : FVec Ideal S160000 .f32) (e : Fin 160000) (f : Fin 32) :
    broadcastInDim S160000x32 ![0, 1] bcast_S160000x1_S160000x32_0_1
      (broadcastInDim S160000x1 ![0] bcast_S160000_S160000x1_0 nu) (ix2 e f) = nuK nu e := by
  rw [broadcastInDim_apply _ bcast_S160000x1_S160000x32_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 32] the scatter adds onto. -/
theorem zero_32 (i : S10000x32.Idx) :
    broadcastInDim S10000x32 ![] bcast_S_S10000x32 (constant (F := Ideal) S_ .f32 0x00000000#32) i = 0 := by
  rw [broadcastInDim_apply _ bcast_S_S10000x32 _ i ix0 (fun a => a.elim0)]
  exact Ideal.ofBits_zero_f32

/-- The host's propagation at width 32 is the sum over edges. -/
theorem spmm32_eq (nu : FVec Ideal S160000 .f32) (s d : IVec S160000 32) (Y : FVec Ideal S10000x32 .f32) :
    Host.scatterAdd (F := Ideal) scatter_S10000x32_S160000x1_S160000x32_1_0_0_1
      (broadcastInDim S10000x32 ![] bcast_S_S10000x32 (constant (F := Ideal) S_ .f32 0x00000000#32))
      (broadcastInDim S160000x1 ![0] bcast_S160000_S160000x1_0 d)
      (mulf (broadcastInDim S160000x32 ![0, 1] bcast_S160000x1_S160000x32_0_1
          (broadcastInDim S160000x1 ![0] bcast_S160000_S160000x1_0 nu))
        (Host.gather gather_S10000x32_S160000x1_S160000x32_1_0_n_n_0_1_132 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 32) (E := 160000) (by decide) _ rfl rfl rfl rfl _ rfl rfl rfl rfl rfl rfl rfl _
    (zero_32) _ _ _ _ (bcast_nu_32 nu) Y

/-- A weight array broadcast along the 64 features reads the edge's weight. -/
theorem bcast_nu_64 (nu : FVec Ideal S160000 .f32) (e : Fin 160000) (f : Fin 64) :
    broadcastInDim S160000x64 ![0, 1] bcast_S160000x1_S160000x64_0_1
      (broadcastInDim S160000x1 ![0] bcast_S160000_S160000x1_0 nu) (ix2 e f) = nuK nu e := by
  rw [broadcastInDim_apply _ bcast_S160000x1_S160000x64_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 64] the scatter adds onto. -/
theorem zero_64 (i : S10000x64.Idx) :
    broadcastInDim S10000x64 ![] bcast_S_S10000x64 (constant (F := Ideal) S_ .f32 0x00000000#32) i = 0 := by
  rw [broadcastInDim_apply _ bcast_S_S10000x64 _ i ix0 (fun a => a.elim0)]
  exact Ideal.ofBits_zero_f32

/-- The host's propagation at width 64 is the sum over edges. -/
theorem spmm64_eq (nu : FVec Ideal S160000 .f32) (s d : IVec S160000 32) (Y : FVec Ideal S10000x64 .f32) :
    Host.scatterAdd (F := Ideal) scatter_S10000x64_S160000x1_S160000x64_1_0_0_1
      (broadcastInDim S10000x64 ![] bcast_S_S10000x64 (constant (F := Ideal) S_ .f32 0x00000000#32))
      (broadcastInDim S160000x1 ![0] bcast_S160000_S160000x1_0 d)
      (mulf (broadcastInDim S160000x64 ![0, 1] bcast_S160000x1_S160000x64_0_1
          (broadcastInDim S160000x1 ![0] bcast_S160000_S160000x1_0 nu))
        (Host.gather gather_S10000x64_S160000x1_S160000x64_1_0_n_n_0_1_164 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 64) (E := 160000) (by decide) _ rfl rfl rfl rfl _ rfl rfl rfl rfl rfl rfl rfl _
    (zero_64) _ _ _ _ (bcast_nu_64 nu) Y

/-- A weight array broadcast along the 19 features reads the edge's weight. -/
theorem bcast_nu_19 (nu : FVec Ideal S160000 .f32) (e : Fin 160000) (f : Fin 19) :
    broadcastInDim S160000x19 ![0, 1] bcast_S160000x1_S160000x19_0_1
      (broadcastInDim S160000x1 ![0] bcast_S160000_S160000x1_0 nu) (ix2 e f) = nuK nu e := by
  rw [broadcastInDim_apply _ bcast_S160000x1_S160000x19_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 19] the scatter adds onto. -/
theorem zero_19 (i : S10000x19.Idx) :
    broadcastInDim S10000x19 ![] bcast_S_S10000x19 (constant (F := Ideal) S_ .f32 0x00000000#32) i = 0 := by
  rw [broadcastInDim_apply _ bcast_S_S10000x19 _ i ix0 (fun a => a.elim0)]
  exact Ideal.ofBits_zero_f32

/-- The host's propagation at width 19 is the sum over edges. -/
theorem spmm19_eq (nu : FVec Ideal S160000 .f32) (s d : IVec S160000 32) (Y : FVec Ideal S10000x19 .f32) :
    Host.scatterAdd (F := Ideal) scatter_S10000x19_S160000x1_S160000x19_1_0_0_1
      (broadcastInDim S10000x19 ![] bcast_S_S10000x19 (constant (F := Ideal) S_ .f32 0x00000000#32))
      (broadcastInDim S160000x1 ![0] bcast_S160000_S160000x1_0 d)
      (mulf (broadcastInDim S160000x19 ![0, 1] bcast_S160000x1_S160000x19_0_1
          (broadcastInDim S160000x1 ![0] bcast_S160000_S160000x1_0 nu))
        (Host.gather gather_S10000x19_S160000x1_S160000x19_1_0_n_n_0_1_119 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 19) (E := 160000) (by decide) _ rfl rfl rfl rfl _ rfl rfl rfl rfl rfl rfl rfl _
    (zero_19) _ _ _ _ (bcast_nu_19 nu) Y

end Cert.KernelIdeal.Spmm

end
-- ==== Proof.ChebSpec.lean ====
/-
  One Chebyshev graph-convolution layer (filter order 3) as a function of arrays of extended reals, in two arrangements.
  The node axis carries a propagation operator P (`ChebAlgebra.prop`: a weighted sum over the edges that land on a node of
  the rows they are gathered from); the feature axis carries three matrices W0, W1, W2 (the slices of one array [3, A, B]).
  PROPAGATE FIRST (the reference's arrangement):   h W0 + (P h) W1 + (2 P (P h) - h) W2 + b.
  PROJECT FIRST (the kernel's, where the layer narrows):   h W0 + P (h W1) + 2 P (P (h W2)) - h W2 + b.
  P acts on rows and a matrix product on columns, so they commute; with every entry a real number the two arrangements
  are one function (`layerP_eq_layer`). Real entries stay real through a layer (`isReal_layer`) and through
  max(., 0) (`isReal_relu`).
-/
import proofs.«120706_j28956669510215_2_alg».proof.Proof.LibChebAlgebra
import Idealize.ShloMosaic.PureOps.Ideal.Laws

noncomputable section

namespace Cert.ChebSpec

open Idealize.ShloMosaic Idealize.ShloMosaic.ValueIdx ChebAlgebra

variable {N E A B : Nat}

/-- Slice κ of a weight array [3, A, B], as a matrix [A, B]. -/
def wslice (κ : Fin 3) (W : (⟨3, ![3, A, B]⟩ : Shape).Idx → EReal) : (⟨2, ![A, B]⟩ : Shape).Idx → EReal :=
  fun j => W (ix3 κ (j 0) (j 1))

/-- The real number 2 as an extended real. -/
def two : EReal := ((2 : ℝ) : EReal)

/-- The word 0x40000000 denotes 2. -/
theorem ofBits_two : Ideal.ofBits .f32 0x40000000#32 = two := by
  unfold two
  simp [Ideal.ofBits, Ideal.ieee]
  norm_cast
  norm_num

/-- A bias [B] added to every row. -/
def rowBias (b : (⟨1, ![B]⟩ : Shape).Idx → EReal) : (⟨2, ![N, B]⟩ : Shape).Idx → EReal := fun i => b (ix1 (i 1))

/-- The layer, propagate first. -/
def layer (row : Fin E → Option (Fin N)) (g : Fin E → Fin N) (nu : Fin E → EReal)
    (h : (⟨2, ![N, A]⟩ : Shape).Idx → EReal) (W : (⟨3, ![3, A, B]⟩ : Shape).Idx → EReal)
    (b : (⟨1, ![B]⟩ : Shape).Idx → EReal) : (⟨2, ![N, B]⟩ : Shape).Idx → EReal :=
  fun i => (((mm h (wslice 0 W) i + mm (prop row g nu h) (wslice 1 W) i)
    + mm (fun j => two * prop row g nu (prop row g nu h) j - h j) (wslice 2 W) i) + rowBias (N := N) b i)

/-- The layer, project first. -/
def layerP (row : Fin E → Option (Fin N)) (g : Fin E → Fin N) (nu : Fin E → EReal)
    (h : (⟨2, ![N, A]⟩ : Shape).Idx → EReal) (W : (⟨3, ![3, A, B]⟩ : Shape).Idx → EReal)
    (b : (⟨1, ![B]⟩ : Shape).Idx → EReal) : (⟨2, ![N, B]⟩ : Shape).Idx → EReal :=
  fun i => ((((mm h (wslice 0 W) i + prop row g nu (mm h (wslice 1 W)) i)
    + two * prop row g nu (prop row g nu (mm h (wslice 2 W))) i) - mm h (wslice 2 W) i) + rowBias (N := N) b i)

/-- max(., 0), entry by entry. -/
def relu {ι : Type*} (v : ι → EReal) : ι → EReal := fun i => max (v i) 0

theorem isReal_wslice (κ : Fin 3) {W : (⟨3, ![3, A, B]⟩ : Shape).Idx → EReal} (hW : IsReal W) : IsReal (wslice κ W) :=
  hW.comp _

theorem isReal_rowBias {b : (⟨1, ![B]⟩ : Shape).Idx → EReal} (hb : IsReal b) : IsReal (rowBias (N := N) b) :=
  hb.comp _

theorem isReal_relu {ι : Type*} {v : ι → EReal} (hv : IsReal v) : IsReal (relu v) :=
  hv.max (isReal_const (0 : ℝ))

theorem isReal_two_prop_sub (row : Fin E → Option (Fin N)) (g : Fin E → Fin N) {nu : Fin E → EReal}
    {h : (⟨2, ![N, A]⟩ : Shape).Idx → EReal} (hnu : IsReal nu) (hh : IsReal h) :
    IsReal (fun j => two * prop row g nu (prop row g nu h) j - h j) :=
  ((isReal_const (2 : ℝ)).mul (isReal_prop row g hnu (isReal_prop row g hnu hh))).sub hh

/-- Real entries stay real through a layer. -/
theorem isReal_layer (row : Fin E → Option (Fin N)) (g : Fin E → Fin N) {nu : Fin E → EReal}
    {h : (⟨2, ![N, A]⟩ : Shape).Idx → EReal} {W : (⟨3, ![3, A, B]⟩ : Shape).Idx → EReal}
    {b : (⟨1, ![B]⟩ : Shape).Idx → EReal} (hnu : IsReal nu) (hh : IsReal h) (hW : IsReal W) (hb : IsReal b) :
    IsReal (layer row g nu h W b) :=
  (((isReal_mm hh (isReal_wslice 0 hW)).add (isReal_mm (isReal_prop row g hnu hh) (isReal_wslice 1 hW))).add
    (isReal_mm (isReal_two_prop_sub row g hnu hh) (isReal_wslice 2 hW))).add (isReal_rowBias hb)

/-- With every entry real, the project-first arrangement is the propagate-first one: the propagation acts on rows and the
    matrix products on columns, so they commute (`ChebAlgebra.prop_mm`), and the rest is linearity of the matrix product
    in its left factor. -/
theorem layerP_eq_layer (row : Fin E → Option (Fin N)) (g : Fin E → Fin N) {nu : Fin E → EReal}
    {h : (⟨2, ![N, A]⟩ : Shape).Idx → EReal} {W : (⟨3, ![3, A, B]⟩ : Shape).Idx → EReal}
    {b : (⟨1, ![B]⟩ : Shape).Idx → EReal} (hnu : IsReal nu) (hh : IsReal h) (hW : IsReal W) (hb : IsReal b) :
    layerP row g nu h W b = layer row g nu h W b :=
  cheb_layer row g (two := two) hnu hh (isReal_wslice 0 hW) (isReal_wslice 1 hW) (isReal_wslice 2 hW)
    (isReal_rowBias (N := N) hb) rfl

end Cert.ChebSpec

end
-- ==== Proof.LibHostForms.lean ====
/-
  UNTRUSTED. Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«120706_j28956669510215_2_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.Softmax.lean ====
/-
  The softmax over the 19 classes, as both programs' host operations spell it: subtract each row's maximum (a max-reduce
  seeded with -∞, and a max with -∞ again), exponentiate, divide by the row's sum. Both programs apply this same chain to
  their last layer's output, so it is named once and never opened: equal arguments give equal results.
-/
import proofs.«120706_j28956669510215_2_alg».proof.Proof.Gen.KernelIdeal
import Idealize.ShloMosaic.PureOps.Ideal.Laws

noncomputable section

namespace Cert.KernelIdeal.Edge

open Cert.KernelIdeal Cert.KernelIdeal.Facts₀ Cert.KernelIdeal.Facts Idealize.ShloMosaic

/-- Each row's maximum, as a column broadcast back over the 19 classes. -/
def rowMax19 (h : FVec Ideal S10000x19 .f32) : FVec Ideal S10000x19 .f32 :=
  broadcastInDim S10000x19 ![0, 1] bcast_S10000x1_S10000x19_0_1
    (broadcastInDim S10000x1 ![0] bcast_S10000_S10000x1_0
      (maximumf (broadcastInDim S10000 ![] bcast_S_S10000 (constant (F := Ideal) S_ .f32 0xFF800000#32))
        (Host.reduce FloatOps.maximumf h (constant (F := Ideal) S_ .f32 0xFF800000#32) reducesTo_S10000x19_S10000_d1 h_S_)))

/-- exp (h - row maximum). -/
def expShift19 (h : FVec Ideal S10000x19 .f32) : FVec Ideal S10000x19 .f32 :=
  Host.exp (F := Ideal) (subf h (rowMax19 h))

/-- The softmax of every row. -/
def softmax19 (h : FVec Ideal S10000x19 .f32) : FVec Ideal S10000x19 .f32 :=
  Host.divf (F := Ideal) (expShift19 h)
    (broadcastInDim S10000x19 ![0, 1] bcast_S10000x1_S10000x19_0_1
      (broadcastInDim S10000x1 ![0] bcast_S10000_S10000x1_0
        (Host.reduceAdd (F := Ideal) (expShift19 h) (constant (F := Ideal) S_ .f32 0x00000000#32) reducesTo_S10000x19_S10000_d1 h_S_)))

end Cert.KernelIdeal.Edge

end
-- ==== Proof.RegionProj0.lean ====
import proofs.«120706_j28956669510215_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

/-! # The three projections of the first layer, as whole-array functions

The region walks the 10000 rows of `X` in ten blocks of 1000 rows. At each block it multiplies the
block by each of the three 782 × 16 weight matrices `W[0]`, `W[1]`, `W[2]` (all three sit in one
resident block) and writes the three products to the same rows of three output arrays. The format
changes on the way into the matrix unit are the identity on extended reals and the accumulator
starts at zero, so entry `(r, f)` of the κ-th output block is `∑ k, X[r, k] · W[κ, k, f]` with `r` a
row of the block. Row `r` of block `t` is row `1000 t + r` of the array and the ten blocks tile the
rows, so after the last block the κ-th output array is `X · W[κ]` entry by entry. -/

noncomputable section

namespace Cert.KernelIdeal.RegionProj0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Entry `i` of the product of `x` with the `κ`-th matrix of `w`: row `i 0` of `x` against column `i 1`
    of `w[κ]`, summed over the 782 shared coordinates. -/
def proj (κ : Fin 3) (x : S10000x782.Idx → EReal) (w : S3x782x16.Idx → EReal) : S10000x16.Idx → EReal :=
  fun i => ∑ k : Fin 782, x (ix2 (n0 := 10000) (n1 := 782) (i 0) k) * w (ix3 (n0 := 3) (n1 := 782) (n2 := 16) κ k (i 1))

/-! ## One block product at an entry -/

/-- The contraction's operand indices at output entry `i` and contraction index `q`: the left operand
    is read at row `i 0`, column `q`; the right one at row `q`, column `i 1`. -/
theorem lhs_row (i : S1000x16.Idx) (q : dot_S1000x782_S782x16_S1000x16_1_0_0_1_n_n.contr.Idx) :
    (dot_S1000x782_S782x16_S1000x16_1_0_0_1_n_n.lhsIdx i q 0).val = (i 0).val := by
  unfold DotDims.lhsIdx
  rw [dif_neg (show ¬(0 : Fin S1000x782.rank) ∈ dot_S1000x782_S782x16_S1000x16_1_0_0_1_n_n.lhsBatch by decide),
    dif_pos (show (0 : Fin S1000x782.rank) ∈ dot_S1000x782_S782x16_S1000x16_1_0_0_1_n_n.lhsNonContracting by decide)]
  rfl
theorem lhs_col (i : S1000x16.Idx) (q : dot_S1000x782_S782x16_S1000x16_1_0_0_1_n_n.contr.Idx) :
    (dot_S1000x782_S782x16_S1000x16_1_0_0_1_n_n.lhsIdx i q 1).val = (q ⟨0, by decide⟩).val :=
  dot_S1000x782_S782x16_S1000x16_1_0_0_1_n_n.lhsIdx_val_of_single rfl i q
theorem rhs_row (i : S1000x16.Idx) (q : dot_S1000x782_S782x16_S1000x16_1_0_0_1_n_n.contr.Idx) :
    (dot_S1000x782_S782x16_S1000x16_1_0_0_1_n_n.rhsIdx i q 0).val = (q ⟨0, by decide⟩).val :=
  dot_S1000x782_S782x16_S1000x16_1_0_0_1_n_n.rhsIdx_val_of_single rfl i q
theorem rhs_col (i : S1000x16.Idx) (q : dot_S1000x782_S782x16_S1000x16_1_0_0_1_n_n.contr.Idx) :
    (dot_S1000x782_S782x16_S1000x16_1_0_0_1_n_n.rhsIdx i q 1).val = (i 1).val := by
  unfold DotDims.rhsIdx
  rw [dif_neg (show ¬(1 : Fin S782x16.rank) ∈ dot_S1000x782_S782x16_S1000x16_1_0_0_1_n_n.rhsBatch by decide),
    dif_pos (show (1 : Fin S782x16.rank) ∈ dot_S1000x782_S782x16_S1000x16_1_0_0_1_n_n.rhsNonContracting by decide)]
  rfl

/-- Dropping the leading unit axis of a one-matrix slab keeps entry `(k, f)` where it was. -/
theorem slab_apply (w : Vec Ideal S1x782x16 .f32) (k : Fin 782) (f : Fin 16) :
    (shapeCast S782x16 w shapeCasts_S1x782x16_S782x16 : FVec Ideal S782x16 .f32) (ix2 k f) = w (ix3 0 k f) :=
  shapeCast_apply w shapeCasts_S1x782x16_S782x16 (ix2 k f) (ix3 0 k f) (by
    rewrite [Shape.rowMajor_val_three, Shape.rowMajor_val_two]
    show (0 * 782 + k.val) * 16 + f.val = k.val * 16 + f.val
    omega)

/-- The stored value at entry `(r, f)`: row `r` of the loaded block against column `f` of the loaded
    matrix. The two roundings to bf16 are the identity on extended reals and the accumulator is zero. -/
theorem pay2_apply (x0 : Vec Ideal S1000x782 .f32) (w0 : Vec Ideal S1x782x16 .f32) (r : Fin 1000) (f : Fin 16) :
    k0_pay2 x0 w0 (ix2 r f) = ∑ k : Fin 782, x0 (ix2 r k) * w0 (ix3 0 k f) := by
  unfold k0_pay2 k0_pay1
  simp only [matmul]
  rw [Ideal.matmul_constant_zero_apply,
    ← Equiv.sum_comp (contrEquiv1 dot_S1000x782_S782x16_S1000x16_1_0_0_1_n_n 782 rfl rfl).symm]
  refine Finset.sum_congr rfl fun k _ => ?_
  have hk := contrEquiv1_symm_val dot_S1000x782_S782x16_S1000x16_1_0_0_1_n_n 782 rfl rfl k
  have el : dot_S1000x782_S782x16_S1000x16_1_0_0_1_n_n.lhsIdx (ix2 r f)
      ((contrEquiv1 dot_S1000x782_S782x16_S1000x16_1_0_0_1_n_n 782 rfl rfl).symm k) = ix2 r k :=
    funext fun a => Fin.ext (by
      match a with
      | ⟨0, _⟩ => exact lhs_row _ _
      | ⟨1, _⟩ => exact (lhs_col _ _).trans hk)
  have er : dot_S1000x782_S782x16_S1000x16_1_0_0_1_n_n.rhsIdx (ix2 r f)
      ((contrEquiv1 dot_S1000x782_S782x16_S1000x16_1_0_0_1_n_n 782 rfl rfl).symm k) = ix2 k f :=
    funext fun a => Fin.ext (by
      match a with
      | ⟨0, _⟩ => exact (rhs_row _ _).trans hk
      | ⟨1, _⟩ => exact rhs_col _ _)
  rw [el, er, truncf_apply, truncf_apply, slab_apply]

/-- The second and third stores compute the same function of their loads as the first. -/
theorem pay3_eq (x0 : Vec Ideal S1000x782 .f32) (w0 : Vec Ideal S1x782x16 .f32) : k0_pay3 x0 w0 = k0_pay2 x0 w0 := rfl
theorem pay4_eq (x0 : Vec Ideal S1000x782 .f32) (w0 : Vec Ideal S1x782x16 .f32) : k0_pay4 x0 w0 = k0_pay2 x0 w0 := rfl

/-! ## What the body leaves in each output block, at an entry -/

theorem hz2 : (![0, 0] : Fin 2 → Nat) = fun _ => 0 := funext fun a => by fin_cases a <;> rfl

/-- The κ-th load of the weight block reads its κ-th matrix. -/
theorem ld_w0 (x1 : Vec Ideal S3x782x16 .f32) (k : Fin 782) (f : Fin 16) :
    View.ld x1 r0_1 (ix3 0 k f) = x1 (ix3 (0 : Fin 3) k f) := by
  show x1 (r0_1.idx (ix3 0 k f)) = x1 (ix3 (0 : Fin 3) k f)
  refine congrArg x1 (funext fun a => Fin.ext ?_)
  match a with
  | ⟨0, _⟩ => rfl
  | ⟨1, _⟩ => show 0 + 1 * k.val = k.val; omega
  | ⟨2, _⟩ => show 0 + 1 * f.val = f.val; omega
theorem ld_w1 (x1 : Vec Ideal S3x782x16 .f32) (k : Fin 782) (f : Fin 16) :
    View.ld x1 r0_2 (ix3 0 k f) = x1 (ix3 (1 : Fin 3) k f) := by
  show x1 (r0_2.idx (ix3 0 k f)) = x1 (ix3 (1 : Fin 3) k f)
  refine congrArg x1 (funext fun a => Fin.ext ?_)
  match a with
  | ⟨0, _⟩ => rfl
  | ⟨1, _⟩ => show 0 + 1 * k.val = k.val; omega
  | ⟨2, _⟩ => show 0 + 1 * f.val = f.val; omega
theorem ld_w2 (x1 : Vec Ideal S3x782x16 .f32) (k : Fin 782) (f : Fin 16) :
    View.ld x1 r0_3 (ix3 0 k f) = x1 (ix3 (2 : Fin 3) k f) := by
  show x1 (r0_3.idx (ix3 0 k f)) = x1 (ix3 (2 : Fin 3) k f)
  refine congrArg x1 (funext fun a => Fin.ext ?_)
  match a with
  | ⟨0, _⟩ => rfl
  | ⟨1, _⟩ => show 0 + 1 * k.val = k.val; omega
  | ⟨2, _⟩ => show 0 + 1 * f.val = f.val; omega

/-- Each output block after the body, at entry `(r, f)`: the input block's row `r` against column `f`
    of the matrix that output belongs to. -/
theorem out2_apply (x0 : Vec Ideal S1000x782 .f32) (x1 : Vec Ideal S3x782x16 .f32) (r : Fin 1000) (f : Fin 16) :
    out0_2 x0 x1 (ix2 r f) = ∑ k : Fin 782, x0 (ix2 r k) * x1 (ix3 (0 : Fin 3) k f) := by
  unfold out0_2
  rw [View.canon_unit_zero hz2, View.ld_unit_zero (S := S1000x782) hz2, pay2_apply]
  exact Finset.sum_congr rfl fun k _ => congrArg (x0 (ix2 r k) * ·) (ld_w0 x1 k f)
theorem out3_apply (x0 : Vec Ideal S1000x782 .f32) (x1 : Vec Ideal S3x782x16 .f32) (r : Fin 1000) (f : Fin 16) :
    out0_3 x0 x1 (ix2 r f) = ∑ k : Fin 782, x0 (ix2 r k) * x1 (ix3 (1 : Fin 3) k f) := by
  unfold out0_3
  rw [View.canon_unit_zero hz2, View.ld_unit_zero (S := S1000x782) hz2, pay3_eq, pay2_apply]
  exact Finset.sum_congr rfl fun k _ => congrArg (x0 (ix2 r k) * ·) (ld_w1 x1 k f)
theorem out4_apply (x0 : Vec Ideal S1000x782 .f32) (x1 : Vec Ideal S3x782x16 .f32) (r : Fin 1000) (f : Fin 16) :
    out0_4 x0 x1 (ix2 r f) = ∑ k : Fin 782, x0 (ix2 r k) * x1 (ix3 (2 : Fin 3) k f) := by
  unfold out0_4
  rw [View.canon_unit_zero hz2, View.ld_unit_zero (S := S1000x782) hz2, pay4_eq, pay2_apply]
  exact Finset.sum_congr rfl fun k _ => congrArg (x0 (ix2 r k) * ·) (ld_w2 x1 k f)

/-! ## The blocks inside their arrays -/

variable (V : (c : Dev nD) → (b : Ref sig .tc) → Buf (Elt Ideal) ((c : Thread nD τ).loc b))

/-- The block indices at grid point `t`: the row-blocked windows sit at block `t` of the rows, the weight
    window at its one block. Decided over the ten points. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry `y` of the input block at point `t` is the array's entry in row `1000 t + y 0`, same column. -/
theorem iblk_x (c : Dev nD) (t : Fin cfg0.N) (y : S1000x782.Idx) (i : S10000x782.Idx)
    (h0 : (i 0).val = 1000 * t.val + (y 0).val) (h1 : (i 1).val = (y 1).val) :
    (iblk0 V c 0 t : Vec Ideal S1000x782 .f32) y = (V c (Pipeline.arrRef spec0 0) : S10000x782.Idx → EReal) i := by
  obtain ⟨e0, e1, -⟩ := idx_facts t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 1000 + 1 * (y 0).val = (i 0).val; rw [e0, h0]; omega
  | ⟨1, _⟩ => show win0_0.index t (1 : Fin 2) * 782 + 1 * (y 1).val = (i 1).val; rw [e1, h1]; omega

/-- The weight block at any point is the whole weight array. -/
theorem iblk_w (c : Dev nD) (t : Fin cfg0.N) (y : S3x782x16.Idx) :
    (iblk0 V c 1 t : Vec Ideal S3x782x16 .f32) y = (V c (Pipeline.arrRef spec0 1) : S3x782x16.Idx → EReal) y := by
  obtain ⟨-, -, e2, e3, e4, -⟩ := idx_facts t
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 3) * 3 + 1 * (y 0).val = (y 0).val; rw [e2]; omega
  | ⟨1, _⟩ => show win0_1.index t (1 : Fin 3) * 782 + 1 * (y 1).val = (y 1).val; rw [e3]; omega
  | ⟨2, _⟩ => show win0_1.index t (2 : Fin 3) * 16 + 1 * (y 2).val = (y 2).val; rw [e4]; omega

/-- What point `t` writes back to output 0: block `t` of the whole-array product with `W[0]`. -/
theorem flushed2_eq (c : Dev nD) (t : Fin cfg0.N) :
    (dat0 (F := Ideal) V c).flushed 2 t = ((cfg0.win 2).blk t).view.read (Elt Ideal)
      (proj 0 (V c (Pipeline.arrRef spec0 0)) (V c (Pipeline.arrRef spec0 1))) := by
  show (cfg0.win 2).cut (grid0.coords t) ((dat0 V c).after 2 t) = _
  rw [after0_2]
  obtain ⟨-, -, -, -, -, e5, e6, e7, e8, e9, e10⟩ := idx_facts t
  refine funext fun (j : S1000x16.Idx) => ?_
  obtain ⟨r, f, rfl⟩ : ∃ (r : Fin 1000) (f : Fin 16), j = ix2 r f := ⟨j 0, j 1, eq_ix2 j⟩
  show out0_2 (iblk0 V c 0 t) (iblk0 V c 1 t) (ix2 r f)
    = proj 0 (V c (Pipeline.arrRef spec0 0)) (V c (Pipeline.arrRef spec0 1)) (((cfg0.win 2).blk t).view.emb (ix2 r f))
  refine (out2_apply (iblk0 V c 0 t) (iblk0 V c 1 t) r f).trans ?_
  unfold proj
  refine Finset.sum_congr rfl fun k _ => ?_
  have hx := iblk_x V c t (ix2 r k)
    (ix2 (n0 := 10000) (n1 := 782) ((((cfg0.win 2).blk t).view.emb (ix2 r f)) 0) k)
    (by show win0_2.index t (0 : Fin 2) * 1000 + 1 * r.val = 1000 * t.val + r.val; rw [e5]; omega) rfl
  have hw := iblk_w V c t (ix3 (0 : Fin 3) k f)
  have hf : (ix3 (n0 := 3) (n1 := 782) (n2 := 16) (0 : Fin 3) k f)
      = ix3 (n0 := 3) (n1 := 782) (n2 := 16) 0 k ((((cfg0.win 2).blk t).view.emb (ix2 r f)) 1) :=
    funext fun a => Fin.ext (by
      match a with
      | ⟨0, _⟩ => rfl
      | ⟨1, _⟩ => rfl
      | ⟨2, _⟩ => show f.val = win0_2.index t (1 : Fin 2) * 16 + 1 * f.val; rw [e6]; omega)
  rw [hx, hw, hf]

/-- An index of the array is in point `t`'s block iff each coordinate is in the block's range on its axis. -/
theorem mem_blk2 (t : Fin cfg0.N) (i : S10000x16.Idx) :
    i ∈ ((cfg0.win 2).blk t).view.set ↔ ∀ a : Fin 2, win0_2.index t a * S1000x16.size a ≤ (i a).val
      ∧ (i a).val < win0_2.index t a * S1000x16.size a + S1000x16.size a := by
  show i ∈ ((View.whole main_v30_0).slice (win0_2.rect t)).set ↔ _
  rw [View.set_slice_whole, Rect.mem_set_unit]
  exact Iff.rfl

/-- Row `i 0` lies in block `(i 0) / 1000`: the ten blocks tile the array. -/
theorem cover2 (i : S10000x16.Idx) :
    ∃ t : Fin cfg0.N, (cfg0.win 2).flush t = true ∧ i ∈ ((cfg0.win 2).blk t).view.set := by
  have hi0 : (i 0).val < 10000 := (i 0).isLt
  have hi1 : (i 1).val < 16 := (i 1).isLt
  have hN : grid0.N = 10 := N_0
  have hlt : (i 0).val / 1000 < cfg0.N := by show (i 0).val / 1000 < grid0.N; rw [hN]; omega
  obtain ⟨-, -, -, -, -, e5, e6, e7, e8, e9, e10⟩ := idx_facts ⟨(i 0).val / 1000, hlt⟩
  have eq : win0_2.index ⟨(i 0).val / 1000, hlt⟩ (0 : Fin 2) = (i 0).val / 1000 := e5
  refine ⟨⟨(i 0).val / 1000, hlt⟩, flush0_2 _, ?_⟩
  rw [mem_blk2]
  intro a
  match a with
  | ⟨0, _⟩ =>
    show win0_2.index ⟨(i 0).val / 1000, hlt⟩ (0 : Fin 2) * 1000 ≤ (i 0).val
      ∧ (i 0).val < win0_2.index ⟨(i 0).val / 1000, hlt⟩ (0 : Fin 2) * 1000 + 1000
    rw [eq]; omega
  | ⟨1, _⟩ =>
    show win0_2.index ⟨(i 0).val / 1000, hlt⟩ (1 : Fin 2) * 16 ≤ (i 1).val
      ∧ (i 1).val < win0_2.index ⟨(i 0).val / 1000, hlt⟩ (1 : Fin 2) * 16 + 16
    rw [e6]; omega

/-- After the ten points, output 0 is the product of `X` with `W[0]`, entry by entry. -/
theorem final2 (c : Dev nD) :
    (dat0 (F := Ideal) V c).arrAt 2 cfg0.N = proj 0 (V c (Pipeline.arrRef spec0 0)) (V c (Pipeline.arrRef spec0 1)) :=
  (dat0 (F := Ideal) V c).arrAt_eq_of_cover 2 _ (fun t _ => flushed2_eq V c t) cover2

/-- What point `t` writes back to output 1: block `t` of the whole-array product with `W[1]`. -/
theorem flushed3_eq (c : Dev nD) (t : Fin cfg0.N) :
    (dat0 (F := Ideal) V c).flushed 3 t = ((cfg0.win 3).blk t).view.read (Elt Ideal)
      (proj 1 (V c (Pipeline.arrRef spec0 0)) (V c (Pipeline.arrRef spec0 1))) := by
  show (cfg0.win 3).cut (grid0.coords t) ((dat0 V c).after 3 t) = _
  rw [after0_3]
  obtain ⟨-, -, -, -, -, e5, e6, e7, e8, e9, e10⟩ := idx_facts t
  refine funext fun (j : S1000x16.Idx) => ?_
  obtain ⟨r, f, rfl⟩ : ∃ (r : Fin 1000) (f : Fin 16), j = ix2 r f := ⟨j 0, j 1, eq_ix2 j⟩
  show out0_3 (iblk0 V c 0 t) (iblk0 V c 1 t) (ix2 r f)
    = proj 1 (V c (Pipeline.arrRef spec0 0)) (V c (Pipeline.arrRef spec0 1)) (((cfg0.win 3).blk t).view.emb (ix2 r f))
  refine (out3_apply (iblk0 V c 0 t) (iblk0 V c 1 t) r f).trans ?_
  unfold proj
  refine Finset.sum_congr rfl fun k _ => ?_
  have hx := iblk_x V c t (ix2 r k)
    (ix2 (n0 := 10000) (n1 := 782) ((((cfg0.win 3).blk t).view.emb (ix2 r f)) 0) k)
    (by show win0_3.index t (0 : Fin 2) * 1000 + 1 * r.val = 1000 * t.val + r.val; rw [e7]; omega) rfl
  have hw := iblk_w V c t (ix3 (1 : Fin 3) k f)
  have hf : (ix3 (n0 := 3) (n1 := 782) (n2 := 16) (1 : Fin 3) k f)
      = ix3 (n0 := 3) (n1 := 782) (n2 := 16) 1 k ((((cfg0.win 3).blk t).view.emb (ix2 r f)) 1) :=
    funext fun a => Fin.ext (by
      match a with
      | ⟨0, _⟩ => rfl
      | ⟨1, _⟩ => rfl
      | ⟨2, _⟩ => show f.val = win0_3.index t (1 : Fin 2) * 16 + 1 * f.val; rw [e8]; omega)
  rw [hx, hw, hf]

/-- An index of the array is in point `t`'s block iff each coordinate is in the block's range on its axis. -/
theorem mem_blk3 (t : Fin cfg0.N) (i : S10000x16.Idx) :
    i ∈ ((cfg0.win 3).blk t).view.set ↔ ∀ a : Fin 2, win0_3.index t a * S1000x16.size a ≤ (i a).val
      ∧ (i a).val < win0_3.index t a * S1000x16.size a + S1000x16.size a := by
  show i ∈ ((View.whole main_v30_1).slice (win0_3.rect t)).set ↔ _
  rw [View.set_slice_whole, Rect.mem_set_unit]
  exact Iff.rfl

/-- Row `i 0` lies in block `(i 0) / 1000`: the ten blocks tile the array. -/
theorem cover3 (i : S10000x16.Idx) :
    ∃ t : Fin cfg0.N, (cfg0.win 3).flush t = true ∧ i ∈ ((cfg0.win 3).blk t).view.set := by
  have hi0 : (i 0).val < 10000 := (i 0).isLt
  have hi1 : (i 1).val < 16 := (i 1).isLt
  have hN : grid0.N = 10 := N_0
  have hlt : (i 0).val / 1000 < cfg0.N := by show (i 0).val / 1000 < grid0.N; rw [hN]; omega
  obtain ⟨-, -, -, -, -, e5, e6, e7, e8, e9, e10⟩ := idx_facts ⟨(i 0).val / 1000, hlt⟩
  have eq : win0_3.index ⟨(i 0).val / 1000, hlt⟩ (0 : Fin 2) = (i 0).val / 1000 := e7
  refine ⟨⟨(i 0).val / 1000, hlt⟩, flush0_3 _, ?_⟩
  rw [mem_blk3]
  intro a
  match a with
  | ⟨0, _⟩ =>
    show win0_3.index ⟨(i 0).val / 1000, hlt⟩ (0 : Fin 2) * 1000 ≤ (i 0).val
      ∧ (i 0).val < win0_3.index ⟨(i 0).val / 1000, hlt⟩ (0 : Fin 2) * 1000 + 1000
    rw [eq]; omega
  | ⟨1, _⟩ =>
    show win0_3.index ⟨(i 0).val / 1000, hlt⟩ (1 : Fin 2) * 16 ≤ (i 1).val
      ∧ (i 1).val < win0_3.index ⟨(i 0).val / 1000, hlt⟩ (1 : Fin 2) * 16 + 16
    rw [e8]; omega

/-- After the ten points, output 1 is the product of `X` with `W[1]`, entry by entry. -/
theorem final3 (c : Dev nD) :
    (dat0 (F := Ideal) V c).arrAt 3 cfg0.N = proj 1 (V c (Pipeline.arrRef spec0 0)) (V c (Pipeline.arrRef spec0 1)) :=
  (dat0 (F := Ideal) V c).arrAt_eq_of_cover 3 _ (fun t _ => flushed3_eq V c t) cover3

/-- What point `t` writes back to output 2: block `t` of the whole-array product with `W[2]`. -/
theorem flushed4_eq (c : Dev nD) (t : Fin cfg0.N) :
    (dat0 (F := Ideal) V c).flushed 4 t = ((cfg0.win 4).blk t).view.read (Elt Ideal)
      (proj 2 (V c (Pipeline.arrRef spec0 0)) (V c (Pipeline.arrRef spec0 1))) := by
  show (cfg0.win 4).cut (grid0.coords t) ((dat0 V c).after 4 t) = _
  rw [after0_4]
  obtain ⟨-, -, -, -, -, e5, e6, e7, e8, e9, e10⟩ := idx_facts t
  refine funext fun (j : S1000x16.Idx) => ?_
  obtain ⟨r, f, rfl⟩ : ∃ (r : Fin 1000) (f : Fin 16), j = ix2 r f := ⟨j 0, j 1, eq_ix2 j⟩
  show out0_4 (iblk0 V c 0 t) (iblk0 V c 1 t) (ix2 r f)
    = proj 2 (V c (Pipeline.arrRef spec0 0)) (V c (Pipeline.arrRef spec0 1)) (((cfg0.win 4).blk t).view.emb (ix2 r f))
  refine (out4_apply (iblk0 V c 0 t) (iblk0 V c 1 t) r f).trans ?_
  unfold proj
  refine Finset.sum_congr rfl fun k _ => ?_
  have hx := iblk_x V c t (ix2 r k)
    (ix2 (n0 := 10000) (n1 := 782) ((((cfg0.win 4).blk t).view.emb (ix2 r f)) 0) k)
    (by show win0_4.index t (0 : Fin 2) * 1000 + 1 * r.val = 1000 * t.val + r.val; rw [e9]; omega) rfl
  have hw := iblk_w V c t (ix3 (2 : Fin 3) k f)
  have hf : (ix3 (n0 := 3) (n1 := 782) (n2 := 16) (2 : Fin 3) k f)
      = ix3 (n0 := 3) (n1 := 782) (n2 := 16) 2 k ((((cfg0.win 4).blk t).view.emb (ix2 r f)) 1) :=
    funext fun a => Fin.ext (by
      match a with
      | ⟨0, _⟩ => rfl
      | ⟨1, _⟩ => rfl
      | ⟨2, _⟩ => show f.val = win0_4.index t (1 : Fin 2) * 16 + 1 * f.val; rw [e10]; omega)
  rw [hx, hw, hf]

/-- An index of the array is in point `t`'s block iff each coordinate is in the block's range on its axis. -/
theorem mem_blk4 (t : Fin cfg0.N) (i : S10000x16.Idx) :
    i ∈ ((cfg0.win 4).blk t).view.set ↔ ∀ a : Fin 2, win0_4.index t a * S1000x16.size a ≤ (i a).val
      ∧ (i a).val < win0_4.index t a * S1000x16.size a + S1000x16.size a := by
  show i ∈ ((View.whole main_v30_2).slice (win0_4.rect t)).set ↔ _
  rw [View.set_slice_whole, Rect.mem_set_unit]
  exact Iff.rfl

/-- Row `i 0` lies in block `(i 0) / 1000`: the ten blocks tile the array. -/
theorem cover4 (i : S10000x16.Idx) :
    ∃ t : Fin cfg0.N, (cfg0.win 4).flush t = true ∧ i ∈ ((cfg0.win 4).blk t).view.set := by
  have hi0 : (i 0).val < 10000 := (i 0).isLt
  have hi1 : (i 1).val < 16 := (i 1).isLt
  have hN : grid0.N = 10 := N_0
  have hlt : (i 0).val / 1000 < cfg0.N := by show (i 0).val / 1000 < grid0.N; rw [hN]; omega
  obtain ⟨-, -, -, -, -, e5, e6, e7, e8, e9, e10⟩ := idx_facts ⟨(i 0).val / 1000, hlt⟩
  have eq : win0_4.index ⟨(i 0).val / 1000, hlt⟩ (0 : Fin 2) = (i 0).val / 1000 := e9
  refine ⟨⟨(i 0).val / 1000, hlt⟩, flush0_4 _, ?_⟩
  rw [mem_blk4]
  intro a
  match a with
  | ⟨0, _⟩ =>
    show win0_4.index ⟨(i 0).val / 1000, hlt⟩ (0 : Fin 2) * 1000 ≤ (i 0).val
      ∧ (i 0).val < win0_4.index ⟨(i 0).val / 1000, hlt⟩ (0 : Fin 2) * 1000 + 1000
    rw [eq]; omega
  | ⟨1, _⟩ =>
    show win0_4.index ⟨(i 0).val / 1000, hlt⟩ (1 : Fin 2) * 16 ≤ (i 1).val
      ∧ (i 1).val < win0_4.index ⟨(i 0).val / 1000, hlt⟩ (1 : Fin 2) * 16 + 16
    rw [e10]; omega

/-- After the ten points, output 2 is the product of `X` with `W[2]`, entry by entry. -/
theorem final4 (c : Dev nD) :
    (dat0 (F := Ideal) V c).arrAt 4 cfg0.N = proj 2 (V c (Pipeline.arrRef spec0 0)) (V c (Pipeline.arrRef spec0 1)) :=
  (dat0 (F := Ideal) V c).arrAt_eq_of_cover 4 _ (fun t _ => flushed4_eq V c t) cover4

end Cert.KernelIdeal.RegionProj0

end
-- ==== Proof.RegionProj4.lean ====
import proofs.«120706_j28956669510215_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

/-! # The three projections of the last layer, as whole-array functions

The region walks the 10000 rows of `X` in ten blocks of 1000 rows. At each block it multiplies the
block by each of the three 128 × 19 weight matrices `W[0]`, `W[1]`, `W[2]` (all three sit in one
resident block) and writes the three products to the same rows of three output arrays. The format
changes on the way into the matrix unit are the identity on extended reals and the accumulator
starts at zero, so entry `(r, f)` of the κ-th output block is `∑ k, X[r, k] · W[κ, k, f]` with `r` a
row of the block. Row `r` of block `t` is row `1000 t + r` of the array and the ten blocks tile the
rows, so after the last block the κ-th output array is `X · W[κ]` entry by entry. -/

noncomputable section

namespace Cert.KernelIdeal.RegionProj4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Entry `i` of the product of `x` with the `κ`-th matrix of `w`: row `i 0` of `x` against column `i 1`
    of `w[κ]`, summed over the 128 shared coordinates. -/
def proj (κ : Fin 3) (x : S10000x128.Idx → EReal) (w : S3x128x19.Idx → EReal) : S10000x19.Idx → EReal :=
  fun i => ∑ k : Fin 128, x (ix2 (n0 := 10000) (n1 := 128) (i 0) k) * w (ix3 (n0 := 3) (n1 := 128) (n2 := 19) κ k (i 1))

/-! ## One block product at an entry -/

/-- The contraction's operand indices at output entry `i` and contraction index `q`: the left operand
    is read at row `i 0`, column `q`; the right one at row `q`, column `i 1`. -/
theorem lhs_row (i : S1000x19.Idx) (q : dot_S1000x128_S128x19_S1000x19_1_0_0_1_n_n.contr.Idx) :
    (dot_S1000x128_S128x19_S1000x19_1_0_0_1_n_n.lhsIdx i q 0).val = (i 0).val := by
  unfold DotDims.lhsIdx
  rw [dif_neg (show ¬(0 : Fin S1000x128.rank) ∈ dot_S1000x128_S128x19_S1000x19_1_0_0_1_n_n.lhsBatch by decide),
    dif_pos (show (0 : Fin S1000x128.rank) ∈ dot_S1000x128_S128x19_S1000x19_1_0_0_1_n_n.lhsNonContracting by decide)]
  rfl
theorem lhs_col (i : S1000x19.Idx) (q : dot_S1000x128_S128x19_S1000x19_1_0_0_1_n_n.contr.Idx) :
    (dot_S1000x128_S128x19_S1000x19_1_0_0_1_n_n.lhsIdx i q 1).val = (q ⟨0, by decide⟩).val :=
  dot_S1000x128_S128x19_S1000x19_1_0_0_1_n_n.lhsIdx_val_of_single rfl i q
theorem rhs_row (i : S1000x19.Idx) (q : dot_S1000x128_S128x19_S1000x19_1_0_0_1_n_n.contr.Idx) :
    (dot_S1000x128_S128x19_S1000x19_1_0_0_1_n_n.rhsIdx i q 0).val = (q ⟨0, by decide⟩).val :=
  dot_S1000x128_S128x19_S1000x19_1_0_0_1_n_n.rhsIdx_val_of_single rfl i q
theorem rhs_col (i : S1000x19.Idx) (q : dot_S1000x128_S128x19_S1000x19_1_0_0_1_n_n.contr.Idx) :
    (dot_S1000x128_S128x19_S1000x19_1_0_0_1_n_n.rhsIdx i q 1).val = (i 1).val := by
  unfold DotDims.rhsIdx
  rw [dif_neg (show ¬(1 : Fin S128x19.rank) ∈ dot_S1000x128_S128x19_S1000x19_1_0_0_1_n_n.rhsBatch by decide),
    dif_pos (show (1 : Fin S128x19.rank) ∈ dot_S1000x128_S128x19_S1000x19_1_0_0_1_n_n.rhsNonContracting by decide)]
  rfl

/-- Dropping the leading unit axis of a one-matrix slab keeps entry `(k, f)` where it was. -/
theorem slab_apply (w : Vec Ideal S1x128x19 .f32) (k : Fin 128) (f : Fin 19) :
    (shapeCast S128x19 w shapeCasts_S1x128x19_S128x19 : FVec Ideal S128x19 .f32) (ix2 k f) = w (ix3 0 k f) :=
  shapeCast_apply w shapeCasts_S1x128x19_S128x19 (ix2 k f) (ix3 0 k f) (by
    rewrite [Shape.rowMajor_val_three, Shape.rowMajor_val_two]
    show (0 * 128 + k.val) * 19 + f.val = k.val * 19 + f.val
    omega)

/-- The stored value at entry `(r, f)`: row `r` of the loaded block against column `f` of the loaded
    matrix. The two roundings to bf16 are the identity on extended reals and the accumulator is zero. -/
theorem pay2_apply (x0 : Vec Ideal S1000x128 .f32) (w0 : Vec Ideal S1x128x19 .f32) (r : Fin 1000) (f : Fin 19) :
    k4_pay2 x0 w0 (ix2 r f) = ∑ k : Fin 128, x0 (ix2 r k) * w0 (ix3 0 k f) := by
  unfold k4_pay2 k4_pay1
  simp only [matmul]
  rw [Ideal.matmul_constant_zero_apply,
    ← Equiv.sum_comp (contrEquiv1 dot_S1000x128_S128x19_S1000x19_1_0_0_1_n_n 128 rfl rfl).symm]
  refine Finset.sum_congr rfl fun k _ => ?_
  have hk := contrEquiv1_symm_val dot_S1000x128_S128x19_S1000x19_1_0_0_1_n_n 128 rfl rfl k
  have el : dot_S1000x128_S128x19_S1000x19_1_0_0_1_n_n.lhsIdx (ix2 r f)
      ((contrEquiv1 dot_S1000x128_S128x19_S1000x19_1_0_0_1_n_n 128 rfl rfl).symm k) = ix2 r k :=
    funext fun a => Fin.ext (by
      match a with
      | ⟨0, _⟩ => exact lhs_row _ _
      | ⟨1, _⟩ => exact (lhs_col _ _).trans hk)
  have er : dot_S1000x128_S128x19_S1000x19_1_0_0_1_n_n.rhsIdx (ix2 r f)
      ((contrEquiv1 dot_S1000x128_S128x19_S1000x19_1_0_0_1_n_n 128 rfl rfl).symm k) = ix2 k f :=
    funext fun a => Fin.ext (by
      match a with
      | ⟨0, _⟩ => exact (rhs_row _ _).trans hk
      | ⟨1, _⟩ => exact rhs_col _ _)
  rw [el, er, truncf_apply, truncf_apply, slab_apply, shapeCast_self]

/-- The second and third stores compute the same function of their loads as the first. -/
theorem pay3_eq (x0 : Vec Ideal S1000x128 .f32) (w0 : Vec Ideal S1x128x19 .f32) : k4_pay3 x0 w0 = k4_pay2 x0 w0 := rfl
theorem pay4_eq (x0 : Vec Ideal S1000x128 .f32) (w0 : Vec Ideal S1x128x19 .f32) : k4_pay4 x0 w0 = k4_pay2 x0 w0 := rfl

/-! ## What the body leaves in each output block, at an entry -/

theorem hz2 : (![0, 0] : Fin 2 → Nat) = fun _ => 0 := funext fun a => by fin_cases a <;> rfl

/-- The κ-th load of the weight block reads its κ-th matrix. -/
theorem ld_w0 (x1 : Vec Ideal S3x128x19 .f32) (k : Fin 128) (f : Fin 19) :
    View.ld x1 r4_1 (ix3 0 k f) = x1 (ix3 (0 : Fin 3) k f) := by
  show x1 (r4_1.idx (ix3 0 k f)) = x1 (ix3 (0 : Fin 3) k f)
  refine congrArg x1 (funext fun a => Fin.ext ?_)
  match a with
  | ⟨0, _⟩ => rfl
  | ⟨1, _⟩ => show 0 + 1 * k.val = k.val; omega
  | ⟨2, _⟩ => show 0 + 1 * f.val = f.val; omega
theorem ld_w1 (x1 : Vec Ideal S3x128x19 .f32) (k : Fin 128) (f : Fin 19) :
    View.ld x1 r4_2 (ix3 0 k f) = x1 (ix3 (1 : Fin 3) k f) := by
  show x1 (r4_2.idx (ix3 0 k f)) = x1 (ix3 (1 : Fin 3) k f)
  refine congrArg x1 (funext fun a => Fin.ext ?_)
  match a with
  | ⟨0, _⟩ => rfl
  | ⟨1, _⟩ => show 0 + 1 * k.val = k.val; omega
  | ⟨2, _⟩ => show 0 + 1 * f.val = f.val; omega
theorem ld_w2 (x1 : Vec Ideal S3x128x19 .f32) (k : Fin 128) (f : Fin 19) :
    View.ld x1 r4_3 (ix3 0 k f) = x1 (ix3 (2 : Fin 3) k f) := by
  show x1 (r4_3.idx (ix3 0 k f)) = x1 (ix3 (2 : Fin 3) k f)
  refine congrArg x1 (funext fun a => Fin.ext ?_)
  match a with
  | ⟨0, _⟩ => rfl
  | ⟨1, _⟩ => show 0 + 1 * k.val = k.val; omega
  | ⟨2, _⟩ => show 0 + 1 * f.val = f.val; omega

/-- Each output block after the body, at entry `(r, f)`: the input block's row `r` against column `f`
    of the matrix that output belongs to. -/
theorem out2_apply (x0 : Vec Ideal S1000x128 .f32) (x1 : Vec Ideal S3x128x19 .f32) (r : Fin 1000) (f : Fin 19) :
    out4_2 x0 x1 (ix2 r f) = ∑ k : Fin 128, x0 (ix2 r k) * x1 (ix3 (0 : Fin 3) k f) := by
  unfold out4_2
  rw [View.canon_unit_zero hz2, View.ld_unit_zero (S := S1000x128) hz2, pay2_apply]
  exact Finset.sum_congr rfl fun k _ => congrArg (x0 (ix2 r k) * ·) (ld_w0 x1 k f)
theorem out3_apply (x0 : Vec Ideal S1000x128 .f32) (x1 : Vec Ideal S3x128x19 .f32) (r : Fin 1000) (f : Fin 19) :
    out4_3 x0 x1 (ix2 r f) = ∑ k : Fin 128, x0 (ix2 r k) * x1 (ix3 (1 : Fin 3) k f) := by
  unfold out4_3
  rw [View.canon_unit_zero hz2, View.ld_unit_zero (S := S1000x128) hz2, pay3_eq, pay2_apply]
  exact Finset.sum_congr rfl fun k _ => congrArg (x0 (ix2 r k) * ·) (ld_w1 x1 k f)
theorem out4_apply (x0 : Vec Ideal S1000x128 .f32) (x1 : Vec Ideal S3x128x19 .f32) (r : Fin 1000) (f : Fin 19) :
    out4_4 x0 x1 (ix2 r f) = ∑ k : Fin 128, x0 (ix2 r k) * x1 (ix3 (2 : Fin 3) k f) := by
  unfold out4_4
  rw [View.canon_unit_zero hz2, View.ld_unit_zero (S := S1000x128) hz2, pay4_eq, pay2_apply]
  exact Finset.sum_congr rfl fun k _ => congrArg (x0 (ix2 r k) * ·) (ld_w2 x1 k f)

/-! ## The blocks inside their arrays -/

variable (V : (c : Dev nD) → (b : Ref sig .tc) → Buf (Elt Ideal) ((c : Thread nD τ).loc b))

/-- The block indices at grid point `t`: the row-blocked windows sit at block `t` of the rows, the weight
    window at its one block. Decided over the ten points. -/
theorem idx_facts : ∀ t : Fin cfg4.N, win4_0.index t (0 : Fin 2) = t.val ∧ win4_0.index t (1 : Fin 2) = 0
    ∧ win4_1.index t (0 : Fin 3) = 0 ∧ win4_1.index t (1 : Fin 3) = 0 ∧ win4_1.index t (2 : Fin 3) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Entry `y` of the input block at point `t` is the array's entry in row `1000 t + y 0`, same column. -/
theorem iblk_x (c : Dev nD) (t : Fin cfg4.N) (y : S1000x128.Idx) (i : S10000x128.Idx)
    (h0 : (i 0).val = 1000 * t.val + (y 0).val) (h1 : (i 1).val = (y 1).val) :
    (iblk4 V c 0 t : Vec Ideal S1000x128 .f32) y = (V c (Pipeline.arrRef spec4 0) : S10000x128.Idx → EReal) i := by
  obtain ⟨e0, e1, -⟩ := idx_facts t
  show V c (Pipeline.arrRef spec4 0) (((cfg4.win 0).blk t).view.emb y) = V c (Pipeline.arrRef spec4 0) i
  refine congrArg _ (funext fun a => Fin.ext ?_)
  match a with
  | ⟨0, _⟩ => show win4_0.index t (0 : Fin 2) * 1000 + 1 * (y 0).val = (i 0).val; rw [e0, h0]; omega
  | ⟨1, _⟩ => show win4_0.index t (1 : Fin 2) * 128 + 1 * (y 1).val = (i 1).val; rw [e1, h1]; omega

/-- The weight block at any point is the whole weight array. -/
theorem iblk_w (c : Dev nD) (t : Fin cfg4.N) (y : S3x128x19.Idx) :
    (iblk4 V c 1 t : Vec Ideal S3x128x19 .f32) y = (V c (Pipeline.arrRef spec4 1) : S3x128x19.Idx → EReal) y := by
  obtain ⟨-, -, e2, e3, e4, -⟩ := idx_facts t
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 3) * 3 + 1 * (y 0).val = (y 0).val; rw [e2]; omega
  | ⟨1, _⟩ => show win4_1.index t (1 : Fin 3) * 128 + 1 * (y 1).val = (y 1).val; rw [e3]; omega
  | ⟨2, _⟩ => show win4_1.index t (2 : Fin 3) * 19 + 1 * (y 2).val = (y 2).val; rw [e4]; omega

/-- What point `t` writes back to output 0: block `t` of the whole-array product with `W[0]`. -/
theorem flushed2_eq (c : Dev nD) (t : Fin cfg4.N) :
    (dat4 (F := Ideal) V c).flushed 2 t = ((cfg4.win 2).blk t).view.read (Elt Ideal)
      (proj 0 (V c (Pipeline.arrRef spec4 0)) (V c (Pipeline.arrRef spec4 1))) := by
  show (cfg4.win 2).cut (grid4.coords t) ((dat4 V c).after 2 t) = _
  rw [after4_2]
  obtain ⟨-, -, -, -, -, e5, e6, e7, e8, e9, e10⟩ := idx_facts t
  refine funext fun (j : S1000x19.Idx) => ?_
  obtain ⟨r, f, rfl⟩ : ∃ (r : Fin 1000) (f : Fin 19), j = ix2 r f := ⟨j 0, j 1, eq_ix2 j⟩
  show out4_2 (iblk4 V c 0 t) (iblk4 V c 1 t) (ix2 r f)
    = proj 0 (V c (Pipeline.arrRef spec4 0)) (V c (Pipeline.arrRef spec4 1)) (((cfg4.win 2).blk t).view.emb (ix2 r f))
  refine (out2_apply (iblk4 V c 0 t) (iblk4 V c 1 t) r f).trans ?_
  unfold proj
  refine Finset.sum_congr rfl fun k _ => ?_
  have hx := iblk_x V c t (ix2 r k)
    (ix2 (n0 := 10000) (n1 := 128) ((((cfg4.win 2).blk t).view.emb (ix2 r f)) 0) k)
    (by show win4_2.index t (0 : Fin 2) * 1000 + 1 * r.val = 1000 * t.val + r.val; rw [e5]; omega) rfl
  have hw := iblk_w V c t (ix3 (0 : Fin 3) k f)
  have hf : (ix3 (n0 := 3) (n1 := 128) (n2 := 19) (0 : Fin 3) k f)
      = ix3 (n0 := 3) (n1 := 128) (n2 := 19) 0 k ((((cfg4.win 2).blk t).view.emb (ix2 r f)) 1) :=
    funext fun a => Fin.ext (by
      match a with
      | ⟨0, _⟩ => rfl
      | ⟨1, _⟩ => rfl
      | ⟨2, _⟩ => show f.val = win4_2.index t (1 : Fin 2) * 19 + 1 * f.val; rw [e6]; omega)
  rw [hx, hw, hf]

/-- An index of the array is in point `t`'s block iff each coordinate is in the block's range on its axis. -/
theorem mem_blk2 (t : Fin cfg4.N) (i : S10000x19.Idx) :
    i ∈ ((cfg4.win 2).blk t).view.set ↔ ∀ a : Fin 2, win4_2.index t a * S1000x19.size a ≤ (i a).val
      ∧ (i a).val < win4_2.index t a * S1000x19.size a + S1000x19.size a := by
  show i ∈ ((View.whole main_v173_0).slice (win4_2.rect t)).set ↔ _
  rw [View.set_slice_whole, Rect.mem_set_unit]
  exact Iff.rfl

/-- Row `i 0` lies in block `(i 0) / 1000`: the ten blocks tile the array. -/
theorem cover2 (i : S10000x19.Idx) :
    ∃ t : Fin cfg4.N, (cfg4.win 2).flush t = true ∧ i ∈ ((cfg4.win 2).blk t).view.set := by
  have hi0 : (i 0).val < 10000 := (i 0).isLt
  have hi1 : (i 1).val < 19 := (i 1).isLt
  have hN : grid4.N = 10 := N_4
  have hlt : (i 0).val / 1000 < cfg4.N := by show (i 0).val / 1000 < grid4.N; rw [hN]; omega
  obtain ⟨-, -, -, -, -, e5, e6, e7, e8, e9, e10⟩ := idx_facts ⟨(i 0).val / 1000, hlt⟩
  have eq : win4_2.index ⟨(i 0).val / 1000, hlt⟩ (0 : Fin 2) = (i 0).val / 1000 := e5
  refine ⟨⟨(i 0).val / 1000, hlt⟩, flush4_2 _, ?_⟩
  rw [mem_blk2]
  intro a
  match a with
  | ⟨0, _⟩ =>
    show win4_2.index ⟨(i 0).val / 1000, hlt⟩ (0 : Fin 2) * 1000 ≤ (i 0).val
      ∧ (i 0).val < win4_2.index ⟨(i 0).val / 1000, hlt⟩ (0 : Fin 2) * 1000 + 1000
    rw [eq]; omega
  | ⟨1, _⟩ =>
    show win4_2.index ⟨(i 0).val / 1000, hlt⟩ (1 : Fin 2) * 19 ≤ (i 1).val
      ∧ (i 1).val < win4_2.index ⟨(i 0).val / 1000, hlt⟩ (1 : Fin 2) * 19 + 19
    rw [e6]; omega

/-- After the ten points, output 0 is the product of `X` with `W[0]`, entry by entry. -/
theorem final2 (c : Dev nD) :
    (dat4 (F := Ideal) V c).arrAt 2 cfg4.N = proj 0 (V c (Pipeline.arrRef spec4 0)) (V c (Pipeline.arrRef spec4 1)) :=
  (dat4 (F := Ideal) V c).arrAt_eq_of_cover 2 _ (fun t _ => flushed2_eq V c t) cover2

/-- What point `t` writes back to output 1: block `t` of the whole-array product with `W[1]`. -/
theorem flushed3_eq (c : Dev nD) (t : Fin cfg4.N) :
    (dat4 (F := Ideal) V c).flushed 3 t = ((cfg4.win 3).blk t).view.read (Elt Ideal)
      (proj 1 (V c (Pipeline.arrRef spec4 0)) (V c (Pipeline.arrRef spec4 1))) := by
  show (cfg4.win 3).cut (grid4.coords t) ((dat4 V c).after 3 t) = _
  rw [after4_3]
  obtain ⟨-, -, -, -, -, e5, e6, e7, e8, e9, e10⟩ := idx_facts t
  refine funext fun (j : S1000x19.Idx) => ?_
  obtain ⟨r, f, rfl⟩ : ∃ (r : Fin 1000) (f : Fin 19), j = ix2 r f := ⟨j 0, j 1, eq_ix2 j⟩
  show out4_3 (iblk4 V c 0 t) (iblk4 V c 1 t) (ix2 r f)
    = proj 1 (V c (Pipeline.arrRef spec4 0)) (V c (Pipeline.arrRef spec4 1)) (((cfg4.win 3).blk t).view.emb (ix2 r f))
  refine (out3_apply (iblk4 V c 0 t) (iblk4 V c 1 t) r f).trans ?_
  unfold proj
  refine Finset.sum_congr rfl fun k _ => ?_
  have hx := iblk_x V c t (ix2 r k)
    (ix2 (n0 := 10000) (n1 := 128) ((((cfg4.win 3).blk t).view.emb (ix2 r f)) 0) k)
    (by show win4_3.index t (0 : Fin 2) * 1000 + 1 * r.val = 1000 * t.val + r.val; rw [e7]; omega) rfl
  have hw := iblk_w V c t (ix3 (1 : Fin 3) k f)
  have hf : (ix3 (n0 := 3) (n1 := 128) (n2 := 19) (1 : Fin 3) k f)
      = ix3 (n0 := 3) (n1 := 128) (n2 := 19) 1 k ((((cfg4.win 3).blk t).view.emb (ix2 r f)) 1) :=
    funext fun a => Fin.ext (by
      match a with
      | ⟨0, _⟩ => rfl
      | ⟨1, _⟩ => rfl
      | ⟨2, _⟩ => show f.val = win4_3.index t (1 : Fin 2) * 19 + 1 * f.val; rw [e8]; omega)
  rw [hx, hw, hf]

/-- An index of the array is in point `t`'s block iff each coordinate is in the block's range on its axis. -/
theorem mem_blk3 (t : Fin cfg4.N) (i : S10000x19.Idx) :
    i ∈ ((cfg4.win 3).blk t).view.set ↔ ∀ a : Fin 2, win4_3.index t a * S1000x19.size a ≤ (i a).val
      ∧ (i a).val < win4_3.index t a * S1000x19.size a + S1000x19.size a := by
  show i ∈ ((View.whole main_v173_1).slice (win4_3.rect t)).set ↔ _
  rw [View.set_slice_whole, Rect.mem_set_unit]
  exact Iff.rfl

/-- Row `i 0` lies in block `(i 0) / 1000`: the ten blocks tile the array. -/
theorem cover3 (i : S10000x19.Idx) :
    ∃ t : Fin cfg4.N, (cfg4.win 3).flush t = true ∧ i ∈ ((cfg4.win 3).blk t).view.set := by
  have hi0 : (i 0).val < 10000 := (i 0).isLt
  have hi1 : (i 1).val < 19 := (i 1).isLt
  have hN : grid4.N = 10 := N_4
  have hlt : (i 0).val / 1000 < cfg4.N := by show (i 0).val / 1000 < grid4.N; rw [hN]; omega
  obtain ⟨-, -, -, -, -, e5, e6, e7, e8, e9, e10⟩ := idx_facts ⟨(i 0).val / 1000, hlt⟩
  have eq : win4_3.index ⟨(i 0).val / 1000, hlt⟩ (0 : Fin 2) = (i 0).val / 1000 := e7
  refine ⟨⟨(i 0).val / 1000, hlt⟩, flush4_3 _, ?_⟩
  rw [mem_blk3]
  intro a
  match a with
  | ⟨0, _⟩ =>
    show win4_3.index ⟨(i 0).val / 1000, hlt⟩ (0 : Fin 2) * 1000 ≤ (i 0).val
      ∧ (i 0).val < win4_3.index ⟨(i 0).val / 1000, hlt⟩ (0 : Fin 2) * 1000 + 1000
    rw [eq]; omega
  | ⟨1, _⟩ =>
    show win4_3.index ⟨(i 0).val / 1000, hlt⟩ (1 : Fin 2) * 19 ≤ (i 1).val
      ∧ (i 1).val < win4_3.index ⟨(i 0).val / 1000, hlt⟩ (1 : Fin 2) * 19 + 19
    rw [e8]; omega

/-- After the ten points, output 1 is the product of `X` with `W[1]`, entry by entry. -/
theorem final3 (c : Dev nD) :
    (dat4 (F := Ideal) V c).arrAt 3 cfg4.N = proj 1 (V c (Pipeline.arrRef spec4 0)) (V c (Pipeline.arrRef spec4 1)) :=
  (dat4 (F := Ideal) V c).arrAt_eq_of_cover 3 _ (fun t _ => flushed3_eq V c t) cover3

/-- What point `t` writes back to output 2: block `t` of the whole-array product with `W[2]`. -/
theorem flushed4_eq (c : Dev nD) (t : Fin cfg4.N) :
    (dat4 (F := Ideal) V c).flushed 4 t = ((cfg4.win 4).blk t).view.read (Elt Ideal)
      (proj 2 (V c (Pipeline.arrRef spec4 0)) (V c (Pipeline.arrRef spec4 1))) := by
  show (cfg4.win 4).cut (grid4.coords t) ((dat4 V c).after 4 t) = _
  rw [after4_4]
  obtain ⟨-, -, -, -, -, e5, e6, e7, e8, e9, e10⟩ := idx_facts t
  refine funext fun (j : S1000x19.Idx) => ?_
  obtain ⟨r, f, rfl⟩ : ∃ (r : Fin 1000) (f : Fin 19), j = ix2 r f := ⟨j 0, j 1, eq_ix2 j⟩
  show out4_4 (iblk4 V c 0 t) (iblk4 V c 1 t) (ix2 r f)
    = proj 2 (V c (Pipeline.arrRef spec4 0)) (V c (Pipeline.arrRef spec4 1)) (((cfg4.win 4).blk t).view.emb (ix2 r f))
  refine (out4_apply (iblk4 V c 0 t) (iblk4 V c 1 t) r f).trans ?_
  unfold proj
  refine Finset.sum_congr rfl fun k _ => ?_
  have hx := iblk_x V c t (ix2 r k)
    (ix2 (n0 := 10000) (n1 := 128) ((((cfg4.win 4).blk t).view.emb (ix2 r f)) 0) k)
    (by show win4_4.index t (0 : Fin 2) * 1000 + 1 * r.val = 1000 * t.val + r.val; rw [e9]; omega) rfl
  have hw := iblk_w V c t (ix3 (2 : Fin 3) k f)
  have hf : (ix3 (n0 := 3) (n1 := 128) (n2 := 19) (2 : Fin 3) k f)
      = ix3 (n0 := 3) (n1 := 128) (n2 := 19) 2 k ((((cfg4.win 4).blk t).view.emb (ix2 r f)) 1) :=
    funext fun a => Fin.ext (by
      match a with
      | ⟨0, _⟩ => rfl
      | ⟨1, _⟩ => rfl
      | ⟨2, _⟩ => show f.val = win4_4.index t (1 : Fin 2) * 19 + 1 * f.val; rw [e10]; omega)
  rw [hx, hw, hf]

/-- An index of the array is in point `t`'s block iff each coordinate is in the block's range on its axis. -/
theorem mem_blk4 (t : Fin cfg4.N) (i : S10000x19.Idx) :
    i ∈ ((cfg4.win 4).blk t).view.set ↔ ∀ a : Fin 2, win4_4.index t a * S1000x19.size a ≤ (i a).val
      ∧ (i a).val < win4_4.index t a * S1000x19.size a + S1000x19.size a := by
  show i ∈ ((View.whole main_v173_2).slice (win4_4.rect t)).set ↔ _
  rw [View.set_slice_whole, Rect.mem_set_unit]
  exact Iff.rfl

/-- Row `i 0` lies in block `(i 0) / 1000`: the ten blocks tile the array. -/
theorem cover4 (i : S10000x19.Idx) :
    ∃ t : Fin cfg4.N, (cfg4.win 4).flush t = true ∧ i ∈ ((cfg4.win 4).blk t).view.set := by
  have hi0 : (i 0).val < 10000 := (i 0).isLt
  have hi1 : (i 1).val < 19 := (i 1).isLt
  have hN : grid4.N = 10 := N_4
  have hlt : (i 0).val / 1000 < cfg4.N := by show (i 0).val / 1000 < grid4.N; rw [hN]; omega
  obtain ⟨-, -, -, -, -, e5, e6, e7, e8, e9, e10⟩ := idx_facts ⟨(i 0).val / 1000, hlt⟩
  have eq : win4_4.index ⟨(i 0).val / 1000, hlt⟩ (0 : Fin 2) = (i 0).val / 1000 := e9
  refine ⟨⟨(i 0).val / 1000, hlt⟩, flush4_4 _, ?_⟩
  rw [mem_blk4]
  intro a
  match a with
  | ⟨0, _⟩ =>
    show win4_4.index ⟨(i 0).val / 1000, hlt⟩ (0 : Fin 2) * 1000 ≤ (i 0).val
      ∧ (i 0).val < win4_4.index ⟨(i 0).val / 1000, hlt⟩ (0 : Fin 2) * 1000 + 1000
    rw [eq]; omega
  | ⟨1, _⟩ =>
    show win4_4.index ⟨(i 0).val / 1000, hlt⟩ (1 : Fin 2) * 19 ≤ (i 1).val
      ∧ (i 1).val < win4_4.index ⟨(i 0).val / 1000, hlt⟩ (1 : Fin 2) * 19 + 19
    rw [e10]; omega

/-- After the ten points, output 2 is the product of `X` with `W[2]`, entry by entry. -/
theorem final4 (c : Dev nD) :
    (dat4 (F := Ideal) V c).arrAt 4 cfg4.N = proj 2 (V c (Pipeline.arrRef spec4 0)) (V c (Pipeline.arrRef spec4 1)) :=
  (dat4 (F := Ideal) V c).arrAt_eq_of_cover 4 _ (fun t _ => flushed4_eq V c t) cover4

end Cert.KernelIdeal.RegionProj4

end
-- ==== Proof.RegionCheb1.lean ====
/- Region 1 of the kernel program: a Chebyshev linear layer over 10000 rows, computed 1000 rows per grid point.
   For every row i and output feature f the body computes
     max (((Σ_k T0[i,k]·W[0,k,f] + Σ_k T1[i,k]·W[1,k,f]) + Σ_k T2[i,k]·W[2,k,f]) + b[0,f]) 0,
   k over the 16 input features. This file proves that after the ten grid points the output array holds exactly that
   function of the five input arrays as the region finds them, at the ideal values (extended reals, exact operations,
   format changes the identity). -/
import proofs.«120706_j28956669510215_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionCheb1

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: the layer as one function of whole arrays -/

/-- The layer, row by row and feature by feature: three products against the three slices of the weight, added in
    this order, plus the bias row, clamped below at zero. -/
def chebLin (t0 t1 t2 : S10000x16.Idx → EReal) (w : S3x16x32.Idx → EReal) (b : S1x32.Idx → EReal) : S10000x32.Idx → EReal :=
  fun i => max ((((∑ k : Fin 16, t0 (ix2 (i 0) k) * w (ix3 0 k (i 1))) + (∑ k : Fin 16, t1 (ix2 (i 0) k) * w (ix3 1 k (i 1)))) + (∑ k : Fin 16, t2 (ix2 (i 0) k) * w (ix3 2 k (i 1)))) + b (ix2 0 (i 1))) 0

/-! ## One matrix product read at an index -/

theorem hz2 : (![0, 0] : Fin 2 → Nat) = fun _ => 0 := funext fun a => by fin_cases a <;> rfl

/-- The left operand's row coordinate is the output's row. -/
theorem lhs_row (i : S1000x32.Idx) (q : dot_S1000x16_S16x32_S1000x32_1_0_0_1_n_n.contr.Idx) :
    (dot_S1000x16_S16x32_S1000x32_1_0_0_1_n_n.lhsIdx i q 0).val = (i 0).val := by
  unfold DotDims.lhsIdx
  rw [dif_neg (show ¬(0 : Fin S1000x16.rank) ∈ dot_S1000x16_S16x32_S1000x32_1_0_0_1_n_n.lhsBatch by decide), dif_pos (show (0 : Fin S1000x16.rank) ∈ dot_S1000x16_S16x32_S1000x32_1_0_0_1_n_n.lhsNonContracting by decide)]
  rfl
/-- Its column coordinate is the contraction's one coordinate. -/
theorem lhs_col (i : S1000x32.Idx) (q : dot_S1000x16_S16x32_S1000x32_1_0_0_1_n_n.contr.Idx) :
    (dot_S1000x16_S16x32_S1000x32_1_0_0_1_n_n.lhsIdx i q 1).val = (q ⟨0, by decide⟩).val :=
  dot_S1000x16_S16x32_S1000x32_1_0_0_1_n_n.lhsIdx_val_of_single rfl i q
/-- The right operand's row coordinate is the contraction's one coordinate. -/
theorem rhs_row (i : S1000x32.Idx) (q : dot_S1000x16_S16x32_S1000x32_1_0_0_1_n_n.contr.Idx) :
    (dot_S1000x16_S16x32_S1000x32_1_0_0_1_n_n.rhsIdx i q 0).val = (q ⟨0, by decide⟩).val :=
  dot_S1000x16_S16x32_S1000x32_1_0_0_1_n_n.rhsIdx_val_of_single rfl i q
/-- Its column coordinate is the output's column. -/
theorem rhs_col (i : S1000x32.Idx) (q : dot_S1000x16_S16x32_S1000x32_1_0_0_1_n_n.contr.Idx) :
    (dot_S1000x16_S16x32_S1000x32_1_0_0_1_n_n.rhsIdx i q 1).val = (i 1).val := by
  unfold DotDims.rhsIdx
  rw [dif_neg (show ¬(1 : Fin S16x32.rank) ∈ dot_S1000x16_S16x32_S1000x32_1_0_0_1_n_n.rhsBatch by decide), dif_pos (show (1 : Fin S16x32.rank) ∈ dot_S1000x16_S16x32_S1000x32_1_0_0_1_n_n.rhsNonContracting by decide)]
  rfl

/-- A [1000,16] × [16,32] product into the zero accumulator, at row r and column f: the sum over the 16 inner coordinates. -/
theorem mm_apply (x : FVec Ideal S1000x16 .bf16) (w : FVec Ideal S16x32 .bf16) (r : Fin 1000) (f : Fin 32) :
    matmul dot_S1000x16_S16x32_S1000x32_1_0_0_1_n_n none x w (constant (F := Ideal) S1000x32 .f32 0x00000000#32) (ix2 r f)
      = ∑ k : Fin 16, x (ix2 r k) * w (ix2 k f) := by
  show FloatOps.matmul dot_S1000x16_S16x32_S1000x32_1_0_0_1_n_n none x w (constant (F := Ideal) S1000x32 .f32 0x00000000#32) (ix2 r f) = _
  rw [Ideal.matmul_constant_zero_apply, ← Equiv.sum_comp (contrEquiv1 dot_S1000x16_S16x32_S1000x32_1_0_0_1_n_n 16 rfl rfl).symm]
  refine Finset.sum_congr rfl fun k _ => ?_
  have hk := contrEquiv1_symm_val dot_S1000x16_S16x32_S1000x32_1_0_0_1_n_n 16 rfl rfl k
  have el : dot_S1000x16_S16x32_S1000x32_1_0_0_1_n_n.lhsIdx (ix2 r f) ((contrEquiv1 dot_S1000x16_S16x32_S1000x32_1_0_0_1_n_n 16 rfl rfl).symm k) = ix2 r k := funext fun a => Fin.ext (by
    match a with
    | ⟨0, _⟩ => exact lhs_row _ _
    | ⟨1, _⟩ => exact (lhs_col _ _).trans hk)
  have er : dot_S1000x16_S16x32_S1000x32_1_0_0_1_n_n.rhsIdx (ix2 r f) ((contrEquiv1 dot_S1000x16_S16x32_S1000x32_1_0_0_1_n_n 16 rfl rfl).symm k) = ix2 k f := funext fun a => Fin.ext (by
    match a with
    | ⟨0, _⟩ => exact (rhs_row _ _).trans hk
    | ⟨1, _⟩ => exact rhs_col _ _)
  rw [el, er]

/-! ## The body's value at an index -/

/-- The body's one stored value at row r and feature f of the block, from the three input blocks, the three weight
    slices (each a [1,16,32] vector) and the bias row. -/
theorem pay_apply (x0 x1 x2 : Vec Ideal S1000x16 .f32) (w0 w1 w2 : Vec Ideal S1x16x32 .f32) (b : Vec Ideal S1x32 .f32)
    (r : Fin 1000) (f : Fin 32) :
    k1_pay1 x0 x1 x2 w0 w1 w2 b (ix2 r f)
      = max ((((∑ k : Fin 16, x0 (ix2 r k) * w0 (ix3 0 k f)) + (∑ k : Fin 16, x1 (ix2 r k) * w1 (ix3 0 k f)))
          + (∑ k : Fin 16, x2 (ix2 r k) * w2 (ix3 0 k f))) + b (ix2 0 f)) 0 := by
  unfold k1_pay1
  simp only [shapeCast_self]
  rw [maximumf_apply, addf_apply, addf_apply, addf_apply, mm_apply, mm_apply, mm_apply, broadcast_apply,
    broadcastTo_1b_ab_apply]
  simp only [truncf_apply, shapeCast_1ab_ab_apply]
  show max _ (Ideal.ofBits .f32 0x00000000#32) = _
  rw [Ideal.ofBits_zero_f32]

/-- The same with the three slices' entries named: whatever the slices are known to be at (0, k, f). -/
theorem pay_apply_of (x0 x1 x2 : Vec Ideal S1000x16 .f32) (w0 w1 w2 : Vec Ideal S1x16x32 .f32) (b : Vec Ideal S1x32 .f32)
    (W : S3x16x32.Idx → EReal) (r : Fin 1000) (f : Fin 32)
    (hw0 : ∀ k : Fin 16, w0 (ix3 0 k f) = W (ix3 0 k f)) (hw1 : ∀ k : Fin 16, w1 (ix3 0 k f) = W (ix3 1 k f))
    (hw2 : ∀ k : Fin 16, w2 (ix3 0 k f) = W (ix3 2 k f)) :
    k1_pay1 x0 x1 x2 w0 w1 w2 b (ix2 r f)
      = max ((((∑ k : Fin 16, x0 (ix2 r k) * W (ix3 0 k f)) + (∑ k : Fin 16, x1 (ix2 r k) * W (ix3 1 k f)))
          + (∑ k : Fin 16, x2 (ix2 r k) * W (ix3 2 k f))) + b (ix2 0 f)) 0 := by
  rw [pay_apply]
  simp only [hw0, hw1, hw2]

/-- A weight slice, loaded through its unit rectangle at offset (κ, 0, 0), reads the weight at (κ, k, f). -/
theorem ld_w0 (x3 : Vec Ideal S3x16x32 .f32) (k : Fin 16) (f : Fin 32) : View.ld x3 r1_1 (ix3 0 k f) = x3 (ix3 0 k f) :=
  congrArg x3 (funext fun a => Fin.ext (by
    match a with
    | ⟨0, _⟩ => rfl
    | ⟨1, _⟩ => show 0 + 1 * k.val = k.val; omega
    | ⟨2, _⟩ => show 0 + 1 * f.val = f.val; omega))
theorem ld_w1 (x3 : Vec Ideal S3x16x32 .f32) (k : Fin 16) (f : Fin 32) : View.ld x3 r1_2 (ix3 0 k f) = x3 (ix3 1 k f) :=
  congrArg x3 (funext fun a => Fin.ext (by
    match a with
    | ⟨0, _⟩ => rfl
    | ⟨1, _⟩ => show 0 + 1 * k.val = k.val; omega
    | ⟨2, _⟩ => show 0 + 1 * f.val = f.val; omega))
theorem ld_w2 (x3 : Vec Ideal S3x16x32 .f32) (k : Fin 16) (f : Fin 32) : View.ld x3 r1_3 (ix3 0 k f) = x3 (ix3 2 k f) :=
  congrArg x3 (funext fun a => Fin.ext (by
    match a with
    | ⟨0, _⟩ => rfl
    | ⟨1, _⟩ => show 0 + 1 * k.val = k.val; omega
    | ⟨2, _⟩ => show 0 + 1 * f.val = f.val; omega))

/-- What the body leaves in the output block, at row r and feature f, from the five input blocks. -/
theorem out_apply (x0 x1 x2 : Vec Ideal S1000x16 .f32) (x3 : Vec Ideal S3x16x32 .f32) (x4 : Vec Ideal S1x32 .f32)
    (r : Fin 1000) (f : Fin 32) :
    out1_5 x0 x1 x2 x3 x4 (ix2 r f)
      = max ((((∑ k : Fin 16, x0 (ix2 r k) * x3 (ix3 0 k f)) + (∑ k : Fin 16, x1 (ix2 r k) * x3 (ix3 1 k f)))
          + (∑ k : Fin 16, x2 (ix2 r k) * x3 (ix3 2 k f))) + x4 (ix2 0 f)) 0 := by
  unfold out1_5
  rw [View.canon_unit_zero hz2]
  simp only [View.ld_unit_zero (S := S1000x16) hz2, View.ld_unit_zero (S := S1x32) hz2]
  exact pay_apply_of _ _ _ _ _ _ _ x3 r f (fun k => ld_w0 x3 k f) (fun k => ld_w1 x3 k f) (fun k => ld_w2 x3 k f)

/-- The output block is the layer of the whole arrays at the block's rows, provided each input block is its array's
    rows 1000·t … 1000·t + 999 (the three inputs) or the whole array (weight, bias). -/
theorem block_eq (T0 T1 T2 : S10000x16.Idx → EReal) (W : S3x16x32.Idx → EReal) (Bv : S1x32.Idx → EReal)
    (x0 x1 x2 : Vec Ideal S1000x16 .f32) (x3 : Vec Ideal S3x16x32 .f32) (x4 : Vec Ideal S1x32 .f32) (tv : Nat)
    (h0 : ∀ (y : S1000x16.Idx) (i : S10000x16.Idx), (i 0).val = 1000 * tv + (y 0).val → (i 1).val = (y 1).val → x0 y = T0 i)
    (h1 : ∀ (y : S1000x16.Idx) (i : S10000x16.Idx), (i 0).val = 1000 * tv + (y 0).val → (i 1).val = (y 1).val → x1 y = T1 i)
    (h2 : ∀ (y : S1000x16.Idx) (i : S10000x16.Idx), (i 0).val = 1000 * tv + (y 0).val → (i 1).val = (y 1).val → x2 y = T2 i)
    (h3 : x3 = W) (h4 : x4 = Bv)
    (y : S1000x32.Idx) (i : S10000x32.Idx) (hi0 : (i 0).val = 1000 * tv + (y 0).val) (hi1 : (i 1).val = (y 1).val) :
    out1_5 x0 x1 x2 x3 x4 y = chebLin T0 T1 T2 W Bv i := by
  subst h3 h4
  obtain ⟨r, f, rfl⟩ : ∃ (r : Fin 1000) (f : Fin 32), y = ix2 r f := ⟨y 0, y 1, eq_ix2 y⟩
  obtain ⟨p, q, rfl⟩ : ∃ (p : Fin 10000) (q : Fin 32), i = ix2 p q := ⟨i 0, i 1, eq_ix2 i⟩
  obtain rfl : q = f := Fin.ext hi1
  rw [out_apply]
  have e0 : ∀ k : Fin 16, x0 (ix2 r k) = T0 (ix2 p k) := fun k => h0 _ _ hi0 rfl
  have e1 : ∀ k : Fin 16, x1 (ix2 r k) = T1 (ix2 p k) := fun k => h1 _ _ hi0 rfl
  have e2 : ∀ k : Fin 16, x2 (ix2 r k) = T2 (ix2 p k) := fun k => h2 _ _ hi0 rfl
  simp only [e0, e1, e2]
  rfl

/-! ## The blocks, read off the arrays as the region finds them -/

variable (V : (c : Dev nD) → (b : Ref sig .tc) → Buf (Elt Ideal) ((c : Thread nD τ).loc b))

/-- The printed index maps over the ten grid points: the three inputs and the output move down one block of rows per
    point; the weight and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Input 0's block at point t is rows 1000·t … of its array. -/
theorem in0_apply (c : Dev nD) (t : Fin cfg1.N) (y : S1000x16.Idx) (i : S10000x16.Idx)
    (h0 : (i 0).val = 1000 * t.val + (y 0).val) (h1 : (i 1).val = (y 1).val) :
    (iblk1 V c 0 t : Vec Ideal S1000x16 .f32) y = (V c (Pipeline.arrRef spec1 0) : S10000x16.Idx → EReal) i := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 1000 + 1 * (y 0).val = (i 0).val; rw [e0]; omega
  | ⟨1, _⟩ => show win1_0.index t (1 : Fin 2) * 16 + 1 * (y 1).val = (i 1).val; rw [e1]; omega
/-- Input 1's likewise. -/
theorem in1_apply (c : Dev nD) (t : Fin cfg1.N) (y : S1000x16.Idx) (i : S10000x16.Idx)
    (h0 : (i 0).val = 1000 * t.val + (y 0).val) (h1 : (i 1).val = (y 1).val) :
    (iblk1 V c 1 t : Vec Ideal S1000x16 .f32) y = (V c (Pipeline.arrRef spec1 1) : S10000x16.Idx → EReal) i := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1000 + 1 * (y 0).val = (i 0).val; rw [e0]; omega
  | ⟨1, _⟩ => show win1_1.index t (1 : Fin 2) * 16 + 1 * (y 1).val = (i 1).val; rw [e1]; omega
/-- Input 2's likewise. -/
theorem in2_apply (c : Dev nD) (t : Fin cfg1.N) (y : S1000x16.Idx) (i : S10000x16.Idx)
    (h0 : (i 0).val = 1000 * t.val + (y 0).val) (h1 : (i 1).val = (y 1).val) :
    (iblk1 V c 2 t : Vec Ideal S1000x16 .f32) y = (V c (Pipeline.arrRef spec1 2) : S10000x16.Idx → EReal) i := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1000 + 1 * (y 0).val = (i 0).val; rw [e0]; omega
  | ⟨1, _⟩ => show win1_2.index t (1 : Fin 2) * 16 + 1 * (y 1).val = (i 1).val; rw [e1]; omega
/-- The weight's one block is the whole weight, at every point. -/
theorem weight_eq (c : Dev nD) (t : Fin cfg1.N) :
    (iblk1 V c 3 t : Vec Ideal S3x16x32 .f32) = (V c (Pipeline.arrRef spec1 3) : S3x16x32.Idx → EReal) := by
  obtain ⟨-, -, -, -, -, -, e0, e1, e2, -⟩ := idx_facts t
  funext y
  unfold iblk1
  rw [View.read_apply]
  show V c (Pipeline.arrRef spec1 3) _ = V c (Pipeline.arrRef spec1 3) _
  congr 1
  funext a
  apply Fin.ext
  match a with
  | ⟨0, _⟩ => show win1_3.index t (0 : Fin 3) * 3 + 1 * (y 0).val = (y 0).val; rw [e0]; omega
  | ⟨1, _⟩ => show win1_3.index t (1 : Fin 3) * 16 + 1 * (y 1).val = (y 1).val; rw [e1]; omega
  | ⟨2, _⟩ => show win1_3.index t (2 : Fin 3) * 32 + 1 * (y 2).val = (y 2).val; rw [e2]; omega
/-- The bias's one block is the whole bias row, at every point. -/
theorem bias_eq (c : Dev nD) (t : Fin cfg1.N) :
    (iblk1 V c 4 t : Vec Ideal S1x32 .f32) = (V c (Pipeline.arrRef spec1 4) : S1x32.Idx → EReal) := by
  obtain ⟨-, -, -, -, -, -, -, -, -, e0, e1, -⟩ := idx_facts t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega

/-! ## From the blocks to the array -/

/-- The layer of the five arrays as the region finds them. -/
abbrev G (c : Dev nD) : S10000x32.Idx → EReal :=
  chebLin (V c (Pipeline.arrRef spec1 0)) (V c (Pipeline.arrRef spec1 1)) (V c (Pipeline.arrRef spec1 2))
    (V c (Pipeline.arrRef spec1 3)) (V c (Pipeline.arrRef spec1 4))

/-- What point t writes back is block t of the layer of the whole arrays. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  obtain ⟨-, -, -, -, -, -, -, -, -, -, -, e0, e1⟩ := idx_facts t
  funext j
  show out1_5 (iblk1 V c 0 t) (iblk1 V c 1 t) (iblk1 V c 2 t) (iblk1 V c 3 t) (iblk1 V c 4 t) j
    = G V c (((cfg1.win 5).blk t).view.emb j)
  refine block_eq _ _ _ _ _ _ _ _ _ _ t.val (fun y i a b => in0_apply V c t y i a b) (fun y i a b => in1_apply V c t y i a b)
    (fun y i a b => in2_apply V c t y i a b) (weight_eq V c t) (bias_eq V c t) j _ ?_ ?_
  · show win1_5.index t (0 : Fin 2) * 1000 + 1 * (j 0).val = 1000 * t.val + (j 0).val
    rw [e0]; omega
  · show win1_5.index t (1 : Fin 2) * 32 + 1 * (j 1).val = (j 1).val
    rw [e1]; omega

/-- An index of the output array is in point t's block iff each coordinate is in the block's range on its axis. -/
theorem mem_blk (t : Fin cfg1.N) (i : S10000x32.Idx) :
    i ∈ ((cfg1.win 5).blk t).view.set ↔ ∀ a : Fin 2, win1_5.index t a * S1000x32.size a ≤ (i a).val ∧ (i a).val < win1_5.index t a * S1000x32.size a + S1000x32.size a := by
  show i ∈ ((View.whole main_v110).slice (win1_5.rect t)).set ↔ _
  rw [View.set_slice_whole, Rect.mem_set_unit]
  exact Iff.rfl

/-- Every row is in the block of the point its thousand names. -/
theorem cover (i : S10000x32.Idx) : ∃ t : Fin cfg1.N, (cfg1.win 5).flush t = true ∧ i ∈ ((cfg1.win 5).blk t).view.set := by
  have hi0 : (i 0).val < 10000 := (i 0).isLt
  have hi1 : (i 1).val < 32 := (i 1).isLt
  have ht : (i 0).val / 1000 < cfg1.N := by show (i 0).val / 1000 < 10; omega
  obtain ⟨-, -, -, -, -, -, -, -, -, -, -, e0, e1⟩ := idx_facts ⟨(i 0).val / 1000, ht⟩
  refine ⟨⟨(i 0).val / 1000, ht⟩, flush1_5 _, ?_⟩
  rw [mem_blk]
  intro a
  match a with
  | ⟨0, _⟩ =>
    show win1_5.index ⟨(i 0).val / 1000, ht⟩ (0 : Fin 2) * 1000 ≤ (i 0).val ∧ (i 0).val < win1_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_5.index ⟨(i 0).val / 1000, ht⟩ (1 : Fin 2) * 32 ≤ (i 1).val ∧ (i 1).val < win1_5.index ⟨(i 0).val / 1000, ht⟩ (1 : Fin 2) * 32 + 32
    rw [e1]; omega

/-- THE OUTPUT ARRAY after the ten points: the layer of the five input arrays as the region finds them. -/
theorem final (c : Dev nD) :
    (dat1 (F := Ideal) V c).arrAt 5 cfg1.N
      = chebLin (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 (G V c) (fun t _ => flushed_eq V c t) cover

end Cert.KernelIdeal.RegionCheb1

end
-- ==== Proof.RegionCheb2.lean ====
/- Region 2 of the kernel program: a Chebyshev linear layer over 10000 rows, computed 1000 rows per grid point.
   For every row i and output feature f the body computes
     max (((Σ_k T0[i,k]·W[0,k,f] + Σ_k T1[i,k]·W[1,k,f]) + Σ_k T2[i,k]·W[2,k,f]) + b[0,f]) 0,
   k over the 32 input features. This file proves that after the ten grid points the output array holds exactly that
   function of the five input arrays as the region finds them, at the ideal values (extended reals, exact operations,
   format changes the identity). -/
import proofs.«120706_j28956669510215_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionCheb2

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: the layer as one function of whole arrays -/

/-- The layer, row by row and feature by feature: three products against the three slices of the weight, added in
    this order, plus the bias row, clamped below at zero. -/
def chebLin (t0 t1 t2 : S10000x32.Idx → EReal) (w : S3x32x64.Idx → EReal) (b : S1x64.Idx → EReal) : S10000x64.Idx → EReal :=
  fun i => max ((((∑ k : Fin 32, t0 (ix2 (i 0) k) * w (ix3 0 k (i 1))) + (∑ k : Fin 32, t1 (ix2 (i 0) k) * w (ix3 1 k (i 1)))) + (∑ k : Fin 32, t2 (ix2 (i 0) k) * w (ix3 2 k (i 1)))) + b (ix2 0 (i 1))) 0

/-! ## One matrix product read at an index -/

theorem hz2 : (![0, 0] : Fin 2 → Nat) = fun _ => 0 := funext fun a => by fin_cases a <;> rfl

/-- The left operand's row coordinate is the output's row. -/
theorem lhs_row (i : S1000x64.Idx) (q : dot_S1000x32_S32x64_S1000x64_1_0_0_1_n_n.contr.Idx) :
    (dot_S1000x32_S32x64_S1000x64_1_0_0_1_n_n.lhsIdx i q 0).val = (i 0).val := by
  unfold DotDims.lhsIdx
  rw [dif_neg (show ¬(0 : Fin S1000x32.rank) ∈ dot_S1000x32_S32x64_S1000x64_1_0_0_1_n_n.lhsBatch by decide), dif_pos (show (0 : Fin S1000x32.rank) ∈ dot_S1000x32_S32x64_S1000x64_1_0_0_1_n_n.lhsNonContracting by decide)]
  rfl
/-- Its column coordinate is the contraction's one coordinate. -/
theorem lhs_col (i : S1000x64.Idx) (q : dot_S1000x32_S32x64_S1000x64_1_0_0_1_n_n.contr.Idx) :
    (dot_S1000x32_S32x64_S1000x64_1_0_0_1_n_n.lhsIdx i q 1).val = (q ⟨0, by decide⟩).val :=
  dot_S1000x32_S32x64_S1000x64_1_0_0_1_n_n.lhsIdx_val_of_single rfl i q
/-- The right operand's row coordinate is the contraction's one coordinate. -/
theorem rhs_row (i : S1000x64.Idx) (q : dot_S1000x32_S32x64_S1000x64_1_0_0_1_n_n.contr.Idx) :
    (dot_S1000x32_S32x64_S1000x64_1_0_0_1_n_n.rhsIdx i q 0).val = (q ⟨0, by decide⟩).val :=
  dot_S1000x32_S32x64_S1000x64_1_0_0_1_n_n.rhsIdx_val_of_single rfl i q
/-- Its column coordinate is the output's column. -/
theorem rhs_col (i : S1000x64.Idx) (q : dot_S1000x32_S32x64_S1000x64_1_0_0_1_n_n.contr.Idx) :
    (dot_S1000x32_S32x64_S1000x64_1_0_0_1_n_n.rhsIdx i q 1).val = (i 1).val := by
  unfold DotDims.rhsIdx
  rw [dif_neg (show ¬(1 : Fin S32x64.rank) ∈ dot_S1000x32_S32x64_S1000x64_1_0_0_1_n_n.rhsBatch by decide), dif_pos (show (1 : Fin S32x64.rank) ∈ dot_S1000x32_S32x64_S1000x64_1_0_0_1_n_n.rhsNonContracting by decide)]
  rfl

/-- A [1000,32] × [32,64] product into the zero accumulator, at row r and column f: the sum over the 32 inner coordinates. -/
theorem mm_apply (x : FVec Ideal S1000x32 .bf16) (w : FVec Ideal S32x64 .bf16) (r : Fin 1000) (f : Fin 64) :
    matmul dot_S1000x32_S32x64_S1000x64_1_0_0_1_n_n none x w (constant (F := Ideal) S1000x64 .f32 0x00000000#32) (ix2 r f)
      = ∑ k : Fin 32, x (ix2 r k) * w (ix2 k f) := by
  show FloatOps.matmul dot_S1000x32_S32x64_S1000x64_1_0_0_1_n_n none x w (constant (F := Ideal) S1000x64 .f32 0x00000000#32) (ix2 r f) = _
  rw [Ideal.matmul_constant_zero_apply, ← Equiv.sum_comp (contrEquiv1 dot_S1000x32_S32x64_S1000x64_1_0_0_1_n_n 32 rfl rfl).symm]
  refine Finset.sum_congr rfl fun k _ => ?_
  have hk := contrEquiv1_symm_val dot_S1000x32_S32x64_S1000x64_1_0_0_1_n_n 32 rfl rfl k
  have el : dot_S1000x32_S32x64_S1000x64_1_0_0_1_n_n.lhsIdx (ix2 r f) ((contrEquiv1 dot_S1000x32_S32x64_S1000x64_1_0_0_1_n_n 32 rfl rfl).symm k) = ix2 r k := funext fun a => Fin.ext (by
    match a with
    | ⟨0, _⟩ => exact lhs_row _ _
    | ⟨1, _⟩ => exact (lhs_col _ _).trans hk)
  have er : dot_S1000x32_S32x64_S1000x64_1_0_0_1_n_n.rhsIdx (ix2 r f) ((contrEquiv1 dot_S1000x32_S32x64_S1000x64_1_0_0_1_n_n 32 rfl rfl).symm k) = ix2 k f := funext fun a => Fin.ext (by
    match a with
    | ⟨0, _⟩ => exact (rhs_row _ _).trans hk
    | ⟨1, _⟩ => exact rhs_col _ _)
  rw [el, er]

/-! ## The body's value at an index -/

/-- The body's one stored value at row r and feature f of the block, from the three input blocks, the three weight
    slices (each a [1,32,64] vector) and the bias row. -/
theorem pay_apply (x0 x1 x2 : Vec Ideal S1000x32 .f32) (w0 w1 w2 : Vec Ideal S1x32x64 .f32) (b : Vec Ideal S1x64 .f32)
    (r : Fin 1000) (f : Fin 64) :
    k2_pay1 x0 x1 x2 w0 w1 w2 b (ix2 r f)
      = max ((((∑ k : Fin 32, x0 (ix2 r k) * w0 (ix3 0 k f)) + (∑ k : Fin 32, x1 (ix2 r k) * w1 (ix3 0 k f)))
          + (∑ k : Fin 32, x2 (ix2 r k) * w2 (ix3 0 k f))) + b (ix2 0 f)) 0 := by
  unfold k2_pay1
  simp only [shapeCast_self]
  rw [maximumf_apply, addf_apply, addf_apply, addf_apply, mm_apply, mm_apply, mm_apply, broadcast_apply,
    broadcastTo_1b_ab_apply]
  simp only [truncf_apply, shapeCast_1ab_ab_apply]
  show max _ (Ideal.ofBits .f32 0x00000000#32) = _
  rw [Ideal.ofBits_zero_f32]

/-- The same with the three slices' entries named: whatever the slices are known to be at (0, k, f). -/
theorem pay_apply_of (x0 x1 x2 : Vec Ideal S1000x32 .f32) (w0 w1 w2 : Vec Ideal S1x32x64 .f32) (b : Vec Ideal S1x64 .f32)
    (W : S3x32x64.Idx → EReal) (r : Fin 1000) (f : Fin 64)
    (hw0 : ∀ k : Fin 32, w0 (ix3 0 k f) = W (ix3 0 k f)) (hw1 : ∀ k : Fin 32, w1 (ix3 0 k f) = W (ix3 1 k f))
    (hw2 : ∀ k : Fin 32, w2 (ix3 0 k f) = W (ix3 2 k f)) :
    k2_pay1 x0 x1 x2 w0 w1 w2 b (ix2 r f)
      = max ((((∑ k : Fin 32, x0 (ix2 r k) * W (ix3 0 k f)) + (∑ k : Fin 32, x1 (ix2 r k) * W (ix3 1 k f)))
          + (∑ k : Fin 32, x2 (ix2 r k) * W (ix3 2 k f))) + b (ix2 0 f)) 0 := by
  rw [pay_apply]
  simp only [hw0, hw1, hw2]

/-- A weight slice, loaded through its unit rectangle at offset (κ, 0, 0), reads the weight at (κ, k, f). -/
theorem ld_w0 (x3 : Vec Ideal S3x32x64 .f32) (k : Fin 32) (f : Fin 64) : View.ld x3 r2_1 (ix3 0 k f) = x3 (ix3 0 k f) :=
  congrArg x3 (funext fun a => Fin.ext (by
    match a with
    | ⟨0, _⟩ => rfl
    | ⟨1, _⟩ => show 0 + 1 * k.val = k.val; omega
    | ⟨2, _⟩ => show 0 + 1 * f.val = f.val; omega))
theorem ld_w1 (x3 : Vec Ideal S3x32x64 .f32) (k : Fin 32) (f : Fin 64) : View.ld x3 r2_2 (ix3 0 k f) = x3 (ix3 1 k f) :=
  congrArg x3 (funext fun a => Fin.ext (by
    match a with
    | ⟨0, _⟩ => rfl
    | ⟨1, _⟩ => show 0 + 1 * k.val = k.val; omega
    | ⟨2, _⟩ => show 0 + 1 * f.val = f.val; omega))
theorem ld_w2 (x3 : Vec Ideal S3x32x64 .f32) (k : Fin 32) (f : Fin 64) : View.ld x3 r2_3 (ix3 0 k f) = x3 (ix3 2 k f) :=
  congrArg x3 (funext fun a => Fin.ext (by
    match a with
    | ⟨0, _⟩ => rfl
    | ⟨1, _⟩ => show 0 + 1 * k.val = k.val; omega
    | ⟨2, _⟩ => show 0 + 1 * f.val = f.val; omega))

/-- What the body leaves in the output block, at row r and feature f, from the five input blocks. -/
theorem out_apply (x0 x1 x2 : Vec Ideal S1000x32 .f32) (x3 : Vec Ideal S3x32x64 .f32) (x4 : Vec Ideal S1x64 .f32)
    (r : Fin 1000) (f : Fin 64) :
    out2_5 x0 x1 x2 x3 x4 (ix2 r f)
      = max ((((∑ k : Fin 32, x0 (ix2 r k) * x3 (ix3 0 k f)) + (∑ k : Fin 32, x1 (ix2 r k) * x3 (ix3 1 k f)))
          + (∑ k : Fin 32, x2 (ix2 r k) * x3 (ix3 2 k f))) + x4 (ix2 0 f)) 0 := by
  unfold out2_5
  rw [View.canon_unit_zero hz2]
  simp only [View.ld_unit_zero (S := S1000x32) hz2, View.ld_unit_zero (S := S1x64) hz2]
  exact pay_apply_of _ _ _ _ _ _ _ x3 r f (fun k => ld_w0 x3 k f) (fun k => ld_w1 x3 k f) (fun k => ld_w2 x3 k f)

/-- The output block is the layer of the whole arrays at the block's rows, provided each input block is its array's
    rows 1000·t … 1000·t + 999 (the three inputs) or the whole array (weight, bias). -/
theorem block_eq (T0 T1 T2 : S10000x32.Idx → EReal) (W : S3x32x64.Idx → EReal) (Bv : S1x64.Idx → EReal)
    (x0 x1 x2 : Vec Ideal S1000x32 .f32) (x3 : Vec Ideal S3x32x64 .f32) (x4 : Vec Ideal S1x64 .f32) (tv : Nat)
    (h0 : ∀ (y : S1000x32.Idx) (i : S10000x32.Idx), (i 0).val = 1000 * tv + (y 0).val → (i 1).val = (y 1).val → x0 y = T0 i)
    (h1 : ∀ (y : S1000x32.Idx) (i : S10000x32.Idx), (i 0).val = 1000 * tv + (y 0).val → (i 1).val = (y 1).val → x1 y = T1 i)
    (h2 : ∀ (y : S1000x32.Idx) (i : S10000x32.Idx), (i 0).val = 1000 * tv + (y 0).val → (i 1).val = (y 1).val → x2 y = T2 i)
    (h3 : x3 = W) (h4 : x4 = Bv)
    (y : S1000x64.Idx) (i : S10000x64.Idx) (hi0 : (i 0).val = 1000 * tv + (y 0).val) (hi1 : (i 1).val = (y 1).val) :
    out2_5 x0 x1 x2 x3 x4 y = chebLin T0 T1 T2 W Bv i := by
  subst h3 h4
  obtain ⟨r, f, rfl⟩ : ∃ (r : Fin 1000) (f : Fin 64), y = ix2 r f := ⟨y 0, y 1, eq_ix2 y⟩
  obtain ⟨p, q, rfl⟩ : ∃ (p : Fin 10000) (q : Fin 64), i = ix2 p q := ⟨i 0, i 1, eq_ix2 i⟩
  obtain rfl : q = f := Fin.ext hi1
  rw [out_apply]
  have e0 : ∀ k : Fin 32, x0 (ix2 r k) = T0 (ix2 p k) := fun k => h0 _ _ hi0 rfl
  have e1 : ∀ k : Fin 32, x1 (ix2 r k) = T1 (ix2 p k) := fun k => h1 _ _ hi0 rfl
  have e2 : ∀ k : Fin 32, x2 (ix2 r k) = T2 (ix2 p k) := fun k => h2 _ _ hi0 rfl
  simp only [e0, e1, e2]
  rfl

/-! ## The blocks, read off the arrays as the region finds them -/

variable (V : (c : Dev nD) → (b : Ref sig .tc) → Buf (Elt Ideal) ((c : Thread nD τ).loc b))

/-- The printed index maps over the ten grid points: the three inputs and the output move down one block of rows per
    point; the weight and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Input 0's block at point t is rows 1000·t … of its array. -/
theorem in0_apply (c : Dev nD) (t : Fin cfg2.N) (y : S1000x32.Idx) (i : S10000x32.Idx)
    (h0 : (i 0).val = 1000 * t.val + (y 0).val) (h1 : (i 1).val = (y 1).val) :
    (iblk2 V c 0 t : Vec Ideal S1000x32 .f32) y = (V c (Pipeline.arrRef spec2 0) : S10000x32.Idx → EReal) i := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1000 + 1 * (y 0).val = (i 0).val; rw [e0]; omega
  | ⟨1, _⟩ => show win2_0.index t (1 : Fin 2) * 32 + 1 * (y 1).val = (i 1).val; rw [e1]; omega
/-- Input 1's likewise. -/
theorem in1_apply (c : Dev nD) (t : Fin cfg2.N) (y : S1000x32.Idx) (i : S10000x32.Idx)
    (h0 : (i 0).val = 1000 * t.val + (y 0).val) (h1 : (i 1).val = (y 1).val) :
    (iblk2 V c 1 t : Vec Ideal S1000x32 .f32) y = (V c (Pipeline.arrRef spec2 1) : S10000x32.Idx → EReal) i := by
  obtain ⟨-, -, e0, e1, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1000 + 1 * (y 0).val = (i 0).val; rw [e0]; omega
  | ⟨1, _⟩ => show win2_1.index t (1 : Fin 2) * 32 + 1 * (y 1).val = (i 1).val; rw [e1]; omega
/-- Input 2's likewise. -/
theorem in2_apply (c : Dev nD) (t : Fin cfg2.N) (y : S1000x32.Idx) (i : S10000x32.Idx)
    (h0 : (i 0).val = 1000 * t.val + (y 0).val) (h1 : (i 1).val = (y 1).val) :
    (iblk2 V c 2 t : Vec Ideal S1000x32 .f32) y = (V c (Pipeline.arrRef spec2 2) : S10000x32.Idx → EReal) i := by
  obtain ⟨-, -, -, -, e0, e1, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1000 + 1 * (y 0).val = (i 0).val; rw [e0]; omega
  | ⟨1, _⟩ => show win2_2.index t (1 : Fin 2) * 32 + 1 * (y 1).val = (i 1).val; rw [e1]; omega
/-- The weight's one block is the whole weight, at every point. -/
theorem weight_eq (c : Dev nD) (t : Fin cfg2.N) :
    (iblk2 V c 3 t : Vec Ideal S3x32x64 .f32) = (V c (Pipeline.arrRef spec2 3) : S3x32x64.Idx → EReal) := by
  obtain ⟨-, -, -, -, -, -, e0, e1, e2, -⟩ := idx_facts t
  funext y
  unfold iblk2
  rw [View.read_apply]
  show V c (Pipeline.arrRef spec2 3) _ = V c (Pipeline.arrRef spec2 3) _
  congr 1
  funext a
  apply Fin.ext
  match a with
  | ⟨0, _⟩ => show win2_3.index t (0 : Fin 3) * 3 + 1 * (y 0).val = (y 0).val; rw [e0]; omega
  | ⟨1, _⟩ => show win2_3.index t (1 : Fin 3) * 32 + 1 * (y 1).val = (y 1).val; rw [e1]; omega
  | ⟨2, _⟩ => show win2_3.index t (2 : Fin 3) * 64 + 1 * (y 2).val = (y 2).val; rw [e2]; omega
/-- The bias's one block is the whole bias row, at every point. -/
theorem bias_eq (c : Dev nD) (t : Fin cfg2.N) :
    (iblk2 V c 4 t : Vec Ideal S1x64 .f32) = (V c (Pipeline.arrRef spec2 4) : S1x64.Idx → EReal) := by
  obtain ⟨-, -, -, -, -, -, -, -, -, e0, e1, -⟩ := idx_facts t
  funext y
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-! ## From the blocks to the array -/

/-- The layer of the five arrays as the region finds them. -/
abbrev G (c : Dev nD) : S10000x64.Idx → EReal :=
  chebLin (V c (Pipeline.arrRef spec2 0)) (V c (Pipeline.arrRef spec2 1)) (V c (Pipeline.arrRef spec2 2))
    (V c (Pipeline.arrRef spec2 3)) (V c (Pipeline.arrRef spec2 4))

/-- What point t writes back is block t of the layer of the whole arrays. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  obtain ⟨-, -, -, -, -, -, -, -, -, -, -, e0, e1⟩ := idx_facts t
  funext j
  show out2_5 (iblk2 V c 0 t) (iblk2 V c 1 t) (iblk2 V c 2 t) (iblk2 V c 3 t) (iblk2 V c 4 t) j
    = G V c (((cfg2.win 5).blk t).view.emb j)
  refine block_eq _ _ _ _ _ _ _ _ _ _ t.val (fun y i a b => in0_apply V c t y i a b) (fun y i a b => in1_apply V c t y i a b)
    (fun y i a b => in2_apply V c t y i a b) (weight_eq V c t) (bias_eq V c t) j _ ?_ ?_
  · show win2_5.index t (0 : Fin 2) * 1000 + 1 * (j 0).val = 1000 * t.val + (j 0).val
    rw [e0]; omega
  · show win2_5.index t (1 : Fin 2) * 64 + 1 * (j 1).val = (j 1).val
    rw [e1]; omega

/-- An index of the output array is in point t's block iff each coordinate is in the block's range on its axis. -/
theorem mem_blk (t : Fin cfg2.N) (i : S10000x64.Idx) :
    i ∈ ((cfg2.win 5).blk t).view.set ↔ ∀ a : Fin 2, win2_5.index t a * S1000x64.size a ≤ (i a).val ∧ (i a).val < win2_5.index t a * S1000x64.size a + S1000x64.size a := by
  show i ∈ ((View.whole main_v141).slice (win2_5.rect t)).set ↔ _
  rw [View.set_slice_whole, Rect.mem_set_unit]
  exact Iff.rfl

/-- Every row is in the block of the point its thousand names. -/
theorem cover (i : S10000x64.Idx) : ∃ t : Fin cfg2.N, (cfg2.win 5).flush t = true ∧ i ∈ ((cfg2.win 5).blk t).view.set := by
  have hi0 : (i 0).val < 10000 := (i 0).isLt
  have hi1 : (i 1).val < 64 := (i 1).isLt
  have ht : (i 0).val / 1000 < cfg2.N := by show (i 0).val / 1000 < 10; omega
  obtain ⟨-, -, -, -, -, -, -, -, -, -, -, e0, e1⟩ := idx_facts ⟨(i 0).val / 1000, ht⟩
  refine ⟨⟨(i 0).val / 1000, ht⟩, flush2_5 _, ?_⟩
  rw [mem_blk]
  intro a
  match a with
  | ⟨0, _⟩ =>
    show win2_5.index ⟨(i 0).val / 1000, ht⟩ (0 : Fin 2) * 1000 ≤ (i 0).val ∧ (i 0).val < win2_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win2_5.index ⟨(i 0).val / 1000, ht⟩ (1 : Fin 2) * 64 ≤ (i 1).val ∧ (i 1).val < win2_5.index ⟨(i 0).val / 1000, ht⟩ (1 : Fin 2) * 64 + 64
    rw [e1]; omega

/-- THE OUTPUT ARRAY after the ten points: the layer of the five input arrays as the region finds them. -/
theorem final (c : Dev nD) :
    (dat2 (F := Ideal) V c).arrAt 5 cfg2.N
      = chebLin (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 (G V c) (fun t _ => flushed_eq V c t) cover

end Cert.KernelIdeal.RegionCheb2

end
-- ==== Proof.RegionCheb3.lean ====
/- Region 3 of the kernel program: a Chebyshev linear layer over 10000 rows, computed 1000 rows per grid point.
   For every row i and output feature f the body computes
     max (((Σ_k T0[i,k]·W[0,k,f] + Σ_k T1[i,k]·W[1,k,f]) + Σ_k T2[i,k]·W[2,k,f]) + b[0,f]) 0,
   k over the 64 input features. This file proves that after the ten grid points the output array holds exactly that
   function of the five input arrays as the region finds them, at the ideal values (extended reals, exact operations,
   format changes the identity). -/
import proofs.«120706_j28956669510215_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionCheb3

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: the layer as one function of whole arrays -/

/-- The layer, row by row and feature by feature: three products against the three slices of the weight, added in
    this order, plus the bias row, clamped below at zero. -/
def chebLin (t0 t1 t2 : S10000x64.Idx → EReal) (w : S3x64x128.Idx → EReal) (b : S1x128.Idx → EReal) : S10000x128.Idx → EReal :=
  fun i => max ((((∑ k : Fin 64, t0 (ix2 (i 0) k) * w (ix3 0 k (i 1))) + (∑ k : Fin 64, t1 (ix2 (i 0) k) * w (ix3 1 k (i 1)))) + (∑ k : Fin 64, t2 (ix2 (i 0) k) * w (ix3 2 k (i 1)))) + b (ix2 0 (i 1))) 0

/-! ## One matrix product read at an index -/

theorem hz2 : (![0, 0] : Fin 2 → Nat) = fun _ => 0 := funext fun a => by fin_cases a <;> rfl

/-- The left operand's row coordinate is the output's row. -/
theorem lhs_row (i : S1000x128.Idx) (q : dot_S1000x64_S64x128_S1000x128_1_0_0_1_n_n.contr.Idx) :
    (dot_S1000x64_S64x128_S1000x128_1_0_0_1_n_n.lhsIdx i q 0).val = (i 0).val := by
  unfold DotDims.lhsIdx
  rw [dif_neg (show ¬(0 : Fin S1000x64.rank) ∈ dot_S1000x64_S64x128_S1000x128_1_0_0_1_n_n.lhsBatch by decide), dif_pos (show (0 : Fin S1000x64.rank) ∈ dot_S1000x64_S64x128_S1000x128_1_0_0_1_n_n.lhsNonContracting by decide)]
  rfl
/-- Its column coordinate is the contraction's one coordinate. -/
theorem lhs_col (i : S1000x128.Idx) (q : dot_S1000x64_S64x128_S1000x128_1_0_0_1_n_n.contr.Idx) :
    (dot_S1000x64_S64x128_S1000x128_1_0_0_1_n_n.lhsIdx i q 1).val = (q ⟨0, by decide⟩).val :=
  dot_S1000x64_S64x128_S1000x128_1_0_0_1_n_n.lhsIdx_val_of_single rfl i q
/-- The right operand's row coordinate is the contraction's one coordinate. -/
theorem rhs_row (i : S1000x128.Idx) (q : dot_S1000x64_S64x128_S1000x128_1_0_0_1_n_n.contr.Idx) :
    (dot_S1000x64_S64x128_S1000x128_1_0_0_1_n_n.rhsIdx i q 0).val = (q ⟨0, by decide⟩).val :=
  dot_S1000x64_S64x128_S1000x128_1_0_0_1_n_n.rhsIdx_val_of_single rfl i q
/-- Its column coordinate is the output's column. -/
theorem rhs_col (i : S1000x128.Idx) (q : dot_S1000x64_S64x128_S1000x128_1_0_0_1_n_n.contr.Idx) :
    (dot_S1000x64_S64x128_S1000x128_1_0_0_1_n_n.rhsIdx i q 1).val = (i 1).val := by
  unfold DotDims.rhsIdx
  rw [dif_neg (show ¬(1 : Fin S64x128.rank) ∈ dot_S1000x64_S64x128_S1000x128_1_0_0_1_n_n.rhsBatch by decide), dif_pos (show (1 : Fin S64x128.rank) ∈ dot_S1000x64_S64x128_S1000x128_1_0_0_1_n_n.rhsNonContracting by decide)]
  rfl

/-- A [1000,64] × [64,128] product into the zero accumulator, at row r and column f: the sum over the 64 inner coordinates. -/
theorem mm_apply (x : FVec Ideal S1000x64 .bf16) (w : FVec Ideal S64x128 .bf16) (r : Fin 1000) (f : Fin 128) :
    matmul dot_S1000x64_S64x128_S1000x128_1_0_0_1_n_n none x w (constant (F := Ideal) S1000x128 .f32 0x00000000#32) (ix2 r f)
      = ∑ k : Fin 64, x (ix2 r k) * w (ix2 k f) := by
  show FloatOps.matmul dot_S1000x64_S64x128_S1000x128_1_0_0_1_n_n none x w (constant (F := Ideal) S1000x128 .f32 0x00000000#32) (ix2 r f) = _
  rw [Ideal.matmul_constant_zero_apply, ← Equiv.sum_comp (contrEquiv1 dot_S1000x64_S64x128_S1000x128_1_0_0_1_n_n 64 rfl rfl).symm]
  refine Finset.sum_congr rfl fun k _ => ?_
  have hk := contrEquiv1_symm_val dot_S1000x64_S64x128_S1000x128_1_0_0_1_n_n 64 rfl rfl k
  have el : dot_S1000x64_S64x128_S1000x128_1_0_0_1_n_n.lhsIdx (ix2 r f) ((contrEquiv1 dot_S1000x64_S64x128_S1000x128_1_0_0_1_n_n 64 rfl rfl).symm k) = ix2 r k := funext fun a => Fin.ext (by
    match a with
    | ⟨0, _⟩ => exact lhs_row _ _
    | ⟨1, _⟩ => exact (lhs_col _ _).trans hk)
  have er : dot_S1000x64_S64x128_S1000x128_1_0_0_1_n_n.rhsIdx (ix2 r f) ((contrEquiv1 dot_S1000x64_S64x128_S1000x128_1_0_0_1_n_n 64 rfl rfl).symm k) = ix2 k f := funext fun a => Fin.ext (by
    match a with
    | ⟨0, _⟩ => exact (rhs_row _ _).trans hk
    | ⟨1, _⟩ => exact rhs_col _ _)
  rw [el, er]

/-! ## The body's value at an index -/

/-- The body's one stored value at row r and feature f of the block, from the three input blocks, the three weight
    slices (each a [1,64,128] vector) and the bias row. -/
theorem pay_apply (x0 x1 x2 : Vec Ideal S1000x64 .f32) (w0 w1 w2 : Vec Ideal S1x64x128 .f32) (b : Vec Ideal S1x128 .f32)
    (r : Fin 1000) (f : Fin 128) :
    k3_pay1 x0 x1 x2 w0 w1 w2 b (ix2 r f)
      = max ((((∑ k : Fin 64, x0 (ix2 r k) * w0 (ix3 0 k f)) + (∑ k : Fin 64, x1 (ix2 r k) * w1 (ix3 0 k f)))
          + (∑ k : Fin 64, x2 (ix2 r k) * w2 (ix3 0 k f))) + b (ix2 0 f)) 0 := by
  unfold k3_pay1
  simp only [shapeCast_self]
  rw [maximumf_apply, addf_apply, addf_apply, addf_apply, mm_apply, mm_apply, mm_apply, broadcast_apply,
    broadcastTo_1b_ab_apply]
  simp only [truncf_apply, shapeCast_1ab_ab_apply]
  show max _ (Ideal.ofBits .f32 0x00000000#32) = _
  rw [Ideal.ofBits_zero_f32]

/-- The same with the three slices' entries named: whatever the slices are known to be at (0, k, f). -/
theorem pay_apply_of (x0 x1 x2 : Vec Ideal S1000x64 .f32) (w0 w1 w2 : Vec Ideal S1x64x128 .f32) (b : Vec Ideal S1x128 .f32)
    (W : S3x64x128.Idx → EReal) (r : Fin 1000) (f : Fin 128)
    (hw0 : ∀ k : Fin 64, w0 (ix3 0 k f) = W (ix3 0 k f)) (hw1 : ∀ k : Fin 64, w1 (ix3 0 k f) = W (ix3 1 k f))
    (hw2 : ∀ k : Fin 64, w2 (ix3 0 k f) = W (ix3 2 k f)) :
    k3_pay1 x0 x1 x2 w0 w1 w2 b (ix2 r f)
      = max ((((∑ k : Fin 64, x0 (ix2 r k) * W (ix3 0 k f)) + (∑ k : Fin 64, x1 (ix2 r k) * W (ix3 1 k f)))
          + (∑ k : Fin 64, x2 (ix2 r k) * W (ix3 2 k f))) + b (ix2 0 f)) 0 := by
  rw [pay_apply]
  simp only [hw0, hw1, hw2]

/-- A weight slice, loaded through its unit rectangle at offset (κ, 0, 0), reads the weight at (κ, k, f). -/
theorem ld_w0 (x3 : Vec Ideal S3x64x128 .f32) (k : Fin 64) (f : Fin 128) : View.ld x3 r3_1 (ix3 0 k f) = x3 (ix3 0 k f) :=
  congrArg x3 (funext fun a => Fin.ext (by
    match a with
    | ⟨0, _⟩ => rfl
    | ⟨1, _⟩ => show 0 + 1 * k.val = k.val; omega
    | ⟨2, _⟩ => show 0 + 1 * f.val = f.val; omega))
theorem ld_w1 (x3 : Vec Ideal S3x64x128 .f32) (k : Fin 64) (f : Fin 128) : View.ld x3 r3_2 (ix3 0 k f) = x3 (ix3 1 k f) :=
  congrArg x3 (funext fun a => Fin.ext (by
    match a with
    | ⟨0, _⟩ => rfl
    | ⟨1, _⟩ => show 0 + 1 * k.val = k.val; omega
    | ⟨2, _⟩ => show 0 + 1 * f.val = f.val; omega))
theorem ld_w2 (x3 : Vec Ideal S3x64x128 .f32) (k : Fin 64) (f : Fin 128) : View.ld x3 r3_3 (ix3 0 k f) = x3 (ix3 2 k f) :=
  congrArg x3 (funext fun a => Fin.ext (by
    match a with
    | ⟨0, _⟩ => rfl
    | ⟨1, _⟩ => show 0 + 1 * k.val = k.val; omega
    | ⟨2, _⟩ => show 0 + 1 * f.val = f.val; omega))

/-- What the body leaves in the output block, at row r and feature f, from the five input blocks. -/
theorem out_apply (x0 x1 x2 : Vec Ideal S1000x64 .f32) (x3 : Vec Ideal S3x64x128 .f32) (x4 : Vec Ideal S1x128 .f32)
    (r : Fin 1000) (f : Fin 128) :
    out3_5 x0 x1 x2 x3 x4 (ix2 r f)
      = max ((((∑ k : Fin 64, x0 (ix2 r k) * x3 (ix3 0 k f)) + (∑ k : Fin 64, x1 (ix2 r k) * x3 (ix3 1 k f)))
          + (∑ k : Fin 64, x2 (ix2 r k) * x3 (ix3 2 k f))) + x4 (ix2 0 f)) 0 := by
  unfold out3_5
  rw [View.canon_unit_zero hz2]
  simp only [View.ld_unit_zero (S := S1000x64) hz2, View.ld_unit_zero (S := S1x128) hz2]
  exact pay_apply_of _ _ _ _ _ _ _ x3 r f (fun k => ld_w0 x3 k f) (fun k => ld_w1 x3 k f) (fun k => ld_w2 x3 k f)

/-- The output block is the layer of the whole arrays at the block's rows, provided each input block is its array's
    rows 1000·t … 1000·t + 999 (the three inputs) or the whole array (weight, bias). -/
theorem block_eq (T0 T1 T2 : S10000x64.Idx → EReal) (W : S3x64x128.Idx → EReal) (Bv : S1x128.Idx → EReal)
    (x0 x1 x2 : Vec Ideal S1000x64 .f32) (x3 : Vec Ideal S3x64x128 .f32) (x4 : Vec Ideal S1x128 .f32) (tv : Nat)
    (h0 : ∀ (y : S1000x64.Idx) (i : S10000x64.Idx), (i 0).val = 1000 * tv + (y 0).val → (i 1).val = (y 1).val → x0 y = T0 i)
    (h1 : ∀ (y : S1000x64.Idx) (i : S10000x64.Idx), (i 0).val = 1000 * tv + (y 0).val → (i 1).val = (y 1).val → x1 y = T1 i)
    (h2 : ∀ (y : S1000x64.Idx) (i : S10000x64.Idx), (i 0).val = 1000 * tv + (y 0).val → (i 1).val = (y 1).val → x2 y = T2 i)
    (h3 : x3 = W) (h4 : x4 = Bv)
    (y : S1000x128.Idx) (i : S10000x128.Idx) (hi0 : (i 0).val = 1000 * tv + (y 0).val) (hi1 : (i 1).val = (y 1).val) :
    out3_5 x0 x1 x2 x3 x4 y = chebLin T0 T1 T2 W Bv i := by
  subst h3 h4
  obtain ⟨r, f, rfl⟩ : ∃ (r : Fin 1000) (f : Fin 128), y = ix2 r f := ⟨y 0, y 1, eq_ix2 y⟩
  obtain ⟨p, q, rfl⟩ : ∃ (p : Fin 10000) (q : Fin 128), i = ix2 p q := ⟨i 0, i 1, eq_ix2 i⟩
  obtain rfl : q = f := Fin.ext hi1
  rw [out_apply]
  have e0 : ∀ k : Fin 64, x0 (ix2 r k) = T0 (ix2 p k) := fun k => h0 _ _ hi0 rfl
  have e1 : ∀ k : Fin 64, x1 (ix2 r k) = T1 (ix2 p k) := fun k => h1 _ _ hi0 rfl
  have e2 : ∀ k : Fin 64, x2 (ix2 r k) = T2 (ix2 p k) := fun k => h2 _ _ hi0 rfl
  simp only [e0, e1, e2]
  rfl

/-! ## The blocks, read off the arrays as the region finds them -/

variable (V : (c : Dev nD) → (b : Ref sig .tc) → Buf (Elt Ideal) ((c : Thread nD τ).loc b))

/-- The printed index maps over the ten grid points: the three inputs and the output move down one block of rows per
    point; the weight and the bias stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 0 ∧ win3_3.index t (2 : Fin 3) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Input 0's block at point t is rows 1000·t … of its array. -/
theorem in0_apply (c : Dev nD) (t : Fin cfg3.N) (y : S1000x64.Idx) (i : S10000x64.Idx)
    (h0 : (i 0).val = 1000 * t.val + (y 0).val) (h1 : (i 1).val = (y 1).val) :
    (iblk3 V c 0 t : Vec Ideal S1000x64 .f32) y = (V c (Pipeline.arrRef spec3 0) : S10000x64.Idx → EReal) i := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 1000 + 1 * (y 0).val = (i 0).val; rw [e0]; omega
  | ⟨1, _⟩ => show win3_0.index t (1 : Fin 2) * 64 + 1 * (y 1).val = (i 1).val; rw [e1]; omega
/-- Input 1's likewise. -/
theorem in1_apply (c : Dev nD) (t : Fin cfg3.N) (y : S1000x64.Idx) (i : S10000x64.Idx)
    (h0 : (i 0).val = 1000 * t.val + (y 0).val) (h1 : (i 1).val = (y 1).val) :
    (iblk3 V c 1 t : Vec Ideal S1000x64 .f32) y = (V c (Pipeline.arrRef spec3 1) : S10000x64.Idx → EReal) i := by
  obtain ⟨-, -, e0, e1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1000 + 1 * (y 0).val = (i 0).val; rw [e0]; omega
  | ⟨1, _⟩ => show win3_1.index t (1 : Fin 2) * 64 + 1 * (y 1).val = (i 1).val; rw [e1]; omega
/-- Input 2's likewise. -/
theorem in2_apply (c : Dev nD) (t : Fin cfg3.N) (y : S1000x64.Idx) (i : S10000x64.Idx)
    (h0 : (i 0).val = 1000 * t.val + (y 0).val) (h1 : (i 1).val = (y 1).val) :
    (iblk3 V c 2 t : Vec Ideal S1000x64 .f32) y = (V c (Pipeline.arrRef spec3 2) : S10000x64.Idx → EReal) i := by
  obtain ⟨-, -, -, -, e0, e1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1000 + 1 * (y 0).val = (i 0).val; rw [e0]; omega
  | ⟨1, _⟩ => show win3_2.index t (1 : Fin 2) * 64 + 1 * (y 1).val = (i 1).val; rw [e1]; omega
/-- The weight's one block is the whole weight, at every point. -/
theorem weight_eq (c : Dev nD) (t : Fin cfg3.N) :
    (iblk3 V c 3 t : Vec Ideal S3x64x128 .f32) = (V c (Pipeline.arrRef spec3 3) : S3x64x128.Idx → EReal) := by
  obtain ⟨-, -, -, -, -, -, e0, e1, e2, -⟩ := idx_facts t
  funext y
  unfold iblk3
  rw [View.read_apply]
  show V c (Pipeline.arrRef spec3 3) _ = V c (Pipeline.arrRef spec3 3) _
  congr 1
  funext a
  apply Fin.ext
  match a with
  | ⟨0, _⟩ => show win3_3.index t (0 : Fin 3) * 3 + 1 * (y 0).val = (y 0).val; rw [e0]; omega
  | ⟨1, _⟩ => show win3_3.index t (1 : Fin 3) * 64 + 1 * (y 1).val = (y 1).val; rw [e1]; omega
  | ⟨2, _⟩ => show win3_3.index t (2 : Fin 3) * 128 + 1 * (y 2).val = (y 2).val; rw [e2]; omega
/-- The bias's one block is the whole bias row, at every point. -/
theorem bias_eq (c : Dev nD) (t : Fin cfg3.N) :
    (iblk3 V c 4 t : Vec Ideal S1x128 .f32) = (V c (Pipeline.arrRef spec3 4) : S1x128.Idx → EReal) := by
  obtain ⟨-, -, -, -, -, -, -, -, -, e0, e1, -⟩ := idx_facts t
  funext y
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-! ## From the blocks to the array -/

/-- The layer of the five arrays as the region finds them. -/
abbrev G (c : Dev nD) : S10000x128.Idx → EReal :=
  chebLin (V c (Pipeline.arrRef spec3 0)) (V c (Pipeline.arrRef spec3 1)) (V c (Pipeline.arrRef spec3 2))
    (V c (Pipeline.arrRef spec3 3)) (V c (Pipeline.arrRef spec3 4))

/-- What point t writes back is block t of the layer of the whole arrays. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 V c).after 5 t) = _
  rw [after3_5]
  obtain ⟨-, -, -, -, -, -, -, -, -, -, -, e0, e1⟩ := idx_facts t
  funext j
  show out3_5 (iblk3 V c 0 t) (iblk3 V c 1 t) (iblk3 V c 2 t) (iblk3 V c 3 t) (iblk3 V c 4 t) j
    = G V c (((cfg3.win 5).blk t).view.emb j)
  refine block_eq _ _ _ _ _ _ _ _ _ _ t.val (fun y i a b => in0_apply V c t y i a b) (fun y i a b => in1_apply V c t y i a b)
    (fun y i a b => in2_apply V c t y i a b) (weight_eq V c t) (bias_eq V c t) j _ ?_ ?_
  · show win3_5.index t (0 : Fin 2) * 1000 + 1 * (j 0).val = 1000 * t.val + (j 0).val
    rw [e0]; omega
  · show win3_5.index t (1 : Fin 2) * 128 + 1 * (j 1).val = (j 1).val
    rw [e1]; omega

/-- An index of the output array is in point t's block iff each coordinate is in the block's range on its axis. -/
theorem mem_blk (t : Fin cfg3.N) (i : S10000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v172).slice (win3_5.rect t)).set ↔ _
  rw [View.set_slice_whole, Rect.mem_set_unit]
  exact Iff.rfl

/-- Every row is in the block of the point its thousand names. -/
theorem cover (i : S10000x128.Idx) : ∃ t : Fin cfg3.N, (cfg3.win 5).flush t = true ∧ i ∈ ((cfg3.win 5).blk t).view.set := by
  have hi0 : (i 0).val < 10000 := (i 0).isLt
  have hi1 : (i 1).val < 128 := (i 1).isLt
  have ht : (i 0).val / 1000 < cfg3.N := by show (i 0).val / 1000 < 10; omega
  obtain ⟨-, -, -, -, -, -, -, -, -, -, -, e0, e1⟩ := idx_facts ⟨(i 0).val / 1000, ht⟩
  refine ⟨⟨(i 0).val / 1000, ht⟩, flush3_5 _, ?_⟩
  rw [mem_blk]
  intro a
  match a with
  | ⟨0, _⟩ =>
    show win3_5.index ⟨(i 0).val / 1000, ht⟩ (0 : Fin 2) * 1000 ≤ (i 0).val ∧ (i 0).val < win3_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win3_5.index ⟨(i 0).val / 1000, ht⟩ (1 : Fin 2) * 128 ≤ (i 1).val ∧ (i 1).val < win3_5.index ⟨(i 0).val / 1000, ht⟩ (1 : Fin 2) * 128 + 128
    rw [e1]; omega

/-- THE OUTPUT ARRAY after the ten points: the layer of the five input arrays as the region finds them. -/
theorem final (c : Dev nD) :
    (dat3 (F := Ideal) V c).arrAt 5 cfg3.N
      = chebLin (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 (G V c) (fun t _ => flushed_eq V c t) cover

end Cert.KernelIdeal.RegionCheb3

end
-- ==== Proof.KernelHost.lean ====
import proofs.«120706_j28956669510215_2_alg».proof.Proof.Gen.KernelIdeal.Launch
import proofs.«120706_j28956669510215_2_alg».proof.Proof.KernelSpmm
import proofs.«120706_j28956669510215_2_alg».proof.Proof.ChebSpec
import proofs.«120706_j28956669510215_2_alg».proof.Proof.LibHostForms
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem
open Cert.ChebSpec

variable (V : Valuation τ sig (Elt Ideal))

/-- The node each edge lands on, the node it reads from, and its weight, as the host stretches find them. -/
abbrev R : Fin 160000 → Option (Fin 10000) := Spmm.rowK (V (Proc.devRef .tc main_v3))
abbrev G : Fin 160000 → Fin 10000 := Spmm.gatK (V (Proc.devRef .tc main_v1))
abbrev NU : Fin 160000 → EReal := Spmm.nuK (V (Proc.devRef .tc main_v29))
/-- One propagation along the edges. -/
abbrev P {C : Nat} (Y : (⟨2, ![10000, C]⟩ : Shape).Idx → EReal) : (⟨2, ![10000, C]⟩ : Shape).Idx → EReal :=
  ChebAlgebra.prop (R V) (G V) (NU V) Y

/-! ## The first long stretch: layer 1's output from region 0's three products, then what region 1 reads

Region 0 left `Y0 = X W0`, `Y1 = X W1`, `Y2 = X W2`. The stretch propagates `Y1` once and `Y2` twice and adds up
`Y0 + P Y1 + 2 P (P Y2) - Y2 + b`, clipped below at zero: layer 1's output `H1`. It then prepares layer 2's
operands: `P H1`, `2 P (P H1) - H1` and the bias as a row. -/

/-- Region 0's three outputs and the first layer's bias, as the stretch finds them. -/
abbrev Y0 : S10000x16.Idx → EReal := V (Proc.devRef .tc main_v30_0)
abbrev Y1 : S10000x16.Idx → EReal := V (Proc.devRef .tc main_v30_1)
abbrev Y2 : S10000x16.Idx → EReal := V (Proc.devRef .tc main_v30_2)
abbrev B1 : S16.Idx → EReal := V (Proc.devRef .tc main_arg3)
/-- Layer 1's output, as the stretch leaves it. -/
abbrev H1 : S10000x16.Idx → EReal := StableHlo.after hostOps1 V (Proc.devRef .tc main_v79)

/-- The constant 2 broadcast over an array reads 2 everywhere. -/
theorem two_16 (i : S10000x16.Idx) :
    broadcastInDim S10000x16 ![] bcast_S_S10000x16 (constant (F := Ideal) S_ .f32 0x40000000#32) i = two :=
  (congrFun (HostForms.bcast_constant S10000x16 _ bcast_S_S10000x16) i).trans ofBits_two
theorem two_32 (i : S10000x32.Idx) :
    broadcastInDim S10000x32 ![] bcast_S_S10000x32 (constant (F := Ideal) S_ .f32 0x40000000#32) i = two :=
  (congrFun (HostForms.bcast_constant S10000x32 _ bcast_S_S10000x32) i).trans ofBits_two
theorem two_64 (i : S10000x64.Idx) :
    broadcastInDim S10000x64 ![] bcast_S_S10000x64 (constant (F := Ideal) S_ .f32 0x40000000#32) i = two :=
  (congrFun (HostForms.bcast_constant S10000x64 _ bcast_S_S10000x64) i).trans ofBits_two

set_option maxHeartbeats 40000000 in
theorem h1_eq : StableHlo.after hostOps1 V (Proc.devRef .tc main_v79)
    = relu (fun i => ((((Y0 V i + P V (Y1 V) i) + two * P V (P V (Y2 V)) i) - Y2 V i) + rowBias (N := 10000) (B1 V) i)) := by
  after_results_simp
  repeat rw [Spmm.spmm16_eq]
  funext i
  have hb : broadcastInDim S10000x16 ![0, 1] bcast_S1x16_S10000x16_0_1 (shapeCast S1x16 (B1 V) shapeCasts_S16_S1x16) i
      = rowBias (N := 10000) (B1 V) i :=
    congrFun (HostForms.bias_cast_bcast (B1 V) shapeCasts_S16_S1x16 bcast_S1x16_S10000x16_0_1) i
  simp only [maximumf_apply, addf_apply, subf_apply, mulf_apply]
  rw [two_16 i, Spmm.zero_16 i]
  erw [hb]
  rfl

set_option maxHeartbeats 40000000 in
theorem t1_eq : StableHlo.after hostOps1 V (Proc.devRef .tc main_v92) = P V (H1 V) := by
  show _ = P V (StableHlo.after hostOps1 V (Proc.devRef .tc main_v79))
  after_results_simp
  repeat rw [Spmm.spmm16_eq]

set_option maxHeartbeats 40000000 in
theorem t2_eq : StableHlo.after hostOps1 V (Proc.devRef .tc main_v108) = fun j => two * P V (P V (H1 V)) j - H1 V j := by
  show _ = fun j => two * P V (P V (StableHlo.after hostOps1 V (Proc.devRef .tc main_v79))) j
    - (StableHlo.after hostOps1 V (Proc.devRef .tc main_v79) : S10000x16.Idx → EReal) j
  after_results_simp
  repeat rw [Spmm.spmm16_eq]
  funext j
  simp only [subf_apply, mulf_apply]
  rw [two_16 j]

set_option maxHeartbeats 40000000 in
theorem b2_eq : StableHlo.after hostOps1 V (Proc.devRef .tc main_v109)
    = shapeCast S1x32 (V (Proc.devRef .tc main_arg5)) shapeCasts_S32_S1x32 := by
  after_results_simp
  rfl

/-! ## The second and third long stretches: what regions 2 and 3 read, from the layer output before them -/

abbrev H2 : S10000x32.Idx → EReal := V (Proc.devRef .tc main_v110)
abbrev H3 : S10000x64.Idx → EReal := V (Proc.devRef .tc main_v141)

set_option maxHeartbeats 40000000 in
theorem keep_h2 : StableHlo.after hostOps2 V (Proc.devRef .tc main_v110) = V (Proc.devRef .tc main_v110) := by
  after_results_simp

set_option maxHeartbeats 40000000 in
theorem t1' : StableHlo.after hostOps2 V (Proc.devRef .tc main_v123) = P V (H2 V) := by
  after_results_simp
  repeat rw [Spmm.spmm32_eq]

set_option maxHeartbeats 40000000 in
theorem t2' : StableHlo.after hostOps2 V (Proc.devRef .tc main_v139) = fun j => two * P V (P V (H2 V)) j - H2 V j := by
  after_results_simp
  repeat rw [Spmm.spmm32_eq]
  funext j
  simp only [subf_apply, mulf_apply]
  rw [two_32 j]

set_option maxHeartbeats 40000000 in
theorem b3_eq : StableHlo.after hostOps2 V (Proc.devRef .tc main_v140)
    = shapeCast S1x64 (V (Proc.devRef .tc main_arg7)) shapeCasts_S64_S1x64 := by
  after_results_simp
  rfl

set_option maxHeartbeats 40000000 in
theorem keep_h3 : StableHlo.after hostOps3 V (Proc.devRef .tc main_v141) = V (Proc.devRef .tc main_v141) := by
  after_results_simp

set_option maxHeartbeats 40000000 in
theorem t1'' : StableHlo.after hostOps3 V (Proc.devRef .tc main_v154) = P V (H3 V) := by
  after_results_simp
  repeat rw [Spmm.spmm64_eq]

set_option maxHeartbeats 40000000 in
theorem t2'' : StableHlo.after hostOps3 V (Proc.devRef .tc main_v170) = fun j => two * P V (P V (H3 V)) j - H3 V j := by
  after_results_simp
  repeat rw [Spmm.spmm64_eq]
  funext j
  simp only [subf_apply, mulf_apply]
  rw [two_64 j]

set_option maxHeartbeats 40000000 in
theorem b4_eq : StableHlo.after hostOps3 V (Proc.devRef .tc main_v171)
    = shapeCast S1x128 (V (Proc.devRef .tc main_arg9)) shapeCasts_S128_S1x128 := by
  after_results_simp
  rfl

end Cert.KernelIdeal.Host

end
-- ==== Proof.KernelHost5.lean ====
import proofs.«120706_j28956669510215_2_alg».proof.Proof.Gen.KernelIdeal.Launch
import proofs.«120706_j28956669510215_2_alg».proof.Proof.KernelSpmm
import proofs.«120706_j28956669510215_2_alg».proof.Proof.ChebSpec
import proofs.«120706_j28956669510215_2_alg».proof.Proof.LibHostForms
import proofs.«120706_j28956669510215_2_alg».proof.Proof.Softmax
import Idealize.ShloMosaic.Lib.StableHlo.Run
import Idealize.ShloMosaic.Lib.Pipeline.Value

set_option maxRecDepth 16384

noncomputable section

open Cert.KernelIdeal Cert.KernelIdeal.Gen
open Idealize.ShloMosaic Idealize.ShloMosaic.TcCoe Idealize.ShloMosaic.StableHlo Idealize.ShloMosaic.ValueIdx
open Idealize.SL.Sem ChebAlgebra Cert.ChebSpec Cert.KernelIdeal.Spmm

/-
  The kernel program's last host stretch, over any buffer contents V at its entry. It reads the fifth region's three
  projections y0, y1, y2 of the fourth layer's output, propagates y1 once and y2 twice along the edges, combines
  y0 + P y1 + 2 P (P y2) - y2 + bias (the project-first arrangement of layer 5), and takes the softmax of every row.
-/
namespace Cert.KernelIdeal.Host5

open HostForms Cert.KernelIdeal.Edge

variable (V : Valuation τ sig (Elt Ideal))

/-- The stretch's inputs, typed: the three projections, the bias, and the edge data per edge. -/
abbrev Y0 : S10000x19.Idx → EReal := V (Proc.devRef .tc main_v173_0)
abbrev Y1 : S10000x19.Idx → EReal := V (Proc.devRef .tc main_v173_1)
abbrev Y2 : S10000x19.Idx → EReal := V (Proc.devRef .tc main_v173_2)
abbrev B5 : S19.Idx → EReal := V (Proc.devRef .tc main_arg11)
abbrev R5 : Fin 160000 → Option (Fin 10000) := rowK (V (Proc.devRef .tc main_v3))
abbrev G5 : Fin 160000 → Fin 10000 := gatK (V (Proc.devRef .tc main_v1))
abbrev N5 : Fin 160000 → EReal := nuK (V (Proc.devRef .tc main_v29))

/-- Layer 5's output before the softmax, from the three projections. -/
def pre5 : S10000x19.Idx → EReal :=
  fun i => ((((Y0 V i + prop (R5 V) (G5 V) (N5 V) (Y1 V) i)
      + two * prop (R5 V) (G5 V) (N5 V) (prop (R5 V) (G5 V) (N5 V) (Y2 V)) i) - Y2 V i)
      + rowBias (N := 10000) (B5 V) i)

set_option maxHeartbeats 40000000 in
/-- The combination the stretch computes is the project-first arrangement. -/
theorem pre5_eq : StableHlo.after hostOps5 V (Proc.devRef .tc main_v220) = pre5 V := by
  after_results_simp
  repeat rw [spmm19_eq]
  rw [bcast_constant, ofBits_two_f32]
  funext i
  have hb : (broadcastInDim S10000x19 ![0, 1] Facts₀.bcast_S1x19_S10000x19_0_1
      (shapeCast S1x19 (B5 V) Facts₀.shapeCasts_S19_S1x19)) i = rowBias (N := 10000) (B5 V) i :=
    congrFun (bias_cast_bcast (B5 V) _ _) i
  exact congrArg (fun t => (((Y0 V i + prop (R5 V) (G5 V) (N5 V) (Y1 V) i)
      + two * prop (R5 V) (G5 V) (N5 V) (prop (R5 V) (G5 V) (N5 V) (Y2 V)) i) - Y2 V i) + t) hb

set_option maxHeartbeats 40000000 in
/-- The result is the softmax of that combination. -/
theorem out_eq : StableHlo.after hostOps5 V (Proc.devRef .tc main_v231) = softmax19 (pre5 V) := by
  rw [← pre5_eq]
  after_results_simp
  rfl

end Cert.KernelIdeal.Host5

end
-- ==== Proof.EdgeReal.lean ====
/-
  The edge data both programs compute from the edge list are arrays of real numbers, whatever integers the edge list
  holds. The out-degree of a node is zero plus one for every edge whose source lands on it: a natural number. Its
  inverse square root, taken only where the degree is positive and replaced by zero elsewhere, divides one by the square
  root of a positive real: a real number. An edge weight is a product of two such entries, one negated. No entry is ever
  infinite, so the algebra of the layers may be done over the reals.
-/
import proofs.«120706_j28956669510215_2_alg».proof.Proof.EdgeOps
import proofs.«120706_j28956669510215_2_alg».proof.Proof.LibChebAlgebra
import Idealize.ShloMosaic.PureOps.Ideal.Laws
import Idealize.ShloMosaic.Lib.ValueIdx
import Idealize.ShloMosaic.Lib.Pipeline.Value

noncomputable section

open scoped BigOperators

namespace Cert.KernelIdeal.Edge

open Cert.KernelIdeal Idealize.ShloMosaic Idealize.ShloMosaic.ValueIdx

/-! ## The two words -/

/-- The word 0x3F800000 is the real number one. -/
theorem one_word : Ideal.ofBits .f32 0x3F800000#32 = ((1 : ℝ) : EReal) := by
  simp [Ideal.ofBits, Ideal.ieee]; norm_cast; norm_num

/-! ## The degree: a count -/

/-- Zero plus a finite sum of ones is a real number, and not negative. -/
theorem count_real {κ : Type*} (s : Finset κ) (f : κ → EReal) (hf : ∀ j, f j = ((1 : ℝ) : EReal)) (x : EReal) (hx : x = 0) :
    ∃ r : ℝ, 0 ≤ r ∧ x + ∑ j ∈ s, f j = (r : EReal) := by
  refine ⟨∑ _j ∈ s, (1 : ℝ), Finset.sum_nonneg (fun _ _ => zero_le_one), ?_⟩
  rw [hx, zero_add, ChebAlgebra.coe_finset_sum]
  exact Finset.sum_congr rfl (fun j _ => hf j)

/-- Every degree is a real number, and not negative: it is zero plus one for each edge whose source lands on the node,
    whatever the integers of the edge list are. -/
theorem deg_nonneg (ei : IVec S2x160000 32) (n : S10000.Idx) : ∃ r : ℝ, 0 ≤ r ∧ deg ei n = (r : EReal) := by
  unfold deg Host.scatterAdd
  rw [Ideal.hostScatterAdd_def]
  unfold Ideal.hostScatterAdd
  exact count_real _ _ (fun j => one_word) _ Ideal.ofBits_zero_f32

theorem isReal_deg (ei : IVec S2x160000 32) : ChebAlgebra.IsReal (deg ei) := fun n => by
  obtain ⟨r, -, h⟩ := deg_nonneg ei n
  exact ⟨r, h⟩

/-! ## The inverse square root of the degree, zero where the degree is zero -/

/-- At a real d ≥ 0: where d > 0 the value is 1 · (√d)⁻¹ with √d a positive real, elsewhere it is 0: a real number in
    both cases. -/
theorem dinv_entry_real (d : EReal) (hd : ∃ r : ℝ, 0 ≤ r ∧ d = (r : EReal)) :
    ∃ s : ℝ, Scalar.select (Ideal.cmp .ogt d (Ideal.ofBits .f32 0x00000000#32))
        (Ideal.div (Ideal.ofBits .f32 0x3F800000#32) (Ideal.sqrt d)) (Ideal.ofBits .f32 0x00000000#32) = (s : EReal) := by
  obtain ⟨r, hr0, rfl⟩ := hd
  rw [Ideal.ofBits_zero_f32, one_word]
  by_cases hpos : 0 < r
  · have hbit : Ideal.cmp .ogt ((r : ℝ) : EReal) 0 = 1#1 := by
      simp [Ideal.cmp, hpos]
    rw [hbit, select_one]
    have hs : Ideal.sqrt ((r : ℝ) : EReal) = ((Real.sqrt r : ℝ) : EReal) := by
      show (if r < 0 then (⊥ : EReal) else ((Real.sqrt r : ℝ) : EReal)) = _
      rw [if_neg (not_lt.mpr hr0)]
    rw [hs]
    have hne : ((Real.sqrt r : ℝ) : EReal) ≠ 0 := by
      have h : 0 < Real.sqrt r := Real.sqrt_pos.mpr hpos
      exact_mod_cast h.ne'
    refine ⟨1 * (Real.sqrt r)⁻¹, ?_⟩
    unfold Ideal.div
    rw [if_neg hne, EReal.coe_mul, EReal.coe_inv]
  · have hbit : Ideal.cmp .ogt ((r : ℝ) : EReal) 0 = 0#1 := by
      simp [Ideal.cmp, hpos]
    rw [hbit, select_zero]
    exact ⟨0, by simp⟩

/-- A scalar constant broadcast to any shape reads, at every index, the extended real its word denotes. -/
theorem splat_apply {t : Shape} (h : S_.BroadcastsInDim t (![] : Fin 0 → Fin t.rank)) (w : BitVec (FTy.bits .f32)) (n : t.Idx) :
    broadcastInDim t ![] h (constant (F := Ideal) S_ .f32 w) n = Ideal.ofBits .f32 w :=
  (broadcastInDim_apply _ h _ n ix0 (fun a => a.elim0)).trans (constant_apply _ _)

theorem isReal_dinv (ei : IVec S2x160000 32) : ChebAlgebra.IsReal (dinv ei) := fun n => by
  unfold dinv
  rw [select_apply, cmpf_apply]
  unfold Host.divf Host.sqrt
  simp only [splat_apply, Ideal.hostDivf_def, Ideal.hostUnary_sqrt_def, Ideal.cmpf_def]
  exact dinv_entry_real _ (deg_nonneg ei n)

/-! ## The edge weight: a product of two entries of the above, one negated -/

theorem isReal_weight (ei : IVec S2x160000 32) : ChebAlgebra.IsReal (weight ei) := by
  show ChebAlgebra.IsReal (fun j => -(dinv ei (gather_S10000_S160000x1_S160000_n_0_n_n_0_1_1.operandIdx j (startIdx (src ei))))
    * dinv ei (gather_S10000_S160000x1_S160000_n_0_n_n_0_1_1.operandIdx j (startIdx (dst ei))))
  exact ChebAlgebra.IsReal.mul (ChebAlgebra.IsReal.neg ((isReal_dinv ei).comp _)) ((isReal_dinv ei).comp _)

end Cert.KernelIdeal.Edge

end
-- ==== Proof.Layers.lean ====
/-
  The whole network as a function of the twelve argument arrays, in the two arrangements. Five Chebyshev layers with
  max(., 0) after the first four and a softmax after the fifth. The reference propagates first in every layer. The kernel
  program projects first in layers 1 and 5 (where the layer narrows the features) and propagates first in layers 2, 3, 4.
  With every float argument real, the two are one function: the edge weights are real whatever the edge list
  (`Edge.isReal_weight`), so layer 1's two arrangements agree (`ChebSpec.layerP_eq_layer`); real entries stay real
  through layers 1 to 4; and so layer 5's two arrangements agree at the real output of layer 4. The softmax is the same
  function of equal arguments.
-/
import proofs.«120706_j28956669510215_2_alg».proof.Proof.ChebSpec
import proofs.«120706_j28956669510215_2_alg».proof.Proof.KernelSpmm
import proofs.«120706_j28956669510215_2_alg».proof.Proof.EdgeOps
import proofs.«120706_j28956669510215_2_alg».proof.Proof.EdgeReal
import proofs.«120706_j28956669510215_2_alg».proof.Proof.Softmax

noncomputable section

namespace Cert.Layers

open Cert.KernelIdeal Idealize.ShloMosaic Idealize.ShloMosaic.ValueIdx ChebAlgebra Cert.ChebSpec Cert.KernelIdeal.Spmm
open Cert.KernelIdeal.Edge (softmax19)

variable (ei : IVec S2x160000 32)
  (x : S10000x782.Idx → EReal) (w1 : S3x782x16.Idx → EReal) (b1 : S16.Idx → EReal)
  (w2 : S3x16x32.Idx → EReal) (b2 : S32.Idx → EReal) (w3 : S3x32x64.Idx → EReal) (b3 : S64.Idx → EReal)
  (w4 : S3x64x128.Idx → EReal) (b4 : S128.Idx → EReal) (w5 : S3x128x19.Idx → EReal) (b5 : S19.Idx → EReal)

/-- The edge data per edge: where an edge's contribution lands, where it is gathered from, its weight. -/
abbrev R : Fin 160000 → Option (Fin 10000) := rowK (Edge.dst ei)
abbrev G : Fin 160000 → Fin 10000 := gatK (Edge.src ei)
abbrev N : Fin 160000 → EReal := nuK (Edge.weight ei)

theorem isReal_N : IsReal (N ei) := (Edge.isReal_weight ei).comp _

/-! ## The reference's arrangement -/
def r1 : S10000x16.Idx → EReal := relu (layer (R ei) (G ei) (N ei) x w1 b1)
def r2 : S10000x32.Idx → EReal := relu (layer (R ei) (G ei) (N ei) (r1 ei x w1 b1) w2 b2)
def r3 : S10000x64.Idx → EReal := relu (layer (R ei) (G ei) (N ei) (r2 ei x w1 b1 w2 b2) w3 b3)
def r4 : S10000x128.Idx → EReal := relu (layer (R ei) (G ei) (N ei) (r3 ei x w1 b1 w2 b2 w3 b3) w4 b4)
def r5 : S10000x19.Idx → EReal := layer (R ei) (G ei) (N ei) (r4 ei x w1 b1 w2 b2 w3 b3 w4 b4) w5 b5
def refOut : S10000x19.Idx → EReal := softmax19 (r5 ei x w1 b1 w2 b2 w3 b3 w4 b4 w5 b5)

/-! ## The kernel program's arrangement -/
def k1 : S10000x16.Idx → EReal := relu (layerP (R ei) (G ei) (N ei) x w1 b1)
def k2 : S10000x32.Idx → EReal := relu (layer (R ei) (G ei) (N ei) (k1 ei x w1 b1) w2 b2)
def k3 : S10000x64.Idx → EReal := relu (layer (R ei) (G ei) (N ei) (k2 ei x w1 b1 w2 b2) w3 b3)
def k4 : S10000x128.Idx → EReal := relu (layer (R ei) (G ei) (N ei) (k3 ei x w1 b1 w2 b2 w3 b3) w4 b4)
def k5 : S10000x19.Idx → EReal := layerP (R ei) (G ei) (N ei) (k4 ei x w1 b1 w2 b2 w3 b3 w4 b4) w5 b5
def kerOut : S10000x19.Idx → EReal := softmax19 (k5 ei x w1 b1 w2 b2 w3 b3 w4 b4 w5 b5)

/-! ## They agree on real arguments -/

variable {ei x w1 b1 w2 b2 w3 b3 w4 b4 w5 b5}

theorem k1_eq (hx : IsReal x) (hw1 : IsReal w1) (hb1 : IsReal b1) : k1 ei x w1 b1 = r1 ei x w1 b1 := by
  unfold k1 r1
  rw [layerP_eq_layer (R ei) (G ei) (isReal_N ei) hx hw1 hb1]

theorem isReal_r1 (hx : IsReal x) (hw1 : IsReal w1) (hb1 : IsReal b1) : IsReal (r1 ei x w1 b1) :=
  isReal_relu (isReal_layer (R ei) (G ei) (isReal_N ei) hx hw1 hb1)

theorem isReal_r2 (hx : IsReal x) (hw1 : IsReal w1) (hb1 : IsReal b1) (hw2 : IsReal w2) (hb2 : IsReal b2) :
    IsReal (r2 ei x w1 b1 w2 b2) :=
  isReal_relu (isReal_layer (R ei) (G ei) (isReal_N ei) (isReal_r1 hx hw1 hb1) hw2 hb2)

theorem isReal_r3 (hx : IsReal x) (hw1 : IsReal w1) (hb1 : IsReal b1) (hw2 : IsReal w2) (hb2 : IsReal b2)
    (hw3 : IsReal w3) (hb3 : IsReal b3) : IsReal (r3 ei x w1 b1 w2 b2 w3 b3) :=
  isReal_relu (isReal_layer (R ei) (G ei) (isReal_N ei) (isReal_r2 hx hw1 hb1 hw2 hb2) hw3 hb3)

theorem isReal_r4 (hx : IsReal x) (hw1 : IsReal w1) (hb1 : IsReal b1) (hw2 : IsReal w2) (hb2 : IsReal b2)
    (hw3 : IsReal w3) (hb3 : IsReal b3) (hw4 : IsReal w4) (hb4 : IsReal b4) :
    IsReal (r4 ei x w1 b1 w2 b2 w3 b3 w4 b4) :=
  isReal_relu (isReal_layer (R ei) (G ei) (isReal_N ei) (isReal_r3 hx hw1 hb1 hw2 hb2 hw3 hb3) hw4 hb4)

/-- The two arrangements of the whole network are one function of real arguments. -/
theorem kerOut_eq_refOut (hx : IsReal x) (hw1 : IsReal w1) (hb1 : IsReal b1) (hw2 : IsReal w2) (hb2 : IsReal b2)
    (hw3 : IsReal w3) (hb3 : IsReal b3) (hw4 : IsReal w4) (hb4 : IsReal b4) (hw5 : IsReal w5) (hb5 : IsReal b5) :
    kerOut ei x w1 b1 w2 b2 w3 b3 w4 b4 w5 b5 = refOut ei x w1 b1 w2 b2 w3 b3 w4 b4 w5 b5 := by
  have e1 : k1 ei x w1 b1 = r1 ei x w1 b1 := k1_eq hx hw1 hb1
  have e2 : k2 ei x w1 b1 w2 b2 = r2 ei x w1 b1 w2 b2 := by unfold k2 r2; rw [e1]
  have e3 : k3 ei x w1 b1 w2 b2 w3 b3 = r3 ei x w1 b1 w2 b2 w3 b3 := by unfold k3 r3; rw [e2]
  have e4 : k4 ei x w1 b1 w2 b2 w3 b3 w4 b4 = r4 ei x w1 b1 w2 b2 w3 b3 w4 b4 := by unfold k4 r4; rw [e3]
  have e5 : k5 ei x w1 b1 w2 b2 w3 b3 w4 b4 w5 b5 = r5 ei x w1 b1 w2 b2 w3 b3 w4 b4 w5 b5 := by
    unfold k5 r5
    rw [e4, layerP_eq_layer (R ei) (G ei) (isReal_N ei) (isReal_r4 hx hw1 hb1 hw2 hb2 hw3 hb3 hw4 hb4) hw5 hb5]
  unfold kerOut refOut
  rw [e5]

end Cert.Layers

end
-- ==== Proof.KernelChain.lean ====
import proofs.«120706_j28956669510215_2_alg».proof.Proof.Gen.KernelIdeal.Frame
import proofs.«120706_j28956669510215_2_alg».proof.Proof.KernelEdge
import proofs.«120706_j28956669510215_2_alg».proof.Proof.KernelSpmm
import proofs.«120706_j28956669510215_2_alg».proof.Proof.ChebSpec
import proofs.«120706_j28956669510215_2_alg».proof.Proof.LibHostForms
import proofs.«120706_j28956669510215_2_alg».proof.Proof.Softmax
import proofs.«120706_j28956669510215_2_alg».proof.Proof.RegionProj0
import proofs.«120706_j28956669510215_2_alg».proof.Proof.RegionProj4
import proofs.«120706_j28956669510215_2_alg».proof.Proof.RegionCheb1
import proofs.«120706_j28956669510215_2_alg».proof.Proof.RegionCheb2
import proofs.«120706_j28956669510215_2_alg».proof.Proof.RegionCheb3
import proofs.«120706_j28956669510215_2_alg».proof.Proof.KernelHost
import proofs.«120706_j28956669510215_2_alg».proof.Proof.KernelHost5
import proofs.«120706_j28956669510215_2_alg».proof.Proof.Layers
import Idealize.ShloMosaic.Lib.StableHlo.Run

set_option maxRecDepth 16384

/-
  The kernel program's result as ONE function of the launched argument arrays. The program is a fold of boundaries: host
  stretches and five pipelined regions. Walking the fold: the edge quantities stand at boundary 3 and pass through every
  later boundary; region 0 leaves the three projections x W1[κ] of the input features (its closed form); the next
  stretch combines them into layer 1's output (project first) and prepares its propagated forms; each of regions 1, 2, 3
  is one propagate-first layer with its max with 0 (its closed form at those inputs); region 4 leaves the three projections
  of layer 4's output, and the last stretch combines them (project first) and takes the softmax. The result buffer at the
  last boundary is therefore the kernel arrangement of the whole network, `Cert.Layers.kerOut`, of the launched arrays.
-/
noncomputable section

namespace Cert.KernelIdeal.Chain

open Cert.KernelIdeal Cert.KernelIdeal.Gen
open Idealize.ShloMosaic Idealize.ShloMosaic.TcCoe Idealize.ShloMosaic.StableHlo Idealize.ShloMosaic.ValueIdx
open Idealize.SL.Sem ChebAlgebra Cert.ChebSpec Cert.KernelIdeal.Spmm HostForms

variable (m : (ℓ : Loc nD τ sig) → Buf (Elt Ideal) ℓ) (ρ : Dev nD → PrngReg) (c : Dev nD)

/-- The edge data per edge, read off the launch contents of the edge list. -/
abbrev Rw : Fin 160000 → Option (Fin 10000) := rowK (Edge.dst (EI m c))
abbrev Gw : Fin 160000 → Fin 10000 := gatK (Edge.src (EI m c))
abbrev Nw : Fin 160000 → EReal := nuK (Edge.weight (EI m c))

/-- The float arguments as launched. -/
abbrev A0 : FVec Ideal S10000x782 .f32 := m ((c : Thread nD τ).loc main_arg0)
abbrev A2 : FVec Ideal S3x782x16 .f32 := m ((c : Thread nD τ).loc main_arg2)
abbrev A3 : FVec Ideal S16 .f32 := m ((c : Thread nD τ).loc main_arg3)
abbrev A4 : FVec Ideal S3x16x32 .f32 := m ((c : Thread nD τ).loc main_arg4)
abbrev A5 : FVec Ideal S32 .f32 := m ((c : Thread nD τ).loc main_arg5)
abbrev A6 : FVec Ideal S3x32x64 .f32 := m ((c : Thread nD τ).loc main_arg6)
abbrev A7 : FVec Ideal S64 .f32 := m ((c : Thread nD τ).loc main_arg7)
abbrev A8 : FVec Ideal S3x64x128 .f32 := m ((c : Thread nD τ).loc main_arg8)
abbrev A9 : FVec Ideal S128 .f32 := m ((c : Thread nD τ).loc main_arg9)
abbrev A10 : FVec Ideal S3x128x19 .f32 := m ((c : Thread nD τ).loc main_arg10)
abbrev A11 : FVec Ideal S19 .f32 := m ((c : Thread nD τ).loc main_arg11)

open Cert.KernelIdeal.Edge (softmax19)

/-- The layers' outputs in the kernel program's arrangement, of the launched arrays. -/
abbrev K1 : S10000x16.Idx → EReal := Cert.Layers.k1 (EI m c) (A0 m c) (A2 m c) (A3 m c)
abbrev K2 : S10000x32.Idx → EReal := Cert.Layers.k2 (EI m c) (A0 m c) (A2 m c) (A3 m c) (A4 m c) (A5 m c)
abbrev K3 : S10000x64.Idx → EReal := Cert.Layers.k3 (EI m c) (A0 m c) (A2 m c) (A3 m c) (A4 m c) (A5 m c) (A6 m c) (A7 m c)
abbrev K4 : S10000x128.Idx → EReal := Cert.Layers.k4 (EI m c) (A0 m c) (A2 m c) (A3 m c) (A4 m c) (A5 m c) (A6 m c) (A7 m c) (A8 m c) (A9 m c)

/-! ## Region 0: the three projections of the input features -/

/-! ## Region 0: the three projections of the input features -/

theorem W4_y0 : W4 (F := Ideal) m ρ c (Proc.devRef .tc main_v30_0) = mm (A0 m c) (wslice 0 (A2 m c)) := by
  refine (W4_arr m ρ c 2).trans ?_
  rw [RegionProj0.final2 (V3 m ρ) c]
  show RegionProj0.proj 0 (W3 m ρ c (Proc.devRef .tc main_arg0)) (W3 m ρ c (Proc.devRef .tc main_arg2)) = _
  rw [W3_arg0, W3_arg2]
  rfl

theorem W4_y1 : W4 (F := Ideal) m ρ c (Proc.devRef .tc main_v30_1) = mm (A0 m c) (wslice 1 (A2 m c)) := by
  refine (W4_arr m ρ c 3).trans ?_
  rw [RegionProj0.final3 (V3 m ρ) c]
  show RegionProj0.proj 1 (W3 m ρ c (Proc.devRef .tc main_arg0)) (W3 m ρ c (Proc.devRef .tc main_arg2)) = _
  rw [W3_arg0, W3_arg2]
  rfl

theorem W4_y2 : W4 (F := Ideal) m ρ c (Proc.devRef .tc main_v30_2) = mm (A0 m c) (wslice 2 (A2 m c)) := by
  refine (W4_arr m ρ c 4).trans ?_
  rw [RegionProj0.final4 (V3 m ρ) c]
  show RegionProj0.proj 2 (W3 m ρ c (Proc.devRef .tc main_arg0)) (W3 m ρ c (Proc.devRef .tc main_arg2)) = _
  rw [W3_arg0, W3_arg2]
  rfl

/-! ## Host stretch after region 0: layer 1's output, and its propagated forms for region 1 -/

theorem W5_h1 : W5 (F := Ideal) m ρ c (Proc.devRef .tc main_v79) = K1 m c := by
  show StableHlo.after hostOps1 (W4 m ρ c) (Proc.devRef .tc main_v79) = _
  rw [Host.h1_eq (W4 m ρ c)]
  unfold Host.P Host.R Host.G Host.NU Host.Y0 Host.Y1 Host.Y2 Host.B1
  rw [W4_y0, W4_y1, W4_y2, W4_dst, W4_src, W4_weight, W4_arg3]
  rfl

theorem W5_t1 : W5 (F := Ideal) m ρ c (Proc.devRef .tc main_v92) = prop (Rw m c) (Gw m c) (Nw m c) (K1 m c) := by
  show StableHlo.after hostOps1 (W4 m ρ c) (Proc.devRef .tc main_v92) = _
  rw [Host.t1_eq (W4 m ρ c)]
  unfold Host.P Host.R Host.G Host.NU Host.H1
  rw [show StableHlo.after hostOps1 (W4 m ρ c) (Proc.devRef .tc main_v79) = K1 m c from W5_h1 m ρ c, W4_dst, W4_src, W4_weight]

theorem W5_t2 : W5 (F := Ideal) m ρ c (Proc.devRef .tc main_v108)
    = fun j => two * prop (Rw m c) (Gw m c) (Nw m c) (prop (Rw m c) (Gw m c) (Nw m c) (K1 m c)) j - K1 m c j := by
  show StableHlo.after hostOps1 (W4 m ρ c) (Proc.devRef .tc main_v108) = _
  rw [Host.t2_eq (W4 m ρ c)]
  unfold Host.P Host.R Host.G Host.NU Host.H1
  rw [show StableHlo.after hostOps1 (W4 m ρ c) (Proc.devRef .tc main_v79) = K1 m c from W5_h1 m ρ c, W4_dst, W4_src, W4_weight]

theorem W5_b : W5 (F := Ideal) m ρ c (Proc.devRef .tc main_v109)
    = shapeCast S1x32 (A5 m c) Facts₀.shapeCasts_S32_S1x32 := by
  show StableHlo.after hostOps1 (W4 m ρ c) (Proc.devRef .tc main_v109) = _
  rw [Host.b2_eq (W4 m ρ c), W4_arg5]

/-- Region 1's closed form at propagate-first inputs is layer 2 with its max with 0. -/
theorem cheb1_eq_layer (R : Fin 160000 → Option (Fin 10000)) (G : Fin 160000 → Fin 10000) (N : Fin 160000 → EReal)
    (h : S10000x16.Idx → EReal) (W : S3x16x32.Idx → EReal) (b : S32.Idx → EReal) :
    RegionCheb1.chebLin h (prop R G N h) (fun j => two * prop R G N (prop R G N h) j - h j) W
        (shapeCast S1x32 b Facts₀.shapeCasts_S32_S1x32)
      = relu (layer R G N h W b) := by
  funext i
  have hb : shapeCast S1x32 b Facts₀.shapeCasts_S32_S1x32 (ix2 (0 : Fin 1) (i 1)) = b (ix1 (i 1)) :=
    cast_row_apply b _ (i 1)
  exact congrArg (fun t => max (((mm h (wslice 0 W) i + mm (prop R G N h) (wslice 1 W) i)
    + mm (fun j => two * prop R G N (prop R G N h) j - h j) (wslice 2 W) i) + t) 0) hb

/-! ## Region 1: layer 2 -/

theorem W6_h2 : W6 (F := Ideal) m ρ c (Proc.devRef .tc main_v110) = K2 m c := by
  refine (W6_arr m ρ c 5).trans ?_
  rw [RegionCheb1.final (V5 m ρ) c]
  show RegionCheb1.chebLin (W5 m ρ c (Proc.devRef .tc main_v79)) (W5 m ρ c (Proc.devRef .tc main_v92))
      (W5 m ρ c (Proc.devRef .tc main_v108)) (W5 m ρ c (Proc.devRef .tc main_arg4))
      (W5 m ρ c (Proc.devRef .tc main_v109)) = _
  rw [W5_h1, W5_t1, W5_t2, W5_arg4, W5_b, cheb1_eq_layer]
  rfl

/-! ## Host stretch after region 1: the propagated forms of layer 2's output, for region 2 -/

theorem W7_h2 : W7 (F := Ideal) m ρ c (Proc.devRef .tc main_v110) = K2 m c := by
  show StableHlo.after hostOps2 (W6 m ρ c) (Proc.devRef .tc main_v110) = _
  rw [Host.keep_h2 (W6 m ρ c), W6_h2]

theorem W7_t1 : W7 (F := Ideal) m ρ c (Proc.devRef .tc main_v123) = prop (Rw m c) (Gw m c) (Nw m c) (K2 m c) := by
  show StableHlo.after hostOps2 (W6 m ρ c) (Proc.devRef .tc main_v123) = _
  rw [Host.t1' (W6 m ρ c)]
  unfold Host.P Host.R Host.G Host.NU Host.H2
  rw [W6_h2, W6_dst, W6_src, W6_weight]

theorem W7_t2 : W7 (F := Ideal) m ρ c (Proc.devRef .tc main_v139)
    = fun j => two * prop (Rw m c) (Gw m c) (Nw m c) (prop (Rw m c) (Gw m c) (Nw m c) (K2 m c)) j - K2 m c j := by
  show StableHlo.after hostOps2 (W6 m ρ c) (Proc.devRef .tc main_v139) = _
  rw [Host.t2' (W6 m ρ c)]
  unfold Host.P Host.R Host.G Host.NU Host.H2
  rw [W6_h2, W6_dst, W6_src, W6_weight]

theorem W7_b : W7 (F := Ideal) m ρ c (Proc.devRef .tc main_v140)
    = shapeCast S1x64 (A7 m c) Facts₀.shapeCasts_S64_S1x64 := by
  show StableHlo.after hostOps2 (W6 m ρ c) (Proc.devRef .tc main_v140) = _
  rw [Host.b3_eq (W6 m ρ c), W6_arg7]

/-- Region 2's closed form at propagate-first inputs is layer 3 with its max with 0. -/
theorem cheb2_eq_layer (R : Fin 160000 → Option (Fin 10000)) (G : Fin 160000 → Fin 10000) (N : Fin 160000 → EReal)
    (h : S10000x32.Idx → EReal) (W : S3x32x64.Idx → EReal) (b : S64.Idx → EReal) :
    RegionCheb2.chebLin h (prop R G N h) (fun j => two * prop R G N (prop R G N h) j - h j) W
        (shapeCast S1x64 b Facts₀.shapeCasts_S64_S1x64)
      = relu (layer R G N h W b) := by
  funext i
  have hb : shapeCast S1x64 b Facts₀.shapeCasts_S64_S1x64 (ix2 (0 : Fin 1) (i 1)) = b (ix1 (i 1)) :=
    cast_row_apply b _ (i 1)
  exact congrArg (fun t => max (((mm h (wslice 0 W) i + mm (prop R G N h) (wslice 1 W) i)
    + mm (fun j => two * prop R G N (prop R G N h) j - h j) (wslice 2 W) i) + t) 0) hb

/-! ## Region 2: layer 3 -/

theorem W8_h3 : W8 (F := Ideal) m ρ c (Proc.devRef .tc main_v141) = K3 m c := by
  refine (W8_arr m ρ c 5).trans ?_
  rw [RegionCheb2.final (V7 m ρ) c]
  show RegionCheb2.chebLin (W7 m ρ c (Proc.devRef .tc main_v110)) (W7 m ρ c (Proc.devRef .tc main_v123))
      (W7 m ρ c (Proc.devRef .tc main_v139)) (W7 m ρ c (Proc.devRef .tc main_arg6))
      (W7 m ρ c (Proc.devRef .tc main_v140)) = _
  rw [W7_h2, W7_t1, W7_t2, W7_arg6, W7_b, cheb2_eq_layer]
  rfl

/-! ## Host stretch after region 2: the propagated forms of layer 3's output, for region 3 -/

theorem W9_h3 : W9 (F := Ideal) m ρ c (Proc.devRef .tc main_v141) = K3 m c := by
  show StableHlo.after hostOps3 (W8 m ρ c) (Proc.devRef .tc main_v141) = _
  rw [Host.keep_h3 (W8 m ρ c), W8_h3]

theorem W9_t1 : W9 (F := Ideal) m ρ c (Proc.devRef .tc main_v154) = prop (Rw m c) (Gw m c) (Nw m c) (K3 m c) := by
  show StableHlo.after hostOps3 (W8 m ρ c) (Proc.devRef .tc main_v154) = _
  rw [Host.t1'' (W8 m ρ c)]
  unfold Host.P Host.R Host.G Host.NU Host.H3
  rw [W8_h3, W8_dst, W8_src, W8_weight]

theorem W9_t2 : W9 (F := Ideal) m ρ c (Proc.devRef .tc main_v170)
    = fun j => two * prop (Rw m c) (Gw m c) (Nw m c) (prop (Rw m c) (Gw m c) (Nw m c) (K3 m c)) j - K3 m c j := by
  show StableHlo.after hostOps3 (W8 m ρ c) (Proc.devRef .tc main_v170) = _
  rw [Host.t2'' (W8 m ρ c)]
  unfold Host.P Host.R Host.G Host.NU Host.H3
  rw [W8_h3, W8_dst, W8_src, W8_weight]

theorem W9_b : W9 (F := Ideal) m ρ c (Proc.devRef .tc main_v171)
    = shapeCast S1x128 (A9 m c) Facts₀.shapeCasts_S128_S1x128 := by
  show StableHlo.after hostOps3 (W8 m ρ c) (Proc.devRef .tc main_v171) = _
  rw [Host.b4_eq (W8 m ρ c), W8_arg9]

/-- Region 3's closed form at propagate-first inputs is layer 4 with its max with 0. -/
theorem cheb3_eq_layer (R : Fin 160000 → Option (Fin 10000)) (G : Fin 160000 → Fin 10000) (N : Fin 160000 → EReal)
    (h : S10000x64.Idx → EReal) (W : S3x64x128.Idx → EReal) (b : S128.Idx → EReal) :
    RegionCheb3.chebLin h (prop R G N h) (fun j => two * prop R G N (prop R G N h) j - h j) W
        (shapeCast S1x128 b Facts₀.shapeCasts_S128_S1x128)
      = relu (layer R G N h W b) := by
  funext i
  have hb : shapeCast S1x128 b Facts₀.shapeCasts_S128_S1x128 (ix2 (0 : Fin 1) (i 1)) = b (ix1 (i 1)) :=
    cast_row_apply b _ (i 1)
  exact congrArg (fun t => max (((mm h (wslice 0 W) i + mm (prop R G N h) (wslice 1 W) i)
    + mm (fun j => two * prop R G N (prop R G N h) j - h j) (wslice 2 W) i) + t) 0) hb

/-! ## Region 3: layer 4 -/

theorem W10_h4 : W10 (F := Ideal) m ρ c (Proc.devRef .tc main_v172) = K4 m c := by
  refine (W10_arr m ρ c 5).trans ?_
  rw [RegionCheb3.final (V9 m ρ) c]
  show RegionCheb3.chebLin (W9 m ρ c (Proc.devRef .tc main_v141)) (W9 m ρ c (Proc.devRef .tc main_v154))
      (W9 m ρ c (Proc.devRef .tc main_v170)) (W9 m ρ c (Proc.devRef .tc main_arg8))
      (W9 m ρ c (Proc.devRef .tc main_v171)) = _
  rw [W9_h3, W9_t1, W9_t2, W9_arg8, W9_b, cheb3_eq_layer]
  rfl

/-! ## Region 4: the three projections of layer 4's output -/

theorem W11_y0 : W11 (F := Ideal) m ρ c (Proc.devRef .tc main_v173_0) = mm (K4 m c) (wslice 0 (A10 m c)) := by
  refine (W11_arr m ρ c 2).trans ?_
  rw [RegionProj4.final2 (V10 m ρ) c]
  show RegionProj4.proj 0 (W10 m ρ c (Proc.devRef .tc main_v172)) (W10 m ρ c (Proc.devRef .tc main_arg10)) = _
  rw [W10_h4, W10_arg10]
  rfl

theorem W11_y1 : W11 (F := Ideal) m ρ c (Proc.devRef .tc main_v173_1) = mm (K4 m c) (wslice 1 (A10 m c)) := by
  refine (W11_arr m ρ c 3).trans ?_
  rw [RegionProj4.final3 (V10 m ρ) c]
  show RegionProj4.proj 1 (W10 m ρ c (Proc.devRef .tc main_v172)) (W10 m ρ c (Proc.devRef .tc main_arg10)) = _
  rw [W10_h4, W10_arg10]
  rfl

theorem W11_y2 : W11 (F := Ideal) m ρ c (Proc.devRef .tc main_v173_2) = mm (K4 m c) (wslice 2 (A10 m c)) := by
  refine (W11_arr m ρ c 4).trans ?_
  rw [RegionProj4.final4 (V10 m ρ) c]
  show RegionProj4.proj 2 (W10 m ρ c (Proc.devRef .tc main_v172)) (W10 m ρ c (Proc.devRef .tc main_arg10)) = _
  rw [W10_h4, W10_arg10]
  rfl

/-- The result buffer at the last boundary is the kernel arrangement of the whole network. -/
theorem W12_out : W12 (F := Ideal) m ρ c (Proc.devRef .tc main_v231)
    = Cert.Layers.kerOut (EI m c) (A0 m c) (A2 m c) (A3 m c) (A4 m c) (A5 m c) (A6 m c) (A7 m c) (A8 m c) (A9 m c)
        (A10 m c) (A11 m c) := by
  show StableHlo.after hostOps5 (W11 m ρ c) (Proc.devRef .tc main_v231) = _
  rw [Host5.out_eq (W11 m ρ c)]
  unfold Host5.pre5 Host5.Y0 Host5.Y1 Host5.Y2 Host5.B5 Host5.R5 Host5.G5 Host5.N5
  rw [W11_y0, W11_y1, W11_y2, W11_dst, W11_src, W11_weight, W11_arg11]
  rfl

end Cert.KernelIdeal.Chain

end
-- ==== Proof.RefRun.lean ====
/-
  The reference program's run. The reference is a straight line of 321 host operations (its five calls of small
  functions stand inlined). They are listed here in six stretches cut where the mathematics cuts: the edge quantities,
  then one stretch per layer, the last with the softmax. The program is the six stretches run in order, so every
  weakly fair execution terminates and every buffer ends at the fold of the operations' results over the launch
  contents; the boundaries of that fold, one after each stretch, are named `U1` … `U6`.
-/
import proofs.«120706_j28956669510215_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of the edge quantities: endpoints, degrees, inverse square roots, weights, in order. -/
abbrev opsEdges : List (HloOp τ sig (Elt F)) :=
  [ unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    unary main_arg1 main_v4 ((extractStridedSlice S1x160000 ![0, 0] · slices_S2x160000_S1x160000_0_0) : (⟨S2x160000, .i32⟩ : BufTy).Contents (Elt F) → (⟨S1x160000, .i32⟩ : BufTy).Contents (Elt F)),
    reshape main_v4 main_v5 rfl shapeCasts_S1x160000_S160000,
    unary main_arg1 main_v6 ((extractStridedSlice S1x160000 ![1, 0] · slices_S2x160000_S1x160000_1_0) : (⟨S2x160000, .i32⟩ : BufTy).Contents (Elt F) → (⟨S1x160000, .i32⟩ : BufTy).Contents (Elt F)),
    reshape main_v6 main_v7 rfl shapeCasts_S1x160000_S160000,
    nullary main_cst (constant S_ .f32 0x3F800000#32),
    unary main_cst main_v8 (broadcastInDim S160000 ![] bcast_S_S160000 : (⟨S_, .f32⟩ : BufTy).Contents (Elt F) → (⟨S160000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v5 main_v10 (broadcastInDim S160000x1 ![0] bcast_S160000_S160000x1_0 : (⟨S160000, .i32⟩ : BufTy).Contents (Elt F) → (⟨S160000x1, .i32⟩ : BufTy).Contents (Elt F)),
    ternary main_v9 main_v10 main_v8 main_v11 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.sqrt : (⟨S10000, .f32⟩ : BufTy).Contents (Elt F) → (⟨S10000, .f32⟩ : BufTy).Contents (Elt F)),
    nullary main_cst_2 (constant S_ .f32 0x3F800000#32),
    unary main_cst_2 main_v15 (broadcastInDim S10000 ![] bcast_S_S10000 : (⟨S_, .f32⟩ : BufTy).Contents (Elt F) → (⟨S10000, .f32⟩ : BufTy).Contents (Elt F)),
    binary main_v15 main_v14 main_v16 (Host.divf : (⟨S10000, .f32⟩ : BufTy).Contents (Elt F) → (⟨S10000, .f32⟩ : BufTy).Contents (Elt F) → (⟨S10000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v16) (TRef.of (T := ⟨S10000, .f32⟩) main_call0_v1) (TRef.of (T := ⟨S10000, .f32⟩) main_v17) select,
    nullary main_c (constantI S_ 32 0#32),
    unary main_c main_v18 (broadcastInDim S160000 ![] bcast_S_S160000 : (⟨S_, .i32⟩ : BufTy).Contents (Elt F) → (⟨S160000, .i32⟩ : BufTy).Contents (Elt F)),
    binary main_v5 main_v18 main_v19 (cmpi .slt : (⟨S160000, .i32⟩ : BufTy).Contents (Elt F) → (⟨S160000, .i32⟩ : BufTy).Contents (Elt F) → (⟨S160000, .i1⟩ : BufTy).Contents (Elt F)),
    nullary main_c_4 (constantI S_ 32 10000#32),
    unary main_c_4 main_v20 (broadcastInDim S160000 ![] bcast_S_S160000 : (⟨S_, .i32⟩ : BufTy).Contents (Elt F) → (⟨S160000, .i32⟩ : BufTy).Contents (Elt F)),
    binary main_v5 main_v20 main_v21 (addi : (⟨S160000, .i32⟩ : BufTy).Contents (Elt F) → (⟨S160000, .i32⟩ : BufTy).Contents (Elt F) → (⟨S160000, .i32⟩ : BufTy).Contents (Elt F)),
    ternary main_v19 main_v21 main_v5 main_v22 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v22 main_v23 (broadcastInDim S160000x1 ![0] bcast_S160000_S160000x1_0 : (⟨S160000, .i32⟩ : BufTy).Contents (Elt F) → (⟨S160000x1, .i32⟩ : BufTy).Contents (Elt F)),
    binary main_v17 main_v23 main_v24 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    unary main_v24 main_v25 (Host.negf : (⟨S160000, .f32⟩ : BufTy).Contents (Elt F) → (⟨S160000, .f32⟩ : BufTy).Contents (Elt F)),
    nullary main_c_5 (constantI S_ 32 0#32),
    unary main_c_5 main_v26 (broadcastInDim S160000 ![] bcast_S_S160000 : (⟨S_, .i32⟩ : BufTy).Contents (Elt F) → (⟨S160000, .i32⟩ : BufTy).Contents (Elt F)),
    binary main_v7 main_v26 main_v27 (cmpi .slt : (⟨S160000, .i32⟩ : BufTy).Contents (Elt F) → (⟨S160000, .i32⟩ : BufTy).Contents (Elt F) → (⟨S160000, .i1⟩ : BufTy).Contents (Elt F)),
    nullary main_c_6 (constantI S_ 32 10000#32),
    unary main_c_6 main_v28 (broadcastInDim S160000 ![] bcast_S_S160000 : (⟨S_, .i32⟩ : BufTy).Contents (Elt F) → (⟨S160000, .i32⟩ : BufTy).Contents (Elt F)),
    binary main_v7 main_v28 main_v29 (addi : (⟨S160000, .i32⟩ : BufTy).Contents (Elt F) → (⟨S160000, .i32⟩ : BufTy).Contents (Elt F) → (⟨S160000, .i32⟩ : BufTy).Contents (Elt F)),
    ternary main_v27 main_v29 main_v7 main_v30 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v30 main_v31 (broadcastInDim S160000x1 ![0] bcast_S160000_S160000x1_0 : (⟨S160000, .i32⟩ : BufTy).Contents (Elt F) → (⟨S160000x1, .i32⟩ : BufTy).Contents (Elt F)),
    binary main_v17 main_v31 main_v32 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v25 main_v32 main_v33 (mulf : (⟨S160000, .f32⟩ : BufTy).Contents (Elt F) → (⟨S160000, .f32⟩ : BufTy).Contents (Elt F) → (⟨S160000, .f32⟩ : BufTy).Contents (Elt F)) ]

/-- Each touches TensorCore references only. -/
theorem opsEdges_sub : (opsEdges : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxHeartbeats 40000000 in
/-- The operations of layer 1 (782 to 16 features) and its max with 0, in order. -/
abbrev opsLayer1 : List (HloOp τ sig (Elt F)) :=
  [ unary main_arg2 main_v34 ((extractStridedSlice S1x782x16 ![0, 0, 0] · slices_S3x782x16_S1x782x16_0_0_0) : (⟨S3x782x16, .f32⟩ : BufTy).Contents (Elt F) → (⟨S1x782x16, .f32⟩ : BufTy).Contents (Elt F)),
    reshape main_v34 main_v35 rfl shapeCasts_S1x782x16_S782x16,
    binary main_arg0 main_v35 main_v36 ((fun l r => Host.dotGeneral dot_S10000x782_S782x16_S10000x16_1_0_0_1_n_n none l r) : (⟨S10000x782, .f32⟩ : BufTy).Contents (Elt F) → (⟨S782x16, .f32⟩ : BufTy).Contents (Elt F) → (⟨S10000x16, .f32⟩ : BufTy).Contents (Elt F)),
    unary main_v33 main_v37 (broadcastInDim S160000x1 ![0] bcast_S160000_S160000x1_0 : (⟨S160000, .f32⟩ : BufTy).Contents (Elt F) → (⟨S160000x1, .f32⟩ : BufTy).Contents (Elt F)),
    nullary main_c_7 (constantI S_ 32 0#32),
    unary main_c_7 main_v38 (broadcastInDim S160000 ![] bcast_S_S160000 : (⟨S_, .i32⟩ : BufTy).Contents (Elt F) → (⟨S160000, .i32⟩ : BufTy).Contents (Elt F)),
    binary main_v1 main_v38 main_v39 (cmpi .slt : (⟨S160000, .i32⟩ : BufTy).Contents (Elt F) → (⟨S160000, .i32⟩ : BufTy).Contents (Elt F) → (⟨S160000, .i1⟩ : BufTy).Contents (Elt F)),
    nullary main_c_8 (constantI S_ 32 10000#32),
    unary main_c_8 main_v40 (broadcastInDim S160000 ![] bcast_S_S160000 : (⟨S_, .i32⟩ : BufTy).Contents (Elt F) → (⟨S160000, .i32⟩ : BufTy).Contents (Elt F)),
    binary main_v1 main_v40 main_v41 (addi : (⟨S160000, .i32⟩ : BufTy).Contents (Elt F) → (⟨S160000, .i32⟩ : BufTy).Contents (Elt F) → (⟨S160000, .i32⟩ : BufTy).Contents (Elt F)),
    ternary main_v39 main_v41 main_v1 main_v42 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v42 main_v43 (broadcastInDim S160000x1 ![0] bcast_S160000_S160000x1_0 : (⟨S160000, .i32⟩ : BufTy).Contents (Elt F) → (⟨S160000x1, .i32⟩ : BufTy).Contents (Elt F)),
    binary main_arg0 main_v43 main_v44 ((fun x i => Host.gather gather_S10000x782_S160000x1_S160000x782_1_0_n_n_0_1_1782 x i) : (⟨S10000x782, .f32⟩ : BufTy).Contents (Elt F) → (⟨S160000x1, .i32⟩ : BufTy).Contents (Elt F) → (⟨S160000x782, .f32⟩ : BufTy).Contents (Elt F)),
    unary main_v37 main_v45 (broadcastInDim S160000x782 ![0, 1] bcast_S160000x1_S160000x782_0_1 : (⟨S160000x1, .f32⟩ : BufTy).Contents (Elt F) → (⟨S160000x782, .f32⟩ : BufTy).Contents (Elt F)),
    binary main_v45 main_v44 main_v46 (mulf : (⟨S160000x782, .f32⟩ : BufTy).Contents (Elt F) → (⟨S160000x782, .f32⟩ : BufTy).Contents (Elt F) → (⟨S160000x782, .f32⟩ : BufTy).Contents (Elt F)),
    nullary main_cst_9 (constant S_ .f32 0x00000000#32),
    unary main_cst_9 main_v47 (broadcastInDim S10000x782 ![] bcast_S_S10000x782 : (⟨S_, .f32⟩ : BufTy).Contents (Elt F) → (⟨S10000x782, .f32⟩ : BufTy).Contents (Elt F)),
    unary main_v3 main_v48 (broadcastInDim S160000x1 ![0] bcast_S160000_S160000x1_0 : (⟨S160000, .i32⟩ : BufTy).Contents (Elt F) → (⟨S160000x1, .i32⟩ : BufTy).Contents (Elt F)),
    ternary main_v47 main_v48 main_v46 main_v49 ((fun x i u => Host.scatterAdd scatter_S10000x782_S160000x1_S160000x782_1_0_0_1 x i u) : (⟨S10000x782, .f32⟩ : BufTy).Contents (Elt F) → (⟨S160000x1, .i32⟩ : BufTy).Contents (Elt F) → (⟨S160000x782, .f32⟩ : BufTy).Contents (Elt F) → (⟨S10000x782, .f32⟩ : BufTy).Contents (Elt F)),
    unary main_arg2 main_v50 ((extractStridedSlice S1x782x16 ![1, 0, 0] · slices_S3x782x16_S1x782x16_1_0_0) : (⟨S3x782x16, .f32⟩ : BufTy).Contents (Elt F) → (⟨S1x782x16, .f32⟩ : BufTy).Contents (Elt F)),
    reshape main_v50 main_v51 rfl shapeCasts_S1x782x16_S782x16,
    binary main_v49 main_v51 main_v52 ((fun l r => Host.dotGeneral dot_S10000x782_S782x16_S10000x16_1_0_0_1_n_n none l r) : (⟨S10000x782, .f32⟩ : BufTy).Contents (Elt F) → (⟨S782x16, .f32⟩ : BufTy).Contents (Elt F) → (⟨S10000x16, .f32⟩ : BufTy).Contents (Elt F)),
    binary main_v36 main_v52 main_v53 (addf : (⟨S10000x16, .f32⟩ : BufTy).Contents (Elt F) → (⟨S10000x16, .f32⟩ : BufTy).Contents (Elt F) → (⟨S10000x16, .f32⟩ : BufTy).Contents (Elt F)),
    unary main_v33 main_v54 (broadcastInDim S160000x1 ![0] bcast_S160000_S160000x1_0 : (⟨S160000, .f32⟩ : BufTy).Contents (Elt F) → (⟨S160000x1, .f32⟩ : BufTy).Contents (Elt F)),
    nullary main_c_10 (constantI S_ 32 0#32),
    unary main_c_10 main_v55 (broadcastInDim S160000 ![] bcast_S_S160000 : (⟨S_, .i32⟩ : BufTy).Contents (Elt F) → (⟨S160000, .i32⟩ : BufTy).Contents (Elt F)),
    binary main_v1 main_v55 main_v56 (cmpi .slt : (⟨S160000, .i32⟩ : BufTy).Contents (Elt F) → (⟨S160000, .i32⟩ : BufTy).Contents (Elt F) → (⟨S160000, .i1⟩ : BufTy).Contents (Elt F)),
    nullary main_c_11 (constantI S_ 32 10000#32),
    unary main_c_11 main_v57 (broadcastInDim S160000 ![] bcast_S_S160000 : (⟨S_, .i32⟩ : BufTy).Contents (Elt F) → (⟨S160000, .i32⟩ : BufTy).Contents (Elt F)),
    binary main_v1 main_v57 main_v58 (addi : (⟨S160000, .i32⟩ : BufTy).Contents (Elt F) → (⟨S160000, .i32⟩ : BufTy).Contents (Elt F) → (⟨S160000, .i32⟩ : BufTy).Contents (Elt F)),
    ternary main_v56 main_v58 main_v1 main_v59 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v59 main_v60 (broadcastInDim S160000x1 ![0] bcast_S160000_S160000x1_0 : (⟨S160000, .i32⟩ : BufTy).Contents (Elt F) → (⟨S160000x1, .i32⟩ : BufTy).Contents (Elt F)),
    binary main_v49 main_v60 main_v61 ((fun x i => Host.gather gather_S10000x782_S160000x1_S160000x782_1_0_n_n_0_1_1782 x i) : (⟨S10000x782, .f32⟩ : BufTy).Contents (Elt F) → (⟨S160000x1, .i32⟩ : BufTy).Contents (Elt F) → (⟨S160000x782, .f32⟩ : BufTy).Contents (Elt F)),
    unary main_v54 main_v62 (broadcastInDim S160000x782 ![0, 1] bcast_S160000x1_S160000x782_0_1 : (⟨S160000x1, .f32⟩ : BufTy).Contents (Elt F) → (⟨S160000x782, .f32⟩ : BufTy).Contents (Elt F)),
    binary main_v62 main_v61 main_v63 (mulf : (⟨S160000x782, .f32⟩ : BufTy).Contents (Elt F) → (⟨S160000x782, .f32⟩ : BufTy).Contents (Elt F) → (⟨S160000x782, .f32⟩ : BufTy).Contents (Elt F)),
    nullary main_cst_12 (constant S_ .f32 0x00000000#32),
    unary main_cst_12 main_v64 (broadcastInDim S10000x782 ![] bcast_S_S10000x782 : (⟨S_, .f32⟩ : BufTy).Contents (Elt F) → (⟨S10000x782, .f32⟩ : BufTy).Contents (Elt F)),
    unary main_v3 main_v65 (broadcastInDim S160000x1 ![0] bcast_S160000_S160000x1_0 : (⟨S160000, .i32⟩ : BufTy).Contents (Elt F) → (⟨S160000x1, .i32⟩ : BufTy).Contents (Elt F)),
    ternary main_v64 main_v65 main_v63 main_v66 ((fun x i u => Host.scatterAdd scatter_S10000x782_S160000x1_S160000x782_1_0_0_1 x i u) : (⟨S10000x782, .f32⟩ : BufTy).Contents (Elt F) → (⟨S160000x1, .i32⟩ : BufTy).Contents (Elt F) → (⟨S160000x782, .f32⟩ : BufTy).Contents (Elt F) → (⟨S10000x782, .f32⟩ : BufTy).Contents (Elt F)),
    nullary main_cst_13 (constant S_ .f32 0x40000000#32),
    unary main_cst_13 main_v67 (broadcastInDim S10000x782 ![] bcast_S_S10000x782 : (⟨S_, .f32⟩ : BufTy).Contents (Elt F) → (⟨S10000x782, .f32⟩ : BufTy).Contents (Elt F)),
    binary main_v67 main_v66 main_v68 (mulf : (⟨S10000x782, .f32⟩ : BufTy).Contents (Elt F) → (⟨S10000x782, .f32⟩ : BufTy).Contents (Elt F) → (⟨S10000x782, .f32⟩ : BufTy).Contents (Elt F)),
    binary main_v68 main_arg0 main_v69 (subf : (⟨S10000x782, .f32⟩ : BufTy).Contents (Elt F) → (⟨S10000x782, .f32⟩ : BufTy).Contents (Elt F) → (⟨S10000x782, .f32⟩ : BufTy).Contents (Elt F)),
    unary main_arg2 main_v70 ((extractStridedSlice S1x782x16 ![2, 0, 0] · slices_S3x782x16_S1x782x16_2_0_0) : (⟨S3x782x16, .f32⟩ : BufTy).Contents (Elt F) → (⟨S1x782x16, .f32⟩ : BufTy).Contents (Elt F)),
    reshape main_v70 main_v71 rfl shapeCasts_S1x782x16_S782x16,
    binary main_v69 main_v71 main_v72 ((fun l r => Host.dotGeneral dot_S10000x782_S782x16_S10000x16_1_0_0_1_n_n none l r) : (⟨S10000x782, .f32⟩ : BufTy).Contents (Elt F) → (⟨S782x16, .f32⟩ : BufTy).Contents (Elt F) → (⟨S10000x16, .f32⟩ : BufTy).Contents (Elt F)),
    binary main_v53 main_v72 main_v73 (addf : (⟨S10000x16, .f32⟩ : BufTy).Contents (Elt F) → (⟨S10000x16, .f32⟩ : BufTy).Contents (Elt F) → (⟨S10000x16, .f32⟩ : BufTy).Contents (Elt F)),
    unary main_arg3 main_v74 (broadcastInDim S1x16 ![1] bcast_S16_S1x16_1 : (⟨S16, .f32⟩ : BufTy).Contents (Elt F) → (⟨S1x16, .f32⟩ : BufTy).Contents (Elt F)),
    unary main_v74 main_v75 (broadcastInDim S10000x16 ![0, 1] bcast_S1x16_S10000x16_0_1 : (⟨S1x16, .f32⟩ : BufTy).Contents (Elt F) → (⟨S10000x16, .f32⟩ : BufTy).Contents (Elt F)),
    binary main_v73 main_v75 main_v76 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x16, .f32⟩) main_call1_v0) (broadcastInDim S10000x16 ![] bcast_S_S10000x16),
    TRef.binary (TRef.of (T := ⟨S10000x16, .f32⟩) main_v76) (TRef.of (T := ⟨S10000x16, .f32⟩) main_call1_v0) (TRef.of (T := ⟨S10000x16, .f32⟩) main_v77) maximumf ]

/-- Each touches TensorCore references only. -/
theorem opsLayer1_sub : (opsLayer1 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxHeartbeats 40000000 in
/-- The operations of layer 2 (16 to 32), in order. -/
abbrev opsLayer2 : List (HloOp τ sig (Elt F)) :=
  [ unary main_arg4 main_v78 ((extractStridedSlice S1x16x32 ![0, 0, 0] · slices_S3x16x32_S1x16x32_0_0_0) : (⟨S3x16x32, .f32⟩ : BufTy).Contents (Elt F) → (⟨S1x16x32, .f32⟩ : BufTy).Contents (Elt F)),
    reshape main_v78 main_v79 rfl shapeCasts_S1x16x32_S16x32,
    binary main_v77 main_v79 main_v80 ((fun l r => Host.dotGeneral dot_S10000x16_S16x32_S10000x32_1_0_0_1_n_n none l r) : (⟨S10000x16, .f32⟩ : BufTy).Contents (Elt F) → (⟨S16x32, .f32⟩ : BufTy).Contents (Elt F) → (⟨S10000x32, .f32⟩ : BufTy).Contents (Elt F)),
    unary main_v33 main_v81 (broadcastInDim S160000x1 ![0] bcast_S160000_S160000x1_0 : (⟨S160000, .f32⟩ : BufTy).Contents (Elt F) → (⟨S160000x1, .f32⟩ : BufTy).Contents (Elt F)),
    nullary main_c_14 (constantI S_ 32 0#32),
    unary main_c_14 main_v82 (broadcastInDim S160000 ![] bcast_S_S160000 : (⟨S_, .i32⟩ : BufTy).Contents (Elt F) → (⟨S160000, .i32⟩ : BufTy).Contents (Elt F)),
    binary main_v1 main_v82 main_v83 (cmpi .slt : (⟨S160000, .i32⟩ : BufTy).Contents (Elt F) → (⟨S160000, .i32⟩ : BufTy).Contents (Elt F) → (⟨S160000, .i1⟩ : BufTy).Contents (Elt F)),
    nullary main_c_15 (constantI S_ 32 10000#32),
    unary main_c_15 main_v84 (broadcastInDim S160000 ![] bcast_S_S160000 : (⟨S_, .i32⟩ : BufTy).Contents (Elt F) → (⟨S160000, .i32⟩ : BufTy).Contents (Elt F)),
    binary main_v1 main_v84 main_v85 (addi : (⟨S160000, .i32⟩ : BufTy).Contents (Elt F) → (⟨S160000, .i32⟩ : BufTy).Contents (Elt F) → (⟨S160000, .i32⟩ : BufTy).Contents (Elt F)),
    ternary main_v83 main_v85 main_v1 main_v86 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v86 main_v87 (broadcastInDim S160000x1 ![0] bcast_S160000_S160000x1_0 : (⟨S160000, .i32⟩ : BufTy).Contents (Elt F) → (⟨S160000x1, .i32⟩ : BufTy).Contents (Elt F)),
    binary main_v77 main_v87 main_v88 ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F)),
    unary main_v81 main_v89 (broadcastInDim S160000x16 ![0, 1] bcast_S160000x1_S160000x16_0_1 : (⟨S160000x1, .f32⟩ : BufTy).Contents (Elt F) → (⟨S160000x16, .f32⟩ : BufTy).Contents (Elt F)),
    binary main_v89 main_v88 main_v90 (mulf : (⟨S160000x16, .f32⟩ : BufTy).Contents (Elt F) → (⟨S160000x16, .f32⟩ : BufTy).Contents (Elt F) → (⟨S160000x16, .f32⟩ : BufTy).Contents (Elt F)),
    nullary main_cst_16 (constant S_ .f32 0x00000000#32),
    unary main_cst_16 main_v91 (broadcastInDim S10000x16 ![] bcast_S_S10000x16 : (⟨S_, .f32⟩ : BufTy).Contents (Elt F) → (⟨S10000x16, .f32⟩ : BufTy).Contents (Elt F)),
    unary main_v3 main_v92 (broadcastInDim S160000x1 ![0] bcast_S160000_S160000x1_0 : (⟨S160000, .i32⟩ : BufTy).Contents (Elt F) → (⟨S160000x1, .i32⟩ : BufTy).Contents (Elt F)),
    ternary main_v91 main_v92 main_v90 main_v93 ((fun x i u => Host.scatterAdd scatter_S10000x16_S160000x1_S160000x16_1_0_0_1 x i u) : (⟨S10000x16, .f32⟩ : BufTy).Contents (Elt F) → (⟨S160000x1, .i32⟩ : BufTy).Contents (Elt F) → (⟨S160000x16, .f32⟩ : BufTy).Contents (Elt F) → (⟨S10000x16, .f32⟩ : BufTy).Contents (Elt F)),
    unary main_arg4 main_v94 ((extractStridedSlice S1x16x32 ![1, 0, 0] · slices_S3x16x32_S1x16x32_1_0_0) : (⟨S3x16x32, .f32⟩ : BufTy).Contents (Elt F) → (⟨S1x16x32, .f32⟩ : BufTy).Contents (Elt F)),
    reshape main_v94 main_v95 rfl shapeCasts_S1x16x32_S16x32,
    binary main_v93 main_v95 main_v96 ((fun l r => Host.dotGeneral dot_S10000x16_S16x32_S10000x32_1_0_0_1_n_n none l r) : (⟨S10000x16, .f32⟩ : BufTy).Contents (Elt F) → (⟨S16x32, .f32⟩ : BufTy).Contents (Elt F) → (⟨S10000x32, .f32⟩ : BufTy).Contents (Elt F)),
    binary main_v80 main_v96 main_v97 (addf : (⟨S10000x32, .f32⟩ : BufTy).Contents (Elt F) → (⟨S10000x32, .f32⟩ : BufTy).Contents (Elt F) → (⟨S10000x32, .f32⟩ : BufTy).Contents (Elt F)),
    unary main_v33 main_v98 (broadcastInDim S160000x1 ![0] bcast_S160000_S160000x1_0 : (⟨S160000, .f32⟩ : BufTy).Contents (Elt F) → (⟨S160000x1, .f32⟩ : BufTy).Contents (Elt F)),
    nullary main_c_17 (constantI S_ 32 0#32),
    unary main_c_17 main_v99 (broadcastInDim S160000 ![] bcast_S_S160000 : (⟨S_, .i32⟩ : BufTy).Contents (Elt F) → (⟨S160000, .i32⟩ : BufTy).Contents (Elt F)),
    binary main_v1 main_v99 main_v100 (cmpi .slt : (⟨S160000, .i32⟩ : BufTy).Contents (Elt F) → (⟨S160000, .i32⟩ : BufTy).Contents (Elt F) → (⟨S160000, .i1⟩ : BufTy).Contents (Elt F)),
    nullary main_c_18 (constantI S_ 32 10000#32),
    unary main_c_18 main_v101 (broadcastInDim S160000 ![] bcast_S_S160000 : (⟨S_, .i32⟩ : BufTy).Contents (Elt F) → (⟨S160000, .i32⟩ : BufTy).Contents (Elt F)),
    binary main_v1 main_v101 main_v102 (addi : (⟨S160000, .i32⟩ : BufTy).Contents (Elt F) → (⟨S160000, .i32⟩ : BufTy).Contents (Elt F) → (⟨S160000, .i32⟩ : BufTy).Contents (Elt F)),
    ternary main_v100 main_v102 main_v1 main_v103 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v103 main_v104 (broadcastInDim S160000x1 ![0] bcast_S160000_S160000x1_0 : (⟨S160000, .i32⟩ : BufTy).Contents (Elt F) → (⟨S160000x1, .i32⟩ : BufTy).Contents (Elt F)),
    binary main_v93 main_v104 main_v105 ((fun x i => Host.gather gather_S10000x16_S160000x1_S160000x16_1_0_n_n_0_1_116 x i) : (⟨S10000x16, .f32⟩ : BufTy).Contents (Elt F) → (⟨S160000x1, .i32⟩ : BufTy).Contents (Elt F) → (⟨S160000x16, .f32⟩ : BufTy).Contents (Elt F)),
    unary main_v98 main_v106 (broadcastInDim S160000x16 ![0, 1] bcast_S160000x1_S160000x16_0_1 : (⟨S160000x1, .f32⟩ : BufTy).Contents (Elt F) → (⟨S160000x16, .f32⟩ : BufTy).Contents (Elt F)),
    binary main_v106 main_v105 main_v107 (mulf : (⟨S160000x16, .f32⟩ : BufTy).Contents (Elt F) → (⟨S160000x16, .f32⟩ : BufTy).Contents (Elt F) → (⟨S160000x16, .f32⟩ : BufTy).Contents (Elt F)),
    nullary main_cst_19 (constant S_ .f32 0x00000000#32),
    unary main_cst_19 main_v108 (broadcastInDim S10000x16 ![] bcast_S_S10000x16 : (⟨S_, .f32⟩ : BufTy).Contents (Elt F) → (⟨S10000x16, .f32⟩ : BufTy).Contents (Elt F)),
    unary main_v3 main_v109 (broadcastInDim S160000x1 ![0] bcast_S160000_S160000x1_0 : (⟨S160000, .i32⟩ : BufTy).Contents (Elt F) → (⟨S160000x1, .i32⟩ : BufTy).Contents (Elt F)),
    ternary main_v108 main_v109 main_v107 main_v110 ((fun x i u => Host.scatterAdd scatter_S10000x16_S160000x1_S160000x16_1_0_0_1 x i u) : (⟨S10000x16, .f32⟩ : BufTy).Contents (Elt F) → (⟨S160000x1, .i32⟩ : BufTy).Contents (Elt F) → (⟨S160000x16, .f32⟩ : BufTy).Contents (Elt F) → (⟨S10000x16, .f32⟩ : BufTy).Contents (Elt F)),
    nullary main_cst_20 (constant S_ .f32 0x40000000#32),
    unary main_cst_20 main_v111 (broadcastInDim S10000x16 ![] bcast_S_S10000x16 : (⟨S_, .f32⟩ : BufTy).Contents (Elt F) → (⟨S10000x16, .f32⟩ : BufTy).Contents (Elt F)),
    binary main_v111 main_v110 main_v112 (mulf : (⟨S10000x16, .f32⟩ : BufTy).Contents (Elt F) → (⟨S10000x16, .f32⟩ : BufTy).Contents (Elt F) → (⟨S10000x16, .f32⟩ : BufTy).Contents (Elt F)),
    binary main_v112 main_v77 main_v113 (subf : (⟨S10000x16, .f32⟩ : BufTy).Contents (Elt F) → (⟨S10000x16, .f32⟩ : BufTy).Contents (Elt F) → (⟨S10000x16, .f32⟩ : BufTy).Contents (Elt F)),
    unary main_arg4 main_v114 ((extractStridedSlice S1x16x32 ![2, 0, 0] · slices_S3x16x32_S1x16x32_2_0_0) : (⟨S3x16x32, .f32⟩ : BufTy).Contents (Elt F) → (⟨S1x16x32, .f32⟩ : BufTy).Contents (Elt F)),
    reshape main_v114 main_v115 rfl shapeCasts_S1x16x32_S16x32,
    binary main_v113 main_v115 main_v116 ((fun l r => Host.dotGeneral dot_S10000x16_S16x32_S10000x32_1_0_0_1_n_n none l r) : (⟨S10000x16, .f32⟩ : BufTy).Contents (Elt F) → (⟨S16x32, .f32⟩ : BufTy).Contents (Elt F) → (⟨S10000x32, .f32⟩ : BufTy).Contents (Elt F)),
    binary main_v97 main_v116 main_v117 (addf : (⟨S10000x32, .f32⟩ : BufTy).Contents (Elt F) → (⟨S10000x32, .f32⟩ : BufTy).Contents (Elt F) → (⟨S10000x32, .f32⟩ : BufTy).Contents (Elt F)),
    unary main_arg5 main_v118 (broadcastInDim S1x32 ![1] bcast_S32_S1x32_1 : (⟨S32, .f32⟩ : BufTy).Contents (Elt F) → (⟨S1x32, .f32⟩ : BufTy).Contents (Elt F)),
    unary main_v118 main_v119 (broadcastInDim S10000x32 ![0, 1] bcast_S1x32_S10000x32_0_1 : (⟨S1x32, .f32⟩ : BufTy).Contents (Elt F) → (⟨S10000x32, .f32⟩ : BufTy).Contents (Elt F)),
    binary main_v117 main_v119 main_v120 (addf : (⟨S10000x32, .f32⟩ : BufTy).Contents (Elt F) → (⟨S10000x32, .f32⟩ : BufTy).Contents (Elt F) → (⟨S10000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x32, .f32⟩) main_call2_v0) (broadcastInDim S10000x32 ![] bcast_S_S10000x32),
    TRef.binary (TRef.of (T := ⟨S10000x32, .f32⟩) main_v120) (TRef.of (T := ⟨S10000x32, .f32⟩) main_call2_v0) (TRef.of (T := ⟨S10000x32, .f32⟩) main_v121) maximumf ]

/-- Each touches TensorCore references only. -/
theorem opsLayer2_sub : (opsLayer2 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxHeartbeats 40000000 in
/-- The operations of layer 3 (32 to 64), in order. -/
abbrev opsLayer3 : List (HloOp τ sig (Elt F)) :=
  [ unary main_arg6 main_v122 ((extractStridedSlice S1x32x64 ![0, 0, 0] · slices_S3x32x64_S1x32x64_0_0_0) : (⟨S3x32x64, .f32⟩ : BufTy).Contents (Elt F) → (⟨S1x32x64, .f32⟩ : BufTy).Contents (Elt F)),
    reshape main_v122 main_v123 rfl shapeCasts_S1x32x64_S32x64,
    binary main_v121 main_v123 main_v124 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    unary main_v33 main_v125 (broadcastInDim S160000x1 ![0] bcast_S160000_S160000x1_0 : (⟨S160000, .f32⟩ : BufTy).Contents (Elt F) → (⟨S160000x1, .f32⟩ : BufTy).Contents (Elt F)),
    nullary main_c_21 (constantI S_ 32 0#32),
    unary main_c_21 main_v126 (broadcastInDim S160000 ![] bcast_S_S160000 : (⟨S_, .i32⟩ : BufTy).Contents (Elt F) → (⟨S160000, .i32⟩ : BufTy).Contents (Elt F)),
    binary main_v1 main_v126 main_v127 (cmpi .slt : (⟨S160000, .i32⟩ : BufTy).Contents (Elt F) → (⟨S160000, .i32⟩ : BufTy).Contents (Elt F) → (⟨S160000, .i1⟩ : BufTy).Contents (Elt F)),
    nullary main_c_22 (constantI S_ 32 10000#32),
    unary main_c_22 main_v128 (broadcastInDim S160000 ![] bcast_S_S160000 : (⟨S_, .i32⟩ : BufTy).Contents (Elt F) → (⟨S160000, .i32⟩ : BufTy).Contents (Elt F)),
    binary main_v1 main_v128 main_v129 (addi : (⟨S160000, .i32⟩ : BufTy).Contents (Elt F) → (⟨S160000, .i32⟩ : BufTy).Contents (Elt F) → (⟨S160000, .i32⟩ : BufTy).Contents (Elt F)),
    ternary main_v127 main_v129 main_v1 main_v130 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v130 main_v131 (broadcastInDim S160000x1 ![0] bcast_S160000_S160000x1_0 : (⟨S160000, .i32⟩ : BufTy).Contents (Elt F) → (⟨S160000x1, .i32⟩ : BufTy).Contents (Elt F)),
    binary main_v121 main_v131 main_v132 ((fun x i => Host.gather gather_S10000x32_S160000x1_S160000x32_1_0_n_n_0_1_132 x i) : (⟨S10000x32, .f32⟩ : BufTy).Contents (Elt F) → (⟨S160000x1, .i32⟩ : BufTy).Contents (Elt F) → (⟨S160000x32, .f32⟩ : BufTy).Contents (Elt F)),
    unary main_v125 main_v133 (broadcastInDim S160000x32 ![0, 1] bcast_S160000x1_S160000x32_0_1 : (⟨S160000x1, .f32⟩ : BufTy).Contents (Elt F) → (⟨S160000x32, .f32⟩ : BufTy).Contents (Elt F)),
    binary main_v133 main_v132 main_v134 (mulf : (⟨S160000x32, .f32⟩ : BufTy).Contents (Elt F) → (⟨S160000x32, .f32⟩ : BufTy).Contents (Elt F) → (⟨S160000x32, .f32⟩ : BufTy).Contents (Elt F)),
    nullary main_cst_23 (constant S_ .f32 0x00000000#32),
    unary main_cst_23 main_v135 (broadcastInDim S10000x32 ![] bcast_S_S10000x32 : (⟨S_, .f32⟩ : BufTy).Contents (Elt F) → (⟨S10000x32, .f32⟩ : BufTy).Contents (Elt F)),
    unary main_v3 main_v136 (broadcastInDim S160000x1 ![0] bcast_S160000_S160000x1_0 : (⟨S160000, .i32⟩ : BufTy).Contents (Elt F) → (⟨S160000x1, .i32⟩ : BufTy).Contents (Elt F)),
    ternary main_v135 main_v136 main_v134 main_v137 ((fun x i u => Host.scatterAdd scatter_S10000x32_S160000x1_S160000x32_1_0_0_1 x i u) : (⟨S10000x32, .f32⟩ : BufTy).Contents (Elt F) → (⟨S160000x1, .i32⟩ : BufTy).Contents (Elt F) → (⟨S160000x32, .f32⟩ : BufTy).Contents (Elt F) → (⟨S10000x32, .f32⟩ : BufTy).Contents (Elt F)),
    unary main_arg6 main_v138 ((extractStridedSlice S1x32x64 ![1, 0, 0] · slices_S3x32x64_S1x32x64_1_0_0) : (⟨S3x32x64, .f32⟩ : BufTy).Contents (Elt F) → (⟨S1x32x64, .f32⟩ : BufTy).Contents (Elt F)),
    reshape main_v138 main_v139 rfl shapeCasts_S1x32x64_S32x64,
    binary main_v137 main_v139 main_v140 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    binary main_v124 main_v140 main_v141 (addf : (⟨S10000x64, .f32⟩ : BufTy).Contents (Elt F) → (⟨S10000x64, .f32⟩ : BufTy).Contents (Elt F) → (⟨S10000x64, .f32⟩ : BufTy).Contents (Elt F)),
    unary main_v33 main_v142 (broadcastInDim S160000x1 ![0] bcast_S160000_S160000x1_0 : (⟨S160000, .f32⟩ : BufTy).Contents (Elt F) → (⟨S160000x1, .f32⟩ : BufTy).Contents (Elt F)),
    nullary main_c_24 (constantI S_ 32 0#32),
    unary main_c_24 main_v143 (broadcastInDim S160000 ![] bcast_S_S160000 : (⟨S_, .i32⟩ : BufTy).Contents (Elt F) → (⟨S160000, .i32⟩ : BufTy).Contents (Elt F)),
    binary main_v1 main_v143 main_v144 (cmpi .slt : (⟨S160000, .i32⟩ : BufTy).Contents (Elt F) → (⟨S160000, .i32⟩ : BufTy).Contents (Elt F) → (⟨S160000, .i1⟩ : BufTy).Contents (Elt F)),
    nullary main_c_25 (constantI S_ 32 10000#32),
    unary main_c_25 main_v145 (broadcastInDim S160000 ![] bcast_S_S160000 : (⟨S_, .i32⟩ : BufTy).Contents (Elt F) → (⟨S160000, .i32⟩ : BufTy).Contents (Elt F)),
    binary main_v1 main_v145 main_v146 (addi : (⟨S160000, .i32⟩ : BufTy).Contents (Elt F) → (⟨S160000, .i32⟩ : BufTy).Contents (Elt F) → (⟨S160000, .i32⟩ : BufTy).Contents (Elt F)),
    ternary main_v144 main_v146 main_v1 main_v147 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v147 main_v148 (broadcastInDim S160000x1 ![0] bcast_S160000_S160000x1_0 : (⟨S160000, .i32⟩ : BufTy).Contents (Elt F) → (⟨S160000x1, .i32⟩ : BufTy).Contents (Elt F)),
    binary main_v137 main_v148 main_v149 ((fun x i => Host.gather gather_S10000x32_S160000x1_S160000x32_1_0_n_n_0_1_132 x i) : (⟨S10000x32, .f32⟩ : BufTy).Contents (Elt F) → (⟨S160000x1, .i32⟩ : BufTy).Contents (Elt F) → (⟨S160000x32, .f32⟩ : BufTy).Contents (Elt F)),
    unary main_v142 main_v150 (broadcastInDim S160000x32 ![0, 1] bcast_S160000x1_S160000x32_0_1 : (⟨S160000x1, .f32⟩ : BufTy).Contents (Elt F) → (⟨S160000x32, .f32⟩ : BufTy).Contents (Elt F)),
    binary main_v150 main_v149 main_v151 (mulf : (⟨S160000x32, .f32⟩ : BufTy).Contents (Elt F) → (⟨S160000x32, .f32⟩ : BufTy).Contents (Elt F) → (⟨S160000x32, .f32⟩ : BufTy).Contents (Elt F)),
    nullary main_cst_26 (constant S_ .f32 0x00000000#32),
    unary main_cst_26 main_v152 (broadcastInDim S10000x32 ![] bcast_S_S10000x32 : (⟨S_, .f32⟩ : BufTy).Contents (Elt F) → (⟨S10000x32, .f32⟩ : BufTy).Contents (Elt F)),
    unary main_v3 main_v153 (broadcastInDim S160000x1 ![0] bcast_S160000_S160000x1_0 : (⟨S160000, .i32⟩ : BufTy).Contents (Elt F) → (⟨S160000x1, .i32⟩ : BufTy).Contents (Elt F)),
    ternary main_v152 main_v153 main_v151 main_v154 ((fun x i u => Host.scatterAdd scatter_S10000x32_S160000x1_S160000x32_1_0_0_1 x i u) : (⟨S10000x32, .f32⟩ : BufTy).Contents (Elt F) → (⟨S160000x1, .i32⟩ : BufTy).Contents (Elt F) → (⟨S160000x32, .f32⟩ : BufTy).Contents (Elt F) → (⟨S10000x32, .f32⟩ : BufTy).Contents (Elt F)),
    nullary main_cst_27 (constant S_ .f32 0x40000000#32),
    unary main_cst_27 main_v155 (broadcastInDim S10000x32 ![] bcast_S_S10000x32 : (⟨S_, .f32⟩ : BufTy).Contents (Elt F) → (⟨S10000x32, .f32⟩ : BufTy).Contents (Elt F)),
    binary main_v155 main_v154 main_v156 (mulf : (⟨S10000x32, .f32⟩ : BufTy).Contents (Elt F) → (⟨S10000x32, .f32⟩ : BufTy).Contents (Elt F) → (⟨S10000x32, .f32⟩ : BufTy).Contents (Elt F)),
    binary main_v156 main_v121 main_v157 (subf : (⟨S10000x32, .f32⟩ : BufTy).Contents (Elt F) → (⟨S10000x32, .f32⟩ : BufTy).Contents (Elt F) → (⟨S10000x32, .f32⟩ : BufTy).Contents (Elt F)),
    unary main_arg6 main_v158 ((extractStridedSlice S1x32x64 ![2, 0, 0] · slices_S3x32x64_S1x32x64_2_0_0) : (⟨S3x32x64, .f32⟩ : BufTy).Contents (Elt F) → (⟨S1x32x64, .f32⟩ : BufTy).Contents (Elt F)),
    reshape main_v158 main_v159 rfl shapeCasts_S1x32x64_S32x64,
    binary main_v157 main_v159 main_v160 ((fun l r => Host.dotGeneral dot_S10000x32_S32x64_S10000x64_1_0_0_1_n_n none l r) : (⟨S10000x32, .f32⟩ : BufTy).Contents (Elt F) → (⟨S32x64, .f32⟩ : BufTy).Contents (Elt F) → (⟨S10000x64, .f32⟩ : BufTy).Contents (Elt F)),
    binary main_v141 main_v160 main_v161 (addf : (⟨S10000x64, .f32⟩ : BufTy).Contents (Elt F) → (⟨S10000x64, .f32⟩ : BufTy).Contents (Elt F) → (⟨S10000x64, .f32⟩ : BufTy).Contents (Elt F)),
    unary main_arg7 main_v162 (broadcastInDim S1x64 ![1] bcast_S64_S1x64_1 : (⟨S64, .f32⟩ : BufTy).Contents (Elt F) → (⟨S1x64, .f32⟩ : BufTy).Contents (Elt F)),
    unary main_v162 main_v163 (broadcastInDim S10000x64 ![0, 1] bcast_S1x64_S10000x64_0_1 : (⟨S1x64, .f32⟩ : BufTy).Contents (Elt F) → (⟨S10000x64, .f32⟩ : BufTy).Contents (Elt F)),
    binary main_v161 main_v163 main_v164 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x64, .f32⟩) main_call3_v0) (broadcastInDim S10000x64 ![] bcast_S_S10000x64),
    TRef.binary (TRef.of (T := ⟨S10000x64, .f32⟩) main_v164) (TRef.of (T := ⟨S10000x64, .f32⟩) main_call3_v0) (TRef.of (T := ⟨S10000x64, .f32⟩) main_v165) maximumf ]

/-- Each touches TensorCore references only. -/
theorem opsLayer3_sub : (opsLayer3 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxHeartbeats 40000000 in
/-- The operations of layer 4 (64 to 128), in order. -/
abbrev opsLayer4 : List (HloOp τ sig (Elt F)) :=
  [ unary main_arg8 main_v166 ((extractStridedSlice S1x64x128 ![0, 0, 0] · slices_S3x64x128_S1x64x128_0_0_0) : (⟨S3x64x128, .f32⟩ : BufTy).Contents (Elt F) → (⟨S1x64x128, .f32⟩ : BufTy).Contents (Elt F)),
    reshape main_v166 main_v167 rfl shapeCasts_S1x64x128_S64x128,
    binary main_v165 main_v167 main_v168 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    unary main_v33 main_v169 (broadcastInDim S160000x1 ![0] bcast_S160000_S160000x1_0 : (⟨S160000, .f32⟩ : BufTy).Contents (Elt F) → (⟨S160000x1, .f32⟩ : BufTy).Contents (Elt F)),
    nullary main_c_28 (constantI S_ 32 0#32),
    unary main_c_28 main_v170 (broadcastInDim S160000 ![] bcast_S_S160000 : (⟨S_, .i32⟩ : BufTy).Contents (Elt F) → (⟨S160000, .i32⟩ : BufTy).Contents (Elt F)),
    binary main_v1 main_v170 main_v171 (cmpi .slt : (⟨S160000, .i32⟩ : BufTy).Contents (Elt F) → (⟨S160000, .i32⟩ : BufTy).Contents (Elt F) → (⟨S160000, .i1⟩ : BufTy).Contents (Elt F)),
    nullary main_c_29 (constantI S_ 32 10000#32),
    unary main_c_29 main_v172 (broadcastInDim S160000 ![] bcast_S_S160000 : (⟨S_, .i32⟩ : BufTy).Contents (Elt F) → (⟨S160000, .i32⟩ : BufTy).Contents (Elt F)),
    binary main_v1 main_v172 main_v173 (addi : (⟨S160000, .i32⟩ : BufTy).Contents (Elt F) → (⟨S160000, .i32⟩ : BufTy).Contents (Elt F) → (⟨S160000, .i32⟩ : BufTy).Contents (Elt F)),
    ternary main_v171 main_v173 main_v1 main_v174 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v174 main_v175 (broadcastInDim S160000x1 ![0] bcast_S160000_S160000x1_0 : (⟨S160000, .i32⟩ : BufTy).Contents (Elt F) → (⟨S160000x1, .i32⟩ : BufTy).Contents (Elt F)),
    binary main_v165 main_v175 main_v176 ((fun x i => Host.gather gather_S10000x64_S160000x1_S160000x64_1_0_n_n_0_1_164 x i) : (⟨S10000x64, .f32⟩ : BufTy).Contents (Elt F) → (⟨S160000x1, .i32⟩ : BufTy).Contents (Elt F) → (⟨S160000x64, .f32⟩ : BufTy).Contents (Elt F)),
    unary main_v169 main_v177 (broadcastInDim S160000x64 ![0, 1] bcast_S160000x1_S160000x64_0_1 : (⟨S160000x1, .f32⟩ : BufTy).Contents (Elt F) → (⟨S160000x64, .f32⟩ : BufTy).Contents (Elt F)),
    binary main_v177 main_v176 main_v178 (mulf : (⟨S160000x64, .f32⟩ : BufTy).Contents (Elt F) → (⟨S160000x64, .f32⟩ : BufTy).Contents (Elt F) → (⟨S160000x64, .f32⟩ : BufTy).Contents (Elt F)),
    nullary main_cst_30 (constant S_ .f32 0x00000000#32),
    unary main_cst_30 main_v179 (broadcastInDim S10000x64 ![] bcast_S_S10000x64 : (⟨S_, .f32⟩ : BufTy).Contents (Elt F) → (⟨S10000x64, .f32⟩ : BufTy).Contents (Elt F)),
    unary main_v3 main_v180 (broadcastInDim S160000x1 ![0] bcast_S160000_S160000x1_0 : (⟨S160000, .i32⟩ : BufTy).Contents (Elt F) → (⟨S160000x1, .i32⟩ : BufTy).Contents (Elt F)),
    ternary main_v179 main_v180 main_v178 main_v181 ((fun x i u => Host.scatterAdd scatter_S10000x64_S160000x1_S160000x64_1_0_0_1 x i u) : (⟨S10000x64, .f32⟩ : BufTy).Contents (Elt F) → (⟨S160000x1, .i32⟩ : BufTy).Contents (Elt F) → (⟨S160000x64, .f32⟩ : BufTy).Contents (Elt F) → (⟨S10000x64, .f32⟩ : BufTy).Contents (Elt F)),
    unary main_arg8 main_v182 ((extractStridedSlice S1x64x128 ![1, 0, 0] · slices_S3x64x128_S1x64x128_1_0_0) : (⟨S3x64x128, .f32⟩ : BufTy).Contents (Elt F) → (⟨S1x64x128, .f32⟩ : BufTy).Contents (Elt F)),
    reshape main_v182 main_v183 rfl shapeCasts_S1x64x128_S64x128,
    binary main_v181 main_v183 main_v184 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    binary main_v168 main_v184 main_v185 (addf : (⟨S10000x128, .f32⟩ : BufTy).Contents (Elt F) → (⟨S10000x128, .f32⟩ : BufTy).Contents (Elt F) → (⟨S10000x128, .f32⟩ : BufTy).Contents (Elt F)),
    unary main_v33 main_v186 (broadcastInDim S160000x1 ![0] bcast_S160000_S160000x1_0 : (⟨S160000, .f32⟩ : BufTy).Contents (Elt F) → (⟨S160000x1, .f32⟩ : BufTy).Contents (Elt F)),
    nullary main_c_31 (constantI S_ 32 0#32),
    unary main_c_31 main_v187 (broadcastInDim S160000 ![] bcast_S_S160000 : (⟨S_, .i32⟩ : BufTy).Contents (Elt F) → (⟨S160000, .i32⟩ : BufTy).Contents (Elt F)),
    binary main_v1 main_v187 main_v188 (cmpi .slt : (⟨S160000, .i32⟩ : BufTy).Contents (Elt F) → (⟨S160000, .i32⟩ : BufTy).Contents (Elt F) → (⟨S160000, .i1⟩ : BufTy).Contents (Elt F)),
    nullary main_c_32 (constantI S_ 32 10000#32),
    unary main_c_32 main_v189 (broadcastInDim S160000 ![] bcast_S_S160000 : (⟨S_, .i32⟩ : BufTy).Contents (Elt F) → (⟨S160000, .i32⟩ : BufTy).Contents (Elt F)),
    binary main_v1 main_v189 main_v190 (addi : (⟨S160000, .i32⟩ : BufTy).Contents (Elt F) → (⟨S160000, .i32⟩ : BufTy).Contents (Elt F) → (⟨S160000, .i32⟩ : BufTy).Contents (Elt F)),
    ternary main_v188 main_v190 main_v1 main_v191 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v191 main_v192 (broadcastInDim S160000x1 ![0] bcast_S160000_S160000x1_0 : (⟨S160000, .i32⟩ : BufTy).Contents (Elt F) → (⟨S160000x1, .i32⟩ : BufTy).Contents (Elt F)),
    binary main_v181 main_v192 main_v193 ((fun x i => Host.gather gather_S10000x64_S160000x1_S160000x64_1_0_n_n_0_1_164 x i) : (⟨S10000x64, .f32⟩ : BufTy).Contents (Elt F) → (⟨S160000x1, .i32⟩ : BufTy).Contents (Elt F) → (⟨S160000x64, .f32⟩ : BufTy).Contents (Elt F)),
    unary main_v186 main_v194 (broadcastInDim S160000x64 ![0, 1] bcast_S160000x1_S160000x64_0_1 : (⟨S160000x1, .f32⟩ : BufTy).Contents (Elt F) → (⟨S160000x64, .f32⟩ : BufTy).Contents (Elt F)),
    binary main_v194 main_v193 main_v195 (mulf : (⟨S160000x64, .f32⟩ : BufTy).Contents (Elt F) → (⟨S160000x64, .f32⟩ : BufTy).Contents (Elt F) → (⟨S160000x64, .f32⟩ : BufTy).Contents (Elt F)),
    nullary main_cst_33 (constant S_ .f32 0x00000000#32),
    unary main_cst_33 main_v196 (broadcastInDim S10000x64 ![] bcast_S_S10000x64 : (⟨S_, .f32⟩ : BufTy).Contents (Elt F) → (⟨S10000x64, .f32⟩ : BufTy).Contents (Elt F)),
    unary main_v3 main_v197 (broadcastInDim S160000x1 ![0] bcast_S160000_S160000x1_0 : (⟨S160000, .i32⟩ : BufTy).Contents (Elt F) → (⟨S160000x1, .i32⟩ : BufTy).Contents (Elt F)),
    ternary main_v196 main_v197 main_v195 main_v198 ((fun x i u => Host.scatterAdd scatter_S10000x64_S160000x1_S160000x64_1_0_0_1 x i u) : (⟨S10000x64, .f32⟩ : BufTy).Contents (Elt F) → (⟨S160000x1, .i32⟩ : BufTy).Contents (Elt F) → (⟨S160000x64, .f32⟩ : BufTy).Contents (Elt F) → (⟨S10000x64, .f32⟩ : BufTy).Contents (Elt F)),
    nullary main_cst_34 (constant S_ .f32 0x40000000#32),
    unary main_cst_34 main_v199 (broadcastInDim S10000x64 ![] bcast_S_S10000x64 : (⟨S_, .f32⟩ : BufTy).Contents (Elt F) → (⟨S10000x64, .f32⟩ : BufTy).Contents (Elt F)),
    binary main_v199 main_v198 main_v200 (mulf : (⟨S10000x64, .f32⟩ : BufTy).Contents (Elt F) → (⟨S10000x64, .f32⟩ : BufTy).Contents (Elt F) → (⟨S10000x64, .f32⟩ : BufTy).Contents (Elt F)),
    binary main_v200 main_v165 main_v201 (subf : (⟨S10000x64, .f32⟩ : BufTy).Contents (Elt F) → (⟨S10000x64, .f32⟩ : BufTy).Contents (Elt F) → (⟨S10000x64, .f32⟩ : BufTy).Contents (Elt F)),
    unary main_arg8 main_v202 ((extractStridedSlice S1x64x128 ![2, 0, 0] · slices_S3x64x128_S1x64x128_2_0_0) : (⟨S3x64x128, .f32⟩ : BufTy).Contents (Elt F) → (⟨S1x64x128, .f32⟩ : BufTy).Contents (Elt F)),
    reshape main_v202 main_v203 rfl shapeCasts_S1x64x128_S64x128,
    binary main_v201 main_v203 main_v204 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    binary main_v185 main_v204 main_v205 (addf : (⟨S10000x128, .f32⟩ : BufTy).Contents (Elt F) → (⟨S10000x128, .f32⟩ : BufTy).Contents (Elt F) → (⟨S10000x128, .f32⟩ : BufTy).Contents (Elt F)),
    unary main_arg9 main_v206 (broadcastInDim S1x128 ![1] bcast_S128_S1x128_1 : (⟨S128, .f32⟩ : BufTy).Contents (Elt F) → (⟨S1x128, .f32⟩ : BufTy).Contents (Elt F)),
    unary main_v206 main_v207 (broadcastInDim S10000x128 ![0, 1] bcast_S1x128_S10000x128_0_1 : (⟨S1x128, .f32⟩ : BufTy).Contents (Elt F) → (⟨S10000x128, .f32⟩ : BufTy).Contents (Elt F)),
    binary main_v205 main_v207 main_v208 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x128, .f32⟩) main_call4_v0) (broadcastInDim S10000x128 ![] bcast_S_S10000x128),
    TRef.binary (TRef.of (T := ⟨S10000x128, .f32⟩) main_v208) (TRef.of (T := ⟨S10000x128, .f32⟩) main_call4_v0) (TRef.of (T := ⟨S10000x128, .f32⟩) main_v209) maximumf ]

/-- Each touches TensorCore references only. -/
theorem opsLayer4_sub : (opsLayer4 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxHeartbeats 40000000 in
/-- The operations of layer 5 (128 to 19) and the softmax over the 19 classes, in order. -/
abbrev opsLayer5 : List (HloOp τ sig (Elt F)) :=
  [ unary main_arg10 main_v210 ((extractStridedSlice S1x128x19 ![0, 0, 0] · slices_S3x128x19_S1x128x19_0_0_0) : (⟨S3x128x19, .f32⟩ : BufTy).Contents (Elt F) → (⟨S1x128x19, .f32⟩ : BufTy).Contents (Elt F)),
    reshape main_v210 main_v211 rfl shapeCasts_S1x128x19_S128x19,
    binary main_v209 main_v211 main_v212 ((fun l r => Host.dotGeneral dot_S10000x128_S128x19_S10000x19_1_0_0_1_n_n none l r) : (⟨S10000x128, .f32⟩ : BufTy).Contents (Elt F) → (⟨S128x19, .f32⟩ : BufTy).Contents (Elt F) → (⟨S10000x19, .f32⟩ : BufTy).Contents (Elt F)),
    unary main_v33 main_v213 (broadcastInDim S160000x1 ![0] bcast_S160000_S160000x1_0 : (⟨S160000, .f32⟩ : BufTy).Contents (Elt F) → (⟨S160000x1, .f32⟩ : BufTy).Contents (Elt F)),
    nullary main_c_35 (constantI S_ 32 0#32),
    unary main_c_35 main_v214 (broadcastInDim S160000 ![] bcast_S_S160000 : (⟨S_, .i32⟩ : BufTy).Contents (Elt F) → (⟨S160000, .i32⟩ : BufTy).Contents (Elt F)),
    binary main_v1 main_v214 main_v215 (cmpi .slt : (⟨S160000, .i32⟩ : BufTy).Contents (Elt F) → (⟨S160000, .i32⟩ : BufTy).Contents (Elt F) → (⟨S160000, .i1⟩ : BufTy).Contents (Elt F)),
    nullary main_c_36 (constantI S_ 32 10000#32),
    unary main_c_36 main_v216 (broadcastInDim S160000 ![] bcast_S_S160000 : (⟨S_, .i32⟩ : BufTy).Contents (Elt F) → (⟨S160000, .i32⟩ : BufTy).Contents (Elt F)),
    binary main_v1 main_v216 main_v217 (addi : (⟨S160000, .i32⟩ : BufTy).Contents (Elt F) → (⟨S160000, .i32⟩ : BufTy).Contents (Elt F) → (⟨S160000, .i32⟩ : BufTy).Contents (Elt F)),
    ternary main_v215 main_v217 main_v1 main_v218 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v218 main_v219 (broadcastInDim S160000x1 ![0] bcast_S160000_S160000x1_0 : (⟨S160000, .i32⟩ : BufTy).Contents (Elt F) → (⟨S160000x1, .i32⟩ : BufTy).Contents (Elt F)),
    binary main_v209 main_v219 main_v220 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    unary main_v213 main_v221 (broadcastInDim S160000x128 ![0, 1] bcast_S160000x1_S160000x128_0_1 : (⟨S160000x1, .f32⟩ : BufTy).Contents (Elt F) → (⟨S160000x128, .f32⟩ : BufTy).Contents (Elt F)),
    binary main_v221 main_v220 main_v222 (mulf : (⟨S160000x128, .f32⟩ : BufTy).Contents (Elt F) → (⟨S160000x128, .f32⟩ : BufTy).Contents (Elt F) → (⟨S160000x128, .f32⟩ : BufTy).Contents (Elt F)),
    nullary main_cst_37 (constant S_ .f32 0x00000000#32),
    unary main_cst_37 main_v223 (broadcastInDim S10000x128 ![] bcast_S_S10000x128 : (⟨S_, .f32⟩ : BufTy).Contents (Elt F) → (⟨S10000x128, .f32⟩ : BufTy).Contents (Elt F)),
    unary main_v3 main_v224 (broadcastInDim S160000x1 ![0] bcast_S160000_S160000x1_0 : (⟨S160000, .i32⟩ : BufTy).Contents (Elt F) → (⟨S160000x1, .i32⟩ : BufTy).Contents (Elt F)),
    ternary main_v223 main_v224 main_v222 main_v225 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_arg10 main_v226 ((extractStridedSlice S1x128x19 ![1, 0, 0] · slices_S3x128x19_S1x128x19_1_0_0) : (⟨S3x128x19, .f32⟩ : BufTy).Contents (Elt F) → (⟨S1x128x19, .f32⟩ : BufTy).Contents (Elt F)),
    reshape main_v226 main_v227 rfl shapeCasts_S1x128x19_S128x19,
    binary main_v225 main_v227 main_v228 ((fun l r => Host.dotGeneral dot_S10000x128_S128x19_S10000x19_1_0_0_1_n_n none l r) : (⟨S10000x128, .f32⟩ : BufTy).Contents (Elt F) → (⟨S128x19, .f32⟩ : BufTy).Contents (Elt F) → (⟨S10000x19, .f32⟩ : BufTy).Contents (Elt F)),
    binary main_v212 main_v228 main_v229 (addf : (⟨S10000x19, .f32⟩ : BufTy).Contents (Elt F) → (⟨S10000x19, .f32⟩ : BufTy).Contents (Elt F) → (⟨S10000x19, .f32⟩ : BufTy).Contents (Elt F)),
    unary main_v33 main_v230 (broadcastInDim S160000x1 ![0] bcast_S160000_S160000x1_0 : (⟨S160000, .f32⟩ : BufTy).Contents (Elt F) → (⟨S160000x1, .f32⟩ : BufTy).Contents (Elt F)),
    nullary main_c_38 (constantI S_ 32 0#32),
    unary main_c_38 main_v231 (broadcastInDim S160000 ![] bcast_S_S160000 : (⟨S_, .i32⟩ : BufTy).Contents (Elt F) → (⟨S160000, .i32⟩ : BufTy).Contents (Elt F)),
    binary main_v1 main_v231 main_v232 (cmpi .slt : (⟨S160000, .i32⟩ : BufTy).Contents (Elt F) → (⟨S160000, .i32⟩ : BufTy).Contents (Elt F) → (⟨S160000, .i1⟩ : BufTy).Contents (Elt F)),
    nullary main_c_39 (constantI S_ 32 10000#32),
    unary main_c_39 main_v233 (broadcastInDim S160000 ![] bcast_S_S160000 : (⟨S_, .i32⟩ : BufTy).Contents (Elt F) → (⟨S160000, .i32⟩ : BufTy).Contents (Elt F)),
    binary main_v1 main_v233 main_v234 (addi : (⟨S160000, .i32⟩ : BufTy).Contents (Elt F) → (⟨S160000, .i32⟩ : BufTy).Contents (Elt F) → (⟨S160000, .i32⟩ : BufTy).Contents (Elt F)),
    ternary main_v232 main_v234 main_v1 main_v235 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v235 main_v236 (broadcastInDim S160000x1 ![0] bcast_S160000_S160000x1_0 : (⟨S160000, .i32⟩ : BufTy).Contents (Elt F) → (⟨S160000x1, .i32⟩ : BufTy).Contents (Elt F)),
    binary main_v225 main_v236 main_v237 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    unary main_v230 main_v238 (broadcastInDim S160000x128 ![0, 1] bcast_S160000x1_S160000x128_0_1 : (⟨S160000x1, .f32⟩ : BufTy).Contents (Elt F) → (⟨S160000x128, .f32⟩ : BufTy).Contents (Elt F)),
    binary main_v238 main_v237 main_v239 (mulf : (⟨S160000x128, .f32⟩ : BufTy).Contents (Elt F) → (⟨S160000x128, .f32⟩ : BufTy).Contents (Elt F) → (⟨S160000x128, .f32⟩ : BufTy).Contents (Elt F)),
    nullary main_cst_40 (constant S_ .f32 0x00000000#32),
    unary main_cst_40 main_v240 (broadcastInDim S10000x128 ![] bcast_S_S10000x128 : (⟨S_, .f32⟩ : BufTy).Contents (Elt F) → (⟨S10000x128, .f32⟩ : BufTy).Contents (Elt F)),
    unary main_v3 main_v241 (broadcastInDim S160000x1 ![0] bcast_S160000_S160000x1_0 : (⟨S160000, .i32⟩ : BufTy).Contents (Elt F) → (⟨S160000x1, .i32⟩ : BufTy).Contents (Elt F)),
    ternary main_v240 main_v241 main_v239 main_v242 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    nullary main_cst_41 (constant S_ .f32 0x40000000#32),
    unary main_cst_41 main_v243 (broadcastInDim S10000x128 ![] bcast_S_S10000x128 : (⟨S_, .f32⟩ : BufTy).Contents (Elt F) → (⟨S10000x128, .f32⟩ : BufTy).Contents (Elt F)),
    binary main_v243 main_v242 main_v244 (mulf : (⟨S10000x128, .f32⟩ : BufTy).Contents (Elt F) → (⟨S10000x128, .f32⟩ : BufTy).Contents (Elt F) → (⟨S10000x128, .f32⟩ : BufTy).Contents (Elt F)),
    binary main_v244 main_v209 main_v245 (subf : (⟨S10000x128, .f32⟩ : BufTy).Contents (Elt F) → (⟨S10000x128, .f32⟩ : BufTy).Contents (Elt F) → (⟨S10000x128, .f32⟩ : BufTy).Contents (Elt F)),
    unary main_arg10 main_v246 ((extractStridedSlice S1x128x19 ![2, 0, 0] · slices_S3x128x19_S1x128x19_2_0_0) : (⟨S3x128x19, .f32⟩ : BufTy).Contents (Elt F) → (⟨S1x128x19, .f32⟩ : BufTy).Contents (Elt F)),
    reshape main_v246 main_v247 rfl shapeCasts_S1x128x19_S128x19,
    binary main_v245 main_v247 main_v248 ((fun l r => Host.dotGeneral dot_S10000x128_S128x19_S10000x19_1_0_0_1_n_n none l r) : (⟨S10000x128, .f32⟩ : BufTy).Contents (Elt F) → (⟨S128x19, .f32⟩ : BufTy).Contents (Elt F) → (⟨S10000x19, .f32⟩ : BufTy).Contents (Elt F)),
    binary main_v229 main_v248 main_v249 (addf : (⟨S10000x19, .f32⟩ : BufTy).Contents (Elt F) → (⟨S10000x19, .f32⟩ : BufTy).Contents (Elt F) → (⟨S10000x19, .f32⟩ : BufTy).Contents (Elt F)),
    unary main_arg11 main_v250 (broadcastInDim S1x19 ![1] bcast_S19_S1x19_1 : (⟨S19, .f32⟩ : BufTy).Contents (Elt F) → (⟨S1x19, .f32⟩ : BufTy).Contents (Elt F)),
    unary main_v250 main_v251 (broadcastInDim S10000x19 ![0, 1] bcast_S1x19_S10000x19_0_1 : (⟨S1x19, .f32⟩ : BufTy).Contents (Elt F) → (⟨S10000x19, .f32⟩ : BufTy).Contents (Elt F)),
    binary main_v249 main_v251 main_v252 (addf : (⟨S10000x19, .f32⟩ : BufTy).Contents (Elt F) → (⟨S10000x19, .f32⟩ : BufTy).Contents (Elt F) → (⟨S10000x19, .f32⟩ : BufTy).Contents (Elt F)),
    nullary main_cst_42 (constant S_ .f32 0xFF800000#32),
    binary main_v252 main_cst_42 main_v253 ((fun x v => Host.reduce FloatOps.maximumf x v reducesTo_S10000x19_S10000_d1 h_S_) : (⟨S10000x19, .f32⟩ : BufTy).Contents (Elt F) → (⟨S_, .f32⟩ : BufTy).Contents (Elt F) → (⟨S10000, .f32⟩ : BufTy).Contents (Elt F)),
    nullary main_cst_43 (constant S_ .f32 0xFF800000#32),
    unary main_cst_43 main_v254 (broadcastInDim S10000 ![] bcast_S_S10000 : (⟨S_, .f32⟩ : BufTy).Contents (Elt F) → (⟨S10000, .f32⟩ : BufTy).Contents (Elt F)),
    binary main_v254 main_v253 main_v255 (maximumf : (⟨S10000, .f32⟩ : BufTy).Contents (Elt F) → (⟨S10000, .f32⟩ : BufTy).Contents (Elt F) → (⟨S10000, .f32⟩ : BufTy).Contents (Elt F)),
    unary main_v255 main_v256 (broadcastInDim S10000x1 ![0] bcast_S10000_S10000x1_0 : (⟨S10000, .f32⟩ : BufTy).Contents (Elt F) → (⟨S10000x1, .f32⟩ : BufTy).Contents (Elt F)),
    unary main_v256 main_v257 (broadcastInDim S10000x19 ![0, 1] bcast_S10000x1_S10000x19_0_1 : (⟨S10000x1, .f32⟩ : BufTy).Contents (Elt F) → (⟨S10000x19, .f32⟩ : BufTy).Contents (Elt F)),
    binary main_v252 main_v257 main_v258 (subf : (⟨S10000x19, .f32⟩ : BufTy).Contents (Elt F) → (⟨S10000x19, .f32⟩ : BufTy).Contents (Elt F) → (⟨S10000x19, .f32⟩ : BufTy).Contents (Elt F)),
    unary main_v258 main_v259 (Host.exp : (⟨S10000x19, .f32⟩ : BufTy).Contents (Elt F) → (⟨S10000x19, .f32⟩ : BufTy).Contents (Elt F)),
    nullary main_cst_44 (constant S_ .f32 0x00000000#32),
    binary main_v259 main_cst_44 main_v260 ((fun x v => Host.reduceAdd x v reducesTo_S10000x19_S10000_d1 h_S_) : (⟨S10000x19, .f32⟩ : BufTy).Contents (Elt F) → (⟨S_, .f32⟩ : BufTy).Contents (Elt F) → (⟨S10000, .f32⟩ : BufTy).Contents (Elt F)),
    unary main_v260 main_v261 (broadcastInDim S10000x1 ![0] bcast_S10000_S10000x1_0 : (⟨S10000, .f32⟩ : BufTy).Contents (Elt F) → (⟨S10000x1, .f32⟩ : BufTy).Contents (Elt F)),
    unary main_v261 main_v262 (broadcastInDim S10000x19 ![0, 1] bcast_S10000x1_S10000x19_0_1 : (⟨S10000x1, .f32⟩ : BufTy).Contents (Elt F) → (⟨S10000x19, .f32⟩ : BufTy).Contents (Elt F)),
    binary main_v259 main_v262 main_v263 (Host.divf : (⟨S10000x19, .f32⟩ : BufTy).Contents (Elt F) → (⟨S10000x19, .f32⟩ : BufTy).Contents (Elt F) → (⟨S10000x19, .f32⟩ : BufTy).Contents (Elt F)) ]

/-- Each touches TensorCore references only. -/
theorem opsLayer5_sub : (opsLayer5 : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The whole program's operations: the six stretches in order. -/
abbrev ops : List (HloOp τ sig (Elt F)) := opsEdges ++ (opsLayer1 ++ (opsLayer2 ++ (opsLayer3 ++ (opsLayer4 ++ opsLayer5))))

set_option maxRecDepth 65536 in
set_option maxHeartbeats 40000000 in
/-- The printed program is the line of these operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsEdges_fresh : (opsEdges : List (HloOp τ sig (Elt F))).Forall fun op => op.fresh = ∅ := by
  simp only [List.Forall]; repeat' constructor
theorem opsLayer1_fresh : (opsLayer1 : List (HloOp τ sig (Elt F))).Forall fun op => op.fresh = ∅ := by
  simp only [List.Forall]; repeat' constructor
theorem opsLayer2_fresh : (opsLayer2 : List (HloOp τ sig (Elt F))).Forall fun op => op.fresh = ∅ := by
  simp only [List.Forall]; repeat' constructor
theorem opsLayer3_fresh : (opsLayer3 : List (HloOp τ sig (Elt F))).Forall fun op => op.fresh = ∅ := by
  simp only [List.Forall]; repeat' constructor
theorem opsLayer4_fresh : (opsLayer4 : List (HloOp τ sig (Elt F))).Forall fun op => op.fresh = ∅ := by
  simp only [List.Forall]; repeat' constructor
theorem opsLayer5_fresh : (opsLayer5 : List (HloOp τ sig (Elt F))).Forall fun op => op.fresh = ∅ := by
  simp only [List.Forall]; repeat' constructor

/-- The contents after two stretches run in order: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op hop => (List.mem_append.mp hop).elim
    (List.forall_iff_forall_mem.mp h₁ op) (List.forall_iff_forall_mem.mp h₂ op)

theorem ops_sub : (ops : List (HloOp τ sig (Elt F))).Forall fun op => op.bufs ⊆ tcRefs τ sig :=
  forall_append opsEdges_sub (forall_append opsLayer1_sub (forall_append opsLayer2_sub (forall_append opsLayer3_sub
    (forall_append opsLayer4_sub opsLayer5_sub))))

theorem ops_fresh : (ops : List (HloOp τ sig (Elt F))).Forall fun op => op.fresh = ∅ :=
  forall_append opsEdges_fresh (forall_append opsLayer1_fresh (forall_append opsLayer2_fresh (forall_append opsLayer3_fresh
    (forall_append opsLayer4_fresh opsLayer5_fresh))))

variable (m : (ℓ : Loc nD τ sig) → Buf (Elt F) ℓ) (ρ : Dev nD → PrngReg)

/-- The buffer contents at the boundaries of the fold: at launch, then after each stretch. -/
abbrev U0 (c : Dev nD) : Valuation τ sig (Elt F) := launchContents m c
abbrev U1 (c : Dev nD) : Valuation τ sig (Elt F) := after opsEdges (U0 m c)
abbrev U2 (c : Dev nD) : Valuation τ sig (Elt F) := after opsLayer1 (U1 m c)
abbrev U3 (c : Dev nD) : Valuation τ sig (Elt F) := after opsLayer2 (U2 m c)
abbrev U4 (c : Dev nD) : Valuation τ sig (Elt F) := after opsLayer3 (U3 m c)
abbrev U5 (c : Dev nD) : Valuation τ sig (Elt F) := after opsLayer4 (U4 m c)
abbrev U6 (c : Dev nD) : Valuation τ sig (Elt F) := after opsLayer5 (U5 m c)

theorem after_ops (c : Dev nD) : after ops (launchContents m c) = U6 m c := by
  simp only [ops, after_append]

/-- Every weakly fair execution of the reference terminates, and every buffer ends at the last boundary's contents. -/
theorem run : θ_run defs (onTc (τ := τ) (main (F := F))) ⟨m, fun _ => 0, ρ⟩ fun r => ∀ (c : Dev nD) (b : Ref sig .tc),
      r.2.mem ((c.tc : Thread nD τ).loc b) = U6 m c (Proc.devRef .tc b) :=
  (θ_run defs _ _).mono (fun _ h c b => (h c b).trans (congrFun (after_ops m c) _))
    (run_seq scopedRefs_eq scopedSems_eq defs main (fun _ => ops) main_eq (fun _ => ops_sub) m ρ
      (fun _ => List.forall_iff_forall_mem.mp ops_fresh))

end Cert.ReferenceIdeal.Hand

end
-- ==== Proof.RefEdge.lean ====
/-
  What the reference program's edge buffers and arguments hold at the boundaries of its run. The first stretch of host
  operations computes, from the edge list, the two endpoint arrays, the node degrees, their inverse square roots (through
  an outlined selection) and the edge weights; these are the same functions of the edge list as on the kernel program's
  side. No layer's stretch writes the endpoint arrays, the weights or any argument, so every layer finds them unchanged.
-/
import proofs.«120706_j28956669510215_2_alg».proof.Proof.RefRun
import proofs.«120706_j28956669510215_2_alg».proof.Proof.EdgeOps
import Idealize.ShloMosaic.PureOps.Ideal.Laws
import Idealize.ShloMosaic.Lib.StableHlo.Run

set_option maxRecDepth 16384

noncomputable section

namespace Cert.ReferenceIdeal.Chain

open Cert.ReferenceIdeal Cert.ReferenceIdeal.Gen Cert.ReferenceIdeal.Hand
open Idealize.ShloMosaic Idealize.ShloMosaic.TcCoe Idealize.ShloMosaic.Tactic Idealize.ShloMosaic.StableHlo
open Idealize.SL Idealize.SL.Sem

/-- A buffer that no operation of a stretch writes holds after the stretch what it held before. -/
local macro "stretch_skips " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The edge stretch in three parts: before the outlined selection, the selection, after it -/

section Parts
variable {F : FTy → Type} [FloatOps F]

set_option maxHeartbeats 40000000 in
/-- Endpoints, degree, where it is positive, one over its square root, and the zero that stands in elsewhere. -/
abbrev edgesA : List (HloOp τ sig (Elt F)) :=
  [ unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    unary main_arg1 main_v4 ((extractStridedSlice S1x160000 ![0, 0] · slices_S2x160000_S1x160000_0_0) : (⟨S2x160000, .i32⟩ : BufTy).Contents (Elt F) → (⟨S1x160000, .i32⟩ : BufTy).Contents (Elt F)),
    reshape main_v4 main_v5 rfl shapeCasts_S1x160000_S160000,
    unary main_arg1 main_v6 ((extractStridedSlice S1x160000 ![1, 0] · slices_S2x160000_S1x160000_1_0) : (⟨S2x160000, .i32⟩ : BufTy).Contents (Elt F) → (⟨S1x160000, .i32⟩ : BufTy).Contents (Elt F)),
    reshape main_v6 main_v7 rfl shapeCasts_S1x160000_S160000,
    nullary main_cst (constant S_ .f32 0x3F800000#32),
    unary main_cst main_v8 (broadcastInDim S160000 ![] bcast_S_S160000 : (⟨S_, .f32⟩ : BufTy).Contents (Elt F) → (⟨S160000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v5 main_v10 (broadcastInDim S160000x1 ![0] bcast_S160000_S160000x1_0 : (⟨S160000, .i32⟩ : BufTy).Contents (Elt F) → (⟨S160000x1, .i32⟩ : BufTy).Contents (Elt F)),
    ternary main_v9 main_v10 main_v8 main_v11 ((fun x i u => Host.scatterAdd scatter_S10000_S160000x1_S160000_n_0_0_1 x i u) : (⟨S10000, .f32⟩ : BufTy).Contents (Elt F) → (⟨S160000x1, .i32⟩ : BufTy).Contents (Elt F) → (⟨S160000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.sqrt : (⟨S10000, .f32⟩ : BufTy).Contents (Elt F) → (⟨S10000, .f32⟩ : BufTy).Contents (Elt F)),
    nullary main_cst_2 (constant S_ .f32 0x3F800000#32),
    unary main_cst_2 main_v15 (broadcastInDim S10000 ![] bcast_S_S10000 : (⟨S_, .f32⟩ : BufTy).Contents (Elt F) → (⟨S10000, .f32⟩ : BufTy).Contents (Elt F)),
    binary main_v15 main_v14 main_v16 (Host.divf : (⟨S10000, .f32⟩ : BufTy).Contents (Elt F) → (⟨S10000, .f32⟩ : BufTy).Contents (Elt F) → (⟨S10000, .f32⟩ : BufTy).Contents (Elt F)),
    nullary main_cst_3 (constant S_ .f32 0x00000000#32) ]

set_option maxHeartbeats 40000000 in
/-- The outlined selection between them. -/
abbrev edgesB : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v16) (TRef.of (T := ⟨S10000, .f32⟩) main_call0_v1) (TRef.of (T := ⟨S10000, .f32⟩) main_v17) select ]

set_option maxHeartbeats 40000000 in
/-- The two gathers at the wrapped endpoints, the negation and the product. -/
abbrev edgesC : List (HloOp τ sig (Elt F)) :=
  [ nullary main_c (constantI S_ 32 0#32),
    unary main_c main_v18 (broadcastInDim S160000 ![] bcast_S_S160000 : (⟨S_, .i32⟩ : BufTy).Contents (Elt F) → (⟨S160000, .i32⟩ : BufTy).Contents (Elt F)),
    binary main_v5 main_v18 main_v19 (cmpi .slt : (⟨S160000, .i32⟩ : BufTy).Contents (Elt F) → (⟨S160000, .i32⟩ : BufTy).Contents (Elt F) → (⟨S160000, .i1⟩ : BufTy).Contents (Elt F)),
    nullary main_c_4 (constantI S_ 32 10000#32),
    unary main_c_4 main_v20 (broadcastInDim S160000 ![] bcast_S_S160000 : (⟨S_, .i32⟩ : BufTy).Contents (Elt F) → (⟨S160000, .i32⟩ : BufTy).Contents (Elt F)),
    binary main_v5 main_v20 main_v21 (addi : (⟨S160000, .i32⟩ : BufTy).Contents (Elt F) → (⟨S160000, .i32⟩ : BufTy).Contents (Elt F) → (⟨S160000, .i32⟩ : BufTy).Contents (Elt F)),
    ternary main_v19 main_v21 main_v5 main_v22 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v22 main_v23 (broadcastInDim S160000x1 ![0] bcast_S160000_S160000x1_0 : (⟨S160000, .i32⟩ : BufTy).Contents (Elt F) → (⟨S160000x1, .i32⟩ : BufTy).Contents (Elt F)),
    binary main_v17 main_v23 main_v24 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    unary main_v24 main_v25 (Host.negf : (⟨S160000, .f32⟩ : BufTy).Contents (Elt F) → (⟨S160000, .f32⟩ : BufTy).Contents (Elt F)),
    nullary main_c_5 (constantI S_ 32 0#32),
    unary main_c_5 main_v26 (broadcastInDim S160000 ![] bcast_S_S160000 : (⟨S_, .i32⟩ : BufTy).Contents (Elt F) → (⟨S160000, .i32⟩ : BufTy).Contents (Elt F)),
    binary main_v7 main_v26 main_v27 (cmpi .slt : (⟨S160000, .i32⟩ : BufTy).Contents (Elt F) → (⟨S160000, .i32⟩ : BufTy).Contents (Elt F) → (⟨S160000, .i1⟩ : BufTy).Contents (Elt F)),
    nullary main_c_6 (constantI S_ 32 10000#32),
    unary main_c_6 main_v28 (broadcastInDim S160000 ![] bcast_S_S160000 : (⟨S_, .i32⟩ : BufTy).Contents (Elt F) → (⟨S160000, .i32⟩ : BufTy).Contents (Elt F)),
    binary main_v7 main_v28 main_v29 (addi : (⟨S160000, .i32⟩ : BufTy).Contents (Elt F) → (⟨S160000, .i32⟩ : BufTy).Contents (Elt F) → (⟨S160000, .i32⟩ : BufTy).Contents (Elt F)),
    ternary main_v27 main_v29 main_v7 main_v30 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v30 main_v31 (broadcastInDim S160000x1 ![0] bcast_S160000_S160000x1_0 : (⟨S160000, .i32⟩ : BufTy).Contents (Elt F) → (⟨S160000x1, .i32⟩ : BufTy).Contents (Elt F)),
    binary main_v17 main_v31 main_v32 ((fun x i => Host.gather gather_S10000_S160000x1_S160000_n_0_n_n_0_1_1 x i) : (⟨S10000, .f32⟩ : BufTy).Contents (Elt F) → (⟨S160000x1, .i32⟩ : BufTy).Contents (Elt F) → (⟨S160000, .f32⟩ : BufTy).Contents (Elt F)),
    binary main_v25 main_v32 main_v33 (mulf : (⟨S160000, .f32⟩ : BufTy).Contents (Elt F) → (⟨S160000, .f32⟩ : BufTy).Contents (Elt F) → (⟨S160000, .f32⟩ : BufTy).Contents (Elt F)) ]

/-- The edge stretch is the three parts in order. -/
theorem opsEdges_eq : (opsEdges : List (HloOp τ sig (Elt F))) = edgesA ++ (edgesB ++ edgesC) := rfl

theorem after_opsEdges (V : Valuation τ sig (Elt F)) :
    after opsEdges V = after edgesC (after edgesB (after edgesA V)) := by
  rw [opsEdges_eq, after_append, after_append]

end Parts

/-! ## What no stretch writes

No operation of any stretch names an argument as its result, and no layer's stretch names the two endpoint arrays or the
weights. Stated once per stretch, for every buffer of a list, at any float instance. -/

section Keeps
variable {F : FTy → Type} [FloatOps F]

/-- The twelve arguments. -/
abbrev args : List (Ref sig .tc) :=
  [main_arg0, main_arg1, main_arg2, main_arg3, main_arg4, main_arg5, main_arg6, main_arg7, main_arg8, main_arg9, main_arg10, main_arg11]
/-- The arguments and the three edge buffers every layer reads. -/
abbrev kept : List (Ref sig .tc) := args ++ [main_v1, main_v3, main_v33]

theorem args_sub_kept {b : Ref sig .tc} (h : b ∈ args) : b ∈ kept := List.mem_append_left _ h

/-- A buffer of the list `L` is the result of no operation of the stretch: per operation, one decision over the list. -/
local macro "stretch_keeps " ops:ident L:ident b:ident hb:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne ((by decide : ∀ x ∈ $L, x ≠ _) $b $hb)))

theorem keepsE (V : Valuation τ sig (Elt F)) (b : Ref sig .tc) (hb : b ∈ args) :
    after opsEdges V (Proc.devRef .tc b) = V (Proc.devRef .tc b) := by
  stretch_keeps opsEdges args b hb
theorem keeps1 (V : Valuation τ sig (Elt F)) (b : Ref sig .tc) (hb : b ∈ kept) :
    after opsLayer1 V (Proc.devRef .tc b) = V (Proc.devRef .tc b) := by
  stretch_keeps opsLayer1 kept b hb
theorem keeps2 (V : Valuation τ sig (Elt F)) (b : Ref sig .tc) (hb : b ∈ kept) :
    after opsLayer2 V (Proc.devRef .tc b) = V (Proc.devRef .tc b) := by
  stretch_keeps opsLayer2 kept b hb
theorem keeps3 (V : Valuation τ sig (Elt F)) (b : Ref sig .tc) (hb : b ∈ kept) :
    after opsLayer3 V (Proc.devRef .tc b) = V (Proc.devRef .tc b) := by
  stretch_keeps opsLayer3 kept b hb
theorem keeps4 (V : Valuation τ sig (Elt F)) (b : Ref sig .tc) (hb : b ∈ kept) :
    after opsLayer4 V (Proc.devRef .tc b) = V (Proc.devRef .tc b) := by
  stretch_keeps opsLayer4 kept b hb
theorem keeps5 (V : Valuation τ sig (Elt F)) (b : Ref sig .tc) (hb : b ∈ kept) :
    after opsLayer5 V (Proc.devRef .tc b) = V (Proc.devRef .tc b) := by
  stretch_keeps opsLayer5 kept b hb

variable (m : (ℓ : Loc nD τ sig) → Buf (Elt F) ℓ) (c : Dev nD)

/-- An argument at each boundary holds what the launch gave it. -/
theorem U1_arg (b : Ref sig .tc) (hb : b ∈ args) : U1 m c (Proc.devRef .tc b) = m ((c.tc : Thread nD τ).loc b) :=
  keepsE (U0 m c) b hb
theorem U2_arg (b : Ref sig .tc) (hb : b ∈ args) : U2 m c (Proc.devRef .tc b) = m ((c.tc : Thread nD τ).loc b) :=
  (keeps1 (U1 m c) b (args_sub_kept hb)).trans (U1_arg m c b hb)
theorem U3_arg (b : Ref sig .tc) (hb : b ∈ args) : U3 m c (Proc.devRef .tc b) = m ((c.tc : Thread nD τ).loc b) :=
  (keeps2 (U2 m c) b (args_sub_kept hb)).trans (U2_arg m c b hb)
theorem U4_arg (b : Ref sig .tc) (hb : b ∈ args) : U4 m c (Proc.devRef .tc b) = m ((c.tc : Thread nD τ).loc b) :=
  (keeps3 (U3 m c) b (args_sub_kept hb)).trans (U3_arg m c b hb)
theorem U5_arg (b : Ref sig .tc) (hb : b ∈ args) : U5 m c (Proc.devRef .tc b) = m ((c.tc : Thread nD τ).loc b) :=
  (keeps4 (U4 m c) b (args_sub_kept hb)).trans (U4_arg m c b hb)
theorem U6_arg (b : Ref sig .tc) (hb : b ∈ args) : U6 m c (Proc.devRef .tc b) = m ((c.tc : Thread nD τ).loc b) :=
  (keeps5 (U5 m c) b (args_sub_kept hb)).trans (U5_arg m c b hb)

/-! ### Each argument at the boundary where a layer reads it -/

theorem U1_arg0 : U1 m c (Proc.devRef .tc main_arg0) = m ((c.tc : Thread nD τ).loc main_arg0) := U1_arg m c _ (by decide)
theorem U1_arg2 : U1 m c (Proc.devRef .tc main_arg2) = m ((c.tc : Thread nD τ).loc main_arg2) := U1_arg m c _ (by decide)
theorem U1_arg3 : U1 m c (Proc.devRef .tc main_arg3) = m ((c.tc : Thread nD τ).loc main_arg3) := U1_arg m c _ (by decide)
theorem U2_arg4 : U2 m c (Proc.devRef .tc main_arg4) = m ((c.tc : Thread nD τ).loc main_arg4) := U2_arg m c _ (by decide)
theorem U2_arg5 : U2 m c (Proc.devRef .tc main_arg5) = m ((c.tc : Thread nD τ).loc main_arg5) := U2_arg m c _ (by decide)
theorem U3_arg6 : U3 m c (Proc.devRef .tc main_arg6) = m ((c.tc : Thread nD τ).loc main_arg6) := U3_arg m c _ (by decide)
theorem U3_arg7 : U3 m c (Proc.devRef .tc main_arg7) = m ((c.tc : Thread nD τ).loc main_arg7) := U3_arg m c _ (by decide)
theorem U4_arg8 : U4 m c (Proc.devRef .tc main_arg8) = m ((c.tc : Thread nD τ).loc main_arg8) := U4_arg m c _ (by decide)
theorem U4_arg9 : U4 m c (Proc.devRef .tc main_arg9) = m ((c.tc : Thread nD τ).loc main_arg9) := U4_arg m c _ (by decide)
theorem U5_arg10 : U5 m c (Proc.devRef .tc main_arg10) = m ((c.tc : Thread nD τ).loc main_arg10) := U5_arg m c _ (by decide)
theorem U5_arg11 : U5 m c (Proc.devRef .tc main_arg11) = m ((c.tc : Thread nD τ).loc main_arg11) := U5_arg m c _ (by decide)

/-! ### Every argument at the last boundary -/

theorem U6_arg0 : U6 m c (Proc.devRef .tc main_arg0) = m ((c.tc : Thread nD τ).loc main_arg0) := U6_arg m c _ (by decide)
theorem U6_arg1 : U6 m c (Proc.devRef .tc main_arg1) = m ((c.tc : Thread nD τ).loc main_arg1) := U6_arg m c _ (by decide)
theorem U6_arg2 : U6 m c (Proc.devRef .tc main_arg2) = m ((c.tc : Thread nD τ).loc main_arg2) := U6_arg m c _ (by decide)
theorem U6_arg3 : U6 m c (Proc.devRef .tc main_arg3) = m ((c.tc : Thread nD τ).loc main_arg3) := U6_arg m c _ (by decide)
theorem U6_arg4 : U6 m c (Proc.devRef .tc main_arg4) = m ((c.tc : Thread nD τ).loc main_arg4) := U6_arg m c _ (by decide)
theorem U6_arg5 : U6 m c (Proc.devRef .tc main_arg5) = m ((c.tc : Thread nD τ).loc main_arg5) := U6_arg m c _ (by decide)
theorem U6_arg6 : U6 m c (Proc.devRef .tc main_arg6) = m ((c.tc : Thread nD τ).loc main_arg6) := U6_arg m c _ (by decide)
theorem U6_arg7 : U6 m c (Proc.devRef .tc main_arg7) = m ((c.tc : Thread nD τ).loc main_arg7) := U6_arg m c _ (by decide)
theorem U6_arg8 : U6 m c (Proc.devRef .tc main_arg8) = m ((c.tc : Thread nD τ).loc main_arg8) := U6_arg m c _ (by decide)
theorem U6_arg9 : U6 m c (Proc.devRef .tc main_arg9) = m ((c.tc : Thread nD τ).loc main_arg9) := U6_arg m c _ (by decide)
theorem U6_arg10 : U6 m c (Proc.devRef .tc main_arg10) = m ((c.tc : Thread nD τ).loc main_arg10) := U6_arg m c _ (by decide)
theorem U6_arg11 : U6 m c (Proc.devRef .tc main_arg11) = m ((c.tc : Thread nD τ).loc main_arg11) := U6_arg m c _ (by decide)

end Keeps

variable (m : (ℓ : Loc nD τ sig) → Buf (Elt Ideal) ℓ) (c : Dev nD)

/-- The edge list as launched. -/
abbrev EI : IVec Cert.KernelIdeal.S2x160000 32 := m ((c.tc : Thread nD τ).loc main_arg1)

/-! ## The first part, over any contents -/

theorem A_src (V : Valuation τ sig (Elt Ideal)) :
    after edgesA V (Proc.devRef .tc main_v1) = Cert.KernelIdeal.Edge.src (V (Proc.devRef .tc main_arg1)) := by
  after_results_simp
  rfl
theorem A_dst (V : Valuation τ sig (Elt Ideal)) :
    after edgesA V (Proc.devRef .tc main_v3) = Cert.KernelIdeal.Edge.dst (V (Proc.devRef .tc main_arg1)) := by
  after_results_simp
  rfl
/-- The second copy of the sources, which the degree and the weights read. -/
theorem A_src' (V : Valuation τ sig (Elt Ideal)) :
    after edgesA V (Proc.devRef .tc main_v5) = Cert.KernelIdeal.Edge.src (V (Proc.devRef .tc main_arg1)) := by
  after_results_simp
  rfl
/-- The second copy of the targets. -/
theorem A_dst' (V : Valuation τ sig (Elt Ideal)) :
    after edgesA V (Proc.devRef .tc main_v7) = Cert.KernelIdeal.Edge.dst (V (Proc.devRef .tc main_arg1)) := by
  after_results_simp
  rfl
/-- Where the degree is positive, -/
theorem A_pos (V : Valuation τ sig (Elt Ideal)) :
    after edgesA V (Proc.devRef .tc main_v13)
      = cmpf .ogt (Cert.KernelIdeal.Edge.deg (V (Proc.devRef .tc main_arg1)))
          (broadcastInDim S10000 ![] bcast_S_S10000 (constant (F := Ideal) S_ .f32 0x00000000#32)) := by
  after_results_simp
  rfl
/-- one over the square root of the degree, -/
theorem A_rsqrt (V : Valuation τ sig (Elt Ideal)) :
    after edgesA V (Proc.devRef .tc main_v16)
      = Host.divf (F := Ideal) (broadcastInDim S10000 ![] bcast_S_S10000 (constant (F := Ideal) S_ .f32 0x3F800000#32))
          (Host.sqrt (F := Ideal) (Cert.KernelIdeal.Edge.deg (V (Proc.devRef .tc main_arg1)))) := by
  after_results_simp
  rfl
/-- and the zero that stands in where the degree is not positive. -/
theorem A_zero (V : Valuation τ sig (Elt Ideal)) :
    after edgesA V (Proc.devRef .tc main_cst_3) = constant (F := Ideal) S_ .f32 0x00000000#32 := by
  after_results_simp

/-! ## The selection, from whatever the three buffers hold -/

theorem B_select (V : Valuation τ sig (Elt Ideal)) :
    after edgesB V (Proc.devRef .tc main_v17)
      = (select (V (Proc.devRef .tc main_v13)) (V (Proc.devRef .tc main_v16))
          (broadcastInDim S10000 ![] bcast_S_S10000 (V (Proc.devRef .tc main_cst_3))) : FVec Ideal S10000 .f32) := by
  after_results_simp
  rfl
theorem B_v1 (V : Valuation τ sig (Elt Ideal)) : after edgesB V (Proc.devRef .tc main_v1) = V (Proc.devRef .tc main_v1) := by
  stretch_skips edgesB
theorem B_v3 (V : Valuation τ sig (Elt Ideal)) : after edgesB V (Proc.devRef .tc main_v3) = V (Proc.devRef .tc main_v3) := by
  stretch_skips edgesB
theorem B_v5 (V : Valuation τ sig (Elt Ideal)) : after edgesB V (Proc.devRef .tc main_v5) = V (Proc.devRef .tc main_v5) := by
  stretch_skips edgesB
theorem B_v7 (V : Valuation τ sig (Elt Ideal)) : after edgesB V (Proc.devRef .tc main_v7) = V (Proc.devRef .tc main_v7) := by
  stretch_skips edgesB

/-! ## The last part: the weights from the inverse square roots and the endpoints -/

theorem C_weight (V : Valuation τ sig (Elt Ideal)) :
    after edgesC V (Proc.devRef .tc main_v33)
      = (mulf (Host.negf (F := Ideal) (Host.gather Cert.KernelIdeal.gather_S10000_S160000x1_S160000_n_0_n_n_0_1_1
            (V (Proc.devRef .tc main_v17)) (Cert.KernelIdeal.Edge.startIdx (V (Proc.devRef .tc main_v5)))))
          (Host.gather Cert.KernelIdeal.gather_S10000_S160000x1_S160000_n_0_n_n_0_1_1
            (V (Proc.devRef .tc main_v17)) (Cert.KernelIdeal.Edge.startIdx (V (Proc.devRef .tc main_v7)))) : FVec Ideal S160000 .f32) := by
  after_results_simp
  rfl
theorem C_v1 (V : Valuation τ sig (Elt Ideal)) : after edgesC V (Proc.devRef .tc main_v1) = V (Proc.devRef .tc main_v1) := by
  stretch_skips edgesC
theorem C_v3 (V : Valuation τ sig (Elt Ideal)) : after edgesC V (Proc.devRef .tc main_v3) = V (Proc.devRef .tc main_v3) := by
  stretch_skips edgesC

/-! ## After the edge stretch -/

theorem U1_src : U1 (F := Ideal) m c (Proc.devRef .tc main_v1) = Cert.KernelIdeal.Edge.src (EI m c) := by
  show after opsEdges (U0 m c) (Proc.devRef .tc main_v1) = _
  rw [after_opsEdges, C_v1, B_v1, A_src]
theorem U1_dst : U1 (F := Ideal) m c (Proc.devRef .tc main_v3) = Cert.KernelIdeal.Edge.dst (EI m c) := by
  show after opsEdges (U0 m c) (Proc.devRef .tc main_v3) = _
  rw [after_opsEdges, C_v3, B_v3, A_dst]
theorem U1_weight : U1 (F := Ideal) m c (Proc.devRef .tc main_v33) = Cert.KernelIdeal.Edge.weight (EI m c) := by
  show after opsEdges (U0 m c) (Proc.devRef .tc main_v33) = _
  rw [after_opsEdges, C_weight, B_select, B_v5, B_v7, A_pos, A_rsqrt, A_zero, A_src', A_dst']
  rfl

/-! ## The endpoints and the weights reach every layer unchanged -/

theorem U2_src : U2 (F := Ideal) m c (Proc.devRef .tc main_v1) = Cert.KernelIdeal.Edge.src (EI m c) :=
  (keeps1 (U1 m c) main_v1 (by decide)).trans (U1_src m c)
theorem U3_src : U3 (F := Ideal) m c (Proc.devRef .tc main_v1) = Cert.KernelIdeal.Edge.src (EI m c) :=
  (keeps2 (U2 m c) main_v1 (by decide)).trans (U2_src m c)
theorem U4_src : U4 (F := Ideal) m c (Proc.devRef .tc main_v1) = Cert.KernelIdeal.Edge.src (EI m c) :=
  (keeps3 (U3 m c) main_v1 (by decide)).trans (U3_src m c)
theorem U5_src : U5 (F := Ideal) m c (Proc.devRef .tc main_v1) = Cert.KernelIdeal.Edge.src (EI m c) :=
  (keeps4 (U4 m c) main_v1 (by decide)).trans (U4_src m c)

theorem U2_dst : U2 (F := Ideal) m c (Proc.devRef .tc main_v3) = Cert.KernelIdeal.Edge.dst (EI m c) :=
  (keeps1 (U1 m c) main_v3 (by decide)).trans (U1_dst m c)
theorem U3_dst : U3 (F := Ideal) m c (Proc.devRef .tc main_v3) = Cert.KernelIdeal.Edge.dst (EI m c) :=
  (keeps2 (U2 m c) main_v3 (by decide)).trans (U2_dst m c)
theorem U4_dst : U4 (F := Ideal) m c (Proc.devRef .tc main_v3) = Cert.KernelIdeal.Edge.dst (EI m c) :=
  (keeps3 (U3 m c) main_v3 (by decide)).trans (U3_dst m c)
theorem U5_dst : U5 (F := Ideal) m c (Proc.devRef .tc main_v3) = Cert.KernelIdeal.Edge.dst (EI m c) :=
  (keeps4 (U4 m c) main_v3 (by decide)).trans (U4_dst m c)

theorem U2_weight : U2 (F := Ideal) m c (Proc.devRef .tc main_v33) = Cert.KernelIdeal.Edge.weight (EI m c) :=
  (keeps1 (U1 m c) main_v33 (by decide)).trans (U1_weight m c)
theorem U3_weight : U3 (F := Ideal) m c (Proc.devRef .tc main_v33) = Cert.KernelIdeal.Edge.weight (EI m c) :=
  (keeps2 (U2 m c) main_v33 (by decide)).trans (U2_weight m c)
theorem U4_weight : U4 (F := Ideal) m c (Proc.devRef .tc main_v33) = Cert.KernelIdeal.Edge.weight (EI m c) :=
  (keeps3 (U3 m c) main_v33 (by decide)).trans (U3_weight m c)
theorem U5_weight : U5 (F := Ideal) m c (Proc.devRef .tc main_v33) = Cert.KernelIdeal.Edge.weight (EI m c) :=
  (keeps4 (U4 m c) main_v33 (by decide)).trans (U4_weight m c)

end Cert.ReferenceIdeal.Chain

end
-- ==== Proof.RefSpmm.lean ====
/-
  The reference program's host propagations, in sum form: the same spelling as the kernel program's host side, at the
  feature widths the reference propagates at (it propagates a layer's INPUT: 782, 16, 32, 64, 128). The per-edge readings
  of the weights, sources and targets are the kernel side's `rowK`, `gatK`, `nuK`: one definition for both programs.
-/
import proofs.«120706_j28956669510215_2_alg».proof.ReferenceIdeal
import proofs.«120706_j28956669510215_2_alg».proof.Proof.Gen.ReferenceIdeal
import proofs.«120706_j28956669510215_2_alg».proof.Proof.KernelSpmm

noncomputable section

namespace Cert.ReferenceIdeal.Spmm

open Cert.ReferenceIdeal Cert.ReferenceIdeal.Facts₀ Cert.ReferenceIdeal.Facts
open Idealize.ShloMosaic Idealize.ShloMosaic.ValueIdx ChebAlgebra RowGatherScatter
open Cert.KernelIdeal.Spmm (rowK gatK nuK)

/-- A weight array broadcast along the 782 features reads the edge's weight. -/
theorem bcast_nu_782 (nu : FVec Ideal S160000 .f32) (e : Fin 160000) (f : Fin 782) :
    broadcastInDim S160000x782 ![0, 1] bcast_S160000x1_S160000x782_0_1
      (broadcastInDim S160000x1 ![0] bcast_S160000_S160000x1_0 nu) (ix2 e f) = nuK nu e := by
  rw [broadcastInDim_apply _ bcast_S160000x1_S160000x782_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 782] the scatter adds onto. -/
theorem zero_782 (i : S10000x782.Idx) :
    broadcastInDim S10000x782 ![] bcast_S_S10000x782 (constant (F := Ideal) S_ .f32 0x00000000#32) i = 0 := by
  rw [broadcastInDim_apply _ bcast_S_S10000x782 _ i ix0 (fun a => a.elim0)]
  exact Ideal.ofBits_zero_f32

/-- The host's propagation at width 782 is the sum over edges. -/
theorem spmm782_eq (nu : FVec Ideal S160000 .f32) (s d : IVec S160000 32) (Y : FVec Ideal S10000x782 .f32) :
    Host.scatterAdd (F := Ideal) scatter_S10000x782_S160000x1_S160000x782_1_0_0_1
      (broadcastInDim S10000x782 ![] bcast_S_S10000x782 (constant (F := Ideal) S_ .f32 0x00000000#32))
      (broadcastInDim S160000x1 ![0] bcast_S160000_S160000x1_0 d)
      (mulf (broadcastInDim S160000x782 ![0, 1] bcast_S160000x1_S160000x782_0_1
          (broadcastInDim S160000x1 ![0] bcast_S160000_S160000x1_0 nu))
        (Host.gather gather_S10000x782_S160000x1_S160000x782_1_0_n_n_0_1_1782 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 782) (E := 160000) (by decide) _ rfl rfl rfl rfl _ rfl rfl rfl rfl rfl rfl rfl _
    (zero_782) _ _ _ _ (bcast_nu_782 nu) Y

/-- A weight array broadcast along the 16 features reads the edge's weight. -/
theorem bcast_nu_16 (nu : FVec Ideal S160000 .f32) (e : Fin 160000) (f : Fin 16) :
    broadcastInDim S160000x16 ![0, 1] bcast_S160000x1_S160000x16_0_1
      (broadcastInDim S160000x1 ![0] bcast_S160000_S160000x1_0 nu) (ix2 e f) = nuK nu e := by
  rw [broadcastInDim_apply _ bcast_S160000x1_S160000x16_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 16] the scatter adds onto. -/
theorem zero_16 (i : S10000x16.Idx) :
    broadcastInDim S10000x16 ![] bcast_S_S10000x16 (constant (F := Ideal) S_ .f32 0x00000000#32) i = 0 := by
  rw [broadcastInDim_apply _ bcast_S_S10000x16 _ i ix0 (fun a => a.elim0)]
  exact Ideal.ofBits_zero_f32

/-- The host's propagation at width 16 is the sum over edges. -/
theorem spmm16_eq (nu : FVec Ideal S160000 .f32) (s d : IVec S160000 32) (Y : FVec Ideal S10000x16 .f32) :
    Host.scatterAdd (F := Ideal) scatter_S10000x16_S160000x1_S160000x16_1_0_0_1
      (broadcastInDim S10000x16 ![] bcast_S_S10000x16 (constant (F := Ideal) S_ .f32 0x00000000#32))
      (broadcastInDim S160000x1 ![0] bcast_S160000_S160000x1_0 d)
      (mulf (broadcastInDim S160000x16 ![0, 1] bcast_S160000x1_S160000x16_0_1
          (broadcastInDim S160000x1 ![0] bcast_S160000_S160000x1_0 nu))
        (Host.gather gather_S10000x16_S160000x1_S160000x16_1_0_n_n_0_1_116 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 16) (E := 160000) (by decide) _ rfl rfl rfl rfl _ rfl rfl rfl rfl rfl rfl rfl _
    (zero_16) _ _ _ _ (bcast_nu_16 nu) Y

/-- A weight array broadcast along the 32 features reads the edge's weight. -/
theorem bcast_nu_32 (nu : FVec Ideal S160000 .f32) (e : Fin 160000) (f : Fin 32) :
    broadcastInDim S160000x32 ![0, 1] bcast_S160000x1_S160000x32_0_1
      (broadcastInDim S160000x1 ![0] bcast_S160000_S160000x1_0 nu) (ix2 e f) = nuK nu e := by
  rw [broadcastInDim_apply _ bcast_S160000x1_S160000x32_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 32] the scatter adds onto. -/
theorem zero_32 (i : S10000x32.Idx) :
    broadcastInDim S10000x32 ![] bcast_S_S10000x32 (constant (F := Ideal) S_ .f32 0x00000000#32) i = 0 := by
  rw [broadcastInDim_apply _ bcast_S_S10000x32 _ i ix0 (fun a => a.elim0)]
  exact Ideal.ofBits_zero_f32

/-- The host's propagation at width 32 is the sum over edges. -/
theorem spmm32_eq (nu : FVec Ideal S160000 .f32) (s d : IVec S160000 32) (Y : FVec Ideal S10000x32 .f32) :
    Host.scatterAdd (F := Ideal) scatter_S10000x32_S160000x1_S160000x32_1_0_0_1
      (broadcastInDim S10000x32 ![] bcast_S_S10000x32 (constant (F := Ideal) S_ .f32 0x00000000#32))
      (broadcastInDim S160000x1 ![0] bcast_S160000_S160000x1_0 d)
      (mulf (broadcastInDim S160000x32 ![0, 1] bcast_S160000x1_S160000x32_0_1
          (broadcastInDim S160000x1 ![0] bcast_S160000_S160000x1_0 nu))
        (Host.gather gather_S10000x32_S160000x1_S160000x32_1_0_n_n_0_1_132 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 32) (E := 160000) (by decide) _ rfl rfl rfl rfl _ rfl rfl rfl rfl rfl rfl rfl _
    (zero_32) _ _ _ _ (bcast_nu_32 nu) Y

/-- A weight array broadcast along the 64 features reads the edge's weight. -/
theorem bcast_nu_64 (nu : FVec Ideal S160000 .f32) (e : Fin 160000) (f : Fin 64) :
    broadcastInDim S160000x64 ![0, 1] bcast_S160000x1_S160000x64_0_1
      (broadcastInDim S160000x1 ![0] bcast_S160000_S160000x1_0 nu) (ix2 e f) = nuK nu e := by
  rw [broadcastInDim_apply _ bcast_S160000x1_S160000x64_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 64] the scatter adds onto. -/
theorem zero_64 (i : S10000x64.Idx) :
    broadcastInDim S10000x64 ![] bcast_S_S10000x64 (constant (F := Ideal) S_ .f32 0x00000000#32) i = 0 := by
  rw [broadcastInDim_apply _ bcast_S_S10000x64 _ i ix0 (fun a => a.elim0)]
  exact Ideal.ofBits_zero_f32

/-- The host's propagation at width 64 is the sum over edges. -/
theorem spmm64_eq (nu : FVec Ideal S160000 .f32) (s d : IVec S160000 32) (Y : FVec Ideal S10000x64 .f32) :
    Host.scatterAdd (F := Ideal) scatter_S10000x64_S160000x1_S160000x64_1_0_0_1
      (broadcastInDim S10000x64 ![] bcast_S_S10000x64 (constant (F := Ideal) S_ .f32 0x00000000#32))
      (broadcastInDim S160000x1 ![0] bcast_S160000_S160000x1_0 d)
      (mulf (broadcastInDim S160000x64 ![0, 1] bcast_S160000x1_S160000x64_0_1
          (broadcastInDim S160000x1 ![0] bcast_S160000_S160000x1_0 nu))
        (Host.gather gather_S10000x64_S160000x1_S160000x64_1_0_n_n_0_1_164 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 64) (E := 160000) (by decide) _ rfl rfl rfl rfl _ rfl rfl rfl rfl rfl rfl rfl _
    (zero_64) _ _ _ _ (bcast_nu_64 nu) Y

/-- A weight array broadcast along the 128 features reads the edge's weight. -/
theorem bcast_nu_128 (nu : FVec Ideal S160000 .f32) (e : Fin 160000) (f : Fin 128) :
    broadcastInDim S160000x128 ![0, 1] bcast_S160000x1_S160000x128_0_1
      (broadcastInDim S160000x1 ![0] bcast_S160000_S160000x1_0 nu) (ix2 e f) = nuK nu e := by
  rw [broadcastInDim_apply _ bcast_S160000x1_S160000x128_0_1 _ (ix2 e f) (ix2 e (0 : Fin 1)) (fun a => match a with
      | ⟨0, _⟩ => by show e.val = if (160000 : Nat) = 1 then 0 else e.val; rw [if_neg (by decide)]
      | ⟨1, _⟩ => by show (0 : Nat) = if (1 : Nat) = 1 then 0 else f.val; rw [if_pos rfl]),
    broadcastInDim_apply _ bcast_S160000_S160000x1_0 _ (ix2 e (0 : Fin 1)) (ix1 e) (fun a => match a with
      | ⟨0, _⟩ => by show e.val = if (160000 : Nat) = 1 then 0 else e.val; rw [if_neg (by decide)])]
  rfl

/-- The zero array [10000, 128] the scatter adds onto. -/
theorem zero_128 (i : S10000x128.Idx) :
    broadcastInDim S10000x128 ![] bcast_S_S10000x128 (constant (F := Ideal) S_ .f32 0x00000000#32) i = 0 := by
  rw [broadcastInDim_apply _ bcast_S_S10000x128 _ i ix0 (fun a => a.elim0)]
  exact Ideal.ofBits_zero_f32

/-- The host's propagation at width 128 is the sum over edges. -/
theorem spmm128_eq (nu : FVec Ideal S160000 .f32) (s d : IVec S160000 32) (Y : FVec Ideal S10000x128 .f32) :
    Host.scatterAdd (F := Ideal) scatter_S10000x128_S160000x1_S160000x128_1_0_0_1
      (broadcastInDim S10000x128 ![] bcast_S_S10000x128 (constant (F := Ideal) S_ .f32 0x00000000#32))
      (broadcastInDim S160000x1 ![0] bcast_S160000_S160000x1_0 d)
      (mulf (broadcastInDim S160000x128 ![0, 1] bcast_S160000x1_S160000x128_0_1
          (broadcastInDim S160000x1 ![0] bcast_S160000_S160000x1_0 nu))
        (Host.gather gather_S10000x128_S160000x1_S160000x128_1_0_n_n_0_1_1128 Y
          (broadcastInDim S160000x1 ![0] bcast_S160000_S160000x1_0
            (select (cmpi .slt s (broadcastInDim S160000 ![] bcast_S_S160000 (constantI S_ 32 0#32)))
              (addi s (broadcastInDim S160000 ![] bcast_S_S160000 (constantI S_ 32 10000#32))) s))))
      = prop (rowK d) (gatK s) (nuK nu) Y :=
  SpmmForm.spmm_eq_prop (N := 10000) (C := 128) (E := 160000) (by decide) _ rfl rfl rfl rfl _ rfl rfl rfl rfl rfl rfl rfl _
    (zero_128) _ _ _ _ (bcast_nu_128 nu) Y

end Cert.ReferenceIdeal.Spmm

end
-- ==== Proof.RefLayers.lean ====
/-
  The reference program's five layers, in sum form. The reference computes each Chebyshev layer with host operations
  only, propagating first: h W0 + (P h) W1 + (2 P (P h) - h) W2 + b, with P the propagation along the weighted edges,
  then max(., 0) after layers 1 to 4 and the softmax after layer 5. Each stretch of its operations is read here as
  `ChebSpec.layer` of what the buffers hold, whatever they hold.
-/
import proofs.«120706_j28956669510215_2_alg».proof.Proof.RefRun
import proofs.«120706_j28956669510215_2_alg».proof.Proof.RefSpmm
import proofs.«120706_j28956669510215_2_alg».proof.Proof.ChebSpec
import proofs.«120706_j28956669510215_2_alg».proof.Proof.LibHostForms
import proofs.«120706_j28956669510215_2_alg».proof.Proof.Softmax
import Idealize.ShloMosaic.Lib.StableHlo.Run
import Idealize.ShloMosaic.PureOps.Ideal.Laws

set_option maxRecDepth 16384

noncomputable section

namespace Cert.ReferenceIdeal.Layers

open Cert.ReferenceIdeal Cert.ReferenceIdeal.Gen Cert.ReferenceIdeal.Hand
open Idealize.ShloMosaic Idealize.ShloMosaic.TcCoe Idealize.ShloMosaic.StableHlo Idealize.ShloMosaic.ValueIdx
open Idealize.SL Idealize.SL.Sem
open ChebAlgebra HostForms Cert.ChebSpec
open Cert.KernelIdeal.Spmm (rowK gatK nuK)
open Cert.ReferenceIdeal.Spmm

/-! ## One layer's host operations, for any sizes

The reference computes a layer with host operations only: three slices of the weight array, three matrix products,
two propagations (the second of the first's result), the combination `2 P (P h) - h`, and the bias broadcast over the
rows. Stated once over variables, with the propagation an operator `P` known to be `ChebAlgebra.prop`. -/

section Forms
variable {N E A B : Nat}

/-- The host spelling of a layer, propagate first, is `ChebSpec.layer`. -/
theorem layer_host_form (row : Fin E → Option (Fin N)) (g : Fin E → Fin N) (nu : Fin E → EReal)
    (P : FVec Ideal ⟨2, ![N, A]⟩ .f32 → FVec Ideal ⟨2, ![N, A]⟩ .f32) (hP : ∀ Y, P Y = prop row g nu Y)
    (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (sl0 : (⟨3, ![3, A, B]⟩ : Shape).Slices ![0, 0, 0] ⟨3, ![1, A, B]⟩)
    (sl1 : (⟨3, ![3, A, B]⟩ : Shape).Slices ![1, 0, 0] ⟨3, ![1, A, B]⟩)
    (sl2 : (⟨3, ![3, A, B]⟩ : Shape).Slices ![2, 0, 0] ⟨3, ![1, A, B]⟩)
    (sc : (⟨3, ![1, A, B]⟩ : Shape).ShapeCasts ⟨2, ![A, B]⟩)
    (b0 : (⟨0, ![]⟩ : Shape).BroadcastsInDim ⟨2, ![N, A]⟩ ![])
    (b1 : (⟨1, ![B]⟩ : Shape).BroadcastsInDim ⟨2, ![1, B]⟩ ![1])
    (b2 : (⟨2, ![1, B]⟩ : Shape).BroadcastsInDim ⟨2, ![N, B]⟩ ![0, 1])
    (h : FVec Ideal ⟨2, ![N, A]⟩ .f32) (W : FVec Ideal ⟨3, ![3, A, B]⟩ .f32) (b : FVec Ideal ⟨1, ![B]⟩ .f32) :
    addf (addf (addf
        (Host.dotGeneral (F := Ideal) d none h
          (shapeCast ⟨2, ![A, B]⟩ (extractStridedSlice ⟨3, ![1, A, B]⟩ ![0, 0, 0] W sl0) sc))
        (Host.dotGeneral (F := Ideal) d none (P h)
          (shapeCast ⟨2, ![A, B]⟩ (extractStridedSlice ⟨3, ![1, A, B]⟩ ![1, 0, 0] W sl1) sc)))
        (Host.dotGeneral (F := Ideal) d none
          (subf (mulf (broadcastInDim ⟨2, ![N, A]⟩ ![] b0 (constant (F := Ideal) ⟨0, ![]⟩ .f32 0x40000000#32)) (P (P h))) h)
          (shapeCast ⟨2, ![A, B]⟩ (extractStridedSlice ⟨3, ![1, A, B]⟩ ![2, 0, 0] W sl2) sc)))
      (broadcastInDim ⟨2, ![N, B]⟩ ![0, 1] b2 (broadcastInDim ⟨2, ![1, B]⟩ ![1] b1 b))
      = layer row g nu h W b := by
  rw [hP (P h), hP h]
  simp only [dotGeneral_eq_mm d h1 h2 h3 h4 h5 h6, slice_stack3_0, slice_stack3_1, slice_stack3_2]
  rw [bias_bcast_bcast, bcast_constant, ofBits_two_f32]
  rfl

/-- The host spelling of max(., 0). -/
theorem relu_host_form {s : Shape} (b0 : (⟨0, ![]⟩ : Shape).BroadcastsInDim s ![]) (v : FVec Ideal s .f32) :
    maximumf v (broadcastInDim s ![] b0 (constant (F := Ideal) ⟨0, ![]⟩ .f32 0x00000000#32)) = relu v := by
  rw [bcast_constant, Ideal.ofBits_zero_f32]
  rfl

end Forms

/-! ## The five layers

Each stretch of the reference's operations, run from ANY contents `V` of the buffers, leaves in its result buffer the
layer of what `V` holds in the layer's input, weight and bias buffers and in the three edge buffers (targets `main_v3`,
sources `main_v1`, weights `main_v33`): layers 1 to 4 followed by max(., 0), layer 5 by the softmax. -/

set_option maxHeartbeats 40000000 in
/-- Layer 1 (782 to 16 features) before its max with 0. -/
theorem pre1_eq (V : Valuation τ sig (Elt Ideal)) :
    (StableHlo.after opsLayer1 V (Proc.devRef .tc main_v76) : FVec Ideal S10000x16 .f32)
      = layer (rowK (V (Proc.devRef .tc main_v3))) (gatK (V (Proc.devRef .tc main_v1))) (nuK (V (Proc.devRef .tc main_v33)))
          (V (Proc.devRef .tc main_arg0) : FVec Ideal S10000x782 .f32) (V (Proc.devRef .tc main_arg2) : FVec Ideal S3x782x16 .f32)
          (V (Proc.devRef .tc main_arg3) : FVec Ideal S16 .f32) := by
  after_results_simp
  exact layer_host_form (rowK (V (Proc.devRef .tc main_v3))) (gatK (V (Proc.devRef .tc main_v1))) (nuK (V (Proc.devRef .tc main_v33)))
    _ (fun Y => spmm782_eq (V (Proc.devRef .tc main_v33)) (V (Proc.devRef .tc main_v1)) (V (Proc.devRef .tc main_v3)) Y)
    dot_S10000x782_S782x16_S10000x16_1_0_0_1_n_n rfl rfl rfl rfl rfl rfl _ _ _ _ _ _ _ _ _ _

set_option maxHeartbeats 40000000 in
/-- Layer 1 with its max with 0. -/
theorem layer1_eq (V : Valuation τ sig (Elt Ideal)) :
    (StableHlo.after opsLayer1 V (Proc.devRef .tc main_v77) : FVec Ideal S10000x16 .f32)
      = relu (layer (rowK (V (Proc.devRef .tc main_v3))) (gatK (V (Proc.devRef .tc main_v1))) (nuK (V (Proc.devRef .tc main_v33)))
          (V (Proc.devRef .tc main_arg0) : FVec Ideal S10000x782 .f32) (V (Proc.devRef .tc main_arg2) : FVec Ideal S3x782x16 .f32)
          (V (Proc.devRef .tc main_arg3) : FVec Ideal S16 .f32)) := by
  after_results_simp
  refine (relu_host_form Gen.bcast_S_S10000x16 _).trans (congrArg relu ?_)
  exact layer_host_form (rowK (V (Proc.devRef .tc main_v3))) (gatK (V (Proc.devRef .tc main_v1))) (nuK (V (Proc.devRef .tc main_v33)))
    _ (fun Y => spmm782_eq (V (Proc.devRef .tc main_v33)) (V (Proc.devRef .tc main_v1)) (V (Proc.devRef .tc main_v3)) Y)
    dot_S10000x782_S782x16_S10000x16_1_0_0_1_n_n rfl rfl rfl rfl rfl rfl _ _ _ _ _ _ _ _ _ _

set_option maxHeartbeats 40000000 in
/-- Layer 2 (16 to 32 features) before its max with 0. -/
theorem pre2_eq (V : Valuation τ sig (Elt Ideal)) :
    (StableHlo.after opsLayer2 V (Proc.devRef .tc main_v120) : FVec Ideal S10000x32 .f32)
      = layer (rowK (V (Proc.devRef .tc main_v3))) (gatK (V (Proc.devRef .tc main_v1))) (nuK (V (Proc.devRef .tc main_v33)))
          (V (Proc.devRef .tc main_v77) : FVec Ideal S10000x16 .f32) (V (Proc.devRef .tc main_arg4) : FVec Ideal S3x16x32 .f32)
          (V (Proc.devRef .tc main_arg5) : FVec Ideal S32 .f32) := by
  after_results_simp
  exact layer_host_form (rowK (V (Proc.devRef .tc main_v3))) (gatK (V (Proc.devRef .tc main_v1))) (nuK (V (Proc.devRef .tc main_v33)))
    _ (fun Y => spmm16_eq (V (Proc.devRef .tc main_v33)) (V (Proc.devRef .tc main_v1)) (V (Proc.devRef .tc main_v3)) Y)
    dot_S10000x16_S16x32_S10000x32_1_0_0_1_n_n rfl rfl rfl rfl rfl rfl _ _ _ _ _ _ _ _ _ _

set_option maxHeartbeats 40000000 in
/-- Layer 2 with its max with 0. -/
theorem layer2_eq (V : Valuation τ sig (Elt Ideal)) :
    (StableHlo.after opsLayer2 V (Proc.devRef .tc main_v121) : FVec Ideal S10000x32 .f32)
      = relu (layer (rowK (V (Proc.devRef .tc main_v3))) (gatK (V (Proc.devRef .tc main_v1))) (nuK (V (Proc.devRef .tc main_v33)))
          (V (Proc.devRef .tc main_v77) : FVec Ideal S10000x16 .f32) (V (Proc.devRef .tc main_arg4) : FVec Ideal S3x16x32 .f32)
          (V (Proc.devRef .tc main_arg5) : FVec Ideal S32 .f32)) := by
  after_results_simp
  refine (relu_host_form Gen.bcast_S_S10000x32 _).trans (congrArg relu ?_)
  exact layer_host_form (rowK (V (Proc.devRef .tc main_v3))) (gatK (V (Proc.devRef .tc main_v1))) (nuK (V (Proc.devRef .tc main_v33)))
    _ (fun Y => spmm16_eq (V (Proc.devRef .tc main_v33)) (V (Proc.devRef .tc main_v1)) (V (Proc.devRef .tc main_v3)) Y)
    dot_S10000x16_S16x32_S10000x32_1_0_0_1_n_n rfl rfl rfl rfl rfl rfl _ _ _ _ _ _ _ _ _ _

set_option maxHeartbeats 40000000 in
/-- Layer 3 (32 to 64 features) before its max with 0. -/
theorem pre3_eq (V : Valuation τ sig (Elt Ideal)) :
    (StableHlo.after opsLayer3 V (Proc.devRef .tc main_v164) : FVec Ideal S10000x64 .f32)
      = layer (rowK (V (Proc.devRef .tc main_v3))) (gatK (V (Proc.devRef .tc main_v1))) (nuK (V (Proc.devRef .tc main_v33)))
          (V (Proc.devRef .tc main_v121) : FVec Ideal S10000x32 .f32) (V (Proc.devRef .tc main_arg6) : FVec Ideal S3x32x64 .f32)
          (V (Proc.devRef .tc main_arg7) : FVec Ideal S64 .f32) := by
  after_results_simp
  exact layer_host_form (rowK (V (Proc.devRef .tc main_v3))) (gatK (V (Proc.devRef .tc main_v1))) (nuK (V (Proc.devRef .tc main_v33)))
    _ (fun Y => spmm32_eq (V (Proc.devRef .tc main_v33)) (V (Proc.devRef .tc main_v1)) (V (Proc.devRef .tc main_v3)) Y)
    dot_S10000x32_S32x64_S10000x64_1_0_0_1_n_n rfl rfl rfl rfl rfl rfl _ _ _ _ _ _ _ _ _ _

set_option maxHeartbeats 40000000 in
/-- Layer 3 with its max with 0. -/
theorem layer3_eq (V : Valuation τ sig (Elt Ideal)) :
    (StableHlo.after opsLayer3 V (Proc.devRef .tc main_v165) : FVec Ideal S10000x64 .f32)
      = relu (layer (rowK (V (Proc.devRef .tc main_v3))) (gatK (V (Proc.devRef .tc main_v1))) (nuK (V (Proc.devRef .tc main_v33)))
          (V (Proc.devRef .tc main_v121) : FVec Ideal S10000x32 .f32) (V (Proc.devRef .tc main_arg6) : FVec Ideal S3x32x64 .f32)
          (V (Proc.devRef .tc main_arg7) : FVec Ideal S64 .f32)) := by
  after_results_simp
  refine (relu_host_form Gen.bcast_S_S10000x64 _).trans (congrArg relu ?_)
  exact layer_host_form (rowK (V (Proc.devRef .tc main_v3))) (gatK (V (Proc.devRef .tc main_v1))) (nuK (V (Proc.devRef .tc main_v33)))
    _ (fun Y => spmm32_eq (V (Proc.devRef .tc main_v33)) (V (Proc.devRef .tc main_v1)) (V (Proc.devRef .tc main_v3)) Y)
    dot_S10000x32_S32x64_S10000x64_1_0_0_1_n_n rfl rfl rfl rfl rfl rfl _ _ _ _ _ _ _ _ _ _

set_option maxHeartbeats 40000000 in
/-- Layer 4 (64 to 128 features) before its max with 0. -/
theorem pre4_eq (V : Valuation τ sig (Elt Ideal)) :
    (StableHlo.after opsLayer4 V (Proc.devRef .tc main_v208) : FVec Ideal S10000x128 .f32)
      = layer (rowK (V (Proc.devRef .tc main_v3))) (gatK (V (Proc.devRef .tc main_v1))) (nuK (V (Proc.devRef .tc main_v33)))
          (V (Proc.devRef .tc main_v165) : FVec Ideal S10000x64 .f32) (V (Proc.devRef .tc main_arg8) : FVec Ideal S3x64x128 .f32)
          (V (Proc.devRef .tc main_arg9) : FVec Ideal S128 .f32) := by
  after_results_simp
  exact layer_host_form (rowK (V (Proc.devRef .tc main_v3))) (gatK (V (Proc.devRef .tc main_v1))) (nuK (V (Proc.devRef .tc main_v33)))
    _ (fun Y => spmm64_eq (V (Proc.devRef .tc main_v33)) (V (Proc.devRef .tc main_v1)) (V (Proc.devRef .tc main_v3)) Y)
    dot_S10000x64_S64x128_S10000x128_1_0_0_1_n_n rfl rfl rfl rfl rfl rfl _ _ _ _ _ _ _ _ _ _

set_option maxHeartbeats 40000000 in
/-- Layer 4 with its max with 0. -/
theorem layer4_eq (V : Valuation τ sig (Elt Ideal)) :
    (StableHlo.after opsLayer4 V (Proc.devRef .tc main_v209) : FVec Ideal S10000x128 .f32)
      = relu (layer (rowK (V (Proc.devRef .tc main_v3))) (gatK (V (Proc.devRef .tc main_v1))) (nuK (V (Proc.devRef .tc main_v33)))
          (V (Proc.devRef .tc main_v165) : FVec Ideal S10000x64 .f32) (V (Proc.devRef .tc main_arg8) : FVec Ideal S3x64x128 .f32)
          (V (Proc.devRef .tc main_arg9) : FVec Ideal S128 .f32)) := by
  after_results_simp
  refine (relu_host_form Gen.bcast_S_S10000x128 _).trans (congrArg relu ?_)
  exact layer_host_form (rowK (V (Proc.devRef .tc main_v3))) (gatK (V (Proc.devRef .tc main_v1))) (nuK (V (Proc.devRef .tc main_v33)))
    _ (fun Y => spmm64_eq (V (Proc.devRef .tc main_v33)) (V (Proc.devRef .tc main_v1)) (V (Proc.devRef .tc main_v3)) Y)
    dot_S10000x64_S64x128_S10000x128_1_0_0_1_n_n rfl rfl rfl rfl rfl rfl _ _ _ _ _ _ _ _ _ _

set_option maxHeartbeats 40000000 in
/-- Layer 5 (128 to 19 features) before the softmax. -/
theorem pre5_eq (V : Valuation τ sig (Elt Ideal)) :
    (StableHlo.after opsLayer5 V (Proc.devRef .tc main_v252) : FVec Ideal S10000x19 .f32)
      = layer (rowK (V (Proc.devRef .tc main_v3))) (gatK (V (Proc.devRef .tc main_v1))) (nuK (V (Proc.devRef .tc main_v33)))
          (V (Proc.devRef .tc main_v209) : FVec Ideal S10000x128 .f32) (V (Proc.devRef .tc main_arg10) : FVec Ideal S3x128x19 .f32)
          (V (Proc.devRef .tc main_arg11) : FVec Ideal S19 .f32) := by
  after_results_simp
  exact layer_host_form (rowK (V (Proc.devRef .tc main_v3))) (gatK (V (Proc.devRef .tc main_v1))) (nuK (V (Proc.devRef .tc main_v33)))
    _ (fun Y => spmm128_eq (V (Proc.devRef .tc main_v33)) (V (Proc.devRef .tc main_v1)) (V (Proc.devRef .tc main_v3)) Y)
    dot_S10000x128_S128x19_S10000x19_1_0_0_1_n_n rfl rfl rfl rfl rfl rfl _ _ _ _ _ _ _ _ _ _

set_option maxHeartbeats 40000000 in
/-- Layer 5 with the softmax over the 19 classes. The softmax is the same chain of operations in both programs and is
    never opened: it is applied to the layer's output, and equal arguments give equal results. -/
theorem layer5_eq (V : Valuation τ sig (Elt Ideal)) :
    (StableHlo.after opsLayer5 V (Proc.devRef .tc main_v263) : FVec Ideal S10000x19 .f32)
      = Cert.KernelIdeal.Edge.softmax19 (layer (rowK (V (Proc.devRef .tc main_v3))) (gatK (V (Proc.devRef .tc main_v1))) (nuK (V (Proc.devRef .tc main_v33)))
          (V (Proc.devRef .tc main_v209) : FVec Ideal S10000x128 .f32) (V (Proc.devRef .tc main_arg10) : FVec Ideal S3x128x19 .f32)
          (V (Proc.devRef .tc main_arg11) : FVec Ideal S19 .f32)) := by
  rw [← pre5_eq V]
  after_results_simp
  rfl

end Cert.ReferenceIdeal.Layers

end
-- ==== Proof.RefChain.lean ====
/-
  The reference program's result as one function of the launched argument arrays. Each layer's stretch of host operations
  computes one Chebyshev layer of what the previous boundary holds; the edge data and the arguments reach every layer
  unchanged; so, boundary by boundary, the layer results are the layers of the launched arrays, and the result buffer ends
  holding the softmax of the fifth.
-/
import proofs.«120706_j28956669510215_2_alg».proof.Proof.RefEdge
import proofs.«120706_j28956669510215_2_alg».proof.Proof.RefLayers
import proofs.«120706_j28956669510215_2_alg».proof.Proof.Layers

set_option maxRecDepth 16384

noncomputable section

namespace Cert.ReferenceIdeal.Chain

open Cert.ReferenceIdeal Cert.ReferenceIdeal.Gen Cert.ReferenceIdeal.Hand
open Idealize.ShloMosaic Idealize.ShloMosaic.TcCoe Idealize.ShloMosaic.StableHlo
open Idealize.SL Idealize.SL.Sem

variable (m : (ℓ : Loc nD τ sig) → Buf (Elt Ideal) ℓ) (c : Dev nD)

/-! ## The launched float arguments, as arrays of extended reals -/

abbrev X0 : Cert.KernelIdeal.S10000x782.Idx → EReal := m ((c.tc : Thread nD τ).loc main_arg0)
abbrev W1 : Cert.KernelIdeal.S3x782x16.Idx → EReal := m ((c.tc : Thread nD τ).loc main_arg2)
abbrev B1 : Cert.KernelIdeal.S16.Idx → EReal := m ((c.tc : Thread nD τ).loc main_arg3)
abbrev W2 : Cert.KernelIdeal.S3x16x32.Idx → EReal := m ((c.tc : Thread nD τ).loc main_arg4)
abbrev B2 : Cert.KernelIdeal.S32.Idx → EReal := m ((c.tc : Thread nD τ).loc main_arg5)
abbrev W3 : Cert.KernelIdeal.S3x32x64.Idx → EReal := m ((c.tc : Thread nD τ).loc main_arg6)
abbrev B3 : Cert.KernelIdeal.S64.Idx → EReal := m ((c.tc : Thread nD τ).loc main_arg7)
abbrev W4 : Cert.KernelIdeal.S3x64x128.Idx → EReal := m ((c.tc : Thread nD τ).loc main_arg8)
abbrev B4 : Cert.KernelIdeal.S128.Idx → EReal := m ((c.tc : Thread nD τ).loc main_arg9)
abbrev W5 : Cert.KernelIdeal.S3x128x19.Idx → EReal := m ((c.tc : Thread nD τ).loc main_arg10)
abbrev B5 : Cert.KernelIdeal.S19.Idx → EReal := m ((c.tc : Thread nD τ).loc main_arg11)

/-! ## Boundary by boundary -/

/-- After layer 1's stretch its result buffer holds the first layer of the launched arrays. -/
theorem U2_h1 : U2 (F := Ideal) m c (Proc.devRef .tc main_v77) = Cert.Layers.r1 (EI m c) (X0 m c) (W1 m c) (B1 m c) := by
  show after opsLayer1 (U1 m c) (Proc.devRef .tc main_v77) = _
  rw [Cert.ReferenceIdeal.Layers.layer1_eq (U1 m c), U1_src, U1_dst, U1_weight, U1_arg0, U1_arg2, U1_arg3]
  rfl
/-- Layer 2 reads layer 1's result where layer 1's stretch left it. -/
theorem U3_h2 : U3 (F := Ideal) m c (Proc.devRef .tc main_v121)
    = Cert.Layers.r2 (EI m c) (X0 m c) (W1 m c) (B1 m c) (W2 m c) (B2 m c) := by
  show after opsLayer2 (U2 m c) (Proc.devRef .tc main_v121) = _
  rw [Cert.ReferenceIdeal.Layers.layer2_eq (U2 m c), U2_src, U2_dst, U2_weight, U2_h1, U2_arg4, U2_arg5]
  rfl
theorem U4_h3 : U4 (F := Ideal) m c (Proc.devRef .tc main_v165)
    = Cert.Layers.r3 (EI m c) (X0 m c) (W1 m c) (B1 m c) (W2 m c) (B2 m c) (W3 m c) (B3 m c) := by
  show after opsLayer3 (U3 m c) (Proc.devRef .tc main_v165) = _
  rw [Cert.ReferenceIdeal.Layers.layer3_eq (U3 m c), U3_src, U3_dst, U3_weight, U3_h2, U3_arg6, U3_arg7]
  rfl
theorem U5_h4 : U5 (F := Ideal) m c (Proc.devRef .tc main_v209)
    = Cert.Layers.r4 (EI m c) (X0 m c) (W1 m c) (B1 m c) (W2 m c) (B2 m c) (W3 m c) (B3 m c) (W4 m c) (B4 m c) := by
  show after opsLayer4 (U4 m c) (Proc.devRef .tc main_v209) = _
  rw [Cert.ReferenceIdeal.Layers.layer4_eq (U4 m c), U4_src, U4_dst, U4_weight, U4_h3, U4_arg8, U4_arg9]
  rfl
/-- THE REFERENCE'S RESULT: the softmax of the fifth layer, as one function of the launched arrays. -/
theorem U6_out : U6 (F := Ideal) m c (Proc.devRef .tc main_v263)
    = Cert.Layers.refOut (EI m c) (X0 m c) (W1 m c) (B1 m c) (W2 m c) (B2 m c) (W3 m c) (B3 m c) (W4 m c) (B4 m c) (W5 m c) (B5 m c) := by
  show after opsLayer5 (U5 m c) (Proc.devRef .tc main_v263) = _
  rw [Cert.ReferenceIdeal.Layers.layer5_eq (U5 m c), U5_src, U5_dst, U5_weight, U5_h4, U5_arg10, U5_arg11]
  rfl

end Cert.ReferenceIdeal.Chain

end
-- ==== Proof.Finite.lean ====
/-
  From the precondition to real numbers. The precondition says, of each of the eleven float arguments, that every entry's
  absolute value is below +∞ (an `and` over all entries, and the eleven results joined by `and`). On the extended reals an
  entry x with max x (-x) < +∞ is neither +∞ nor -∞: it is a real number. So under the precondition every entry of every
  float argument is a real.
-/
import proofs.«120706_j28956669510215_2_alg».proof.Pre_finite_inputs
import Idealize.ShloMosaic.PureOps.Ideal.Laws
import Idealize.ShloMosaic.Lib.ReduceAll
import Idealize.ShloMosaic.Lib.ValueIdx

noncomputable section

namespace Cert.FiniteInputs

open Idealize.ShloMosaic Idealize.ShloMosaic.ValueIdx Cert.Pre_finite_inputs

variable [Cert.Pre_finite_inputs.Facts]

instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value compares below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One argument's conjunct: if the `and` over all entries of "absolute value below +∞" is 1, every entry is real. -/
theorem real_of_all {s : Shape} {axes : List (Fin s.rank)} (a : FVec Ideal s .f32) (inf : FVec Ideal s .f32)
    (hinf : ∀ i, inf i = Ideal.ofBits .f32 0x7F800000#32) (init : S_.Idx → BitVec 1)
    (hr : s.ReducesTo axes S_) (hu : 0 < S_.numel)
    (e : Host.reduce IntOp.andi (cmpf .olt (Host.absf a) inf) init hr hu ix0 = 1#1) (i : s.Idx) :
    ∃ r : ℝ, a i = (r : EReal) := by
  have h := Host.reduce_andi_all _ init hr hu ix0 e i
  rw [cmpf_apply, hinf] at h
  exact real_of_abs_lt_top (a i) h

/-- Under the precondition every entry of every float argument is a real number. The eleven conjuncts are peeled off the
    nested `and` from the outside in (the last argument's first), each an `and` over all of that argument's entries. -/
theorem reals (a0 : FVec Ideal S10000x782 .f32) (a1 : IVec S2x160000 32) (a2 : FVec Ideal S3x782x16 .f32) (a3 : FVec Ideal S16 .f32)
    (a4 : FVec Ideal S3x16x32 .f32) (a5 : FVec Ideal S32 .f32) (a6 : FVec Ideal S3x32x64 .f32) (a7 : FVec Ideal S64 .f32)
    (a8 : FVec Ideal S3x64x128 .f32) (a9 : FVec Ideal S128 .f32) (a10 : FVec Ideal S3x128x19 .f32) (a11 : FVec Ideal S19 .f32)
    (h : fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal)) := by
  have h0 := congrFun h ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ (fun _ => rfl) _ _ _ e0, real_of_all a2 _ (fun _ => rfl) _ _ _ e2,
    real_of_all a3 _ (fun _ => rfl) _ _ _ e3, real_of_all a4 _ (fun _ => rfl) _ _ _ e4,
    real_of_all a5 _ (fun _ => rfl) _ _ _ e5, real_of_all a6 _ (fun _ => rfl) _ _ _ e6,
    real_of_all a7 _ (fun _ => rfl) _ _ _ e7, real_of_all a8 _ (fun _ => rfl) _ _ _ e8,
    real_of_all a9 _ (fun _ => rfl) _ _ _ e9, real_of_all a10 _ (fun _ => rfl) _ _ _ e10,
    real_of_all a11 _ (fun _ => rfl) _ _ _ e11⟩

end Cert.FiniteInputs

end
-- ==== Proof.lean ====
/-
  The proof of `Cert.Claim`.
  Both programs compute a five-layer Chebyshev graph convolution (filter order 3; widths 782, 16, 32, 64, 128, 19) on a
  graph of 10000 nodes and 160000 weighted edges, with max(., 0) between the layers and a softmax over the 19 classes at
  the end. One layer is  h W0 + (P h) W1 + (2 P (P h) - h) W2 + b,  where P adds to each node the weighted rows of the
  nodes its edges come from. The reference propagates first and multiplies after. The kernel program, where a layer
  narrows, multiplies first and propagates the narrower products:  h W0 + P (h W1) + 2 P (P (h W2)) - h W2 + b.
  P acts on rows and a matrix product on columns, so they commute, and the two arrangements are one function of REAL
  arrays. Extended-real arithmetic is not a ring; it is the precondition (every float input finite) that makes every
  entry a real number, and a layer and max(., 0) keep entries real.
  The three frames: the kernel program's two are the generated frame proofs; the reference's is read off its run, a
  straight line of host operations written out by hand. The value claim: each program's result buffer ends at its
  arrangement of the network applied to the launched arrays (Proof/KernelChain.lean, Proof/RefChain.lean), the two
  memories agree on the arguments, and the arrangements agree on real arguments (Proof/Layers.lean).
-/
import proofs.«120706_j28956669510215_2_alg».proof.Defs
import proofs.«120706_j28956669510215_2_alg».proof.Proof.Gen.Kernel
import proofs.«120706_j28956669510215_2_alg».proof.Proof.Gen.Kernel.Frame
import proofs.«120706_j28956669510215_2_alg».proof.Proof.Gen.KernelIdeal
import proofs.«120706_j28956669510215_2_alg».proof.Proof.Gen.KernelIdeal.Frame
import proofs.«120706_j28956669510215_2_alg».proof.Proof.Gen.ReferenceIdeal
import proofs.«120706_j28956669510215_2_alg».proof.Proof.Gen.Pre_finite_inputs
import proofs.«120706_j28956669510215_2_alg».proof.Proof.KernelRun
import proofs.«120706_j28956669510215_2_alg».proof.Proof.KernelChain
import proofs.«120706_j28956669510215_2_alg».proof.Proof.RefRun
import proofs.«120706_j28956669510215_2_alg».proof.Proof.RefChain
import proofs.«120706_j28956669510215_2_alg».proof.Proof.Layers
import proofs.«120706_j28956669510215_2_alg».proof.Proof.Finite
import Idealize.ShloMosaic.Adequacy
import Idealize.ShloMosaic.Init

set_option maxRecDepth 16384

noncomputable section

namespace Cert.Proof

open Idealize.ShloMosaic Idealize.SL.Sem

/-- The reference program runs and leaves its arguments as launched: its run by hand, read at the twelve argument buffers. -/
theorem frame_ref : Cert.frame_ReferenceIdeal (hReferenceIdeal := Cert.ReferenceIdeal.Gen.facts) (hPre_finite_inputs := Cert.Pre_finite_inputs.Gen.facts) :=
  fun m ρ _ => (θ_run _ _ _).mono (fun r h c =>
      ⟨(h c Cert.ReferenceIdeal.main_arg0).trans (Cert.ReferenceIdeal.Chain.U6_arg0 m c),
       (h c Cert.ReferenceIdeal.main_arg1).trans (Cert.ReferenceIdeal.Chain.U6_arg1 m c),
       (h c Cert.ReferenceIdeal.main_arg2).trans (Cert.ReferenceIdeal.Chain.U6_arg2 m c),
       (h c Cert.ReferenceIdeal.main_arg3).trans (Cert.ReferenceIdeal.Chain.U6_arg3 m c),
       (h c Cert.ReferenceIdeal.main_arg4).trans (Cert.ReferenceIdeal.Chain.U6_arg4 m c),
       (h c Cert.ReferenceIdeal.main_arg5).trans (Cert.ReferenceIdeal.Chain.U6_arg5 m c),
       (h c Cert.ReferenceIdeal.main_arg6).trans (Cert.ReferenceIdeal.Chain.U6_arg6 m c),
       (h c Cert.ReferenceIdeal.main_arg7).trans (Cert.ReferenceIdeal.Chain.U6_arg7 m c),
       (h c Cert.ReferenceIdeal.main_arg8).trans (Cert.ReferenceIdeal.Chain.U6_arg8 m c),
       (h c Cert.ReferenceIdeal.main_arg9).trans (Cert.ReferenceIdeal.Chain.U6_arg9 m c),
       (h c Cert.ReferenceIdeal.main_arg10).trans (Cert.ReferenceIdeal.Chain.U6_arg10 m c),
       (h c Cert.ReferenceIdeal.main_arg11).trans (Cert.ReferenceIdeal.Chain.U6_arg11 m c)⟩)
    (Cert.ReferenceIdeal.Hand.run m ρ)

/-- Both programs, run from memories that agree on the arguments, end with the same result array: the kernel program's
    is its arrangement of the network applied to the launched arrays, the reference's is its own arrangement, and on
    real arguments (which the precondition gives) the two arrangements are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Layers.kerOut (Cert.KernelIdeal.Chain.EI m c) (Cert.KernelIdeal.Chain.A0 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c), ?_, ?_⟩
  · exact (θ_run _ _ _).mono (fun r h c => ⟨(h c).1.trans (Cert.KernelIdeal.Chain.W12_out m ρ c), (h c).2⟩) (Cert.KernelIdeal.RunValue.run m ρ)
  · refine (θ_run _ _ _).mono (fun r h c =>
      ⟨?_, (h c Cert.ReferenceIdeal.main_arg0).trans (Cert.ReferenceIdeal.Chain.U6_arg0 m' c),
       (h c Cert.ReferenceIdeal.main_arg1).trans (Cert.ReferenceIdeal.Chain.U6_arg1 m' c),
       (h c Cert.ReferenceIdeal.main_arg2).trans (Cert.ReferenceIdeal.Chain.U6_arg2 m' c),
       (h c Cert.ReferenceIdeal.main_arg3).trans (Cert.ReferenceIdeal.Chain.U6_arg3 m' c),
       (h c Cert.ReferenceIdeal.main_arg4).trans (Cert.ReferenceIdeal.Chain.U6_arg4 m' c),
       (h c Cert.ReferenceIdeal.main_arg5).trans (Cert.ReferenceIdeal.Chain.U6_arg5 m' c),
       (h c Cert.ReferenceIdeal.main_arg6).trans (Cert.ReferenceIdeal.Chain.U6_arg6 m' c),
       (h c Cert.ReferenceIdeal.main_arg7).trans (Cert.ReferenceIdeal.Chain.U6_arg7 m' c),
       (h c Cert.ReferenceIdeal.main_arg8).trans (Cert.ReferenceIdeal.Chain.U6_arg8 m' c),
       (h c Cert.ReferenceIdeal.main_arg9).trans (Cert.ReferenceIdeal.Chain.U6_arg9 m' c),
       (h c Cert.ReferenceIdeal.main_arg10).trans (Cert.ReferenceIdeal.Chain.U6_arg10 m' c),
       (h c Cert.ReferenceIdeal.main_arg11).trans (Cert.ReferenceIdeal.Chain.U6_arg11 m' c)⟩)
      (Cert.ReferenceIdeal.Hand.run m' ρ')
    refine (h c Cert.ReferenceIdeal.main_v263).trans ?_
    rw [Cert.ReferenceIdeal.Chain.U6_out m' c]
    obtain ⟨e0, e1, e2, e3, e4, e5, e6, e7, e8, e9, e10, e11⟩ := hagree c
    haveI : Cert.Pre_finite_inputs.Facts := Cert.Pre_finite_inputs.Gen.facts
    obtain ⟨r0, r2, r3, r4, r5, r6, r7, r8, r9, r10, r11⟩ := Cert.FiniteInputs.reals _ _ _ _ _ _ _ _ _ _ _ _ (hpre c)
    show Cert.Layers.refOut (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [e0, e1, e2, e3, e4, e5, e6, e7, e8, e9, e10, e11]
    exact (Cert.Layers.kerOut_eq_refOut r0 r2 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref, trivial, algebraic⟩

end Cert.Proof

end
